-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x64 : Shape := ⟨3, ![256, 512, 64]⟩
abbrev S2x2048 : Shape := ⟨2, ![2, 2048]⟩
abbrev S2048x32 : Shape := ⟨2, ![2048, 32]⟩
abbrev S64x128 : Shape := ⟨2, ![64, 128]⟩
abbrev S128x128 : Shape := ⟨2, ![128, 128]⟩
abbrev S32x128 : Shape := ⟨2, ![32, 128]⟩
abbrev S384x1 : Shape := ⟨2, ![384, 1]⟩
abbrev S1x1 : Shape := ⟨2, ![1, 1]⟩
abbrev S256x128 : Shape := ⟨2, ![256, 128]⟩
abbrev S1x128 : Shape := ⟨2, ![1, 128]⟩
abbrev S_ : Shape := ⟨0, ![]⟩

class Facts : Prop where
  bcast_S_S256x512x64 : S_.BroadcastsInDim S256x512x64 (![] : Fin 0 → Fin S256x512x64.rank)
  reducesTo_S256x512x64_S_d0_1_2 : S256x512x64.ReducesTo [0, 1, 2] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S32x128 : S_.BroadcastsInDim S32x128 (![] : Fin 0 → Fin S32x128.rank)
  reducesTo_S32x128_S_d0_1 : S32x128.ReducesTo [0, 1] S_
  bcast_S_S384x1 : S_.BroadcastsInDim S384x1 (![] : Fin 0 → Fin S384x1.rank)
  reducesTo_S384x1_S_d0_1 : S384x1.ReducesTo [0, 1] S_
  bcast_S_S1x1 : S_.BroadcastsInDim S1x1 (![] : Fin 0 → Fin S1x1.rank)
  reducesTo_S1x1_S_d0_1 : S1x1.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part5 {F : FTy → Type} [FloatOps F] (main_v83 : IVec S_ 1) (main_v84 : FVec F S1x128 .f32) (main_cst_32 : FVec F S_ .f32) : IVec S_ 1 :=
  let main_v85 : FVec F S1x128 .f32 := broadcastInDim S1x128 ![] bcast_S_S1x128 main_cst_32
  let main_v86 : IVec S1x128 1 := cmpf .olt main_v84 main_v85
  let main_c_33 : IVec S_ 1 := constantI S_ 1 1#1
  let main_v87 : IVec S_ 1 := (fun x v => Host.reduce IntOp.andi x v reducesTo_S1x128_S_d0_1 h_S_) main_v86 main_c_33
  let main_v88 : IVec S_ 1 := andi main_v83 main_v87
  main_v88

def fn_part4 {F : FTy → Type} [FloatOps F] (main_arg15 : FVec F S384x1 .f32) (main_arg16 : FVec F S1x1 .f32) (main_arg17 : FVec F S256x128 .f32) (main_arg18 : FVec F S1x128 .f32) (main_v63 : IVec S_ 1) (main_v67 : IVec S_ 1) : IVec S_ 1 :=
  let main_v68 : IVec S_ 1 := andi main_v63 main_v67
  let main_v69 : FVec F S384x1 .f32 := Host.absf main_arg15
  let main_cst_26 : FVec F S_ .f32 := constant S_ .f32 0x7F800000#32
  let main_v70 : FVec F S384x1 .f32 := broadcastInDim S384x1 ![] bcast_S_S384x1 main_cst_26
  let main_v71 : IVec S384x1 1 := cmpf .olt main_v69 main_v70
  let main_c_27 : IVec S_ 1 := constantI S_ 1 1#1
  let main_v72 : IVec S_ 1 := (fun x v => Host.reduce IntOp.andi x v reducesTo_S384x1_S_d0_1 h_S_) main_v71 main_c_27
  let main_v73 : IVec S_ 1 := andi main_v68 main_v72
  let main_v74 : FVec F S1x1 .f32 := Host.absf main_arg16
  let main_cst_28 : FVec F S_ .f32 := constant S_ .f32 0x7F800000#32
  let main_v75 : FVec F S1x1 .f32 := broadcastInDim S1x1 ![] bcast_S_S1x1 main_cst_28
  let main_v76 : IVec S1x1 1 := cmpf .olt main_v74 main_v75
  let main_c_29 : IVec S_ 1 := constantI S_ 1 1#1
  let main_v77 : IVec S_ 1 := (fun x v => Host.reduce IntOp.andi x v reducesTo_S1x1_S_d0_1 h_S_) main_v76 main_c_29
  let main_v78 : IVec S_ 1 := andi main_v73 main_v77
  let main_v79 : FVec F S256x128 .f32 := Host.absf main_arg17
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S1x128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128x128 .f32) (main_arg13 : FVec F S128x128 .f32) (main_arg14 : FVec F S32x128 .f32) (main_arg15 : FVec F S384x1 .f32) (main_arg16 : FVec F S1x1 .f32) (main_arg17 : FVec F S256x128 .f32) (main_arg18 : FVec F S1x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S32x128 .f32 := Host.absf main_arg14
  let main_cst_24 : FVec F S_ .f32 := constant S_ .f32 0x7F800000#32
  let main_v65 : FVec F S32x128 .f32 := broadcastInDim S32x128 ![] bcast_S_S32x128 main_cst_24
  let main_v66 : IVec S32x128 1 := cmpf .olt main_v64 main_v65
  let main_c_25 : IVec S_ 1 := constantI S_ 1 1#1
  let main_v67 : IVec S_ 1 := (fun x v => Host.reduce IntOp.andi x v reducesTo_S32x128_S_d0_1 h_S_) main_v66 main_c_25
  fn_part4 (F := F) main_arg15 main_arg16 main_arg17 main_arg18 main_v63 main_v67

def fn_part2 {F : FTy → Type} [FloatOps F] (main_arg8 : FVec F S1x1 .f32) (main_arg9 : FVec F S256x128 .f32) (main_arg10 : FVec F S1x128 .f32) (main_arg11 : FVec F S128x128 .f32) (main_arg12 : FVec F S128x128 .f32) (main_arg13 : FVec F S128x128 .f32) (main_arg14 : FVec F S32x128 .f32) (main_arg15 : FVec F S384x1 .f32) (main_arg16 : FVec F S1x1 .f32) (main_arg17 : FVec F S256x128 .f32) (main_arg18 : FVec F S1x128 .f32) (main_v33 : IVec S_ 1) : IVec S_ 1 :=
  let main_v34 : FVec F S1x1 .f32 := Host.absf main_arg8
  let main_cst_12 : FVec F S_ .f32 := constant S_ .f32 0x7F800000#32
  let main_v35 : FVec F S1x1 .f32 := broadcastInDim S1x1 ![] bcast_S_S1x1 main_cst_12
  let main_v36 : IVec S1x1 1 := cmpf .olt main_v34 main_v35
  let main_c_13 : IVec S_ 1 := constantI S_ 1 1#1
  let main_v37 : IVec S_ 1 := (fun x v => Host.reduce IntOp.andi x v reducesTo_S1x1_S_d0_1 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S32x128 .f32) (main_arg7 : FVec F S384x1 .f32) (main_arg8 : FVec F S1x1 .f32) (main_arg9 : FVec F S256x128 .f32) (main_arg10 : FVec F S1x128 .f32) (main_arg11 : FVec F S128x128 .f32) (main_arg12 : FVec F S128x128 .f32) (main_arg13 : FVec F S128x128 .f32) (main_arg14 : FVec F S32x128 .f32) (main_arg15 : FVec F S384x1 .f32) (main_arg16 : FVec F S1x1 .f32) (main_arg17 : FVec F S256x128 .f32) (main_arg18 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S32x128 .f32 := Host.absf main_arg6
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S384x1 .f32 := Host.absf main_arg7
  let main_cst_10 : FVec F S_ .f32 := constant S_ .f32 0x7F800000#32
  let main_v30 : FVec F S384x1 .f32 := broadcastInDim S384x1 ![] bcast_S_S384x1 main_cst_10
  let main_v31 : IVec S384x1 1 := cmpf .olt main_v29 main_v30
  let main_c_11 : IVec S_ 1 := constantI S_ 1 1#1
  let main_v32 : IVec S_ 1 := (fun x v => Host.reduce IntOp.andi x v reducesTo_S384x1_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S256x512x64 .f32) (main_arg1 : IVec S2x2048 32) (main_arg2 : FVec F S2048x32 .f32) (main_arg3 : FVec F S64x128 .f32) (main_arg4 : FVec F S128x128 .f32) (main_arg5 : FVec F S128x128 .f32) (main_arg6 : FVec F S32x128 .f32) (main_arg7 : FVec F S384x1 .f32) (main_arg8 : FVec F S1x1 .f32) (main_arg9 : FVec F S256x128 .f32) (main_arg10 : FVec F S1x128 .f32) (main_arg11 : FVec F S128x128 .f32) (main_arg12 : FVec F S128x128 .f32) (main_arg13 : FVec F S128x128 .f32) (main_arg14 : FVec F S32x128 .f32) (main_arg15 : FVec F S384x1 .f32) (main_arg16 : FVec F S1x1 .f32) (main_arg17 : FVec F S256x128 .f32) (main_arg18 : FVec F S1x128 .f32) : IVec S_ 1 :=
  let main_v0 : FVec F S256x512x64 .f32 := Host.absf main_arg0
  let main_cst : FVec F S_ .f32 := constant S_ .f32 0x7F800000#32
  let main_v1 : FVec F S256x512x64 .f32 := broadcastInDim S256x512x64 ![] bcast_S_S256x512x64 main_cst
  let main_v2 : IVec S256x512x64 1 := cmpf .olt main_v0 main_v1
  let main_c : IVec S_ 1 := constantI S_ 1 1#1
  let main_v3 : IVec S_ 1 := (fun x v => Host.reduce IntOp.andi x v reducesTo_S256x512x64_S_d0_1_2 h_S_) main_v2 main_c
  let main_v4 : FVec F S2048x32 .f32 := Host.absf main_arg2
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S256x512x64 : Shape := ⟨3, ![256, 512, 64]⟩
abbrev S2x2048 : Shape := ⟨2, ![2, 2048]⟩
abbrev S2048x32 : Shape := ⟨2, ![2048, 32]⟩
abbrev S64x128 : Shape := ⟨2, ![64, 128]⟩
abbrev S128x128 : Shape := ⟨2, ![128, 128]⟩
abbrev S32x128 : Shape := ⟨2, ![32, 128]⟩
abbrev S384x1 : Shape := ⟨2, ![384, 1]⟩
abbrev S1x1 : Shape := ⟨2, ![1, 1]⟩
abbrev S256x128 : Shape := ⟨2, ![256, 128]⟩
abbrev S1x128 : Shape := ⟨2, ![1, 128]⟩
abbrev S128x1 : Shape := ⟨2, ![128, 1]⟩
abbrev S8x8 : Shape := ⟨2, ![8, 8]⟩
abbrev S_ : Shape := ⟨0, ![]⟩
abbrev S8x1x8x1 : Shape := ⟨4, ![8, 1, 8, 1]⟩
abbrev S1x128x1x1 : Shape := ⟨4, ![1, 128, 1, 1]⟩
abbrev S8x128x8x1 : Shape := ⟨4, ![8, 128, 8, 1]⟩
abbrev S1024x8 : Shape := ⟨2, ![1024, 8]⟩
abbrev S1024x16 : Shape := ⟨2, ![1024, 16]⟩
abbrev S2048x2 : Shape := ⟨2, ![2048, 2]⟩
abbrev S2048x512 : Shape := ⟨2, ![2048, 512]⟩
abbrev S2048x128 : Shape := ⟨2, ![2048, 128]⟩
abbrev S2048x8 : Shape := ⟨2, ![2048, 8]⟩
abbrev S2048x1 : Shape := ⟨2, ![2048, 1]⟩
abbrev S256x512x128 : Shape := ⟨3, ![256, 512, 128]⟩
abbrev S8x512x64 : Shape := ⟨3, ![8, 512, 64]⟩
abbrev S8x512x128 : Shape := ⟨3, ![8, 512, 128]⟩
abbrev S1x512x64 : Shape := ⟨3, ![1, 512, 64]⟩
abbrev S512x64 : Shape := ⟨2, ![512, 64]⟩
abbrev S512x128 : Shape := ⟨2, ![512, 128]⟩
abbrev S512x1024 : Shape := ⟨2, ![512, 1024]⟩
abbrev S512x16 : Shape := ⟨2, ![512, 16]⟩
abbrev S512x8 : Shape := ⟨2, ![512, 8]⟩
abbrev S512x1032 : Shape := ⟨2, ![512, 1032]⟩
abbrev S2048x1032 : Shape := ⟨2, ![2048, 1032]⟩
abbrev S2048x1024 : Shape := ⟨2, ![2048, 1024]⟩
abbrev S512x256 : Shape := ⟨2, ![512, 256]⟩
abbrev S1x512x128 : Shape := ⟨3, ![1, 512, 128]⟩

abbrev nBuf : Space → Nat
  | .hbm => 76
  | .vmem => 32
  | .smem => 0
  | _ => 0

abbrev bufTy : (tb : Table) → Fin (tcTables nBuf tb) → BufTy
  | .hbm, ⟨0, _⟩ => ⟨S256x512x64, .f32⟩
  | .hbm, ⟨1, _⟩ => ⟨S2x2048, .i32⟩
  | .hbm, ⟨2, _⟩ => ⟨S2048x32, .f32⟩
  | .hbm, ⟨3, _⟩ => ⟨S64x128, .f32⟩
  | .hbm, ⟨4, _⟩ => ⟨S128x128, .f32⟩
  | .hbm, ⟨5, _⟩ => ⟨S128x128, .f32⟩
  | .hbm, ⟨6, _⟩ => ⟨S32x128, .f32⟩
  | .hbm, ⟨7, _⟩ => ⟨S384x1, .f32⟩
  | .hbm, ⟨8, _⟩ => ⟨S1x1, .f32⟩
  | .hbm, ⟨9, _⟩ => ⟨S256x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S32x128, .f32⟩
  | .hbm, ⟨15, _⟩ => ⟨S384x1, .f32⟩
  | .hbm, ⟨16, _⟩ => ⟨S1x1, .f32⟩
  | .hbm, ⟨17, _⟩ => ⟨S256x128, .f32⟩
  | .hbm, ⟨18, _⟩ => ⟨S1x128, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x1, .f32⟩
  | .hbm, ⟨25, _⟩ => ⟨S128x1, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S8x1x8x1, .f32⟩
  | .hbm, ⟨37, _⟩ => ⟨S1x128x1x1, .f32⟩
  | .hbm, ⟨38, _⟩ => ⟨S8x128x8x1, .f32⟩
  | .hbm, ⟨39, _⟩ => ⟨S8x128x8x1, .f32⟩
  | .hbm, ⟨40, _⟩ => ⟨S8x128x8x1, .f32⟩
  | .hbm, ⟨41, _⟩ => ⟨S1024x8, .f32⟩
  | .hbm, ⟨42, _⟩ => ⟨S8x1x8x1, .f32⟩
  | .hbm, ⟨43, _⟩ => ⟨S1x128x1x1, .f32⟩
  | .hbm, ⟨44, _⟩ => ⟨S8x128x8x1, .f32⟩
  | .hbm, ⟨45, _⟩ => ⟨S8x128x8x1, .f32⟩
  | .hbm, ⟨46, _⟩ => ⟨S8x128x8x1, .f32⟩
  | .hbm, ⟨47, _⟩ => ⟨S1024x8, .f32⟩
  | .hbm, ⟨48, _⟩ => ⟨S1024x16, .f32⟩
  | .hbm, ⟨49, _⟩ => ⟨S1024x16, .bf16⟩
  | .hbm, ⟨50, _⟩ => ⟨S8x1x8x1, .f32⟩
  | .hbm, ⟨51, _⟩ => ⟨S1x128x1x1, .f32⟩
  | .hbm, ⟨52, _⟩ => ⟨S8x128x8x1, .f32⟩
  | .hbm, ⟨53, _⟩ => ⟨S8x128x8x1, .f32⟩
  | .hbm, ⟨54, _⟩ => ⟨S8x128x8x1, .f32⟩
  | .hbm, ⟨55, _⟩ => ⟨S1024x8, .f32⟩
  | .hbm, ⟨56, _⟩ => ⟨S8x1x8x1, .f32⟩
  | .hbm, ⟨57, _⟩ => ⟨S1x128x1x1, .f32⟩
  | .hbm, ⟨58, _⟩ => ⟨S8x128x8x1, .f32⟩
  | .hbm, ⟨59, _⟩ => ⟨S8x128x8x1, .f32⟩
  | .hbm, ⟨60, _⟩ => ⟨S8x128x8x1, .f32⟩
  | .hbm, ⟨61, _⟩ => ⟨S1024x8, .f32⟩
  | .hbm, ⟨62, _⟩ => ⟨S1024x16, .f32⟩
  | .hbm, ⟨63, _⟩ => ⟨S1024x16, .bf16⟩
  | .hbm, ⟨64, _⟩ => ⟨S2048x2, .i32⟩
  | .hbm, ⟨65, _⟩ => ⟨S2048x512, .bf16⟩
  | .hbm, ⟨66, _⟩ => ⟨S2048x512, .bf16⟩
  | .hbm, ⟨67, _⟩ => ⟨S2048x128, .f32⟩
  | .hbm, ⟨68, _⟩ => ⟨S2048x8, .f32⟩
  | .hbm, ⟨69, _⟩ => ⟨S2048x128, .f32⟩
  | .hbm, ⟨70, _⟩ => ⟨S2048x8, .f32⟩
  | .hbm, ⟨71, _⟩ => ⟨S64x128, .bf16⟩
  | .hbm, ⟨72, _⟩ => ⟨S256x128, .bf16⟩
  | .hbm, ⟨73, _⟩ => ⟨S128x128, .bf16⟩
  | .hbm, ⟨74, _⟩ => ⟨S256x128, .bf16⟩
  | .hbm, ⟨75, _⟩ => ⟨S256x512x128, .f32⟩
  | .local _ .vmem, ⟨0, _⟩ => ⟨S2048x2, .i32⟩
  | .local _ .vmem, ⟨1, _⟩ => ⟨S2048x32, .f32⟩
  | .local _ .vmem, ⟨2, _⟩ => ⟨S32x128, .f32⟩
  | .local _ .vmem, ⟨3, _⟩ => ⟨S128x1, .f32⟩
  | .local _ .vmem, ⟨4, _⟩ => ⟨S1x1, .f32⟩
  | .local _ .vmem, ⟨5, _⟩ => ⟨S32x128, .f32⟩
  | .local _ .vmem, ⟨6, _⟩ => ⟨S128x1, .f32⟩
  | .local _ .vmem, ⟨7, _⟩ => ⟨S1x1, .f32⟩
  | .local _ .vmem, ⟨8, _⟩ => ⟨S2048x512, .bf16⟩
  | .local _ .vmem, ⟨9, _⟩ => ⟨S2048x512, .bf16⟩
  | .local _ .vmem, ⟨10, _⟩ => ⟨S2048x128, .f32⟩
  | .local _ .vmem, ⟨11, _⟩ => ⟨S2048x8, .f32⟩
  | .local _ .vmem, ⟨12, _⟩ => ⟨S2048x128, .f32⟩
  | .local _ .vmem, ⟨13, _⟩ => ⟨S2048x8, .f32⟩
  | .local _ .vmem, ⟨14, _⟩ => ⟨S8x512x64, .f32⟩
  | .local _ .vmem, ⟨15, _⟩ => ⟨S8x512x64, .f32⟩
  | .local _ .vmem, ⟨16, _⟩ => ⟨S2048x512, .bf16⟩
  | .local _ .vmem, ⟨17, _⟩ => ⟨S2048x512, .bf16⟩
  | .local _ .vmem, ⟨18, _⟩ => ⟨S2048x128, .f32⟩
  | .local _ .vmem, ⟨19, _⟩ => ⟨S2048x8, .f32⟩
  | .local _ .vmem, ⟨20, _⟩ => ⟨S2048x128, .f32⟩
  | .local _ .vmem, ⟨21, _⟩ => ⟨S2048x8, .f32⟩
  | .local _ .vmem, ⟨22, _⟩ => ⟨S64x128, .bf16⟩
  | .local _ .vmem, ⟨23, _⟩ => ⟨S1024x16, .bf16⟩
  | .local _ .vmem, ⟨24, _⟩ => ⟨S256x128, .bf16⟩
  | .local _ .vmem, ⟨25, _⟩ => ⟨S1x128, .f32⟩
  | .local _ .vmem, ⟨26, _⟩ => ⟨S128x128, .bf16⟩
  | .local _ .vmem, ⟨27, _⟩ => ⟨S1024x16, .bf16⟩
  | .local _ .vmem, ⟨28, _⟩ => ⟨S256x128, .bf16⟩
  | .local _ .vmem, ⟨29, _⟩ => ⟨S1x128, .f32⟩
  | .local _ .vmem, ⟨30, _⟩ => ⟨S8x512x128, .f32⟩
  | .local _ .vmem, ⟨31, _⟩ => ⟨S8x512x128, .f32⟩
  | _, _ => ⟨S256x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v16 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v20 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25_0 : Ref sig .tc := ⟨.hbm, 65, rfl⟩
abbrev main_v25_1 : Ref sig .tc := ⟨.hbm, 66, rfl⟩
abbrev main_v25_2 : Ref sig .tc := ⟨.hbm, 67, rfl⟩
abbrev main_v25_3 : Ref sig .tc := ⟨.hbm, 68, rfl⟩
abbrev main_v25_4 : Ref sig .tc := ⟨.hbm, 69, rfl⟩
abbrev main_v25_5 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc1_stg15_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem15_0 : DmaSem sig := 30
abbrev cc1_sem15_1 : DmaSem sig := 31

abbrev nD : Nat := 1
abbrev τ : Topo := Topo.v7x

variable {F : FTy → Type} [FloatOps F]

abbrev grid0 : Pipeline.Grid := .none

abbrev stage0_0 : Fin 1 → Memref sig .tc .vmem S2048x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x16 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024x16 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x128 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S8x512x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  slices_S384x1_S128x1_0_0 : S384x1.Slices ![0, 0] S128x1
  slices_S384x1_S128x1_128_0 : S384x1.Slices ![128, 0] S128x1
  slices_S384x1_S128x1_256_0 : S384x1.Slices ![256, 0] S128x1
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S128x1_S1x128x1x1_1_3 : S128x1.BroadcastsInDim S1x128x1x1 (![1, 3] : Fin 2 → Fin S1x128x1x1.rank)
  bcast_S8x1x8x1_S8x128x8x1_0_1_2_3 : S8x1x8x1.BroadcastsInDim S8x128x8x1 (![0, 1, 2, 3] : Fin 4 → Fin S8x128x8x1.rank)
  bcast_S1x128x1x1_S8x128x8x1_0_1_2_3 : S1x128x1x1.BroadcastsInDim S8x128x8x1 (![0, 1, 2, 3] : Fin 4 → Fin S8x128x8x1.rank)
  shapeCasts_S8x128x8x1_S1024x8 : S8x128x8x1.ShapeCasts S1024x8
  concatenates_S1024x8_S1024x8_S1024x16_d1 : Shape.Concatenates [S1024x8, S1024x8] S1024x16 1
  bitsLt_bf16_f32 : FTy.bits .bf16 < FTy.bits .f32
  transposes_S2x2048_S2048x2_1_0 : S2x2048.Transposes [1, 0] S2048x2
  iota_S2048x512_d1_w32 : S2048x512.Iotas .tc 32 [1]
  inb_S2048x2_S2048x1_0_0 : ∀ a, (![0, 0] : Fin 2 → Nat) a + S2048x1.size a ≤ S2048x2.size a
  h_S2048x1 : 0 < S2048x1.numel
  shapeCasts_S2048x1_S2048x1 : S2048x1.ShapeCasts S2048x1
  broadcasts_S2048x1_S2048x512 : S2048x1.Broadcasts S2048x512
  natLt_1_32 : 1 < 32
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  inb_S2048x2_S2048x1_0_1 : ∀ a, (![0, 1] : Fin 2 → Nat) a + S2048x1.size a ≤ S2048x2.size a
  inb_S2048x32_S2048x32_0_0 : ∀ a, (![0, 0] : Fin 2 → Nat) a + S2048x32.size a ≤ S2048x32.size a
  h_S2048x32 : 0 < S2048x32.numel
  inb_S32x128_S32x128_0_0 : ∀ a, (![0, 0] : Fin 2 → Nat) a + S32x128.size a ≤ S32x128.size a
  h_S32x128 : 0 < S32x128.numel
  inb_S2048x128_S2048x128_0_0 : ∀ a, (![0, 0] : Fin 2 → Nat) a + S2048x128.size a ≤ S2048x128.size a
  h_S2048x128 : 0 < S2048x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  broadcasts_S1x1_S2048x1 : S1x1.Broadcasts S2048x1
  broadcasts_S2048x1_S2048x8 : S2048x1.Broadcasts S2048x8
  inb_S2048x8_S2048x8_0_0 : ∀ a, (![0, 0] : Fin 2 → Nat) a + S2048x8.size a ≤ S2048x8.size a
  h_S2048x8 : 0 < S2048x8.numel
  shapeCasts_S2048x512_S2048x512 : S2048x512.ShapeCasts S2048x512
  inb_S8x512x64_S1x512x64_0_0_0 : ∀ a, (![0, 0, 0] : Fin 3 → Nat) a + S1x512x64.size a ≤ S8x512x64.size a
  h_S1x512x64 : 0 < S1x512x64.numel
  shapeCasts_S1x512x64_S512x64 : S1x512x64.ShapeCasts S512x64
  inb_S8x512x64_S1x512x64_1_0_0 : ∀ a, (![1, 0, 0] : Fin 3 → Nat) a + S1x512x64.size a ≤ S8x512x64.size a
  inb_S8x512x64_S1x512x64_2_0_0 : ∀ a, (![2, 0, 0] : Fin 3 → Nat) a + S1x512x64.size a ≤ S8x512x64.size a
  inb_S8x512x64_S1x512x64_3_0_0 : ∀ a, (![3, 0, 0] : Fin 3 → Nat) a + S1x512x64.size a ≤ S8x512x64.size a
  inb_S8x512x64_S1x512x64_4_0_0 : ∀ a, (![4, 0, 0] : Fin 3 → Nat) a + S1x512x64.size a ≤ S8x512x64.size a
  inb_S8x512x64_S1x512x64_5_0_0 : ∀ a, (![5, 0, 0] : Fin 3 → Nat) a + S1x512x64.size a ≤ S8x512x64.size a
  inb_S8x512x64_S1x512x64_6_0_0 : ∀ a, (![6, 0, 0] : Fin 3 → Nat) a + S1x512x64.size a ≤ S8x512x64.size a
  inb_S8x512x64_S1x512x64_7_0_0 : ∀ a, (![7, 0, 0] : Fin 3 → Nat) a + S1x512x64.size a ≤ S8x512x64.size a
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  shapeCasts_S2048x128_S2048x128 : S2048x128.ShapeCasts S2048x128
  shapeCasts_S2048x8_S2048x8 : S2048x8.ShapeCasts S2048x8
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  concatenates_S512x128_S512x128_S512x128_S512x128_S512x128_S512x128_S512x128_S512x128_S512x1024_d1 : Shape.Concatenates [S512x128, S512x128, S512x128, S512x128, S512x128, S512x128, S512x128, S512x128] S512x1024 1
  slices_S512x16_o0_8_S512x8 : S512x16.Slices ![0, 8] S512x8
  concatenates_S512x1024_S512x8_S512x1032_d1 : Shape.Concatenates [S512x1024, S512x8] S512x1032 1
  slices_S2048x1032_o0_0_S2048x1024 : S2048x1032.Slices ![0, 0] S2048x1024
  slices_S512x16_o0_0_S512x8 : S512x16.Slices ![0, 0] S512x8
  slices_S2048x1032_o0_1024_S2048x8 : S2048x1032.Slices ![0, 1024] S2048x8
  slices_S2048x8_o0_0_S2048x1 : S2048x8.Slices ![0, 0] S2048x1
  broadcasts_S2048x1_S2048x128 : S2048x1.Broadcasts S2048x128
  slices_S2048x1024_o0_0_S2048x128 : S2048x1024.Slices ![0, 0] S2048x128
  slices_S2048x8_o0_1_S2048x1 : S2048x8.Slices ![0, 1] S2048x1
  slices_S2048x1024_o0_128_S2048x128 : S2048x1024.Slices ![0, 128] S2048x128
  slices_S2048x8_o0_2_S2048x1 : S2048x8.Slices ![0, 2] S2048x1
  slices_S2048x1024_o0_256_S2048x128 : S2048x1024.Slices ![0, 256] S2048x128
  slices_S2048x8_o0_3_S2048x1 : S2048x8.Slices ![0, 3] S2048x1
  slices_S2048x1024_o0_384_S2048x128 : S2048x1024.Slices ![0, 384] S2048x128
  slices_S2048x8_o0_4_S2048x1 : S2048x8.Slices ![0, 4] S2048x1
  slices_S2048x1024_o0_512_S2048x128 : S2048x1024.Slices ![0, 512] S2048x128
  slices_S2048x8_o0_5_S2048x1 : S2048x8.Slices ![0, 5] S2048x1
  slices_S2048x1024_o0_640_S2048x128 : S2048x1024.Slices ![0, 640] S2048x128
  slices_S2048x8_o0_6_S2048x1 : S2048x8.Slices ![0, 6] S2048x1
  slices_S2048x1024_o0_768_S2048x128 : S2048x1024.Slices ![0, 768] S2048x128
  slices_S2048x8_o0_7_S2048x1 : S2048x8.Slices ![0, 7] S2048x1
  slices_S2048x1024_o0_896_S2048x128 : S2048x1024.Slices ![0, 896] S2048x128
  concatenates_S2048x128_S2048x128_S2048x128_S2048x128_S2048x128_S2048x128_S2048x128_S2048x128_S2048x1024_d1 : Shape.Concatenates [S2048x128, S2048x128, S2048x128, S2048x128, S2048x128, S2048x128, S2048x128, S2048x128] S2048x1024 1
  slices_S512x1024_o0_0_S512x128 : S512x1024.Slices ![0, 0] S512x128
  concatenates_S512x128_S512x128_S512x256_d1 : Shape.Concatenates [S512x128, S512x128] S512x256 1
  broadcasts_S1x128_S512x128 : S1x128.Broadcasts S512x128
  slices_S512x1024_o0_128_S512x128 : S512x1024.Slices ![0, 128] S512x128
  slices_S512x1024_o0_256_S512x128 : S512x1024.Slices ![0, 256] S512x128
  slices_S512x1024_o0_384_S512x128 : S512x1024.Slices ![0, 384] S512x128
  slices_S512x1024_o0_512_S512x128 : S512x1024.Slices ![0, 512] S512x128
  slices_S512x1024_o0_640_S512x128 : S512x1024.Slices ![0, 640] S512x128
  slices_S512x1024_o0_768_S512x128 : S512x1024.Slices ![0, 768] S512x128
  slices_S512x1024_o0_896_S512x128 : S512x1024.Slices ![0, 896] S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x512x128_S1x512x128_0_0_0 : ∀ a, (![0, 0, 0] : Fin 3 → Nat) a + S1x512x128.size a ≤ S8x512x128.size a
  h_S1x512x128 : 0 < S1x512x128.numel
  shapeCasts_S1x512x128_S512x128 : S1x512x128.ShapeCasts S512x128
  shapeCasts_S512x128_S1x512x128 : S512x128.ShapeCasts S1x512x128
  inb_S8x512x128_S1x512x128_1_0_0 : ∀ a, (![1, 0, 0] : Fin 3 → Nat) a + S1x512x128.size a ≤ S8x512x128.size a
  inb_S8x512x128_S1x512x128_2_0_0 : ∀ a, (![2, 0, 0] : Fin 3 → Nat) a + S1x512x128.size a ≤ S8x512x128.size a
  inb_S8x512x128_S1x512x128_3_0_0 : ∀ a, (![3, 0, 0] : Fin 3 → Nat) a + S1x512x128.size a ≤ S8x512x128.size a
  inb_S8x512x128_S1x512x128_4_0_0 : ∀ a, (![4, 0, 0] : Fin 3 → Nat) a + S1x512x128.size a ≤ S8x512x128.size a
  inb_S8x512x128_S1x512x128_5_0_0 : ∀ a, (![5, 0, 0] : Fin 3 → Nat) a + S1x512x128.size a ≤ S8x512x128.size a
  inb_S8x512x128_S1x512x128_6_0_0 : ∀ a, (![6, 0, 0] : Fin 3 → Nat) a + S1x512x128.size a ≤ S8x512x128.size a
  inb_S8x512x128_S1x512x128_7_0_0 : ∀ a, (![7, 0, 0] : Fin 3 → Nat) a + S1x512x128.size a ≤ S8x512x128.size a
  dot_S128x128_S128x1_S128x1_1_0_0_1_n_n_wf : DotDims.WF S128x128 S128x1 S128x1 [1] [0] [0] [1] [] []
  dot_S2048x32_S32x128_S2048x128_1_0_0_1_n_n_wf : DotDims.WF S2048x32 S32x128 S2048x128 [1] [0] [0] [1] [] []
  dot_S2048x128_S128x1_S2048x1_1_0_0_1_n_n_wf : DotDims.WF S2048x128 S128x1 S2048x1 [1] [0] [0] [1] [] []
  dot_S512x64_S64x128_S512x128_1_0_0_1_n_n_wf : DotDims.WF S512x64 S64x128 S512x128 [1] [0] [0] [1] [] []
  dot_S512x1024_S1024x16_S512x16_1_0_0_1_n_n_wf : DotDims.WF S512x1024 S1024x16 S512x16 [1] [0] [0] [1] [] []
  dot_S2048x512_S512x1032_S2048x1032_1_0_0_1_n_n_wf : DotDims.WF S2048x512 S512x1032 S2048x1032 [1] [0] [0] [1] [] []
  dot_S2048x512_S512x8_S2048x8_1_0_0_1_n_n_wf : DotDims.WF S2048x512 S512x8 S2048x8 [1] [0] [0] [1] [] []
  dot_S2048x512_S2048x1024_S512x1024_0_0_1_1_n_n_wf : DotDims.WF S2048x512 S2048x1024 S512x1024 [0] [0] [1] [1] [] []
  dot_S512x256_S256x128_S512x128_1_0_0_1_n_n_wf : DotDims.WF S512x256 S256x128 S512x128 [1] [0] [0] [1] [] []
  dot_S512x128_S128x128_S512x128_1_0_0_1_n_n_wf : DotDims.WF S512x128 S128x128 S512x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x64.size a ≤ S256x512x64.size a
  hwx1_0 : ∀ i : grid1.Coords, EltTy.bits .f32 = 32 ∨ (Rect.block (s := S256x512x64) S8x512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .bf16 = 32 ∨ (Rect.block (s := S2048x512) S2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x512.size a
  hwx1_2 : ∀ i : grid1.Coords, EltTy.bits .bf16 = 32 ∨ (Rect.block (s := S2048x512) S2048x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S2048x128.size a
  hwx1_3 : ∀ i : grid1.Coords, EltTy.bits .f32 = 32 ∨ (Rect.block (s := S2048x128) S2048x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x8.size a ≤ S2048x8.size a
  hwx1_4 : ∀ i : grid1.Coords, EltTy.bits .f32 = 32 ∨ (Rect.block (s := S2048x8) S2048x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S2048x128.size a
  hwx1_5 : ∀ i : grid1.Coords, EltTy.bits .f32 = 32 ∨ (Rect.block (s := S2048x128) S2048x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x8.size a ≤ S2048x8.size a
  hwx1_6 : ∀ i : grid1.Coords, EltTy.bits .f32 = 32 ∨ (Rect.block (s := S2048x8) S2048x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x128.size a ≤ S64x128.size a
  hwx1_7 : ∀ i : grid1.Coords, EltTy.bits .bf16 = 32 ∨ (Rect.block (s := S64x128) S64x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024x16.size a ≤ S1024x16.size a
  hwx1_8 : ∀ i : grid1.Coords, EltTy.bits .bf16 = 32 ∨ (Rect.block (s := S1024x16) S1024x16.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S256x128.size a
  hwx1_9 : ∀ i : grid1.Coords, EltTy.bits .bf16 = 32 ∨ (Rect.block (s := S256x128) S256x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .bf16 = 32 ∨ (Rect.block (s := S128x128) S128x128.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1024x16.size a ≤ S1024x16.size a
  hwx1_12 : ∀ i : grid1.Coords, EltTy.bits .bf16 = 32 ∨ (Rect.block (s := S1024x16) S1024x16.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x128.size a ≤ S256x128.size a
  hwx1_13 : ∀ i : grid1.Coords, EltTy.bits .bf16 = 32 ∨ (Rect.block (s := S256x128) S256x128.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S8x512x128.size a ≤ S256x512x128.size a
  hwx1_15 : ∀ i : grid1.Coords, EltTy.bits .f32 = 32 ∨ (Rect.block (s := S256x512x128) S8x512x128.size (cc1_transform_15 i) (hinb1_15 i)).WholeWords (EltTy.packing .f32)

variable [Facts₀]

def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S2048x512_S512x1032_S2048x1032_1_0_0_1_n_n : DotDims S2048x512 S512x1032 S2048x1032 where
  lhsContracting := [1]
  rhsContracting := [0]
  lhsNonContracting := [0]
  rhsNonContracting := [1]
  lhsBatch := []
  rhsBatch := []
  wf := dot_S2048x512_S512x1032_S2048x1032_1_0_0_1_n_n_wf
def dot_S2048x512_S512x8_S2048x8_1_0_0_1_n_n : DotDims S2048x512 S512x8 S2048x8 where
  lhsContracting := [1]
  rhsContracting := [0]
  lhsNonContracting := [0]
  rhsNonContracting := [1]
  lhsBatch := []
  rhsBatch := []
  wf := dot_S2048x512_S512x8_S2048x8_1_0_0_1_n_n_wf
def dot_S2048x512_S2048x1024_S512x1024_0_0_1_1_n_n : DotDims S2048x512 S2048x1024 S512x1024 where
  lhsContracting := [0]
  rhsContracting := [0]
  lhsNonContracting := [1]
  rhsNonContracting := [1]
  lhsBatch := []
  rhsBatch := []
  wf := dot_S2048x512_S2048x1024_S512x1024_0_0_1_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.whole (Memref.whole main_v24) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg6) false false (stage0_2 0) (sem0_2 0) (Memref.isWhole_whole _) (hstage0_2 0)

abbrev win0_3 : Pipeline.Window sig grid0 :=
  Pipeline.Window.whole (Memref.whole main_v4) false false (stage0_3 0) (sem0_3 0) (Memref.isWhole_whole _) (hstage0_3 0)

abbrev win0_4 : Pipeline.Window sig grid0 :=
  Pipeline.Window.whole (Memref.whole main_arg8) false false (stage0_4 0) (sem0_4 0) (Memref.isWhole_whole _) (hstage0_4 0)

abbrev win0_5 : Pipeline.Window sig grid0 :=
  Pipeline.Window.whole (Memref.whole main_arg14) false false (stage0_5 0) (sem0_5 0) (Memref.isWhole_whole _) (hstage0_5 0)

abbrev win0_6 : Pipeline.Window sig grid0 :=
  Pipeline.Window.whole (Memref.whole main_v9) false false (stage0_6 0) (sem0_6 0) (Memref.isWhole_whole _) (hstage0_6 0)

abbrev win0_7 : Pipeline.Window sig grid0 :=
  Pipeline.Window.whole (Memref.whole main_arg16) false false (stage0_7 0) (sem0_7 0) (Memref.isWhole_whole _) (hstage0_7 0)

abbrev win0_8 : Pipeline.Window sig grid0 :=
  Pipeline.Window.whole (Memref.whole main_v25_0) true false (stage0_8 0) (sem0_8 0) (Memref.isWhole_whole _) (hstage0_8 0)

abbrev win0_9 : Pipeline.Window sig grid0 :=
  Pipeline.Window.whole (Memref.whole main_v25_1) true false (stage0_9 0) (sem0_9 0) (Memref.isWhole_whole _) (hstage0_9 0)

abbrev win0_10 : Pipeline.Window sig grid0 :=
  Pipeline.Window.whole (Memref.whole main_v25_2) true false (stage0_10 0) (sem0_10 0) (Memref.isWhole_whole _) (hstage0_10 0)

abbrev win0_11 : Pipeline.Window sig grid0 :=
  Pipeline.Window.whole (Memref.whole main_v25_3) true false (stage0_11 0) (sem0_11 0) (Memref.isWhole_whole _) (hstage0_11 0)

abbrev win0_12 : Pipeline.Window sig grid0 :=
  Pipeline.Window.whole (Memref.whole main_v25_4) true false (stage0_12 0) (sem0_12 0) (Memref.isWhole_whole _) (hstage0_12 0)

abbrev win0_13 : Pipeline.Window sig grid0 :=
  Pipeline.Window.whole (Memref.whole main_v25_5) true false (stage0_13 0) (sem0_13 0) (Memref.isWhole_whole _) (hstage0_13 0)

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S8x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_0) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25_1) S2048x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25_2) S2048x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25_3) S2048x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_4) S2048x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25_5) S2048x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S64x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1024x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S256x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg10) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v28) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v23) S1024x16.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v29) S256x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg18) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v30) S8x512x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S256x512x64 : Shape := ⟨3, ![256, 512, 64]⟩
abbrev S2x2048 : Shape := ⟨2, ![2, 2048]⟩
abbrev S2048x32 : Shape := ⟨2, ![2048, 32]⟩
abbrev S64x128 : Shape := ⟨2, ![64, 128]⟩
abbrev S128x128 : Shape := ⟨2, ![128, 128]⟩
abbrev S32x128 : Shape := ⟨2, ![32, 128]⟩
abbrev S384x1 : Shape := ⟨2, ![384, 1]⟩
abbrev S1x1 : Shape := ⟨2, ![1, 1]⟩
abbrev S256x128 : Shape := ⟨2, ![256, 128]⟩
abbrev S1x128 : Shape := ⟨2, ![1, 128]⟩
abbrev S1x2048 : Shape := ⟨2, ![1, 2048]⟩
abbrev S2048 : Shape := ⟨1, ![2048]⟩
abbrev S2048x1 : Shape := ⟨2, ![2048, 1]⟩
abbrev S1x512 : Shape := ⟨2, ![1, 512]⟩
abbrev S2048x512 : Shape := ⟨2, ![2048, 512]⟩
abbrev S128x1 : Shape := ⟨2, ![128, 1]⟩
abbrev S_ : Shape := ⟨0, ![]⟩
abbrev S256x512x128 : Shape := ⟨3, ![256, 512, 128]⟩
abbrev S1x512x64 : Shape := ⟨3, ![1, 512, 64]⟩
abbrev S1x512x128 : Shape := ⟨3, ![1, 512, 128]⟩
abbrev S512x64 : Shape := ⟨2, ![512, 64]⟩
abbrev S512x128 : Shape := ⟨2, ![512, 128]⟩
abbrev S2048x128 : Shape := ⟨2, ![2048, 128]⟩
abbrev S512x1 : Shape := ⟨2, ![512, 1]⟩

abbrev nBuf : Space → Nat
  | .hbm => 74
  | .vmem => 25
  | .smem => 0
  | _ => 0

abbrev bufTy : (tb : Table) → Fin (tcTables nBuf tb) → BufTy
  | .hbm, ⟨0, _⟩ => ⟨S256x512x64, .f32⟩
  | .hbm, ⟨1, _⟩ => ⟨S2x2048, .i32⟩
  | .hbm, ⟨2, _⟩ => ⟨S2048x32, .f32⟩
  | .hbm, ⟨3, _⟩ => ⟨S64x128, .f32⟩
  | .hbm, ⟨4, _⟩ => ⟨S128x128, .f32⟩
  | .hbm, ⟨5, _⟩ => ⟨S128x128, .f32⟩
  | .hbm, ⟨6, _⟩ => ⟨S32x128, .f32⟩
  | .hbm, ⟨7, _⟩ => ⟨S384x1, .f32⟩
  | .hbm, ⟨8, _⟩ => ⟨S1x1, .f32⟩
  | .hbm, ⟨9, _⟩ => ⟨S256x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S32x128, .f32⟩
  | .hbm, ⟨15, _⟩ => ⟨S384x1, .f32⟩
  | .hbm, ⟨16, _⟩ => ⟨S1x1, .f32⟩
  | .hbm, ⟨17, _⟩ => ⟨S256x128, .f32⟩
  | .hbm, ⟨18, _⟩ => ⟨S1x128, .f32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S1x512, .i32⟩
  | .hbm, ⟨23, _⟩ => ⟨S2048x512, .i32⟩
  | .hbm, ⟨24, _⟩ => ⟨S2048x512, .i32⟩
  | .hbm, ⟨25, _⟩ => ⟨S2048x512, .i1⟩
  | .hbm, ⟨26, _⟩ => ⟨S2048x512, .f32⟩
  | .hbm, ⟨27, _⟩ => ⟨S1x2048, .i32⟩
  | .hbm, ⟨28, _⟩ => ⟨S2048, .i32⟩
  | .hbm, ⟨29, _⟩ => ⟨S2048x1, .i32⟩
  | .hbm, ⟨30, _⟩ => ⟨S1x512, .i32⟩
  | .hbm, ⟨31, _⟩ => ⟨S2048x512, .i32⟩
  | .hbm, ⟨32, _⟩ => ⟨S2048x512, .i32⟩
  | .hbm, ⟨33, _⟩ => ⟨S2048x512, .i1⟩
  | .hbm, ⟨34, _⟩ => ⟨S2048x512, .f32⟩
  | .hbm, ⟨35, _⟩ => ⟨S128x1, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S128x1, .f32⟩
  | .hbm, ⟨40, _⟩ => ⟨S128x128, .f32⟩
  | .hbm, ⟨41, _⟩ => ⟨S128x128, .f32⟩
  | .hbm, ⟨42, _⟩ => ⟨S_, .i32⟩
  | .hbm, ⟨43, _⟩ => ⟨S_, .f32⟩
  | .hbm, ⟨44, _⟩ => ⟨S128x128, .f32⟩
  | .hbm, ⟨45, _⟩ => ⟨S128x1, .f32⟩
  | .hbm, ⟨46, _⟩ => ⟨S128x1, .f32⟩
  | .hbm, ⟨47, _⟩ => ⟨S_, .i32⟩
  | .hbm, ⟨48, _⟩ => ⟨S_, .f32⟩
  | .hbm, ⟨49, _⟩ => ⟨S128x1, .f32⟩
  | .hbm, ⟨50, _⟩ => ⟨S128x1, .f32⟩
  | .hbm, ⟨51, _⟩ => ⟨S128x1, .f32⟩
  | .hbm, ⟨52, _⟩ => ⟨S_, .i32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S_, .i32⟩
  | .hbm, ⟨57, _⟩ => ⟨S_, .f32⟩
  | .hbm, ⟨58, _⟩ => ⟨S128x1, .f32⟩
  | .hbm, ⟨59, _⟩ => ⟨S_, .i32⟩
  | .hbm, ⟨60, _⟩ => ⟨S_, .f32⟩
  | .hbm, ⟨61, _⟩ => ⟨S32x128, .f32⟩
  | .hbm, ⟨62, _⟩ => ⟨S128x128, .f32⟩
  | .hbm, ⟨63, _⟩ => ⟨S_, .i32⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S_, .i32⟩
  | .hbm, ⟨68, _⟩ => ⟨S_, .f32⟩
  | .hbm, ⟨69, _⟩ => ⟨S128x128, .f32⟩
  | .hbm, ⟨70, _⟩ => ⟨S_, .i32⟩
  | .hbm, ⟨71, _⟩ => ⟨S_, .f32⟩
  | .hbm, ⟨72, _⟩ => ⟨S1x128, .f32⟩
  | .hbm, ⟨73, _⟩ => ⟨S256x512x128, .f32⟩
  | .local _ .vmem, ⟨0, _⟩ => ⟨S1x512x64, .f32⟩
  | .local _ .vmem, ⟨1, _⟩ => ⟨S1x512x64, .f32⟩
  | .local _ .vmem, ⟨2, _⟩ => ⟨S2048x512, .f32⟩
  | .local _ .vmem, ⟨3, _⟩ => ⟨S2048x512, .f32⟩
  | .local _ .vmem, ⟨4, _⟩ => ⟨S2048x32, .f32⟩
  | .local _ .vmem, ⟨5, _⟩ => ⟨S64x128, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S32x128, .f32⟩
  | .local _ .vmem, ⟨10, _⟩ => ⟨S1x1, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S128x1, .f32⟩
  | .local _ .vmem, ⟨16, _⟩ => ⟨S128x1, .f32⟩
  | .local _ .vmem, ⟨17, _⟩ => ⟨S128x1, .f32⟩
  | .local _ .vmem, ⟨18, _⟩ => ⟨S32x128, .f32⟩
  | .local _ .vmem, ⟨19, _⟩ => ⟨S1x1, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S1x512x128, .f32⟩
  | .local _ .vmem, ⟨24, _⟩ => ⟨S1x512x128, .f32⟩
  | _, _ => ⟨S256x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_call2_v0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_c_0 : Ref sig .tc := ⟨.hbm, 47, rfl⟩
abbrev main_call3_v0 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_1 : Ref sig .tc := ⟨.hbm, 52, rfl⟩
abbrev main_call4_v0 : Ref sig .tc := ⟨.hbm, 53, rfl⟩
abbrev main_v19 : Ref sig .tc := ⟨.hbm, 54, rfl⟩
abbrev main_v20 : Ref sig .tc := ⟨.hbm, 55, rfl⟩
abbrev main_c_2 : Ref sig .tc := ⟨.hbm, 56, rfl⟩
abbrev main_call5_v0 : Ref sig .tc := ⟨.hbm, 57, rfl⟩
abbrev main_v21 : Ref sig .tc := ⟨.hbm, 58, rfl⟩
abbrev main_c_3 : Ref sig .tc := ⟨.hbm, 59, rfl⟩
abbrev main_call6_v0 : Ref sig .tc := ⟨.hbm, 60, rfl⟩
abbrev main_v22 : Ref sig .tc := ⟨.hbm, 61, rfl⟩
abbrev main_v23 : Ref sig .tc := ⟨.hbm, 62, rfl⟩
abbrev main_c_4 : Ref sig .tc := ⟨.hbm, 63, rfl⟩
abbrev main_call7_v0 : Ref sig .tc := ⟨.hbm, 64, rfl⟩
abbrev main_v24 : Ref sig .tc := ⟨.hbm, 65, rfl⟩
abbrev main_v25 : Ref sig .tc := ⟨.hbm, 66, rfl⟩
abbrev main_c_5 : Ref sig .tc := ⟨.hbm, 67, rfl⟩
abbrev main_call8_v0 : Ref sig .tc := ⟨.hbm, 68, rfl⟩
abbrev main_v26 : Ref sig .tc := ⟨.hbm, 69, rfl⟩
abbrev main_c_6 : Ref sig .tc := ⟨.hbm, 70, rfl⟩
abbrev main_call9_v0 : Ref sig .tc := ⟨.hbm, 71, rfl⟩
abbrev main_v27 : Ref sig .tc := ⟨.hbm, 72, rfl⟩
abbrev main_v28 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg22_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem22_1 : DmaSem sig := 24

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  slices_S2x2048_S1x2048_0_0 : S2x2048.Slices ![0, 0] S1x2048
  shapeCasts_S1x2048_S2048 : S1x2048.ShapeCasts S2048
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  bcast_S1x512_S2048x512_0_1 : S1x512.BroadcastsInDim S2048x512 (![0, 1] : Fin 2 → Fin S2048x512.rank)
  slices_S2x2048_S1x2048_1_0 : S2x2048.Slices ![1, 0] S1x2048
  slices_S384x1_S128x1_0_0 : S384x1.Slices ![0, 0] S128x1
  slices_S384x1_S128x1_128_0 : S384x1.Slices ![128, 0] S128x1
  slices_S384x1_S128x1_256_0 : S384x1.Slices ![256, 0] S128x1
  slices_S256x128_S128x128_0_0 : S256x128.Slices ![0, 0] S128x128
  slices_S256x128_S128x128_128_0 : S256x128.Slices ![128, 0] S128x128
  pads_S128x128_S128x128_000_000 : S128x128.Pads (![0, 0] : Fin 2 → Nat) ![0, 0] ![0, 0] S128x128
  h_S_ : 0 < S_.numel
  pads_S128x1_S128x1_000_000 : S128x1.Pads (![0, 0] : Fin 2 → Nat) ![0, 0] ![0, 0] S128x1
  pads_S32x128_S32x128_000_000 : S32x128.Pads (![0, 0] : Fin 2 → Nat) ![0, 0] ![0, 0] S32x128
  pads_S1x128_S1x128_000_000 : S1x128.Pads (![0, 0] : Fin 2 → Nat) ![0, 0] ![0, 0] S1x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x32_S2048x32_0_0 : ∀ a, (![0, 0] : Fin 2 → Nat) a + S2048x32.size a ≤ S2048x32.size a
  h_S2048x32 : 0 < S2048x32.numel
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S64x128_S64x128_0_0 : ∀ a, (![0, 0] : Fin 2 → Nat) a + S64x128.size a ≤ S64x128.size a
  h_S64x128 : 0 < S64x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S32x128_S32x128_0_0 : ∀ a, (![0, 0] : Fin 2 → Nat) a + S32x128.size a ≤ S32x128.size a
  h_S32x128 : 0 < S32x128.numel
  inb_S1x1_S1x1_0_0 : ∀ a, (![0, 0] : Fin 2 → Nat) a + S1x1.size a ≤ S1x1.size a
  h_S1x1 : 0 < S1x1.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  broadcasts_S1x1_S2048x1 : S1x1.Broadcasts S2048x1
  broadcasts_S2048x1_S2048x128 : S2048x1.Broadcasts S2048x128
  broadcasts_S1x128_S512x128 : S1x128.Broadcasts S512x128
  shapeCasts_S32x128_S32x128 : S32x128.ShapeCasts S32x128
  shapeCasts_S1x128_S1x128 : S1x128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S128x128_S128x1_S128x1_1_0_0_1_n_n_wf : DotDims.WF S128x128 S128x1 S128x1 [1] [0] [0] [1] [] []
  dot_S512x64_S64x128_S512x128_1_0_0_1_n_n_wf : DotDims.WF S512x64 S64x128 S512x128 [1] [0] [0] [1] [] []
  dot_S2048x32_S32x128_S2048x128_1_0_0_1_n_n_wf : DotDims.WF S2048x32 S32x128 S2048x128 [1] [0] [0] [1] [] []
  dot_S2048x128_S128x1_S2048x1_1_0_0_1_n_n_wf : DotDims.WF S2048x128 S128x1 S2048x1 [1] [0] [0] [1] [] []
  dot_S512x128_S128x1_S512x1_1_0_0_1_n_n_wf : DotDims.WF S512x128 S128x1 S512x1 [1] [0] [0] [1] [] []
  dot_S2048x512_S512x1_S2048x1_1_0_0_1_n_n_wf : DotDims.WF S2048x512 S512x1 S2048x1 [1] [0] [0] [1] [] []
  dot_S2048x512_S512x128_S2048x128_1_0_0_1_n_n_wf : DotDims.WF S2048x512 S512x128 S2048x128 [1] [0] [0] [1] [] []
  dot_S2048x512_S2048x128_S512x128_0_0_1_1_n_n_wf : DotDims.WF S2048x512 S2048x128 S512x128 [0] [0] [1] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S256x512x64.size a
  hwx0_0 : ∀ i : grid0.Coords, EltTy.bits .f32 = 32 ∨ (Rect.block (s := S256x512x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .f32 = 32 ∨ (Rect.block (s := S2048x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S2048x32.size a
  hwx0_3 : ∀ i : grid0.Coords, EltTy.bits .f32 = 32 ∨ (Rect.block (s := S2048x32) S2048x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S32x128.size a
  hwx0_8 : ∀ i : grid0.Coords, EltTy.bits .f32 = 32 ∨ (Rect.block (s := S32x128) S32x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x1.size a ≤ S128x1.size a
  hwx0_15 : ∀ i : grid0.Coords, EltTy.bits .f32 = 32 ∨ (Rect.block (s := S128x1) S128x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x1.size a ≤ S128x1.size a
  hwx0_16 : ∀ i : grid0.Coords, EltTy.bits .f32 = 32 ∨ (Rect.block (s := S128x1) S128x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S32x128.size a ≤ S32x128.size a
  hwx0_17 : ∀ i : grid0.Coords, EltTy.bits .f32 = 32 ∨ (Rect.block (s := S32x128) S32x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .f32 = 32 ∨ (Rect.block (s := S128x128) S128x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x512x128.size a ≤ S256x512x128.size a
  hwx0_22 : ∀ i : grid0.Coords, EltTy.bits .f32 = 32 ∨ (Rect.block (s := S256x512x128) S1x512x128.size (cc0_transform_22 i) (hinb0_22 i)).WholeWords (EltTy.packing .f32)

variable [Facts₀]

def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x512_S2048x128_S512x128_0_0_1_1_n_n : DotDims S2048x512 S2048x128 S512x128 where
  lhsContracting := [0]
  rhsContracting := [0]
  lhsNonContracting := [1]
  rhsNonContracting := [1]
  lhsBatch := []
  rhsBatch := []
  wf := dot_S2048x512_S2048x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S32x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S128x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v21) S128x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v22) S32x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg16) S1x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v24) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v26) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v27) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v28) S1x512x128.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== Proof.LibEgnn.lean ====
/-
  The two-layer edge-gated graph convolution as a function on the extended reals, written once over plain
  functions of finite indices (all extents variables).

  One layer, for node features `x : N × C`, one-hot source and target operators `S T : E × N`, edge features
  `ef : E × Ce` and weights `V, kv, qv, wae, We, ba, Wcx, Wca, bc`:
    xv   = x · V                                   (N × H)
    ee   = ef · We                                 (E × H),   gate = σ(ee)
    eatt = ee · wae + ba                           (E)
    att  = σ((T · (xv · kv) + S · (xv · qv)) + eatt)   (E)
    xj   = S · xv                                  (E × H)
    msg  = (att ⊙ xj) ⊙ gate                       (E × H)
    aggr = Tᵀ · msg                                (N × H)
    upd  = (xv · Wcx + aggr · Wca) + bc            (N × H)
    out  = xv + max(upd, 0)
  Every sum is a finite sum of extended reals, so its order and grouping are immaterial.
-/
import Mathlib.Data.EReal.Basic
import Mathlib.Data.EReal.Operations
import Mathlib.Algebra.BigOperators.Fin
import Idealize.ShloMosaic.PureOps.Ideal
import Idealize.ShloMosaic.Lib.ValueIdx

noncomputable section

namespace Egnn

open Idealize.ShloMosaic

variable {N E C H Ce : ℕ}

/-- A matrix product entry: the sum over the shared index. -/
def mm {A K B : ℕ} (x : Fin A → Fin K → EReal) (w : Fin K → Fin B → EReal) (a : Fin A) (b : Fin B) : EReal :=
  ∑ k, x a k * w k b

/-- A matrix times a vector. -/
def mv {A K : ℕ} (x : Fin A → Fin K → EReal) (w : Fin K → EReal) (a : Fin A) : EReal :=
  ∑ k, x a k * w k

/-- The edge gate σ(ef · We). -/
def gate (ef : Fin E → Fin Ce → EReal) (We : Fin Ce → Fin H → EReal) (e : Fin E) (j : Fin H) : EReal :=
  Ideal.logistic (mm ef We e j)

/-- The edge part of the attention logit, (ef · We) · wae + ba. -/
def eatt (ef : Fin E → Fin Ce → EReal) (We : Fin Ce → Fin H → EReal) (wae : Fin H → EReal) (ba : EReal) (e : Fin E) : EReal :=
  mv (mm ef We) wae e + ba

/-- The attention weight of an edge from the node scalars `akey`, `aqry` and the edge logit. -/
def att (S T : Fin E → Fin N → EReal) (akey aqry : Fin N → EReal) (ea : Fin E → EReal) (e : Fin E) : EReal :=
  Ideal.logistic ((mv T akey e + mv S aqry e) + ea e)

/-- The aggregated messages Tᵀ · ((att ⊙ (S · xv)) ⊙ gate). -/
def aggr (S T : Fin E → Fin N → EReal) (a : Fin E → EReal) (g : Fin E → Fin H → EReal) (xv : Fin N → Fin H → EReal)
    (n : Fin N) (j : Fin H) : EReal :=
  ∑ e, T e n * ((a e * mm S xv e j) * g e j)

/-- One layer from its projected features `xv`. -/
def layerOf (S T : Fin E → Fin N → EReal) (g : Fin E → Fin H → EReal) (ea : Fin E → EReal)
    (kv qv : Fin H → EReal) (Wcx Wca : Fin H → Fin H → EReal) (bc : Fin H → EReal)
    (xv : Fin N → Fin H → EReal) (n : Fin N) (j : Fin H) : EReal :=
  xv n j + max ((mm xv Wcx n j + mm (aggr S T (att S T (mv xv kv) (mv xv qv) ea) g xv) Wca n j) + bc j) 0

/-- One layer. -/
def layer (S T : Fin E → Fin N → EReal) (ef : Fin E → Fin Ce → EReal)
    (V : Fin C → Fin H → EReal) (kv qv wae : Fin H → EReal) (We : Fin Ce → Fin H → EReal) (ba : EReal)
    (Wcx Wca : Fin H → Fin H → EReal) (bc : Fin H → EReal) (x : Fin N → Fin C → EReal) : Fin N → Fin H → EReal :=
  layerOf S T (gate ef We) (eatt ef We wae ba) kv qv Wcx Wca bc (mm x V)

/-- The leaky rectifier with slope `s`, in the selecting form. -/
def leaky (s y : EReal) : EReal := if 0 < y then y else s * y

/-- For a slope between 0 and 1 the selecting form is the maximum of `y` and `s · y`, on every extended real. -/
theorem max_eq_leaky {s : ℝ} (h0 : 0 ≤ s) (h1 : s ≤ 1) (y : EReal) : max y ((s : EReal) * y) = leaky (s : EReal) y := by
  unfold leaky
  induction y using EReal.rec with
  | bot =>
    rcases h0.eq_or_lt with h | h
    · subst h; simp
    · rw [EReal.coe_mul_bot_of_pos h]; simp
  | top =>
    rcases h0.eq_or_lt with h | h
    · subst h; simp
    · rw [EReal.coe_mul_top_of_pos h]; simp
  | coe r =>
    rw [← EReal.coe_mul]
    by_cases hr : (0 : ℝ) < r
    · rw [if_pos (by exact_mod_cast hr)]
      exact max_eq_left (EReal.coe_le_coe_iff.mpr (by nlinarith))
    · rw [if_neg (by exact_mod_cast hr)]
      exact max_eq_right (EReal.coe_le_coe_iff.mpr (by nlinarith [not_lt.mp hr]))

/-! ## The laws that join the lane-packed arrangement to the plain one -/

/-- A block-diagonal weight: summing over all blocks `b'` and channels `c` the products with `δ(b', b) · w c`
    leaves block `b`'s own sum — the off-diagonal zeros annihilate every extended real, infinite ones included. -/
theorem sum_blockDiag {Bn H : ℕ} (x : Fin Bn → Fin H → EReal) (w : Fin H → EReal) (b : Fin Bn) :
    ∑ b' : Fin Bn, ∑ c : Fin H, x b' c * ((if b' = b then (1 : EReal) else 0) * w c) = ∑ c : Fin H, x b c * w c := by
  rw [Finset.sum_eq_single b]
  · simp
  · intro b' _ hb
    simp [hb]
  · intro h
    exact absurd (Finset.mem_univ b) h

/-- The grouping (att · gate) · xj of a message is the grouping (att · xj) · gate. -/
theorem msg_comm (a g x : EReal) : (a * g) * x = (a * x) * g := mul_right_comm a g x

/-- A contraction over a joined operand splits into the two operands' contractions. -/
theorem sum_join {A B : ℕ} (f : Fin (A + B) → EReal) :
    ∑ r : Fin (A + B), f r = ∑ a : Fin A, f (Fin.castAdd B a) + ∑ b : Fin B, f (Fin.natAdd A b) :=
  Fin.sum_univ_add f

/-- Entry (row `b' · H + c`, column `col`) of the joined block-diagonal weight `[kron(I₈, kv) | kron(I₈, qv)]`:
    columns 0–7 carry `δ(b', col) · kv c`, columns 8–15 carry `δ(b', col − 8) · qv c`. -/
def kqEntry {H : ℕ} (kv qv : Fin H → EReal) (b' : Fin 8) (c : Fin H) (col : Fin 16) : EReal :=
  if col.val < 8 then (if b'.val = col.val then (1 : EReal) else 0) * kv c
  else (if b'.val + 8 = col.val then (1 : EReal) else 0) * qv c

/-- Against the key half of the joined weight the packed features give block `b`'s key scalar. -/
theorem sum_kqEntry_key {H : ℕ} (x : Fin 8 → Fin H → EReal) (kv qv : Fin H → EReal) (b : Fin 8) :
    ∑ b' : Fin 8, ∑ c : Fin H, x b' c * kqEntry kv qv b' c ⟨b.val, by omega⟩ = ∑ c : Fin H, x b c * kv c := by
  rw [← sum_blockDiag x kv b]
  refine Finset.sum_congr rfl fun b' _ => Finset.sum_congr rfl fun c _ => ?_
  unfold kqEntry
  rw [if_pos (show b.val < 8 from b.isLt)]
  by_cases h : b' = b
  · subst h; simp
  · rw [if_neg (fun e => h (Fin.ext e)), if_neg h]

/-- Against the query half it gives block `b`'s query scalar. -/
theorem sum_kqEntry_qry {H : ℕ} (x : Fin 8 → Fin H → EReal) (kv qv : Fin H → EReal) (b : Fin 8) :
    ∑ b' : Fin 8, ∑ c : Fin H, x b' c * kqEntry kv qv b' c ⟨8 + b.val, by omega⟩ = ∑ c : Fin H, x b c * qv c := by
  rw [← sum_blockDiag x qv b]
  refine Finset.sum_congr rfl fun b' _ => Finset.sum_congr rfl fun c _ => ?_
  unfold kqEntry
  have h8 : ¬ ((⟨8 + b.val, by omega⟩ : Fin 16).val < 8) := by simp
  rw [if_neg h8]
  by_cases h : b' = b
  · subst h; simp [Nat.add_comm]
  · have hne : ¬ (b'.val + 8 = (⟨8 + b.val, by omega⟩ : Fin 16).val) := by
      intro e
      apply h
      apply Fin.ext
      simp only at e
      omega
    rw [if_neg hne, if_neg h]

end Egnn

/-! ## The network on the raw argument arrays

The raw parameters are folded as the host code does: `kv = k · wa[0:H]`, `qv = q · wa[H:2H]`, `wae = wa[2H:3H]`,
`Wcx = wc[0:H]`, `Wca = wc[H:2H]`; the one-hot operators are read off the edge list. -/

namespace Egnn

open Idealize.ShloMosaic Idealize.ShloMosaic.ValueIdx

/-- A matrix of extended reals over a literal two-axis shape. -/
abbrev Mat (a b : ℕ) : Type := (⟨2, ![a, b]⟩ : Shape).Idx → EReal

/-- Row `off + c` of a matrix with `R` rows, as a function of `c < H` (zero-based block of rows). -/
def rowsFrom {R W H : ℕ} (w : Mat R W) (off : ℕ) (h : off + H ≤ R) (c : Fin H) (j : Fin W) : EReal :=
  w (ix2 ⟨off + c.val, by have := c.isLt; omega⟩ j)

/-- `k · wa[off : off+H]` as a vector. -/
def foldKQ {H : ℕ} (k : Mat H H) (wa : Mat (3 * H) 1) (off : ℕ) (h : off + H ≤ 3 * H) (c : Fin H) : EReal :=
  ∑ j : Fin H, k (ix2 c j) * rowsFrom wa off h j 0

/-- The one-hot operator of row `r` of the edge list: entry (e, n) is 1 when edge `e`'s endpoint is node `n`. -/
def oneHot {E N : ℕ} (ei : (⟨2, ![2, E]⟩ : Shape).Idx → BitVec 32) (r : Fin 2) (e : Fin E) (n : Fin N) : EReal :=
  if ei (ix2 r e) = BitVec.ofNat 32 n.val then 1 else 0

/-- One layer from raw parameters (`H` output channels, `wa : 3H × 1`, `wc : 2H × H`). -/
def layerRaw {N E C H Ce : ℕ} (S T : Fin E → Fin N → EReal) (ef : Mat E Ce)
    (v : Mat C H) (k q : Mat H H) (we : Mat Ce H) (wa : Mat (3 * H) 1) (ba : Mat 1 1) (wc : Mat (2 * H) H) (bc : Mat 1 H)
    (x : Fin N → Fin C → EReal) : Fin N → Fin H → EReal :=
  layer S T (fun e k => ef (ix2 e k)) (fun c j => v (ix2 c j))
    (foldKQ k wa 0 (by omega)) (foldKQ q wa H (by omega)) (fun j => rowsFrom wa (2 * H) (by omega) j 0)
    (fun k j => we (ix2 k j)) (ba (ix2 0 0))
    (rowsFrom wc 0 (by omega)) (rowsFrom wc H (by omega)) (fun j => bc (ix2 0 j)) x

/-- The two-layer network on one batch element `B`: layer 1, the leaky rectifier with slope `s`, layer 2. -/
def net {Bt N E C H Ce : ℕ} (s : EReal) (X : (⟨3, ![Bt, N, C]⟩ : Shape).Idx → EReal)
    (ei : (⟨2, ![2, E]⟩ : Shape).Idx → BitVec 32) (ef : Mat E Ce)
    (v1 : Mat C H) (k1 q1 : Mat H H) (we1 : Mat Ce H) (wa1 : Mat (3 * H) 1) (ba1 : Mat 1 1) (wc1 : Mat (2 * H) H) (bc1 : Mat 1 H)
    (v2 : Mat H H) (k2 q2 : Mat H H) (we2 : Mat Ce H) (wa2 : Mat (3 * H) 1) (ba2 : Mat 1 1) (wc2 : Mat (2 * H) H) (bc2 : Mat 1 H)
    (B : Fin Bt) (n : Fin N) (j : Fin H) : EReal :=
  layerRaw (oneHot ei 0) (oneHot ei 1) ef v2 k2 q2 we2 wa2 ba2 wc2 bc2
    (fun n c => leaky s (layerRaw (oneHot ei 0) (oneHot ei 1) ef v1 k1 q1 we1 wa1 ba1 wc1 bc1 (fun n c => X (ix3 B n c)) n c)) n j

end Egnn

end
-- ==== Proof.KRun.lean ====
/-
  The lane-packed program's run with its result named: every weakly fair execution terminates without a fault, the
  result array ends at the contents the last segment boundary gives it, and the arguments end as launched.
-/
import proofs.«130875_g2000201574592089_pallasbulk_874_11_alg».proof.Proof.Gen.KernelIdeal.Frame

set_option maxRecDepth 16384

noncomputable section

namespace Cert.KernelIdeal.KValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the ten segments of the program (seven stretches of host operations, the edge prologue, one more
    stretch, the main region) read against the final state: the result buffer holds the last boundary's contents. -/
theorem run_named : θ_run defs (onTc (τ := τ) (main (F := F))) ⟨m, fun _ => 0, ρ⟩ (fun r => ∀ c : Dev nD,
      r.2.mem ((c.tc : Thread nD τ).loc main_v30) = W10 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v30 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.KValue

end
-- ==== Proof.KDefs.lean ====
/-
  The result of the lane-packed program as one function of its argument arrays.
-/
import proofs.«130875_g2000201574592089_pallasbulk_874_11_alg».proof.KernelIdeal
import proofs.«130875_g2000201574592089_pallasbulk_874_11_alg».proof.Proof.LibEgnn

noncomputable section

namespace Cert.KernelIdeal.KValue

open Cert.KernelIdeal Idealize.ShloMosaic Idealize.SL.Sem

/-- The network applied to the argument arrays as launched: the result both programs end with. -/
def G (m : (ℓ : Loc nD τ sig) → Buf (Elt Ideal) ℓ) (c : Dev nD) : S256x512x128.Idx → EReal :=
  fun i => Egnn.net (Bt := 256) (N := 512) (E := 2048) (C := 64) (H := 128) (Ce := 32) (Ideal.ofBits .f32 0x3C23D70A#32)
    (m ((c.tc : Thread nD τ).loc main_arg0) : S256x512x64.Idx → EReal)
    (m ((c.tc : Thread nD τ).loc main_arg1) : S2x2048.Idx → BitVec 32)
    (m ((c.tc : Thread nD τ).loc main_arg2) : S2048x32.Idx → EReal)
    (m ((c.tc : Thread nD τ).loc main_arg3) : S64x128.Idx → EReal)
    (m ((c.tc : Thread nD τ).loc main_arg4) : S128x128.Idx → EReal)
    (m ((c.tc : Thread nD τ).loc main_arg5) : S128x128.Idx → EReal)
    (m ((c.tc : Thread nD τ).loc main_arg6) : S32x128.Idx → EReal)
    (m ((c.tc : Thread nD τ).loc main_arg7) : S384x1.Idx → EReal)
    (m ((c.tc : Thread nD τ).loc main_arg8) : S1x1.Idx → EReal)
    (m ((c.tc : Thread nD τ).loc main_arg9) : S256x128.Idx → EReal)
    (m ((c.tc : Thread nD τ).loc main_arg10) : S1x128.Idx → EReal)
    (m ((c.tc : Thread nD τ).loc main_arg11) : S128x128.Idx → EReal)
    (m ((c.tc : Thread nD τ).loc main_arg12) : S128x128.Idx → EReal)
    (m ((c.tc : Thread nD τ).loc main_arg13) : S128x128.Idx → EReal)
    (m ((c.tc : Thread nD τ).loc main_arg14) : S32x128.Idx → EReal)
    (m ((c.tc : Thread nD τ).loc main_arg15) : S384x1.Idx → EReal)
    (m ((c.tc : Thread nD τ).loc main_arg16) : S1x1.Idx → EReal)
    (m ((c.tc : Thread nD τ).loc main_arg17) : S256x128.Idx → EReal)
    (m ((c.tc : Thread nD τ).loc main_arg18) : S1x128.Idx → EReal)
    (i 0) (i 1) (i 2)

/-- Lane `b · 128 + c` of a row holding eight 128-wide blocks side by side. -/
abbrev lane (b : Fin 8) (c : Fin 128) : Fin 1024 := ⟨b.val * 128 + c.val, by omega⟩

/-- The same lane in a row of 1032 (the eight blocks followed by eight extra lanes). -/
abbrev laneW (b : Fin 8) (c : Fin 128) : Fin 1032 := ⟨b.val * 128 + c.val, by omega⟩

/-- Extra lane `b` of such a row. -/
abbrev lane8 (b : Fin 8) : Fin 1032 := ⟨1024 + b.val, by omega⟩

end Cert.KernelIdeal.KValue

end
-- ==== Proof.RefDefs.lean ====
/-
  The result of the one-batch-element-per-point program as one function of its argument arrays.
-/
import proofs.«130875_g2000201574592089_pallasbulk_874_11_alg».proof.ReferenceIdeal
import proofs.«130875_g2000201574592089_pallasbulk_874_11_alg».proof.Proof.LibEgnn

noncomputable section

namespace Cert.ReferenceIdeal.RValue

open Cert.ReferenceIdeal Idealize.ShloMosaic Idealize.SL.Sem

/-- The network applied to the argument arrays as launched: the result both programs end with. -/
def G (m : (ℓ : Loc nD τ sig) → Buf (Elt Ideal) ℓ) (c : Dev nD) : S256x512x128.Idx → EReal :=
  fun i => Egnn.net (Bt := 256) (N := 512) (E := 2048) (C := 64) (H := 128) (Ce := 32) (Ideal.ofBits .f32 0x3C23D70A#32)
    (m ((c.tc : Thread nD τ).loc main_arg0) : S256x512x64.Idx → EReal)
    (m ((c.tc : Thread nD τ).loc main_arg1) : S2x2048.Idx → BitVec 32)
    (m ((c.tc : Thread nD τ).loc main_arg2) : S2048x32.Idx → EReal)
    (m ((c.tc : Thread nD τ).loc main_arg3) : S64x128.Idx → EReal)
    (m ((c.tc : Thread nD τ).loc main_arg4) : S128x128.Idx → EReal)
    (m ((c.tc : Thread nD τ).loc main_arg5) : S128x128.Idx → EReal)
    (m ((c.tc : Thread nD τ).loc main_arg6) : S32x128.Idx → EReal)
    (m ((c.tc : Thread nD τ).loc main_arg7) : S384x1.Idx → EReal)
    (m ((c.tc : Thread nD τ).loc main_arg8) : S1x1.Idx → EReal)
    (m ((c.tc : Thread nD τ).loc main_arg9) : S256x128.Idx → EReal)
    (m ((c.tc : Thread nD τ).loc main_arg10) : S1x128.Idx → EReal)
    (m ((c.tc : Thread nD τ).loc main_arg11) : S128x128.Idx → EReal)
    (m ((c.tc : Thread nD τ).loc main_arg12) : S128x128.Idx → EReal)
    (m ((c.tc : Thread nD τ).loc main_arg13) : S128x128.Idx → EReal)
    (m ((c.tc : Thread nD τ).loc main_arg14) : S32x128.Idx → EReal)
    (m ((c.tc : Thread nD τ).loc main_arg15) : S384x1.Idx → EReal)
    (m ((c.tc : Thread nD τ).loc main_arg16) : S1x1.Idx → EReal)
    (m ((c.tc : Thread nD τ).loc main_arg17) : S256x128.Idx → EReal)
    (m ((c.tc : Thread nD τ).loc main_arg18) : S1x128.Idx → EReal)
    (i 0) (i 1) (i 2)

end Cert.ReferenceIdeal.RValue

end
-- ==== Proof.Algebraic.lean ====
/-
  The two programs end with the same result. Each program's result buffer is shown elsewhere to hold the two-layer
  network applied to that program's own argument arrays; from launch memories that agree on the nineteen arguments
  the two applications are one and the same function of the same arrays.
-/
import proofs.«130875_g2000201574592089_pallasbulk_874_11_alg».proof.Defs
import proofs.«130875_g2000201574592089_pallasbulk_874_11_alg».proof.Proof.Gen.Kernel
import proofs.«130875_g2000201574592089_pallasbulk_874_11_alg».proof.Proof.Gen.KernelIdeal
import proofs.«130875_g2000201574592089_pallasbulk_874_11_alg».proof.Proof.Gen.ReferenceIdeal
import proofs.«130875_g2000201574592089_pallasbulk_874_11_alg».proof.Proof.Gen.Pre_finite_inputs
import proofs.«130875_g2000201574592089_pallasbulk_874_11_alg».proof.Proof.KRun
import proofs.«130875_g2000201574592089_pallasbulk_874_11_alg».proof.Proof.KDefs
import proofs.«130875_g2000201574592089_pallasbulk_874_11_alg».proof.Proof.RefDefs

noncomputable section

namespace Cert.Proof

open Idealize.ShloMosaic Idealize.SL.Sem

/-- The network of the reference's arguments is the network of the kernel's, when the arguments agree. -/
theorem G_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.RValue.G m' c = Cert.KernelIdeal.KValue.G m c := by
  obtain ⟨h0, h1, h2, h3, h4, h5, h6, h7, h8, h9, h10, h11, h12, h13, h14, h15, h16, h17, h18⟩ := hagree
  unfold Cert.ReferenceIdeal.RValue.G Cert.KernelIdeal.KValue.G
  rw [h0, h1, h2, h3, h4, h5, h6, h7, h8, h9, h10, h11, h12, h13, h14, h15, h16, h17, h18]

/-- From the two results named as the network of each program's arguments, the claim that the programs agree. -/
theorem algebraic_of
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        Cert.KernelIdeal.Gen.W10 (F := Ideal) m ρ c (Proc.devRef .tc Cert.KernelIdeal.main_v30) = Cert.KernelIdeal.KValue.G m c)
    (hR : ∀ (m' : (ℓ : Loc Cert.ReferenceIdeal.nD Cert.ReferenceIdeal.τ Cert.ReferenceIdeal.sig) → Buf (Elt Ideal) ℓ) (ρ' : Dev Cert.ReferenceIdeal.nD → PrngReg),
        θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v28) = Cert.ReferenceIdeal.RValue.G m' c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))) :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.KValue.G m c, ?_, ?_⟩
  · exact (θ_run _ _ _).mono (fun r h c => ⟨(h c).1.trans (hK m ρ c), (h c).2⟩)
      (Cert.KernelIdeal.KValue.run_named (F := Ideal) m ρ)
  · exact (θ_run _ _ _).mono (fun r h c => ⟨(h c).1.trans (G_agree m m' c (hagree c)), (h c).2⟩) (hR m' ρ')

end Cert.Proof

end
-- ==== Proof.KTerms.lean ====
/- One name per distinct subterm of the main region's output block: the 15 operand blocks bundled as `Blocks`, each load of a
   rectangle and each application of a payload named once, and the output block as the eight stores of the named pieces. -/
import proofs.«130875_g2000201574592089_pallasbulk_874_11_alg».proof.Proof.Gen.KernelIdeal.Frame
import Idealize.ShloMosaic.PureOps.Ideal

set_option maxRecDepth 16384

noncomputable section

namespace Cert.KernelIdeal.KBody

open Cert.KernelIdeal Cert.KernelIdeal.Gen Idealize.ShloMosaic Idealize.SL.Sem

/-- The operand blocks of one grid point of the main region. -/
structure Blocks where
  x0 : Vec Ideal S8x512x64 .f32
  x1 : Vec Ideal S2048x512 .bf16
  x2 : Vec Ideal S2048x512 .bf16
  x3 : Vec Ideal S2048x128 .f32
  x4 : Vec Ideal S2048x8 .f32
  x5 : Vec Ideal S2048x128 .f32
  x6 : Vec Ideal S2048x8 .f32
  x7 : Vec Ideal S64x128 .bf16
  x8 : Vec Ideal S1024x16 .bf16
  x9 : Vec Ideal S256x128 .bf16
  x10 : Vec Ideal S1x128 .f32
  x11 : Vec Ideal S128x128 .bf16
  x12 : Vec Ideal S1024x16 .bf16
  x13 : Vec Ideal S256x128 .bf16
  x14 : Vec Ideal S1x128 .f32

noncomputable def L13_13 (X : Blocks) := View.ld X.x13 r1_13
noncomputable def N58 (X : Blocks) := k1_pay58 (L13_13 X)
noncomputable def L14_14 (X : Blocks) := View.ld X.x14 r1_14
noncomputable def L9_13 (X : Blocks) := View.ld X.x9 r1_13
noncomputable def N16 (X : Blocks) := k1_pay16 (L9_13 X)
noncomputable def L10_14 (X : Blocks) := View.ld X.x10 r1_14
noncomputable def L0_8 (X : Blocks) := View.ld X.x0 r1_8
noncomputable def N13 (X : Blocks) := k1_pay13 (L0_8 X)
noncomputable def L7_9 (X : Blocks) := View.ld X.x7 r1_9
noncomputable def N24 (X : Blocks) := k1_pay24 (N13 X) (L7_9 X)
noncomputable def N32 (X : Blocks) := k1_pay32 (N13 X) (L7_9 X)
noncomputable def L2_0 (X : Blocks) := View.ld X.x2 r1_0
noncomputable def N5 (X : Blocks) := k1_pay5 (L2_0 X)
noncomputable def L3_11 (X : Blocks) := View.ld X.x3 r1_11
noncomputable def N15 (X : Blocks) := k1_pay15 (L3_11 X)
noncomputable def L1_0 (X : Blocks) := View.ld X.x1 r1_0
noncomputable def N4 (X : Blocks) := k1_pay4 (L1_0 X)
noncomputable def L0_1 (X : Blocks) := View.ld X.x0 r1_1
noncomputable def N6 (X : Blocks) := k1_pay6 (L0_1 X)
noncomputable def L0_2 (X : Blocks) := View.ld X.x0 r1_2
noncomputable def N7 (X : Blocks) := k1_pay7 (L0_2 X)
noncomputable def L0_3 (X : Blocks) := View.ld X.x0 r1_3
noncomputable def N8 (X : Blocks) := k1_pay8 (L0_3 X)
noncomputable def L0_4 (X : Blocks) := View.ld X.x0 r1_4
noncomputable def N9 (X : Blocks) := k1_pay9 (L0_4 X)
noncomputable def L0_5 (X : Blocks) := View.ld X.x0 r1_5
noncomputable def N10 (X : Blocks) := k1_pay10 (L0_5 X)
noncomputable def L0_6 (X : Blocks) := View.ld X.x0 r1_6
noncomputable def N11 (X : Blocks) := k1_pay11 (L0_6 X)
noncomputable def L0_7 (X : Blocks) := View.ld X.x0 r1_7
noncomputable def N12 (X : Blocks) := k1_pay12 (L0_7 X)
noncomputable def L8_10 (X : Blocks) := View.ld X.x8 r1_10
noncomputable def N36 (X : Blocks) := k1_pay36 (N4 X) (N6 X) (N7 X) (N8 X) (N9 X) (N10 X) (N11 X) (N12 X) (N13 X) (L7_9 X) (L8_10 X)
noncomputable def L4_12 (X : Blocks) := View.ld X.x4 r1_12
noncomputable def N37 (X : Blocks) := k1_pay37 (N4 X) (N5 X) (N6 X) (N7 X) (N8 X) (N9 X) (N10 X) (N11 X) (N12 X) (N13 X) (L7_9 X) (L8_10 X) (L4_12 X)
noncomputable def N38 (X : Blocks) := k1_pay38 (N5 X) (N15 X) (N36 X) (N37 X)
noncomputable def N54 (X : Blocks) := k1_pay54 (N16 X) (L10_14 X) (N24 X) (N32 X) (N38 X)
noncomputable def L11_15 (X : Blocks) := View.ld X.x11 r1_15
noncomputable def N66 (X : Blocks) := k1_pay66 (N54 X) (L11_15 X)
noncomputable def N74 (X : Blocks) := k1_pay74 (N54 X) (L11_15 X)
noncomputable def L5_11 (X : Blocks) := View.ld X.x5 r1_11
noncomputable def N56 (X : Blocks) := k1_pay56 (L5_11 X)
noncomputable def L6_12 (X : Blocks) := View.ld X.x6 r1_12
noncomputable def N57 (X : Blocks) := k1_pay57 (L6_12 X)
noncomputable def N17 (X : Blocks) := k1_pay17 (N6 X) (L7_9 X)
noncomputable def N25 (X : Blocks) := k1_pay25 (N6 X) (L7_9 X)
noncomputable def N39 (X : Blocks) := k1_pay39 (N5 X) (N15 X) (N16 X) (L10_14 X) (N25 X) (N36 X) (N37 X)
noncomputable def N40 (X : Blocks) := k1_pay40 (N17 X) (N39 X) (Scalar.ofBits .f32 0x00000000#32)
noncomputable def N47 (X : Blocks) := k1_pay47 (N40 X)
noncomputable def N18 (X : Blocks) := k1_pay18 (N7 X) (L7_9 X)
noncomputable def N26 (X : Blocks) := k1_pay26 (N7 X) (L7_9 X)
noncomputable def N41 (X : Blocks) := k1_pay41 (N16 X) (L10_14 X) (N18 X) (N26 X) (N38 X)
noncomputable def N48 (X : Blocks) := k1_pay48 (N41 X)
noncomputable def N19 (X : Blocks) := k1_pay19 (N8 X) (L7_9 X)
noncomputable def N27 (X : Blocks) := k1_pay27 (N8 X) (L7_9 X)
noncomputable def N42 (X : Blocks) := k1_pay42 (N16 X) (L10_14 X) (N19 X) (N27 X) (N38 X)
noncomputable def N49 (X : Blocks) := k1_pay49 (N42 X)
noncomputable def N20 (X : Blocks) := k1_pay20 (N9 X) (L7_9 X)
noncomputable def N28 (X : Blocks) := k1_pay28 (N9 X) (L7_9 X)
noncomputable def N43 (X : Blocks) := k1_pay43 (N16 X) (L10_14 X) (N20 X) (N28 X) (N38 X)
noncomputable def N50 (X : Blocks) := k1_pay50 (N43 X)
noncomputable def N21 (X : Blocks) := k1_pay21 (N10 X) (L7_9 X)
noncomputable def N29 (X : Blocks) := k1_pay29 (N10 X) (L7_9 X)
noncomputable def N44 (X : Blocks) := k1_pay44 (N16 X) (L10_14 X) (N21 X) (N29 X) (N38 X)
noncomputable def N51 (X : Blocks) := k1_pay51 (N44 X)
noncomputable def N22 (X : Blocks) := k1_pay22 (N11 X) (L7_9 X)
noncomputable def N30 (X : Blocks) := k1_pay30 (N11 X) (L7_9 X)
noncomputable def N45 (X : Blocks) := k1_pay45 (N16 X) (L10_14 X) (N22 X) (N30 X) (N38 X)
noncomputable def N52 (X : Blocks) := k1_pay52 (N45 X)
noncomputable def N23 (X : Blocks) := k1_pay23 (N12 X) (L7_9 X)
noncomputable def N31 (X : Blocks) := k1_pay31 (N12 X) (L7_9 X)
noncomputable def N46 (X : Blocks) := k1_pay46 (N38 X)
noncomputable def N53 (X : Blocks) := k1_pay53 (N16 X) (L10_14 X) (N23 X) (N31 X) (N46 X)
noncomputable def L12_10 (X : Blocks) := View.ld X.x12 r1_10
noncomputable def N77 (X : Blocks) := k1_pay77 (N4 X) (N47 X) (N48 X) (N49 X) (N50 X) (N51 X) (N52 X) (N53 X) (N54 X) (L11_15 X) (L12_10 X)
noncomputable def N78 (X : Blocks) := k1_pay78 (N4 X) (N47 X) (N48 X) (N49 X) (N50 X) (N51 X) (N52 X) (N53 X) (N54 X) (L11_15 X) (L12_10 X)
noncomputable def N79 (X : Blocks) := k1_pay79 (N5 X) (N47 X) (N48 X) (N49 X) (N50 X) (N51 X) (N52 X) (N53 X) (N54 X) (L11_15 X) (L12_10 X)
noncomputable def N80 (X : Blocks) := k1_pay80 (N5 X) (N56 X) (N57 X) (N77 X) (N78 X) (N79 X)
noncomputable def N90 (X : Blocks) := k1_pay90 (N58 X) (L14_14 X) (N66 X) (N74 X) (N80 X)
noncomputable def N3 (X : Blocks) := k1_pay3 (N90 X)
noncomputable def N65 (X : Blocks) := k1_pay65 (N53 X) (L11_15 X)
noncomputable def N73 (X : Blocks) := k1_pay73 (N53 X) (L11_15 X)
noncomputable def N89 (X : Blocks) := k1_pay89 (N58 X) (L14_14 X) (N65 X) (N73 X) (N80 X)
noncomputable def N2 (X : Blocks) := k1_pay2 (N89 X)
noncomputable def N64 (X : Blocks) := k1_pay64 (N52 X) (L11_15 X)
noncomputable def N72 (X : Blocks) := k1_pay72 (N52 X) (L11_15 X)
noncomputable def N87 (X : Blocks) := k1_pay87 (N58 X) (L14_14 X) (N72 X) (N80 X)
noncomputable def N88 (X : Blocks) := k1_pay88 (N64 X) (N87 X)
noncomputable def N1 (X : Blocks) := k1_pay1 (N88 X)
noncomputable def N63 (X : Blocks) := k1_pay63 (N51 X) (L11_15 X)
noncomputable def N71 (X : Blocks) := k1_pay71 (N51 X) (L11_15 X)
noncomputable def N86 (X : Blocks) := k1_pay86 (N58 X) (L14_14 X) (N63 X) (N71 X) (N80 X)
noncomputable def N95 (X : Blocks) := k1_pay95 (N86 X)
noncomputable def N62 (X : Blocks) := k1_pay62 (N50 X) (L11_15 X)
noncomputable def N70 (X : Blocks) := k1_pay70 (N50 X) (L11_15 X)
noncomputable def N85 (X : Blocks) := k1_pay85 (N58 X) (L14_14 X) (N62 X) (N70 X) (N80 X)
noncomputable def N94 (X : Blocks) := k1_pay94 (N85 X)
noncomputable def N61 (X : Blocks) := k1_pay61 (N49 X) (L11_15 X)
noncomputable def N69 (X : Blocks) := k1_pay69 (N49 X) (L11_15 X)
noncomputable def N84 (X : Blocks) := k1_pay84 (N58 X) (L14_14 X) (N61 X) (N69 X) (N80 X)
noncomputable def N93 (X : Blocks) := k1_pay93 (N84 X)
noncomputable def N60 (X : Blocks) := k1_pay60 (N48 X) (L11_15 X)
noncomputable def N68 (X : Blocks) := k1_pay68 (N48 X) (L11_15 X)
noncomputable def N83 (X : Blocks) := k1_pay83 (N58 X) (L14_14 X) (N60 X) (N68 X) (N80 X)
noncomputable def N92 (X : Blocks) := k1_pay92 (N83 X)
noncomputable def N59 (X : Blocks) := k1_pay59 (N47 X) (L11_15 X)
noncomputable def N67 (X : Blocks) := k1_pay67 (N47 X) (L11_15 X)
noncomputable def N81 (X : Blocks) := k1_pay81 (N5 X) (N56 X) (N57 X) (N58 X) (N67 X) (N77 X) (N78 X) (N79 X)
noncomputable def N82 (X : Blocks) := k1_pay82 (L14_14 X) (N59 X) (N81 X)
noncomputable def N91 (X : Blocks) := k1_pay91 (N82 X)

/-- The output block after the body is the eight slab stores of the named pieces. -/
theorem out_eq (X : Blocks) : out1_15 (F := Ideal) X.x0 X.x1 X.x2 X.x3 X.x4 X.x5 X.x6 X.x7 X.x8 X.x9 X.x10 X.x11 X.x12 X.x13 X.x14 =
    View.canon [⟨r1_23, N3 X⟩, ⟨r1_22, N2 X⟩, ⟨r1_21, N1 X⟩, ⟨r1_20, N95 X⟩, ⟨r1_19, N94 X⟩, ⟨r1_18, N93 X⟩, ⟨r1_17, N92 X⟩, ⟨r1_16, N91 X⟩] := rfl

end Cert.KernelIdeal.KBody

end
-- ==== Proof.KLoads.lean ====
/-
  The loads of one grid point's body: a whole-block load reads the block; the load of slab `b` of the
  [8, 512, 64] feature block reads batch element `b` of the block.
-/
import proofs.«130875_g2000201574592089_pallasbulk_874_11_alg».proof.Proof.KTerms
import Idealize.ShloMosaic.Lib.Pipeline.Value
import Idealize.ShloMosaic.Lib.ValueIdx

set_option maxRecDepth 16384

noncomputable section

namespace Cert.KernelIdeal.KBody

open Cert.KernelIdeal Cert.KernelIdeal.Gen Idealize.ShloMosaic Idealize.ShloMosaic.ValueIdx Idealize.SL.Sem

theorem zero2 : (![0, 0] : Fin 2 → Nat) = fun _ => 0 := funext fun a => by fin_cases a <;> rfl

theorem L1_0_eq (X : Blocks) : L1_0 X = X.x1 := View.ld_unit_zero (S := S2048x512) zero2 _ _
theorem L2_0_eq (X : Blocks) : L2_0 X = X.x2 := View.ld_unit_zero (S := S2048x512) zero2 _ _
theorem L3_11_eq (X : Blocks) : L3_11 X = X.x3 := View.ld_unit_zero (S := S2048x128) zero2 _ _
theorem L4_12_eq (X : Blocks) : L4_12 X = X.x4 := View.ld_unit_zero (S := S2048x8) zero2 _ _
theorem L5_11_eq (X : Blocks) : L5_11 X = X.x5 := View.ld_unit_zero (S := S2048x128) zero2 _ _
theorem L6_12_eq (X : Blocks) : L6_12 X = X.x6 := View.ld_unit_zero (S := S2048x8) zero2 _ _
theorem L7_9_eq (X : Blocks) : L7_9 X = X.x7 := View.ld_unit_zero (S := S64x128) zero2 _ _
theorem L8_10_eq (X : Blocks) : L8_10 X = X.x8 := View.ld_unit_zero (S := S1024x16) zero2 _ _
theorem L9_13_eq (X : Blocks) : L9_13 X = X.x9 := View.ld_unit_zero (S := S256x128) zero2 _ _
theorem L10_14_eq (X : Blocks) : L10_14 X = X.x10 := View.ld_unit_zero (S := S1x128) zero2 _ _
theorem L11_15_eq (X : Blocks) : L11_15 X = X.x11 := View.ld_unit_zero (S := S128x128) zero2 _ _
theorem L12_10_eq (X : Blocks) : L12_10 X = X.x12 := View.ld_unit_zero (S := S1024x16) zero2 _ _
theorem L13_13_eq (X : Blocks) : L13_13 X = X.x13 := View.ld_unit_zero (S := S256x128) zero2 _ _
theorem L14_14_eq (X : Blocks) : L14_14 X = X.x14 := View.ld_unit_zero (S := S1x128) zero2 _ _

theorem L0_1_apply (X : Blocks) (n : Fin 512) (k : Fin 64) :
    L0_1 X (ix3 (0 : Fin 1) n k) = X.x0 (ix3 (0 : Fin 8) n k) := by
  show X.x0 (r1_1.emb (ix3 (0 : Fin 1) n k)) = _
  refine congrArg X.x0 (funext fun a => Fin.ext ?_)
  match a with
  | ⟨0, _⟩ => rfl
  | ⟨1, _⟩ => show 0 + 1 * n.val = n.val; omega
  | ⟨2, _⟩ => show 0 + 1 * k.val = k.val; omega

theorem L0_2_apply (X : Blocks) (n : Fin 512) (k : Fin 64) :
    L0_2 X (ix3 (0 : Fin 1) n k) = X.x0 (ix3 (1 : Fin 8) n k) := by
  show X.x0 (r1_2.emb (ix3 (0 : Fin 1) n k)) = _
  refine congrArg X.x0 (funext fun a => Fin.ext ?_)
  match a with
  | ⟨0, _⟩ => rfl
  | ⟨1, _⟩ => show 0 + 1 * n.val = n.val; omega
  | ⟨2, _⟩ => show 0 + 1 * k.val = k.val; omega

theorem L0_3_apply (X : Blocks) (n : Fin 512) (k : Fin 64) :
    L0_3 X (ix3 (0 : Fin 1) n k) = X.x0 (ix3 (2 : Fin 8) n k) := by
  show X.x0 (r1_3.emb (ix3 (0 : Fin 1) n k)) = _
  refine congrArg X.x0 (funext fun a => Fin.ext ?_)
  match a with
  | ⟨0, _⟩ => rfl
  | ⟨1, _⟩ => show 0 + 1 * n.val = n.val; omega
  | ⟨2, _⟩ => show 0 + 1 * k.val = k.val; omega

theorem L0_4_apply (X : Blocks) (n : Fin 512) (k : Fin 64) :
    L0_4 X (ix3 (0 : Fin 1) n k) = X.x0 (ix3 (3 : Fin 8) n k) := by
  show X.x0 (r1_4.emb (ix3 (0 : Fin 1) n k)) = _
  refine congrArg X.x0 (funext fun a => Fin.ext ?_)
  match a with
  | ⟨0, _⟩ => rfl
  | ⟨1, _⟩ => show 0 + 1 * n.val = n.val; omega
  | ⟨2, _⟩ => show 0 + 1 * k.val = k.val; omega

theorem L0_5_apply (X : Blocks) (n : Fin 512) (k : Fin 64) :
    L0_5 X (ix3 (0 : Fin 1) n k) = X.x0 (ix3 (4 : Fin 8) n k) := by
  show X.x0 (r1_5.emb (ix3 (0 : Fin 1) n k)) = _
  refine congrArg X.x0 (funext fun a => Fin.ext ?_)
  match a with
  | ⟨0, _⟩ => rfl
  | ⟨1, _⟩ => show 0 + 1 * n.val = n.val; omega
  | ⟨2, _⟩ => show 0 + 1 * k.val = k.val; omega

theorem L0_6_apply (X : Blocks) (n : Fin 512) (k : Fin 64) :
    L0_6 X (ix3 (0 : Fin 1) n k) = X.x0 (ix3 (5 : Fin 8) n k) := by
  show X.x0 (r1_6.emb (ix3 (0 : Fin 1) n k)) = _
  refine congrArg X.x0 (funext fun a => Fin.ext ?_)
  match a with
  | ⟨0, _⟩ => rfl
  | ⟨1, _⟩ => show 0 + 1 * n.val = n.val; omega
  | ⟨2, _⟩ => show 0 + 1 * k.val = k.val; omega

theorem L0_7_apply (X : Blocks) (n : Fin 512) (k : Fin 64) :
    L0_7 X (ix3 (0 : Fin 1) n k) = X.x0 (ix3 (6 : Fin 8) n k) := by
  show X.x0 (r1_7.emb (ix3 (0 : Fin 1) n k)) = _
  refine congrArg X.x0 (funext fun a => Fin.ext ?_)
  match a with
  | ⟨0, _⟩ => rfl
  | ⟨1, _⟩ => show 0 + 1 * n.val = n.val; omega
  | ⟨2, _⟩ => show 0 + 1 * k.val = k.val; omega

theorem L0_8_apply (X : Blocks) (n : Fin 512) (k : Fin 64) :
    L0_8 X (ix3 (0 : Fin 1) n k) = X.x0 (ix3 (7 : Fin 8) n k) := by
  show X.x0 (r1_8.emb (ix3 (0 : Fin 1) n k)) = _
  refine congrArg X.x0 (funext fun a => Fin.ext ?_)
  match a with
  | ⟨0, _⟩ => rfl
  | ⟨1, _⟩ => show 0 + 1 * n.val = n.val; omega
  | ⟨2, _⟩ => show 0 + 1 * k.val = k.val; omega

end Cert.KernelIdeal.KBody

end
-- ==== Proof.LibEgnnPacked.lean ====
/-
  The lane-packed arrangement of one layer is the plain layer.

  Eight batch elements share one pass: their key and query scalars come from one product of the side-by-side
  projected features with the joined block-diagonal weight (`Egnn.kqEntry`), the query scalars are gathered by the
  source operator together with the features, a message is grouped (att · gate) · xj, and the update contracts the
  joined [xv | aggr] with the whole weight, which is the sum of the two halves' contractions.  Entry (n, j) of
  element b's result is then `Egnn.layerOf` of element b's projected features: the block-diagonal zeros annihilate
  the other elements' terms, and the message's grouping is immaterial.  All extents are variables; nothing is
  assumed finite.
-/
import proofs.«130875_g2000201574592089_pallasbulk_874_11_alg».proof.Proof.LibEgnn

noncomputable section

namespace Egnn

open Idealize.ShloMosaic

variable {N E H : ℕ}

/-- The key scalar of element `b` at a node, as the packed product with the joined weight gives it. -/
def packedKey (kv qv : Fin H → EReal) (xv : Fin 8 → Fin N → Fin H → EReal) (b : Fin 8) (n : Fin N) : EReal :=
  ∑ b' : Fin 8, ∑ c : Fin H, xv b' n c * kqEntry kv qv b' c ⟨b.val, by omega⟩

/-- The query scalar likewise, from the joined weight's second half. -/
def packedQry (kv qv : Fin H → EReal) (xv : Fin 8 → Fin N → Fin H → EReal) (b : Fin 8) (n : Fin N) : EReal :=
  ∑ b' : Fin 8, ∑ c : Fin H, xv b' n c * kqEntry kv qv b' c ⟨8 + b.val, by omega⟩

theorem packedKey_eq (kv qv : Fin H → EReal) (xv : Fin 8 → Fin N → Fin H → EReal) (b : Fin 8) (n : Fin N) :
    packedKey kv qv xv b n = mv (xv b) kv n :=
  sum_kqEntry_key (fun b' c => xv b' n c) kv qv b

theorem packedQry_eq (kv qv : Fin H → EReal) (xv : Fin 8 → Fin N → Fin H → EReal) (b : Fin 8) (n : Fin N) :
    packedQry kv qv xv b n = mv (xv b) qv n :=
  sum_kqEntry_qry (fun b' c => xv b' n c) kv qv b

/-- The attention logit of edge `e` for element `b` in the packed arrangement. -/
def packedLogit (S T : Fin E → Fin N → EReal) (ea : Fin E → EReal) (kv qv : Fin H → EReal)
    (xv : Fin 8 → Fin N → Fin H → EReal) (e : Fin E) (b : Fin 8) : EReal :=
  ((∑ n : Fin N, T e n * packedKey kv qv xv b n) + (∑ n : Fin N, S e n * packedQry kv qv xv b n)) + ea e

/-- The aggregated message of element `b` at node `n`, channel `c`, grouped (att · gate) · xj. -/
def packedAggr (S T : Fin E → Fin N → EReal) (g : Fin E → Fin H → EReal) (ea : Fin E → EReal) (kv qv : Fin H → EReal)
    (xv : Fin 8 → Fin N → Fin H → EReal) (b : Fin 8) (n : Fin N) (c : Fin H) : EReal :=
  ∑ e : Fin E, T e n * ((Ideal.logistic (packedLogit S T ea kv qv xv e b) * g e c) * (∑ n' : Fin N, S e n' * xv b n' c))

/-- Element `b`'s result in the packed arrangement. -/
def packedOut (S T : Fin E → Fin N → EReal) (g : Fin E → Fin H → EReal) (ea : Fin E → EReal) (kv qv : Fin H → EReal)
    (Wcx Wca : Fin H → Fin H → EReal) (bc : Fin H → EReal) (xv : Fin 8 → Fin N → Fin H → EReal)
    (b : Fin 8) (n : Fin N) (j : Fin H) : EReal :=
  xv b n j + max (((∑ c : Fin H, xv b n c * Wcx c j) + (∑ c : Fin H, packedAggr S T g ea kv qv xv b n c * Wca c j)) + bc j) 0

/-- The packed arrangement computes the plain layer of each element's projected features. -/
theorem packedOut_eq (S T : Fin E → Fin N → EReal) (g : Fin E → Fin H → EReal) (ea : Fin E → EReal) (kv qv : Fin H → EReal)
    (Wcx Wca : Fin H → Fin H → EReal) (bc : Fin H → EReal) (xv : Fin 8 → Fin N → Fin H → EReal)
    (b : Fin 8) (n : Fin N) (j : Fin H) :
    packedOut S T g ea kv qv Wcx Wca bc xv b n j = layerOf S T g ea kv qv Wcx Wca bc (xv b) n j := by
  unfold packedOut packedAggr packedLogit layerOf aggr att
  simp only [packedKey_eq, packedQry_eq]
  unfold mm mv
  refine congrArg (fun z => xv b n j + max (((∑ c : Fin H, xv b n c * Wcx c j) + z) + bc j) 0) ?_
  refine Finset.sum_congr rfl fun c _ => congrArg (· * Wca c j) ?_
  refine Finset.sum_congr rfl fun e _ => congrArg (T e n * ·) ?_
  exact msg_comm _ _ _

end Egnn

end
-- ==== Proof.KMath.lean ====
/-
  The operand blocks of one grid point read as the mathematical objects of the layer: the one-hot operators, the
  edge gates and edge logits, the weights, and the eight batch elements' features.
-/
import proofs.«130875_g2000201574592089_pallasbulk_874_11_alg».proof.Proof.KTerms
import proofs.«130875_g2000201574592089_pallasbulk_874_11_alg».proof.Proof.KDefs
import proofs.«130875_g2000201574592089_pallasbulk_874_11_alg».proof.Proof.LibEgnnPacked
import Idealize.ShloMosaic.Lib.ValueIdx

noncomputable section

namespace Cert.KernelIdeal.KBody

open Cert.KernelIdeal Cert.KernelIdeal.Gen Cert.KernelIdeal.KValue Idealize.ShloMosaic Idealize.ShloMosaic.ValueIdx

variable (X : Blocks)

/-- The rectifier's slope, the f32 word of 0.01. -/
abbrev slope : EReal := Ideal.ofBits .f32 0x3C23D70A#32

/-- The source and target operators. -/
def opS (e : Fin 2048) (n : Fin 512) : EReal := X.x1 (ix2 e n)
def opT (e : Fin 2048) (n : Fin 512) : EReal := X.x2 (ix2 e n)

/-- Layer 1: edge gate, edge logit (column 0 of its eight equal columns), projection, update weights, bias. -/
def g1 (e : Fin 2048) (c : Fin 128) : EReal := X.x3 (ix2 e c)
def ea1 (e : Fin 2048) : EReal := X.x4 (ix2 e (0 : Fin 8))
def V1 (k : Fin 64) (c : Fin 128) : EReal := X.x7 (ix2 k c)
def Wcx1 : Fin 128 → Fin 128 → EReal := Egnn.rowsFrom (R := 256) (W := 128) (H := 128) X.x9 0 (by omega)
def Wca1 : Fin 128 → Fin 128 → EReal := Egnn.rowsFrom (R := 256) (W := 128) (H := 128) X.x9 128 (by omega)
def bc1 (j : Fin 128) : EReal := X.x10 (ix2 (0 : Fin 1) j)

/-- Layer 2 likewise. -/
def g2 (e : Fin 2048) (c : Fin 128) : EReal := X.x5 (ix2 e c)
def ea2 (e : Fin 2048) : EReal := X.x6 (ix2 e (0 : Fin 8))
def V2 (k : Fin 128) (c : Fin 128) : EReal := X.x11 (ix2 k c)
def Wcx2 : Fin 128 → Fin 128 → EReal := Egnn.rowsFrom (R := 256) (W := 128) (H := 128) X.x13 0 (by omega)
def Wca2 : Fin 128 → Fin 128 → EReal := Egnn.rowsFrom (R := 256) (W := 128) (H := 128) X.x13 128 (by omega)
def bc2 (j : Fin 128) : EReal := X.x14 (ix2 (0 : Fin 1) j)

/-- Batch element `b`'s input features and their layer-1 projection. -/
def feat (b : Fin 8) (n : Fin 512) (k : Fin 64) : EReal := X.x0 (ix3 b n k)
def xv1 (b : Fin 8) (n : Fin 512) (c : Fin 128) : EReal := Egnn.mm (feat X b) (V1 X) n c

/-- Layer 1's result for element `b` given the folded key/query vectors, and its rectified form. -/
def out1 (kv qv : Fin 128 → EReal) (b : Fin 8) (n : Fin 512) (c : Fin 128) : EReal :=
  Egnn.layerOf (opS X) (opT X) (g1 X) (ea1 X) kv qv (Wcx1 X) (Wca1 X) (bc1 X) (xv1 X b) n c
def act1 (kv qv : Fin 128 → EReal) (b : Fin 8) (n : Fin 512) (c : Fin 128) : EReal :=
  Egnn.leaky slope (out1 X kv qv b n c)

/-- Layer 2's projection of the rectified layer-1 result, and layer 2's result. -/
def xv2 (kv qv : Fin 128 → EReal) (b : Fin 8) (n : Fin 512) (c : Fin 128) : EReal :=
  Egnn.mm (act1 X kv qv b) (V2 X) n c
def out2 (kv1 qv1 kv2 qv2 : Fin 128 → EReal) (b : Fin 8) (n : Fin 512) (j : Fin 128) : EReal :=
  Egnn.layerOf (opS X) (opT X) (g2 X) (ea2 X) kv2 qv2 (Wcx2 X) (Wca2 X) (bc2 X) (xv2 X kv1 qv1 b) n j

end Cert.KernelIdeal.KBody

end
-- ==== Proof.KPayLight1.lean ====
/-
  The light payloads of the lane-packed program's main body, read at an entry (part 1): the shape casts that
  change nothing, and the per-element projections x · V of both layers — a plain matrix product into the zero
  accumulator is, at entry (n, j), the sum over the shared index of the products of the entries; narrowing the
  result's format changes no value on the extended reals.
-/
import proofs.«130875_g2000201574592089_pallasbulk_874_11_alg».proof.Proof.Gen.KernelIdeal.Skeleton
import proofs.«130875_g2000201574592089_pallasbulk_874_11_alg».proof.Proof.KDefs
import proofs.«130875_g2000201574592089_pallasbulk_874_11_alg».proof.Proof.LibEgnn
import Idealize.ShloMosaic.Lib.ValueIdx
import Idealize.ShloMosaic.Lib.ValueLayout
import Idealize.ShloMosaic.PureOps.Ideal.Laws

noncomputable section

namespace Cert.KernelIdeal.KPay

open Cert.KernelIdeal Cert.KernelIdeal.Gen Idealize.ShloMosaic Idealize.SL.Sem Idealize.ShloMosaic.ValueIdx

/-! ## Shape casts to the same shape -/

/-- Payload 4 is its operand: a cast of 2048x512 to itself. -/
theorem k1_pay4_eq (v0 : Vec Ideal S2048x512 .bf16) : k1_pay4 (F := Ideal) v0 = v0 := shapeCast_self _ _
theorem k1_pay4_apply (v0 : Vec Ideal S2048x512 .bf16) (i : S2048x512.Idx) : k1_pay4 (F := Ideal) v0 i = v0 i :=
  congrFun (k1_pay4_eq v0) i

/-- Payload 5 is its operand: a cast of 2048x512 to itself. -/
theorem k1_pay5_eq (v2 : Vec Ideal S2048x512 .bf16) : k1_pay5 (F := Ideal) v2 = v2 := shapeCast_self _ _
theorem k1_pay5_apply (v2 : Vec Ideal S2048x512 .bf16) (i : S2048x512.Idx) : k1_pay5 (F := Ideal) v2 i = v2 i :=
  congrFun (k1_pay5_eq v2) i

/-- Payload 14 is its operand: a cast of 64x128 to itself. -/
theorem k1_pay14_eq (v28 : Vec Ideal S64x128 .bf16) : k1_pay14 (F := Ideal) v28 = v28 := shapeCast_self _ _
theorem k1_pay14_apply (v28 : Vec Ideal S64x128 .bf16) (i : S64x128.Idx) : k1_pay14 (F := Ideal) v28 i = v28 i :=
  congrFun (k1_pay14_eq v28) i

/-- Payload 15 is its operand: a cast of 2048x128 to itself. -/
theorem k1_pay15_eq (v32 : Vec Ideal S2048x128 .f32) : k1_pay15 (F := Ideal) v32 = v32 := shapeCast_self _ _
theorem k1_pay15_apply (v32 : Vec Ideal S2048x128 .f32) (i : S2048x128.Idx) : k1_pay15 (F := Ideal) v32 i = v32 i :=
  congrFun (k1_pay15_eq v32) i

/-- Payload 16 is its operand: a cast of 256x128 to itself. -/
theorem k1_pay16_eq (v36 : Vec Ideal S256x128 .bf16) : k1_pay16 (F := Ideal) v36 = v36 := shapeCast_self _ _
theorem k1_pay16_apply (v36 : Vec Ideal S256x128 .bf16) (i : S256x128.Idx) : k1_pay16 (F := Ideal) v36 i = v36 i :=
  congrFun (k1_pay16_eq v36) i

/-- Payload 55 is its operand: a cast of 128x128 to itself. -/
theorem k1_pay55_eq (v223 : Vec Ideal S128x128 .bf16) : k1_pay55 (F := Ideal) v223 = v223 := shapeCast_self _ _
theorem k1_pay55_apply (v223 : Vec Ideal S128x128 .bf16) (i : S128x128.Idx) : k1_pay55 (F := Ideal) v223 i = v223 i :=
  congrFun (k1_pay55_eq v223) i

/-- Payload 56 is its operand: a cast of 2048x128 to itself. -/
theorem k1_pay56_eq (v227 : Vec Ideal S2048x128 .f32) : k1_pay56 (F := Ideal) v227 = v227 := shapeCast_self _ _
theorem k1_pay56_apply (v227 : Vec Ideal S2048x128 .f32) (i : S2048x128.Idx) : k1_pay56 (F := Ideal) v227 i = v227 i :=
  congrFun (k1_pay56_eq v227) i

/-- Payload 57 is its operand: a cast of 2048x8 to itself. -/
theorem k1_pay57_eq (v229 : Vec Ideal S2048x8 .f32) : k1_pay57 (F := Ideal) v229 = v229 := shapeCast_self _ _
theorem k1_pay57_apply (v229 : Vec Ideal S2048x8 .f32) (i : S2048x8.Idx) : k1_pay57 (F := Ideal) v229 i = v229 i :=
  congrFun (k1_pay57_eq v229) i

/-- Payload 58 is its operand: a cast of 256x128 to itself. -/
theorem k1_pay58_eq (v231 : Vec Ideal S256x128 .bf16) : k1_pay58 (F := Ideal) v231 = v231 := shapeCast_self _ _
theorem k1_pay58_apply (v231 : Vec Ideal S256x128 .bf16) (i : S256x128.Idx) : k1_pay58 (F := Ideal) v231 i = v231 i :=
  congrFun (k1_pay58_eq v231) i

/-! ## A plain matrix product into the zero accumulator, read at an entry -/

/-- The 512×64 by 64×128 product at entry (n, j): the sum over the 64 shared positions. -/
theorem mm64_apply {φ₁ φ₂ : FTy} (a : FVec Ideal S512x64 φ₁) (b : FVec Ideal S64x128 φ₂) (n : Fin 512) (j : Fin 128) :
    matmul dot_S512x64_S64x128_S512x128_1_0_0_1_n_n none a b (constant (F := Ideal) S512x128 .f32 0x00000000#32) (ix2 n j)
      = ∑ k : Fin 64, a (ix2 n k) * b (ix2 k j) := by
  show FloatOps.matmul _ none a b _ (ix2 n j) = _
  rw [Ideal.matmul_constant_zero_apply,
    ← Equiv.sum_comp (contrEquiv1 dot_S512x64_S64x128_S512x128_1_0_0_1_n_n 64 rfl rfl).symm]
  refine Finset.sum_congr rfl fun c _ => ?_
  have c2 := contrEquiv1_symm_val dot_S512x64_S64x128_S512x128_1_0_0_1_n_n 64 rfl rfl c
  have l2 : dot_S512x64_S64x128_S512x128_1_0_0_1_n_n.lhsIdx (ix2 n j) ((contrEquiv1 _ 64 rfl rfl).symm c) = ix2 n c := by
    funext ax; apply Fin.ext
    match ax with
    | ⟨0, _⟩ => simp [DotDims.lhsIdx, dot_S512x64_S64x128_S512x128_1_0_0_1_n_n]; rfl
    | ⟨1, _⟩ => simp [DotDims.lhsIdx, dot_S512x64_S64x128_S512x128_1_0_0_1_n_n]; exact c2
  have r2 : dot_S512x64_S64x128_S512x128_1_0_0_1_n_n.rhsIdx (ix2 n j) ((contrEquiv1 _ 64 rfl rfl).symm c) = ix2 c j := by
    funext ax; apply Fin.ext
    match ax with
    | ⟨0, _⟩ => simp [DotDims.rhsIdx, dot_S512x64_S64x128_S512x128_1_0_0_1_n_n]; exact c2
    | ⟨1, _⟩ => simp [DotDims.rhsIdx, dot_S512x64_S64x128_S512x128_1_0_0_1_n_n]; rfl
  rw [l2, r2]

/-- The 512×128 by 128×128 product at entry (n, j): the sum over the 128 shared positions. -/
theorem mm128_apply {φ₁ φ₂ : FTy} (a : FVec Ideal S512x128 φ₁) (b : FVec Ideal S128x128 φ₂) (n : Fin 512) (j : Fin 128) :
    matmul dot_S512x128_S128x128_S512x128_1_0_0_1_n_n none a b (constant (F := Ideal) S512x128 .f32 0x00000000#32) (ix2 n j)
      = ∑ k : Fin 128, a (ix2 n k) * b (ix2 k j) := by
  show FloatOps.matmul _ none a b _ (ix2 n j) = _
  rw [Ideal.matmul_constant_zero_apply,
    ← Equiv.sum_comp (contrEquiv1 dot_S512x128_S128x128_S512x128_1_0_0_1_n_n 128 rfl rfl).symm]
  refine Finset.sum_congr rfl fun c _ => ?_
  have c2 := contrEquiv1_symm_val dot_S512x128_S128x128_S512x128_1_0_0_1_n_n 128 rfl rfl c
  have l2 : dot_S512x128_S128x128_S512x128_1_0_0_1_n_n.lhsIdx (ix2 n j) ((contrEquiv1 _ 128 rfl rfl).symm c) = ix2 n c := by
    funext ax; apply Fin.ext
    match ax with
    | ⟨0, _⟩ => simp [DotDims.lhsIdx, dot_S512x128_S128x128_S512x128_1_0_0_1_n_n]; rfl
    | ⟨1, _⟩ => simp [DotDims.lhsIdx, dot_S512x128_S128x128_S512x128_1_0_0_1_n_n]; exact c2
  have r2 : dot_S512x128_S128x128_S512x128_1_0_0_1_n_n.rhsIdx (ix2 n j) ((contrEquiv1 _ 128 rfl rfl).symm c) = ix2 c j := by
    funext ax; apply Fin.ext
    match ax with
    | ⟨0, _⟩ => simp [DotDims.rhsIdx, dot_S512x128_S128x128_S512x128_1_0_0_1_n_n]; exact c2
    | ⟨1, _⟩ => simp [DotDims.rhsIdx, dot_S512x128_S128x128_S512x128_1_0_0_1_n_n]; rfl
  rw [l2, r2]

/-! ## Layer 1: the projections x · V of the eight batch elements, in f32 and narrowed -/

theorem k1_pay17_apply (v6 : FVec Ideal S512x64 .bf16) (v28 : Vec Ideal S64x128 .bf16) (n : Fin 512) (j : Fin 128) :
    k1_pay17 (F := Ideal) v6 v28 (ix2 n j) = ∑ k : Fin 64, v6 (ix2 n k) * v28 (ix2 k j) := by
  unfold k1_pay17
  refine (mm64_apply v6 (k1_pay14 v28) n j).trans ?_
  rw [k1_pay14_eq]

theorem k1_pay18_apply (v9 : FVec Ideal S512x64 .bf16) (v28 : Vec Ideal S64x128 .bf16) (n : Fin 512) (j : Fin 128) :
    k1_pay18 (F := Ideal) v9 v28 (ix2 n j) = ∑ k : Fin 64, v9 (ix2 n k) * v28 (ix2 k j) := by
  unfold k1_pay18
  refine (mm64_apply v9 (k1_pay14 v28) n j).trans ?_
  rw [k1_pay14_eq]

theorem k1_pay19_apply (v12 : FVec Ideal S512x64 .bf16) (v28 : Vec Ideal S64x128 .bf16) (n : Fin 512) (j : Fin 128) :
    k1_pay19 (F := Ideal) v12 v28 (ix2 n j) = ∑ k : Fin 64, v12 (ix2 n k) * v28 (ix2 k j) := by
  unfold k1_pay19
  refine (mm64_apply v12 (k1_pay14 v28) n j).trans ?_
  rw [k1_pay14_eq]

theorem k1_pay20_apply (v15 : FVec Ideal S512x64 .bf16) (v28 : Vec Ideal S64x128 .bf16) (n : Fin 512) (j : Fin 128) :
    k1_pay20 (F := Ideal) v15 v28 (ix2 n j) = ∑ k : Fin 64, v15 (ix2 n k) * v28 (ix2 k j) := by
  unfold k1_pay20
  refine (mm64_apply v15 (k1_pay14 v28) n j).trans ?_
  rw [k1_pay14_eq]

theorem k1_pay21_apply (v18 : FVec Ideal S512x64 .bf16) (v28 : Vec Ideal S64x128 .bf16) (n : Fin 512) (j : Fin 128) :
    k1_pay21 (F := Ideal) v18 v28 (ix2 n j) = ∑ k : Fin 64, v18 (ix2 n k) * v28 (ix2 k j) := by
  unfold k1_pay21
  refine (mm64_apply v18 (k1_pay14 v28) n j).trans ?_
  rw [k1_pay14_eq]

theorem k1_pay22_apply (v21 : FVec Ideal S512x64 .bf16) (v28 : Vec Ideal S64x128 .bf16) (n : Fin 512) (j : Fin 128) :
    k1_pay22 (F := Ideal) v21 v28 (ix2 n j) = ∑ k : Fin 64, v21 (ix2 n k) * v28 (ix2 k j) := by
  unfold k1_pay22
  refine (mm64_apply v21 (k1_pay14 v28) n j).trans ?_
  rw [k1_pay14_eq]

theorem k1_pay23_apply (v24 : FVec Ideal S512x64 .bf16) (v28 : Vec Ideal S64x128 .bf16) (n : Fin 512) (j : Fin 128) :
    k1_pay23 (F := Ideal) v24 v28 (ix2 n j) = ∑ k : Fin 64, v24 (ix2 n k) * v28 (ix2 k j) := by
  unfold k1_pay23
  refine (mm64_apply v24 (k1_pay14 v28) n j).trans ?_
  rw [k1_pay14_eq]

theorem k1_pay24_apply (v27 : FVec Ideal S512x64 .bf16) (v28 : Vec Ideal S64x128 .bf16) (n : Fin 512) (j : Fin 128) :
    k1_pay24 (F := Ideal) v27 v28 (ix2 n j) = ∑ k : Fin 64, v27 (ix2 n k) * v28 (ix2 k j) := by
  unfold k1_pay24
  refine (mm64_apply v27 (k1_pay14 v28) n j).trans ?_
  rw [k1_pay14_eq]

theorem k1_pay25_apply (v6 : FVec Ideal S512x64 .bf16) (v28 : Vec Ideal S64x128 .bf16) (n : Fin 512) (j : Fin 128) :
    k1_pay25 (F := Ideal) v6 v28 (ix2 n j) = ∑ k : Fin 64, v6 (ix2 n k) * v28 (ix2 k j) := by
  unfold k1_pay25
  exact k1_pay17_apply v6 v28 n j

theorem k1_pay26_apply (v9 : FVec Ideal S512x64 .bf16) (v28 : Vec Ideal S64x128 .bf16) (n : Fin 512) (j : Fin 128) :
    k1_pay26 (F := Ideal) v9 v28 (ix2 n j) = ∑ k : Fin 64, v9 (ix2 n k) * v28 (ix2 k j) := by
  unfold k1_pay26
  exact k1_pay18_apply v9 v28 n j

theorem k1_pay27_apply (v12 : FVec Ideal S512x64 .bf16) (v28 : Vec Ideal S64x128 .bf16) (n : Fin 512) (j : Fin 128) :
    k1_pay27 (F := Ideal) v12 v28 (ix2 n j) = ∑ k : Fin 64, v12 (ix2 n k) * v28 (ix2 k j) := by
  unfold k1_pay27
  exact k1_pay19_apply v12 v28 n j

theorem k1_pay28_apply (v15 : FVec Ideal S512x64 .bf16) (v28 : Vec Ideal S64x128 .bf16) (n : Fin 512) (j : Fin 128) :
    k1_pay28 (F := Ideal) v15 v28 (ix2 n j) = ∑ k : Fin 64, v15 (ix2 n k) * v28 (ix2 k j) := by
  unfold k1_pay28
  exact k1_pay20_apply v15 v28 n j

theorem k1_pay29_apply (v18 : FVec Ideal S512x64 .bf16) (v28 : Vec Ideal S64x128 .bf16) (n : Fin 512) (j : Fin 128) :
    k1_pay29 (F := Ideal) v18 v28 (ix2 n j) = ∑ k : Fin 64, v18 (ix2 n k) * v28 (ix2 k j) := by
  unfold k1_pay29
  exact k1_pay21_apply v18 v28 n j

theorem k1_pay30_apply (v21 : FVec Ideal S512x64 .bf16) (v28 : Vec Ideal S64x128 .bf16) (n : Fin 512) (j : Fin 128) :
    k1_pay30 (F := Ideal) v21 v28 (ix2 n j) = ∑ k : Fin 64, v21 (ix2 n k) * v28 (ix2 k j) := by
  unfold k1_pay30
  exact k1_pay22_apply v21 v28 n j

theorem k1_pay31_apply (v24 : FVec Ideal S512x64 .bf16) (v28 : Vec Ideal S64x128 .bf16) (n : Fin 512) (j : Fin 128) :
    k1_pay31 (F := Ideal) v24 v28 (ix2 n j) = ∑ k : Fin 64, v24 (ix2 n k) * v28 (ix2 k j) := by
  unfold k1_pay31
  exact k1_pay23_apply v24 v28 n j

theorem k1_pay32_apply (v27 : FVec Ideal S512x64 .bf16) (v28 : Vec Ideal S64x128 .bf16) (n : Fin 512) (j : Fin 128) :
    k1_pay32 (F := Ideal) v27 v28 (ix2 n j) = ∑ k : Fin 64, v27 (ix2 n k) * v28 (ix2 k j) := by
  unfold k1_pay32
  exact k1_pay24_apply v27 v28 n j

/-! ## Layer 2: the same over the 128 channels of the rectified layer-1 result -/

theorem k1_pay59_apply (v194 : FVec Ideal S512x128 .bf16) (v223 : Vec Ideal S128x128 .bf16) (n : Fin 512) (j : Fin 128) :
    k1_pay59 (F := Ideal) v194 v223 (ix2 n j) = ∑ k : Fin 128, v194 (ix2 n k) * v223 (ix2 k j) := by
  unfold k1_pay59
  refine (mm128_apply v194 (k1_pay55 v223) n j).trans ?_
  rw [k1_pay55_eq]

theorem k1_pay60_apply (v198 : FVec Ideal S512x128 .bf16) (v223 : Vec Ideal S128x128 .bf16) (n : Fin 512) (j : Fin 128) :
    k1_pay60 (F := Ideal) v198 v223 (ix2 n j) = ∑ k : Fin 128, v198 (ix2 n k) * v223 (ix2 k j) := by
  unfold k1_pay60
  refine (mm128_apply v198 (k1_pay55 v223) n j).trans ?_
  rw [k1_pay55_eq]

theorem k1_pay61_apply (v202 : FVec Ideal S512x128 .bf16) (v223 : Vec Ideal S128x128 .bf16) (n : Fin 512) (j : Fin 128) :
    k1_pay61 (F := Ideal) v202 v223 (ix2 n j) = ∑ k : Fin 128, v202 (ix2 n k) * v223 (ix2 k j) := by
  unfold k1_pay61
  refine (mm128_apply v202 (k1_pay55 v223) n j).trans ?_
  rw [k1_pay55_eq]

theorem k1_pay62_apply (v206 : FVec Ideal S512x128 .bf16) (v223 : Vec Ideal S128x128 .bf16) (n : Fin 512) (j : Fin 128) :
    k1_pay62 (F := Ideal) v206 v223 (ix2 n j) = ∑ k : Fin 128, v206 (ix2 n k) * v223 (ix2 k j) := by
  unfold k1_pay62
  refine (mm128_apply v206 (k1_pay55 v223) n j).trans ?_
  rw [k1_pay55_eq]

theorem k1_pay63_apply (v210 : FVec Ideal S512x128 .bf16) (v223 : Vec Ideal S128x128 .bf16) (n : Fin 512) (j : Fin 128) :
    k1_pay63 (F := Ideal) v210 v223 (ix2 n j) = ∑ k : Fin 128, v210 (ix2 n k) * v223 (ix2 k j) := by
  unfold k1_pay63
  refine (mm128_apply v210 (k1_pay55 v223) n j).trans ?_
  rw [k1_pay55_eq]

theorem k1_pay64_apply (v214 : FVec Ideal S512x128 .bf16) (v223 : Vec Ideal S128x128 .bf16) (n : Fin 512) (j : Fin 128) :
    k1_pay64 (F := Ideal) v214 v223 (ix2 n j) = ∑ k : Fin 128, v214 (ix2 n k) * v223 (ix2 k j) := by
  unfold k1_pay64
  refine (mm128_apply v214 (k1_pay55 v223) n j).trans ?_
  rw [k1_pay55_eq]

theorem k1_pay65_apply (v218 : FVec Ideal S512x128 .bf16) (v223 : Vec Ideal S128x128 .bf16) (n : Fin 512) (j : Fin 128) :
    k1_pay65 (F := Ideal) v218 v223 (ix2 n j) = ∑ k : Fin 128, v218 (ix2 n k) * v223 (ix2 k j) := by
  unfold k1_pay65
  refine (mm128_apply v218 (k1_pay55 v223) n j).trans ?_
  rw [k1_pay55_eq]

theorem k1_pay66_apply (v222 : FVec Ideal S512x128 .bf16) (v223 : Vec Ideal S128x128 .bf16) (n : Fin 512) (j : Fin 128) :
    k1_pay66 (F := Ideal) v222 v223 (ix2 n j) = ∑ k : Fin 128, v222 (ix2 n k) * v223 (ix2 k j) := by
  unfold k1_pay66
  refine (mm128_apply v222 (k1_pay55 v223) n j).trans ?_
  rw [k1_pay55_eq]

theorem k1_pay67_apply (v194 : FVec Ideal S512x128 .bf16) (v223 : Vec Ideal S128x128 .bf16) (n : Fin 512) (j : Fin 128) :
    k1_pay67 (F := Ideal) v194 v223 (ix2 n j) = ∑ k : Fin 128, v194 (ix2 n k) * v223 (ix2 k j) := by
  unfold k1_pay67
  exact k1_pay59_apply v194 v223 n j

theorem k1_pay68_apply (v198 : FVec Ideal S512x128 .bf16) (v223 : Vec Ideal S128x128 .bf16) (n : Fin 512) (j : Fin 128) :
    k1_pay68 (F := Ideal) v198 v223 (ix2 n j) = ∑ k : Fin 128, v198 (ix2 n k) * v223 (ix2 k j) := by
  unfold k1_pay68
  exact k1_pay60_apply v198 v223 n j

theorem k1_pay69_apply (v202 : FVec Ideal S512x128 .bf16) (v223 : Vec Ideal S128x128 .bf16) (n : Fin 512) (j : Fin 128) :
    k1_pay69 (F := Ideal) v202 v223 (ix2 n j) = ∑ k : Fin 128, v202 (ix2 n k) * v223 (ix2 k j) := by
  unfold k1_pay69
  exact k1_pay61_apply v202 v223 n j

theorem k1_pay70_apply (v206 : FVec Ideal S512x128 .bf16) (v223 : Vec Ideal S128x128 .bf16) (n : Fin 512) (j : Fin 128) :
    k1_pay70 (F := Ideal) v206 v223 (ix2 n j) = ∑ k : Fin 128, v206 (ix2 n k) * v223 (ix2 k j) := by
  unfold k1_pay70
  exact k1_pay62_apply v206 v223 n j

theorem k1_pay71_apply (v210 : FVec Ideal S512x128 .bf16) (v223 : Vec Ideal S128x128 .bf16) (n : Fin 512) (j : Fin 128) :
    k1_pay71 (F := Ideal) v210 v223 (ix2 n j) = ∑ k : Fin 128, v210 (ix2 n k) * v223 (ix2 k j) := by
  unfold k1_pay71
  exact k1_pay63_apply v210 v223 n j

theorem k1_pay72_apply (v214 : FVec Ideal S512x128 .bf16) (v223 : Vec Ideal S128x128 .bf16) (n : Fin 512) (j : Fin 128) :
    k1_pay72 (F := Ideal) v214 v223 (ix2 n j) = ∑ k : Fin 128, v214 (ix2 n k) * v223 (ix2 k j) := by
  unfold k1_pay72
  exact k1_pay64_apply v214 v223 n j

theorem k1_pay73_apply (v218 : FVec Ideal S512x128 .bf16) (v223 : Vec Ideal S128x128 .bf16) (n : Fin 512) (j : Fin 128) :
    k1_pay73 (F := Ideal) v218 v223 (ix2 n j) = ∑ k : Fin 128, v218 (ix2 n k) * v223 (ix2 k j) := by
  unfold k1_pay73
  exact k1_pay65_apply v218 v223 n j

theorem k1_pay74_apply (v222 : FVec Ideal S512x128 .bf16) (v223 : Vec Ideal S128x128 .bf16) (n : Fin 512) (j : Fin 128) :
    k1_pay74 (F := Ideal) v222 v223 (ix2 n j) = ∑ k : Fin 128, v222 (ix2 n k) * v223 (ix2 k j) := by
  unfold k1_pay74
  exact k1_pay66_apply v222 v223 n j

end Cert.KernelIdeal.KPay

end
-- ==== Proof.KPayLight2.lean ====
/-
  The light payloads of the lane-packed program's main body, read at an entry (part 2): the loaded input blocks with
  their leading unit axis dropped, the residual additions that close each layer, the slice of one batch element's
  lanes out of the packed row, the rectifier between the layers in its maximum form, and the per-element results
  with a leading unit axis added for the store.
-/
import proofs.«130875_g2000201574592089_pallasbulk_874_11_alg».proof.Proof.Gen.KernelIdeal.Skeleton
import proofs.«130875_g2000201574592089_pallasbulk_874_11_alg».proof.Proof.KDefs
import proofs.«130875_g2000201574592089_pallasbulk_874_11_alg».proof.Proof.LibEgnn
import Idealize.ShloMosaic.Lib.ValueIdx
import Idealize.ShloMosaic.Lib.ValueLayout
import Idealize.ShloMosaic.PureOps.Ideal.Laws

noncomputable section

namespace Cert.KernelIdeal.KPay

open Cert.KernelIdeal Cert.KernelIdeal.Gen Idealize.ShloMosaic Idealize.SL.Sem Idealize.ShloMosaic.ValueIdx

/-! ## An input block [1, 512, 64] as the matrix [512, 64] (the narrowing of the format changes no value) -/

theorem k1_pay6_apply (v4 : Vec Ideal S1x512x64 .f32) (n : Fin 512) (k : Fin 64) :
    k1_pay6 (F := Ideal) v4 (ix2 n k) = v4 (ix3 (0 : Fin 1) n k) := by
  unfold k1_pay6
  exact shapeCast_1ab_ab_apply v4 _ n k

theorem k1_pay7_apply (v7 : Vec Ideal S1x512x64 .f32) (n : Fin 512) (k : Fin 64) :
    k1_pay7 (F := Ideal) v7 (ix2 n k) = v7 (ix3 (0 : Fin 1) n k) := by
  unfold k1_pay7
  exact shapeCast_1ab_ab_apply v7 _ n k

theorem k1_pay8_apply (v10 : Vec Ideal S1x512x64 .f32) (n : Fin 512) (k : Fin 64) :
    k1_pay8 (F := Ideal) v10 (ix2 n k) = v10 (ix3 (0 : Fin 1) n k) := by
  unfold k1_pay8
  exact shapeCast_1ab_ab_apply v10 _ n k

theorem k1_pay9_apply (v13 : Vec Ideal S1x512x64 .f32) (n : Fin 512) (k : Fin 64) :
    k1_pay9 (F := Ideal) v13 (ix2 n k) = v13 (ix3 (0 : Fin 1) n k) := by
  unfold k1_pay9
  exact shapeCast_1ab_ab_apply v13 _ n k

theorem k1_pay10_apply (v16 : Vec Ideal S1x512x64 .f32) (n : Fin 512) (k : Fin 64) :
    k1_pay10 (F := Ideal) v16 (ix2 n k) = v16 (ix3 (0 : Fin 1) n k) := by
  unfold k1_pay10
  exact shapeCast_1ab_ab_apply v16 _ n k

theorem k1_pay11_apply (v19 : Vec Ideal S1x512x64 .f32) (n : Fin 512) (k : Fin 64) :
    k1_pay11 (F := Ideal) v19 (ix2 n k) = v19 (ix3 (0 : Fin 1) n k) := by
  unfold k1_pay11
  exact shapeCast_1ab_ab_apply v19 _ n k

theorem k1_pay12_apply (v22 : Vec Ideal S1x512x64 .f32) (n : Fin 512) (k : Fin 64) :
    k1_pay12 (F := Ideal) v22 (ix2 n k) = v22 (ix3 (0 : Fin 1) n k) := by
  unfold k1_pay12
  exact shapeCast_1ab_ab_apply v22 _ n k

theorem k1_pay13_apply (v25 : Vec Ideal S1x512x64 .f32) (n : Fin 512) (k : Fin 64) :
    k1_pay13 (F := Ideal) v25 (ix2 n k) = v25 (ix3 (0 : Fin 1) n k) := by
  unfold k1_pay13
  exact shapeCast_1ab_ab_apply v25 _ n k

/-! ## The residual additions -/

/-- Layer 1's result for batch element 0: the projection plus the update clipped below at the constant. -/
theorem k1_pay40_apply (v39 v124 : FVec Ideal S512x128 .f32) (cst : Ideal .f32) (n : Fin 512) (j : Fin 128) :
    k1_pay40 (F := Ideal) v39 v124 cst (ix2 n j) = v39 (ix2 n j) + max (v124 (ix2 n j)) cst := rfl

/-- Layer 2's result for batch element 0: the projection plus the update (with its bias row added) clipped below at 0. -/
theorem k1_pay82_apply (v233 : Vec Ideal S1x128 .f32) (v234 v317 : FVec Ideal S512x128 .f32) (n : Fin 512) (j : Fin 128) :
    k1_pay82 (F := Ideal) v233 v234 v317 (ix2 n j)
      = v234 (ix2 n j) + max (v317 (ix2 n j) + v233 (ix2 (0 : Fin 1) j)) 0 := by
  unfold k1_pay82
  show v234 (ix2 n j) + max (v317 (ix2 n j) + broadcastTo S512x128 v233 _ (ix2 n j)) (Ideal.ofBits .f32 0x00000000#32) = _
  rw [broadcastTo_1b_ab_apply v233 _ n j, Ideal.ofBits_zero_f32]

/-- Layer 2's result for batch element 5: the projection plus the clipped update computed before it. -/
theorem k1_pay88_apply (v239 v366 : FVec Ideal S512x128 .f32) (n : Fin 512) (j : Fin 128) :
    k1_pay88 (F := Ideal) v239 v366 (ix2 n j) = v239 (ix2 n j) + v366 (ix2 n j) := rfl

/-! ## Batch element 6's lanes of the packed row -/

theorem k1_pay46_apply (v118 : FVec Ideal S512x1024 .f32) (n : Fin 512) (c : Fin 128) :
    k1_pay46 (F := Ideal) v118 (ix2 n c) = v118 (ix2 n (KValue.lane 6 c)) := by
  unfold k1_pay46
  exact slice2_axis1_apply 768 v118 slices_S512x1024_o0_768_S512x128 n c (KValue.lane 6 c) rfl

/-! ## The rectifier between the layers, as the program computes it: max(y, slope · y) -/

theorem k1_pay47_apply (v127 : FVec Ideal S512x128 .f32) (n : Fin 512) (j : Fin 128) :
    k1_pay47 (F := Ideal) v127 (ix2 n j)
      = max (v127 (ix2 n j)) (Ideal.ofBits .f32 0x3C23D70A#32 * v127 (ix2 n j)) := rfl

theorem k1_pay48_apply (v136 : FVec Ideal S512x128 .f32) (n : Fin 512) (j : Fin 128) :
    k1_pay48 (F := Ideal) v136 (ix2 n j)
      = max (v136 (ix2 n j)) (Ideal.ofBits .f32 0x3C23D70A#32 * v136 (ix2 n j)) := rfl

theorem k1_pay49_apply (v145 : FVec Ideal S512x128 .f32) (n : Fin 512) (j : Fin 128) :
    k1_pay49 (F := Ideal) v145 (ix2 n j)
      = max (v145 (ix2 n j)) (Ideal.ofBits .f32 0x3C23D70A#32 * v145 (ix2 n j)) := rfl

theorem k1_pay50_apply (v154 : FVec Ideal S512x128 .f32) (n : Fin 512) (j : Fin 128) :
    k1_pay50 (F := Ideal) v154 (ix2 n j)
      = max (v154 (ix2 n j)) (Ideal.ofBits .f32 0x3C23D70A#32 * v154 (ix2 n j)) := rfl

theorem k1_pay51_apply (v163 : FVec Ideal S512x128 .f32) (n : Fin 512) (j : Fin 128) :
    k1_pay51 (F := Ideal) v163 (ix2 n j)
      = max (v163 (ix2 n j)) (Ideal.ofBits .f32 0x3C23D70A#32 * v163 (ix2 n j)) := rfl

theorem k1_pay52_apply (v172 : FVec Ideal S512x128 .f32) (n : Fin 512) (j : Fin 128) :
    k1_pay52 (F := Ideal) v172 (ix2 n j)
      = max (v172 (ix2 n j)) (Ideal.ofBits .f32 0x3C23D70A#32 * v172 (ix2 n j)) := rfl

/-! ## A per-element result [512, 128] as the block [1, 512, 128] that is stored -/

theorem k1_pay1_apply (v367 : FVec Ideal S512x128 .f32) (n : Fin 512) (j : Fin 128) :
    k1_pay1 (F := Ideal) v367 (ix3 (0 : Fin 1) n j) = v367 (ix2 n j) := by
  unfold k1_pay1
  exact shapeCast_ab_1ab_apply v367 _ 0 n j

theorem k1_pay2_apply (v376 : FVec Ideal S512x128 .f32) (n : Fin 512) (j : Fin 128) :
    k1_pay2 (F := Ideal) v376 (ix3 (0 : Fin 1) n j) = v376 (ix2 n j) := by
  unfold k1_pay2
  exact shapeCast_ab_1ab_apply v376 _ 0 n j

theorem k1_pay3_apply (v385 : FVec Ideal S512x128 .f32) (n : Fin 512) (j : Fin 128) :
    k1_pay3 (F := Ideal) v385 (ix3 (0 : Fin 1) n j) = v385 (ix2 n j) := by
  unfold k1_pay3
  exact shapeCast_ab_1ab_apply v385 _ 0 n j

theorem k1_pay91_apply (v322 : FVec Ideal S512x128 .f32) (n : Fin 512) (j : Fin 128) :
    k1_pay91 (F := Ideal) v322 (ix3 (0 : Fin 1) n j) = v322 (ix2 n j) := by
  unfold k1_pay91
  exact shapeCast_ab_1ab_apply v322 _ 0 n j

theorem k1_pay92_apply (v331 : FVec Ideal S512x128 .f32) (n : Fin 512) (j : Fin 128) :
    k1_pay92 (F := Ideal) v331 (ix3 (0 : Fin 1) n j) = v331 (ix2 n j) := by
  unfold k1_pay92
  exact shapeCast_ab_1ab_apply v331 _ 0 n j

theorem k1_pay93_apply (v340 : FVec Ideal S512x128 .f32) (n : Fin 512) (j : Fin 128) :
    k1_pay93 (F := Ideal) v340 (ix3 (0 : Fin 1) n j) = v340 (ix2 n j) := by
  unfold k1_pay93
  exact shapeCast_ab_1ab_apply v340 _ 0 n j

theorem k1_pay94_apply (v349 : FVec Ideal S512x128 .f32) (n : Fin 512) (j : Fin 128) :
    k1_pay94 (F := Ideal) v349 (ix3 (0 : Fin 1) n j) = v349 (ix2 n j) := by
  unfold k1_pay94
  exact shapeCast_ab_1ab_apply v349 _ 0 n j

theorem k1_pay95_apply (v358 : FVec Ideal S512x128 .f32) (n : Fin 512) (j : Fin 128) :
    k1_pay95 (F := Ideal) v358 (ix3 (0 : Fin 1) n j) = v358 (ix2 n j) := by
  unfold k1_pay95
  exact shapeCast_ab_1ab_apply v358 _ 0 n j

end Cert.KernelIdeal.KPay

end
-- ==== Proof.KChainA.lean ====
/-
  The first links of the body's chain: slab `b` of the feature block is batch element `b`'s features, and its
  product with the layer-1 projection weight (in both of its float formats) is that element's projected features.
-/
import proofs.«130875_g2000201574592089_pallasbulk_874_11_alg».proof.Proof.KLoads
import proofs.«130875_g2000201574592089_pallasbulk_874_11_alg».proof.Proof.KMath
import proofs.«130875_g2000201574592089_pallasbulk_874_11_alg».proof.Proof.KPayLight1
import proofs.«130875_g2000201574592089_pallasbulk_874_11_alg».proof.Proof.KPayLight2

set_option maxRecDepth 16384

noncomputable section

namespace Cert.KernelIdeal.KBody

open Cert.KernelIdeal Cert.KernelIdeal.Gen Cert.KernelIdeal.KValue Cert.KernelIdeal.KPay
open Idealize.ShloMosaic Idealize.ShloMosaic.ValueIdx

variable (X : Blocks)

theorem N6_apply (n : Fin 512) (k : Fin 64) : N6 X (ix2 n k) = feat X 0 n k :=
  (k1_pay6_apply (L0_1 X) n k).trans (L0_1_apply X n k)

theorem N7_apply (n : Fin 512) (k : Fin 64) : N7 X (ix2 n k) = feat X 1 n k :=
  (k1_pay7_apply (L0_2 X) n k).trans (L0_2_apply X n k)

theorem N8_apply (n : Fin 512) (k : Fin 64) : N8 X (ix2 n k) = feat X 2 n k :=
  (k1_pay8_apply (L0_3 X) n k).trans (L0_3_apply X n k)

theorem N9_apply (n : Fin 512) (k : Fin 64) : N9 X (ix2 n k) = feat X 3 n k :=
  (k1_pay9_apply (L0_4 X) n k).trans (L0_4_apply X n k)

theorem N10_apply (n : Fin 512) (k : Fin 64) : N10 X (ix2 n k) = feat X 4 n k :=
  (k1_pay10_apply (L0_5 X) n k).trans (L0_5_apply X n k)

theorem N11_apply (n : Fin 512) (k : Fin 64) : N11 X (ix2 n k) = feat X 5 n k :=
  (k1_pay11_apply (L0_6 X) n k).trans (L0_6_apply X n k)

theorem N12_apply (n : Fin 512) (k : Fin 64) : N12 X (ix2 n k) = feat X 6 n k :=
  (k1_pay12_apply (L0_7 X) n k).trans (L0_7_apply X n k)

theorem N13_apply (n : Fin 512) (k : Fin 64) : N13 X (ix2 n k) = feat X 7 n k :=
  (k1_pay13_apply (L0_8 X) n k).trans (L0_8_apply X n k)

theorem N17_apply (n : Fin 512) (c : Fin 128) : N17 X (ix2 n c) = xv1 X 0 n c := by
  refine (k1_pay17_apply (N6 X) (L7_9 X) n c).trans ?_
  unfold xv1 Egnn.mm V1
  refine Finset.sum_congr rfl fun k _ => ?_
  rw [N6_apply, L7_9_eq]

theorem N25_apply (n : Fin 512) (c : Fin 128) : N25 X (ix2 n c) = xv1 X 0 n c := by
  refine (k1_pay25_apply (N6 X) (L7_9 X) n c).trans ?_
  unfold xv1 Egnn.mm V1
  refine Finset.sum_congr rfl fun k _ => ?_
  rw [N6_apply, L7_9_eq]

theorem N18_apply (n : Fin 512) (c : Fin 128) : N18 X (ix2 n c) = xv1 X 1 n c := by
  refine (k1_pay18_apply (N7 X) (L7_9 X) n c).trans ?_
  unfold xv1 Egnn.mm V1
  refine Finset.sum_congr rfl fun k _ => ?_
  rw [N7_apply, L7_9_eq]

theorem N26_apply (n : Fin 512) (c : Fin 128) : N26 X (ix2 n c) = xv1 X 1 n c := by
  refine (k1_pay26_apply (N7 X) (L7_9 X) n c).trans ?_
  unfold xv1 Egnn.mm V1
  refine Finset.sum_congr rfl fun k _ => ?_
  rw [N7_apply, L7_9_eq]

theorem N19_apply (n : Fin 512) (c : Fin 128) : N19 X (ix2 n c) = xv1 X 2 n c := by
  refine (k1_pay19_apply (N8 X) (L7_9 X) n c).trans ?_
  unfold xv1 Egnn.mm V1
  refine Finset.sum_congr rfl fun k _ => ?_
  rw [N8_apply, L7_9_eq]

theorem N27_apply (n : Fin 512) (c : Fin 128) : N27 X (ix2 n c) = xv1 X 2 n c := by
  refine (k1_pay27_apply (N8 X) (L7_9 X) n c).trans ?_
  unfold xv1 Egnn.mm V1
  refine Finset.sum_congr rfl fun k _ => ?_
  rw [N8_apply, L7_9_eq]

theorem N20_apply (n : Fin 512) (c : Fin 128) : N20 X (ix2 n c) = xv1 X 3 n c := by
  refine (k1_pay20_apply (N9 X) (L7_9 X) n c).trans ?_
  unfold xv1 Egnn.mm V1
  refine Finset.sum_congr rfl fun k _ => ?_
  rw [N9_apply, L7_9_eq]

theorem N28_apply (n : Fin 512) (c : Fin 128) : N28 X (ix2 n c) = xv1 X 3 n c := by
  refine (k1_pay28_apply (N9 X) (L7_9 X) n c).trans ?_
  unfold xv1 Egnn.mm V1
  refine Finset.sum_congr rfl fun k _ => ?_
  rw [N9_apply, L7_9_eq]

theorem N21_apply (n : Fin 512) (c : Fin 128) : N21 X (ix2 n c) = xv1 X 4 n c := by
  refine (k1_pay21_apply (N10 X) (L7_9 X) n c).trans ?_
  unfold xv1 Egnn.mm V1
  refine Finset.sum_congr rfl fun k _ => ?_
  rw [N10_apply, L7_9_eq]

theorem N29_apply (n : Fin 512) (c : Fin 128) : N29 X (ix2 n c) = xv1 X 4 n c := by
  refine (k1_pay29_apply (N10 X) (L7_9 X) n c).trans ?_
  unfold xv1 Egnn.mm V1
  refine Finset.sum_congr rfl fun k _ => ?_
  rw [N10_apply, L7_9_eq]

theorem N22_apply (n : Fin 512) (c : Fin 128) : N22 X (ix2 n c) = xv1 X 5 n c := by
  refine (k1_pay22_apply (N11 X) (L7_9 X) n c).trans ?_
  unfold xv1 Egnn.mm V1
  refine Finset.sum_congr rfl fun k _ => ?_
  rw [N11_apply, L7_9_eq]

theorem N30_apply (n : Fin 512) (c : Fin 128) : N30 X (ix2 n c) = xv1 X 5 n c := by
  refine (k1_pay30_apply (N11 X) (L7_9 X) n c).trans ?_
  unfold xv1 Egnn.mm V1
  refine Finset.sum_congr rfl fun k _ => ?_
  rw [N11_apply, L7_9_eq]

theorem N23_apply (n : Fin 512) (c : Fin 128) : N23 X (ix2 n c) = xv1 X 6 n c := by
  refine (k1_pay23_apply (N12 X) (L7_9 X) n c).trans ?_
  unfold xv1 Egnn.mm V1
  refine Finset.sum_congr rfl fun k _ => ?_
  rw [N12_apply, L7_9_eq]

theorem N31_apply (n : Fin 512) (c : Fin 128) : N31 X (ix2 n c) = xv1 X 6 n c := by
  refine (k1_pay31_apply (N12 X) (L7_9 X) n c).trans ?_
  unfold xv1 Egnn.mm V1
  refine Finset.sum_congr rfl fun k _ => ?_
  rw [N12_apply, L7_9_eq]

theorem N24_apply (n : Fin 512) (c : Fin 128) : N24 X (ix2 n c) = xv1 X 7 n c := by
  refine (k1_pay24_apply (N13 X) (L7_9 X) n c).trans ?_
  unfold xv1 Egnn.mm V1
  refine Finset.sum_congr rfl fun k _ => ?_
  rw [N13_apply, L7_9_eq]

theorem N32_apply (n : Fin 512) (c : Fin 128) : N32 X (ix2 n c) = xv1 X 7 n c := by
  refine (k1_pay32_apply (N13 X) (L7_9 X) n c).trans ?_
  unfold xv1 Egnn.mm V1
  refine Finset.sum_congr rfl fun k _ => ?_
  rw [N13_apply, L7_9_eq]

/-- The identity casts of whole loaded blocks. -/
theorem N4_eq : N4 X = X.x1 := (k1_pay4_eq _).trans (L1_0_eq X)
theorem N5_eq : N5 X = X.x2 := (k1_pay5_eq _).trans (L2_0_eq X)
theorem N15_eq : N15 X = X.x3 := (k1_pay15_eq _).trans (L3_11_eq X)
theorem N16_eq : N16 X = X.x9 := (k1_pay16_eq _).trans (L9_13_eq X)
theorem N56_eq : N56 X = X.x5 := (k1_pay56_eq _).trans (L5_11_eq X)
theorem N57_eq : N57 X = X.x6 := (k1_pay57_eq _).trans (L6_12_eq X)
theorem N58_eq : N58 X = X.x13 := (k1_pay58_eq _).trans (L13_13_eq X)

end Cert.KernelIdeal.KBody

end
-- ==== Proof.KPayLib.lean ====
/-
  Reading the layout and contraction operations of the lane-packed program at an index: an eight-block and a
  two-block concatenation along lanes, a lane slab, and a matrix product into the zero accumulator as a plain sum
  over the contracted coordinate.
-/
import proofs.«130875_g2000201574592089_pallasbulk_874_11_alg».proof.Proof.KDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Idealize.ShloMosaic Idealize.ShloMosaic.ValueIdx

/-! ## Matrix products into the zero accumulator -/

/-- Rows by columns: entry (a, b) of an M×K by K×N product is the sum over the shared coordinate. -/
theorem matmul_plain_apply {M K N : ℕ} {φ₁ φ₂ : FTy}
    (w : DotDims.WF ⟨2, ![M, K]⟩ ⟨2, ![K, N]⟩ ⟨2, ![M, N]⟩ [1] [0] [0] [1] [] [])
    (lhs : FVec Ideal ⟨2, ![M, K]⟩ φ₁) (rhs : FVec Ideal ⟨2, ![K, N]⟩ φ₂) (a : Fin M) (b : Fin N) :
    matmul (⟨[1], [0], [0], [1], [], [], w⟩ : DotDims _ _ _) none lhs rhs
        (constant (F := Ideal) ⟨2, ![M, N]⟩ .f32 0x00000000#32) (ix2 a b)
      = ∑ c : Fin K, lhs (ix2 a c) * rhs (ix2 c b) := by
  refine (Ideal.matmul_constant_zero_apply _ none lhs rhs (ix2 a b)).trans ?_
  rw [← Equiv.sum_comp (contrEquiv1 (⟨[1], [0], [0], [1], [], [], w⟩ : DotDims _ _ _) K rfl rfl).symm]
  refine Finset.sum_congr rfl fun c _ => ?_
  have c2 := contrEquiv1_symm_val (⟨[1], [0], [0], [1], [], [], w⟩ : DotDims _ _ _) K rfl rfl c
  have l2 : (⟨[1], [0], [0], [1], [], [], w⟩ : DotDims _ _ _).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims _ _ _).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Both operands contracted on their first axis: entry (a, b) of (K×M)ᵀ by K×N is the sum over the shared rows. -/
theorem matmul_tlhs_apply {M K N : ℕ} {φ₁ φ₂ : FTy}
    (w : DotDims.WF ⟨2, ![K, M]⟩ ⟨2, ![K, N]⟩ ⟨2, ![M, N]⟩ [0] [0] [1] [1] [] [])
    (lhs : FVec Ideal ⟨2, ![K, M]⟩ φ₁) (rhs : FVec Ideal ⟨2, ![K, N]⟩ φ₂) (a : Fin M) (b : Fin N) :
    matmul (⟨[0], [0], [1], [1], [], [], w⟩ : DotDims _ _ _) none lhs rhs
        (constant (F := Ideal) ⟨2, ![M, N]⟩ .f32 0x00000000#32) (ix2 a b)
      = ∑ c : Fin K, lhs (ix2 c a) * rhs (ix2 c b) := by
  refine (Ideal.matmul_constant_zero_apply _ none lhs rhs (ix2 a b)).trans ?_
  rw [← Equiv.sum_comp (contrEquiv1 (⟨[0], [0], [1], [1], [], [], w⟩ : DotDims _ _ _) K rfl rfl).symm]
  refine Finset.sum_congr rfl fun c _ => ?_
  have c2 := contrEquiv1_symm_val (⟨[0], [0], [1], [1], [], [], w⟩ : DotDims _ _ _) K rfl rfl c
  have l2 : (⟨[0], [0], [1], [1], [], [], w⟩ : DotDims _ _ _).lhsIdx (ix2 a b) ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims _ _ _).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Concatenations along lanes and lane slabs -/

/-- Eight 128-wide blocks laid side by side: lane `b · 128 + c` of the row reads block `b` at lane `c`. -/
theorem concat8_apply {R : ℕ} {α : Type}
    (p0 p1 p2 p3 p4 p5 p6 p7 : (⟨2, ![R, 128]⟩ : Shape).Idx → α)
    (h : Shape.Concatenates [(⟨2, ![R, 128]⟩ : Shape), ⟨2, ![R, 128]⟩, ⟨2, ![R, 128]⟩, ⟨2, ![R, 128]⟩,
      ⟨2, ![R, 128]⟩, ⟨2, ![R, 128]⟩, ⟨2, ![R, 128]⟩, ⟨2, ![R, 128]⟩] ⟨2, ![R, 1024]⟩ 1)
    (n : Fin R) (b : Fin 8) (c : Fin 128) (l : Fin 1024) (hl : l.val = b.val * 128 + c.val) :
    concatenate (⟨2, ![R, 1024]⟩ : Shape) 1 [⟨⟨2, ![R, 128]⟩, p0⟩, ⟨⟨2, ![R, 128]⟩, p1⟩, ⟨⟨2, ![R, 128]⟩, p2⟩,
        ⟨⟨2, ![R, 128]⟩, p3⟩, ⟨⟨2, ![R, 128]⟩, p4⟩, ⟨⟨2, ![R, 128]⟩, p5⟩, ⟨⟨2, ![R, 128]⟩, p6⟩, ⟨⟨2, ![R, 128]⟩, p7⟩] h (ix2 n l)
      = (![p0, p1, p2, p3, p4, p5, p6, p7] b) (ix2 n c) := by
  have hi : ∀ b' : Fin (⟨2, ![R, 128]⟩ : Shape).rank, b'.cast (rfl : (⟨2, ![R, 128]⟩ : Shape).rank = (⟨2, ![R, 1024]⟩ : Shape).rank) ≠ (1 : Fin 2) →
      ((ix2 n c : (⟨2, ![R, 128]⟩ : Shape).Idx) b').val = ((ix2 n l : (⟨2, ![R, 1024]⟩ : Shape).Idx) (b'.cast rfl)).val := by
    intro b' hb'
    match b' with
    | ⟨0, _⟩ => rfl
    | ⟨1, _⟩ => exact absurd rfl hb'
  match b with
  | ⟨0, _⟩ =>
    exact concatenate_apply_piece (t := ⟨2, ![R, 1024]⟩) 1 [⟨⟨2, ![R, 128]⟩, p0⟩, ⟨⟨2, ![R, 128]⟩, p1⟩, ⟨⟨2, ![R, 128]⟩, p2⟩, ⟨⟨2, ![R, 128]⟩, p3⟩, ⟨⟨2, ![R, 128]⟩, p4⟩, ⟨⟨2, ![R, 128]⟩, p5⟩, ⟨⟨2, ![R, 128]⟩, p6⟩, ⟨⟨2, ![R, 128]⟩, p7⟩] h (ix2 n l) 0 (by simp) ⟨2, ![R, 128]⟩ p0 rfl rfl (0 * 128) rfl (ix2 n c) hi
      (by show 0 * 128 + c.val = l.val; rw [hl])
  | ⟨1, _⟩ =>
    exact concatenate_apply_piece (t := ⟨2, ![R, 1024]⟩) 1 [⟨⟨2, ![R, 128]⟩, p0⟩, ⟨⟨2, ![R, 128]⟩, p1⟩, ⟨⟨2, ![R, 128]⟩, p2⟩, ⟨⟨2, ![R, 128]⟩, p3⟩, ⟨⟨2, ![R, 128]⟩, p4⟩, ⟨⟨2, ![R, 128]⟩, p5⟩, ⟨⟨2, ![R, 128]⟩, p6⟩, ⟨⟨2, ![R, 128]⟩, p7⟩] h (ix2 n l) 1 (by simp) ⟨2, ![R, 128]⟩ p1 rfl rfl (1 * 128) rfl (ix2 n c) hi
      (by show 1 * 128 + c.val = l.val; rw [hl])
  | ⟨2, _⟩ =>
    exact concatenate_apply_piece (t := ⟨2, ![R, 1024]⟩) 1 [⟨⟨2, ![R, 128]⟩, p0⟩, ⟨⟨2, ![R, 128]⟩, p1⟩, ⟨⟨2, ![R, 128]⟩, p2⟩, ⟨⟨2, ![R, 128]⟩, p3⟩, ⟨⟨2, ![R, 128]⟩, p4⟩, ⟨⟨2, ![R, 128]⟩, p5⟩, ⟨⟨2, ![R, 128]⟩, p6⟩, ⟨⟨2, ![R, 128]⟩, p7⟩] h (ix2 n l) 2 (by simp) ⟨2, ![R, 128]⟩ p2 rfl rfl (2 * 128) rfl (ix2 n c) hi
      (by show 2 * 128 + c.val = l.val; rw [hl])
  | ⟨3, _⟩ =>
    exact concatenate_apply_piece (t := ⟨2, ![R, 1024]⟩) 1 [⟨⟨2, ![R, 128]⟩, p0⟩, ⟨⟨2, ![R, 128]⟩, p1⟩, ⟨⟨2, ![R, 128]⟩, p2⟩, ⟨⟨2, ![R, 128]⟩, p3⟩, ⟨⟨2, ![R, 128]⟩, p4⟩, ⟨⟨2, ![R, 128]⟩, p5⟩, ⟨⟨2, ![R, 128]⟩, p6⟩, ⟨⟨2, ![R, 128]⟩, p7⟩] h (ix2 n l) 3 (by simp) ⟨2, ![R, 128]⟩ p3 rfl rfl (3 * 128) rfl (ix2 n c) hi
      (by show 3 * 128 + c.val = l.val; rw [hl])
  | ⟨4, _⟩ =>
    exact concatenate_apply_piece (t := ⟨2, ![R, 1024]⟩) 1 [⟨⟨2, ![R, 128]⟩, p0⟩, ⟨⟨2, ![R, 128]⟩, p1⟩, ⟨⟨2, ![R, 128]⟩, p2⟩, ⟨⟨2, ![R, 128]⟩, p3⟩, ⟨⟨2, ![R, 128]⟩, p4⟩, ⟨⟨2, ![R, 128]⟩, p5⟩, ⟨⟨2, ![R, 128]⟩, p6⟩, ⟨⟨2, ![R, 128]⟩, p7⟩] h (ix2 n l) 4 (by simp) ⟨2, ![R, 128]⟩ p4 rfl rfl (4 * 128) rfl (ix2 n c) hi
      (by show 4 * 128 + c.val = l.val; rw [hl])
  | ⟨5, _⟩ =>
    exact concatenate_apply_piece (t := ⟨2, ![R, 1024]⟩) 1 [⟨⟨2, ![R, 128]⟩, p0⟩, ⟨⟨2, ![R, 128]⟩, p1⟩, ⟨⟨2, ![R, 128]⟩, p2⟩, ⟨⟨2, ![R, 128]⟩, p3⟩, ⟨⟨2, ![R, 128]⟩, p4⟩, ⟨⟨2, ![R, 128]⟩, p5⟩, ⟨⟨2, ![R, 128]⟩, p6⟩, ⟨⟨2, ![R, 128]⟩, p7⟩] h (ix2 n l) 5 (by simp) ⟨2, ![R, 128]⟩ p5 rfl rfl (5 * 128) rfl (ix2 n c) hi
      (by show 5 * 128 + c.val = l.val; rw [hl])
  | ⟨6, _⟩ =>
    exact concatenate_apply_piece (t := ⟨2, ![R, 1024]⟩) 1 [⟨⟨2, ![R, 128]⟩, p0⟩, ⟨⟨2, ![R, 128]⟩, p1⟩, ⟨⟨2, ![R, 128]⟩, p2⟩, ⟨⟨2, ![R, 128]⟩, p3⟩, ⟨⟨2, ![R, 128]⟩, p4⟩, ⟨⟨2, ![R, 128]⟩, p5⟩, ⟨⟨2, ![R, 128]⟩, p6⟩, ⟨⟨2, ![R, 128]⟩, p7⟩] h (ix2 n l) 6 (by simp) ⟨2, ![R, 128]⟩ p6 rfl rfl (6 * 128) rfl (ix2 n c) hi
      (by show 6 * 128 + c.val = l.val; rw [hl])
  | ⟨7, _⟩ =>
    exact concatenate_apply_piece (t := ⟨2, ![R, 1024]⟩) 1 [⟨⟨2, ![R, 128]⟩, p0⟩, ⟨⟨2, ![R, 128]⟩, p1⟩, ⟨⟨2, ![R, 128]⟩, p2⟩, ⟨⟨2, ![R, 128]⟩, p3⟩, ⟨⟨2, ![R, 128]⟩, p4⟩, ⟨⟨2, ![R, 128]⟩, p5⟩, ⟨⟨2, ![R, 128]⟩, p6⟩, ⟨⟨2, ![R, 128]⟩, p7⟩] h (ix2 n l) 7 (by simp) ⟨2, ![R, 128]⟩ p7 rfl rfl (7 * 128) rfl (ix2 n c) hi
      (by show 7 * 128 + c.val = l.val; rw [hl])

/-- Two blocks side by side, read inside the first block. -/
theorem concat2_left_apply {R A B C : ℕ} {α : Type} (x₁ : (⟨2, ![R, A]⟩ : Shape).Idx → α) (x₂ : (⟨2, ![R, B]⟩ : Shape).Idx → α)
    (h : Shape.Concatenates [(⟨2, ![R, A]⟩ : Shape), ⟨2, ![R, B]⟩] ⟨2, ![R, C]⟩ 1)
    (n : Fin R) (c : Fin A) (l : Fin C) (hl : l.val = c.val) :
    concatenate (⟨2, ![R, C]⟩ : Shape) 1 [⟨⟨2, ![R, A]⟩, x₁⟩, ⟨⟨2, ![R, B]⟩, x₂⟩] h (ix2 n l) = x₁ (ix2 n c) :=
  concatenate_pair_apply_left 1 x₁ x₂ h (ix2 n l) rfl (ix2 n c) fun b => by
    match b with
    | ⟨0, _⟩ => rfl
    | ⟨1, _⟩ => exact hl.symm

/-- Two blocks side by side, read inside the second block: the first block's width less. -/
theorem concat2_right_apply {R A B C : ℕ} {α : Type} (x₁ : (⟨2, ![R, A]⟩ : Shape).Idx → α) (x₂ : (⟨2, ![R, B]⟩ : Shape).Idx → α)
    (h : Shape.Concatenates [(⟨2, ![R, A]⟩ : Shape), ⟨2, ![R, B]⟩] ⟨2, ![R, C]⟩ 1)
    (n : Fin R) (c : Fin B) (l : Fin C) (hl : l.val = A + c.val) :
    concatenate (⟨2, ![R, C]⟩ : Shape) 1 [⟨⟨2, ![R, A]⟩, x₁⟩, ⟨⟨2, ![R, B]⟩, x₂⟩] h (ix2 n l) = x₂ (ix2 n c) :=
  concatenate_pair_apply_right 1 x₁ x₂ h (ix2 n l) rfl rfl (ix2 n c)
    (fun b hb => by
      match b with
      | ⟨0, _⟩ => rfl
      | ⟨1, _⟩ => exact absurd rfl hb)
    (by show c.val + A = l.val; omega)

/-- A slab of lanes starting at `off`: lane `c` of the slab is lane `off + c` of the row. -/
theorem slab_apply {R W V : ℕ} {α : Type} (off : ℕ) (x : (⟨2, ![R, W]⟩ : Shape).Idx → α)
    (h : (⟨2, ![R, W]⟩ : Shape).Slices ![0, off] ⟨2, ![R, V]⟩) (n : Fin R) (c : Fin V) (l : Fin W) (hl : l.val = off + c.val) :
    extractStridedSlice (⟨2, ![R, V]⟩ : Shape) ![0, off] x h (ix2 n c) = x (ix2 n l) :=
  extractStridedSlice_apply ![0, off] x h (ix2 n c) (ix2 n l) fun a => by
    match a with
    | ⟨0, _⟩ => exact (Nat.zero_add _).symm
    | ⟨1, _⟩ => exact hl

/-- A one-lane column broadcast along lanes: every lane of row `p` reads the column's entry at `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The update product: the joined operand [u | g] against the stacked weight -/

/-- Entry (n, j) of `[u | g] · W` with `W` of 256 rows: the first 128 rows of `W` meet `u`, the last 128 meet `g`. -/
theorem upd_core_apply (w : DotDims.WF ⟨2, ![512, 256]⟩ ⟨2, ![256, 128]⟩ ⟨2, ![512, 128]⟩ [1] [0] [0] [1] [] [])
    (hc : Shape.Concatenates [(⟨2, ![512, 128]⟩ : Shape), ⟨2, ![512, 128]⟩] ⟨2, ![512, 256]⟩ 1)
    (u g : FVec Ideal ⟨2, ![512, 128]⟩ .bf16) (W : FVec Ideal ⟨2, ![256, 128]⟩ .bf16) (n : Fin 512) (j : Fin 128) :
    matmul (⟨[1], [0], [0], [1], [], [], w⟩ : DotDims _ _ _) none
        (concatenate (⟨2, ![512, 256]⟩ : Shape) 1 [⟨⟨2, ![512, 128]⟩, u⟩, ⟨⟨2, ![512, 128]⟩, g⟩] hc) W
        (constant (F := Ideal) ⟨2, ![512, 128]⟩ .f32 0x00000000#32) (ix2 n j)
      = (∑ c : Fin 128, u (ix2 n c) * Egnn.rowsFrom (R := 256) (W := 128) (H := 128) W 0 (by omega) c j)
        + (∑ c : Fin 128, g (ix2 n c) * Egnn.rowsFrom (R := 256) (W := 128) (H := 128) W 128 (by omega) c j) := by
  refine (matmul_plain_apply w _ W n j).trans ?_
  refine (Fin.sum_univ_add (a := 128) (b := 128) _).trans ?_
  refine congrArg₂ (· + ·) (Finset.sum_congr rfl fun c _ => ?_) (Finset.sum_congr rfl fun c _ => ?_)
  · refine congrArg₂ (· * ·) (concat2_left_apply u g hc n c (Fin.castAdd 128 c) rfl) ?_
    unfold Egnn.rowsFrom
    exact congrArg (fun r => W (ix2 r j)) (Fin.ext (by simp))
  · refine congrArg₂ (· * ·) (concat2_right_apply u g hc n c (Fin.natAdd 128 c) rfl) ?_
    unfold Egnn.rowsFrom
    exact congrArg (fun r => W (ix2 r j)) (Fin.ext rfl)

/-! ## A sum over the 1024 lanes as a double sum over blocks and lanes within a block -/

/-- Lane `r` of 1024 is `b · 128 + c` for exactly one block `b` of 8 and lane `c` of 128. -/
theorem sum_lanes {M : Type*} [AddCommMonoid M] (f : Fin 1024 → M) :
    ∑ r : Fin 1024, f r
      = ∑ b : Fin 8, ∑ c : Fin 128, f ⟨b.val * 128 + c.val, by have := b.isLt; have := c.isLt; omega⟩ := by
  have e := Equiv.sum_comp (finProdFinEquiv (m := 8) (n := 128)) (f : Fin (8 * 128) → M)
  rw [Fintype.sum_prod_type] at e
  refine e.symm.trans ?_
  refine Finset.sum_congr rfl fun b _ => Finset.sum_congr rfl fun c _ => congrArg f (Fin.ext ?_)
  show c.val + 128 * b.val = b.val * 128 + c.val
  omega

end Cert.KernelIdeal.KPay

end
-- ==== Proof.KPayAtt.lean ====
/-
  The attention payloads of the lane-packed program read at an index: the eight batch elements' projected features
  laid side by side along lanes, their key/query scalars, the source and target gathers, the edge logits, and the
  aggregation of the gated, attention-weighted messages — for both layers.
-/
import proofs.«130875_g2000201574592089_pallasbulk_874_11_alg».proof.Proof.Gen.KernelIdeal.Skeleton
import proofs.«130875_g2000201574592089_pallasbulk_874_11_alg».proof.Proof.KDefs
import proofs.«130875_g2000201574592089_pallasbulk_874_11_alg».proof.Proof.LibEgnn
import proofs.«130875_g2000201574592089_pallasbulk_874_11_alg».proof.Proof.KPayLib

noncomputable section

namespace Cert.KernelIdeal.KPay

open Idealize.ShloMosaic Idealize.ShloMosaic.ValueIdx Cert.KernelIdeal Cert.KernelIdeal.Gen Cert.KernelIdeal.KValue

/-! ## Over variables: the forms shared by the two layers -/

/-- The key/query scalars: the lane-packed features against the joined block-diagonal weight, the contraction over
    the 1024 lanes split into blocks and lanes within a block. -/
theorem kq_apply (w : DotDims.WF S512x1024 S1024x16 S512x16 [1] [0] [0] [1] [] []) (hsc : S1024x16.ShapeCasts S1024x16)
    (X : FVec Ideal S512x1024 .bf16) (K : Vec Ideal S1024x16 .bf16) (n : Fin 512) (col : Fin 16) :
    matmul (⟨[1], [0], [0], [1], [], [], w⟩ : DotDims S512x1024 S1024x16 S512x16) none X (shapeCast S1024x16 K hsc : FVec Ideal S1024x16 .bf16)
        (constant (F := Ideal) S512x16 .f32 0x00000000#32) (ix2 n col)
      = ∑ b' : Fin 8, ∑ c : Fin 128, X (ix2 n (lane b' c)) * (K : S1024x16.Idx → EReal) (ix2 (lane b' c) col) := by
  have hK : (shapeCast S1024x16 K hsc : FVec Ideal S1024x16 .bf16) = K := shapeCast_self K hsc
  rw [hK]
  refine (matmul_plain_apply (φ₁ := .bf16) (φ₂ := .bf16) w X K n col).trans ?_
  exact sum_lanes (fun r => X (ix2 n r) * (K : S1024x16.Idx → EReal) (ix2 r col))

/-- The source gather of the joined operand [features | query scalars], read in the features' lanes. -/
theorem gath_w_apply (w : DotDims.WF S2048x512 S512x1032 S2048x1032 [1] [0] [0] [1] [] [])
    (hc : Shape.Concatenates [S512x1024, S512x8] S512x1032 1) (S : FVec Ideal S2048x512 .bf16)
    (X : FVec Ideal S512x1024 .bf16) (q : FVec Ideal S512x8 .bf16) (e : Fin 2048) (b : Fin 8) (c : Fin 128) :
    matmul (⟨[1], [0], [0], [1], [], [], w⟩ : DotDims S2048x512 S512x1032 S2048x1032) none S
        (concatenate S512x1032 1 [⟨S512x1024, X⟩, ⟨S512x8, q⟩] hc) (constant (F := Ideal) S2048x1032 .f32 0x00000000#32) (ix2 e (laneW b c))
      = ∑ n : Fin 512, S (ix2 e n) * X (ix2 n (lane b c)) := by
  refine (matmul_plain_apply w S _ e (laneW b c)).trans ?_
  exact Finset.sum_congr rfl fun n _ => congrArg₂ (· * ·) rfl (concat2_left_apply X q hc n (lane b c) (laneW b c) rfl)

/-- The same read in the eight extra lanes: the gathered query scalars. -/
theorem gath_8_apply (w : DotDims.WF S2048x512 S512x1032 S2048x1032 [1] [0] [0] [1] [] [])
    (hc : Shape.Concatenates [S512x1024, S512x8] S512x1032 1) (S : FVec Ideal S2048x512 .bf16)
    (X : FVec Ideal S512x1024 .bf16) (q : FVec Ideal S512x8 .bf16) (e : Fin 2048) (b : Fin 8) :
    matmul (⟨[1], [0], [0], [1], [], [], w⟩ : DotDims S2048x512 S512x1032 S2048x1032) none S
        (concatenate S512x1032 1 [⟨S512x1024, X⟩, ⟨S512x8, q⟩] hc) (constant (F := Ideal) S2048x1032 .f32 0x00000000#32) (ix2 e (lane8 b))
      = ∑ n : Fin 512, S (ix2 e n) * q (ix2 n b) := by
  refine (matmul_plain_apply w S _ e (lane8 b)).trans ?_
  exact Finset.sum_congr rfl fun n _ => congrArg₂ (· * ·) rfl (concat2_right_apply X q hc n b (lane8 b) rfl)

/-- The target gather of the key scalars (columns 0–7 of the key/query product). -/
theorem gath_key_apply (w : DotDims.WF S2048x512 S512x8 S2048x8 [1] [0] [0] [1] [] [])
    (hs : S512x16.Slices ![0, 0] S512x8) (hb : FTy.bits .bf16 < FTy.bits .f32)
    (T : FVec Ideal S2048x512 .bf16) (Q : FVec Ideal S512x16 .f32) (e : Fin 2048) (b : Fin 8) :
    matmul (⟨[1], [0], [0], [1], [], [], w⟩ : DotDims S2048x512 S512x8 S2048x8) none T
        (truncf .bf16 (extractStridedSlice S512x8 ![0, 0] Q hs) hb) (constant (F := Ideal) S2048x8 .f32 0x00000000#32) (ix2 e b)
      = ∑ n : Fin 512, T (ix2 e n) * Q (ix2 n (⟨b.val, by omega⟩ : Fin 16)) := by
  refine (matmul_plain_apply w T _ e b).trans ?_
  exact Finset.sum_congr rfl fun n _ => congrArg₂ (· * ·) rfl
    (slab_apply 0 Q hs n b (⟨b.val, by omega⟩ : Fin 16) (Nat.zero_add _).symm)

/-- The aggregation: the transposed target operator against the eight message blocks laid side by side, block `b`
    being (attention weight of batch element `b`, broadcast along lanes) · gate · gathered features of element `b`. -/
theorem msg_apply (w : DotDims.WF S2048x512 S2048x1024 S512x1024 [0] [0] [1] [1] [] [])
    (hc : Shape.Concatenates [S2048x128, S2048x128, S2048x128, S2048x128, S2048x128, S2048x128, S2048x128, S2048x128] S2048x1024 1)
    (hb : FTy.bits .bf16 < FTy.bits .f32) (hbr : S2048x1.Broadcasts S2048x128)
    (hl0 : S2048x8.Slices ![0, 0] S2048x1) (hs0 : S2048x1024.Slices ![0, 0] S2048x128)
    (hl1 : S2048x8.Slices ![0, 1] S2048x1) (hs1 : S2048x1024.Slices ![0, 128] S2048x128)
    (hl2 : S2048x8.Slices ![0, 2] S2048x1) (hs2 : S2048x1024.Slices ![0, 256] S2048x128)
    (hl3 : S2048x8.Slices ![0, 3] S2048x1) (hs3 : S2048x1024.Slices ![0, 384] S2048x128)
    (hl4 : S2048x8.Slices ![0, 4] S2048x1) (hs4 : S2048x1024.Slices ![0, 512] S2048x128)
    (hl5 : S2048x8.Slices ![0, 5] S2048x1) (hs5 : S2048x1024.Slices ![0, 640] S2048x128)
    (hl6 : S2048x8.Slices ![0, 6] S2048x1) (hs6 : S2048x1024.Slices ![0, 768] S2048x128)
    (hl7 : S2048x8.Slices ![0, 7] S2048x1) (hs7 : S2048x1024.Slices ![0, 896] S2048x128)
    (T : FVec Ideal S2048x512 .bf16) (A : FVec Ideal S2048x8 .f32) (G : FVec Ideal S2048x128 .f32) (XJ : FVec Ideal S2048x1024 .f32)
    (n : Fin 512) (b : Fin 8) (c : Fin 128) :
    matmul (⟨[0], [0], [1], [1], [], [], w⟩ : DotDims S2048x512 S2048x1024 S512x1024) none T
        (concatenate S2048x1024 1 [⟨S2048x128, truncf .bf16 (mulf (mulf (broadcastTo S2048x128 (extractStridedSlice S2048x1 ![0, 0] A hl0) hbr) G)
          (extractStridedSlice S2048x128 ![0, 0] XJ hs0)) hb⟩,
          ⟨S2048x128, truncf .bf16 (mulf (mulf (broadcastTo S2048x128 (extractStridedSlice S2048x1 ![0, 1] A hl1) hbr) G)
          (extractStridedSlice S2048x128 ![0, 128] XJ hs1)) hb⟩,
          ⟨S2048x128, truncf .bf16 (mulf (mulf (broadcastTo S2048x128 (extractStridedSlice S2048x1 ![0, 2] A hl2) hbr) G)
          (extractStridedSlice S2048x128 ![0, 256] XJ hs2)) hb⟩,
          ⟨S2048x128, truncf .bf16 (mulf (mulf (broadcastTo S2048x128 (extractStridedSlice S2048x1 ![0, 3] A hl3) hbr) G)
          (extractStridedSlice S2048x128 ![0, 384] XJ hs3)) hb⟩,
          ⟨S2048x128, truncf .bf16 (mulf (mulf (broadcastTo S2048x128 (extractStridedSlice S2048x1 ![0, 4] A hl4) hbr) G)
          (extractStridedSlice S2048x128 ![0, 512] XJ hs4)) hb⟩,
          ⟨S2048x128, truncf .bf16 (mulf (mulf (broadcastTo S2048x128 (extractStridedSlice S2048x1 ![0, 5] A hl5) hbr) G)
          (extractStridedSlice S2048x128 ![0, 640] XJ hs5)) hb⟩,
          ⟨S2048x128, truncf .bf16 (mulf (mulf (broadcastTo S2048x128 (extractStridedSlice S2048x1 ![0, 6] A hl6) hbr) G)
          (extractStridedSlice S2048x128 ![0, 768] XJ hs6)) hb⟩,
          ⟨S2048x128, truncf .bf16 (mulf (mulf (broadcastTo S2048x128 (extractStridedSlice S2048x1 ![0, 7] A hl7) hbr) G)
          (extractStridedSlice S2048x128 ![0, 896] XJ hs7)) hb⟩] hc)
        (constant (F := Ideal) S512x1024 .f32 0x00000000#32) (ix2 n (lane b c))
      = ∑ e : Fin 2048, T (ix2 e n) * ((A (ix2 e b) * G (ix2 e c)) * XJ (ix2 e (lane b c))) := by
  refine (matmul_tlhs_apply w T _ n (lane b c)).trans ?_
  refine Finset.sum_congr rfl fun e _ => congrArg₂ (· * ·) rfl ?_
  refine (concat8_apply _ _ _ _ _ _ _ _ hc e b c (lane b c) rfl).trans ?_
  match b with
  | ⟨0, _⟩ =>
    exact congrArg₂ (· * ·) (congrArg₂ (· * ·)
      ((broadcastTo_a1_ab_apply _ hbr e c).trans (slab_apply 0 A hl0 e (0 : Fin 1) (⟨0, by omega⟩ : Fin 8) rfl)) rfl)
      (slab_apply 0 XJ hs0 e c (lane ⟨0, by omega⟩ c) rfl)
  | ⟨1, _⟩ =>
    exact congrArg₂ (· * ·) (congrArg₂ (· * ·)
      ((broadcastTo_a1_ab_apply _ hbr e c).trans (slab_apply 1 A hl1 e (0 : Fin 1) (⟨1, by omega⟩ : Fin 8) rfl)) rfl)
      (slab_apply 128 XJ hs1 e c (lane ⟨1, by omega⟩ c) rfl)
  | ⟨2, _⟩ =>
    exact congrArg₂ (· * ·) (congrArg₂ (· * ·)
      ((broadcastTo_a1_ab_apply _ hbr e c).trans (slab_apply 2 A hl2 e (0 : Fin 1) (⟨2, by omega⟩ : Fin 8) rfl)) rfl)
      (slab_apply 256 XJ hs2 e c (lane ⟨2, by omega⟩ c) rfl)
  | ⟨3, _⟩ =>
    exact congrArg₂ (· * ·) (congrArg₂ (· * ·)
      ((broadcastTo_a1_ab_apply _ hbr e c).trans (slab_apply 3 A hl3 e (0 : Fin 1) (⟨3, by omega⟩ : Fin 8) rfl)) rfl)
      (slab_apply 384 XJ hs3 e c (lane ⟨3, by omega⟩ c) rfl)
  | ⟨4, _⟩ =>
    exact congrArg₂ (· * ·) (congrArg₂ (· * ·)
      ((broadcastTo_a1_ab_apply _ hbr e c).trans (slab_apply 4 A hl4 e (0 : Fin 1) (⟨4, by omega⟩ : Fin 8) rfl)) rfl)
      (slab_apply 512 XJ hs4 e c (lane ⟨4, by omega⟩ c) rfl)
  | ⟨5, _⟩ =>
    exact congrArg₂ (· * ·) (congrArg₂ (· * ·)
      ((broadcastTo_a1_ab_apply _ hbr e c).trans (slab_apply 5 A hl5 e (0 : Fin 1) (⟨5, by omega⟩ : Fin 8) rfl)) rfl)
      (slab_apply 640 XJ hs5 e c (lane ⟨5, by omega⟩ c) rfl)
  | ⟨6, _⟩ =>
    exact congrArg₂ (· * ·) (congrArg₂ (· * ·)
      ((broadcastTo_a1_ab_apply _ hbr e c).trans (slab_apply 6 A hl6 e (0 : Fin 1) (⟨6, by omega⟩ : Fin 8) rfl)) rfl)
      (slab_apply 768 XJ hs6 e c (lane ⟨6, by omega⟩ c) rfl)
  | ⟨7, _⟩ =>
    exact congrArg₂ (· * ·) (congrArg₂ (· * ·)
      ((broadcastTo_a1_ab_apply _ hbr e c).trans (slab_apply 7 A hl7 e (0 : Fin 1) (⟨7, by omega⟩ : Fin 8) rfl)) rfl)
      (slab_apply 896 XJ hs7 e c (lane ⟨7, by omega⟩ c) rfl)

/-! ## Layer 1 -/

/-- The eight batch elements' projected features side by side: lane `b · 128 + c` is element `b`'s channel `c`. -/
theorem k1_pay33_apply (v6 v9 v12 v15 v18 v21 v24 v27 : FVec Ideal S512x64 .bf16) (v28 : Vec Ideal S64x128 .bf16) (n : Fin 512) (b : Fin 8) (c : Fin 128) :
    k1_pay33 (F := Ideal) v6 v9 v12 v15 v18 v21 v24 v27 v28 (ix2 n (lane b c))
      = (![k1_pay25 (F := Ideal) v6 v28, k1_pay26 (F := Ideal) v9 v28, k1_pay27 (F := Ideal) v12 v28, k1_pay28 (F := Ideal) v15 v28, k1_pay29 (F := Ideal) v18 v28, k1_pay30 (F := Ideal) v21 v28, k1_pay31 (F := Ideal) v24 v28, k1_pay32 (F := Ideal) v27 v28] b) (ix2 n c) := by
  unfold k1_pay33
  exact concat8_apply _ _ _ _ _ _ _ _ _ n b c (lane b c) rfl

/-- The key/query scalars: the packed features against the joined block-diagonal weight. -/
theorem k1_pay34_apply (v6 v9 v12 v15 v18 v21 v24 v27 : FVec Ideal S512x64 .bf16) (v28 : Vec Ideal S64x128 .bf16) (v30 : Vec Ideal S1024x16 .bf16) (n : Fin 512) (col : Fin 16) :
    k1_pay34 (F := Ideal) v6 v9 v12 v15 v18 v21 v24 v27 v28 v30 (ix2 n col)
      = ∑ b' : Fin 8, ∑ c : Fin 128, k1_pay33 (F := Ideal) v6 v9 v12 v15 v18 v21 v24 v27 v28 (ix2 n (lane b' c)) * (v30 : S1024x16.Idx → EReal) (ix2 (lane b' c) col) := by
  unfold k1_pay34
  exact kq_apply _ _ (k1_pay33 (F := Ideal) v6 v9 v12 v15 v18 v21 v24 v27 v28) v30 n col

/-- The source gather, in the features' lanes. -/
theorem k1_pay35_apply_w (v1 : FVec Ideal S2048x512 .bf16) (v6 v9 v12 v15 v18 v21 v24 v27 : FVec Ideal S512x64 .bf16) (v28 : Vec Ideal S64x128 .bf16) (v30 : Vec Ideal S1024x16 .bf16)
    (e : Fin 2048) (b : Fin 8) (c : Fin 128) :
    k1_pay35 (F := Ideal) v1 v6 v9 v12 v15 v18 v21 v24 v27 v28 v30 (ix2 e (laneW b c))
      = ∑ n : Fin 512, v1 (ix2 e n) * k1_pay33 (F := Ideal) v6 v9 v12 v15 v18 v21 v24 v27 v28 (ix2 n (lane b c)) := by
  unfold k1_pay35
  exact gath_w_apply _ _ v1 (k1_pay33 (F := Ideal) v6 v9 v12 v15 v18 v21 v24 v27 v28) _ e b c

/-- The source gather, in the eight extra lanes: the gathered query scalars (columns 8–15 of the key/query product). -/
theorem k1_pay35_apply_8 (v1 : FVec Ideal S2048x512 .bf16) (v6 v9 v12 v15 v18 v21 v24 v27 : FVec Ideal S512x64 .bf16) (v28 : Vec Ideal S64x128 .bf16) (v30 : Vec Ideal S1024x16 .bf16)
    (e : Fin 2048) (b : Fin 8) :
    k1_pay35 (F := Ideal) v1 v6 v9 v12 v15 v18 v21 v24 v27 v28 v30 (ix2 e (lane8 b))
      = ∑ n : Fin 512, v1 (ix2 e n) * k1_pay34 (F := Ideal) v6 v9 v12 v15 v18 v21 v24 v27 v28 v30 (ix2 n (⟨8 + b.val, by omega⟩ : Fin 16)) := by
  unfold k1_pay35
  refine (gath_8_apply _ _ v1 (k1_pay33 (F := Ideal) v6 v9 v12 v15 v18 v21 v24 v27 v28) _ e b).trans ?_
  refine Finset.sum_congr rfl fun n _ => congrArg₂ (· * ·) rfl ?_
  refine (truncf_apply (φ := .f32) (ψ := .bf16) _ _ (ix2 n b)).trans ?_
  exact slab_apply 8 (k1_pay34 (F := Ideal) v6 v9 v12 v15 v18 v21 v24 v27 v28 v30) _ n b (⟨8 + b.val, by omega⟩ : Fin 16) rfl

/-- The gathered features: the first 1024 lanes of the source gather. -/
theorem k1_pay36_apply (v1 : FVec Ideal S2048x512 .bf16) (v6 v9 v12 v15 v18 v21 v24 v27 : FVec Ideal S512x64 .bf16) (v28 : Vec Ideal S64x128 .bf16) (v30 : Vec Ideal S1024x16 .bf16)
    (e : Fin 2048) (b : Fin 8) (c : Fin 128) :
    k1_pay36 (F := Ideal) v1 v6 v9 v12 v15 v18 v21 v24 v27 v28 v30 (ix2 e (lane b c))
      = k1_pay35 (F := Ideal) v1 v6 v9 v12 v15 v18 v21 v24 v27 v28 v30 (ix2 e (laneW b c)) := by
  unfold k1_pay36
  exact slab_apply 0 (k1_pay35 (F := Ideal) v1 v6 v9 v12 v15 v18 v21 v24 v27 v28 v30) _ e (lane b c) (laneW b c) (Nat.zero_add _).symm

/-- The edge logits of the eight batch elements: the target gather of the key scalars, the gathered query scalars and
    the edge part. -/
theorem k1_pay37_apply (v1 v3 : FVec Ideal S2048x512 .bf16) (v6 v9 v12 v15 v18 v21 v24 v27 : FVec Ideal S512x64 .bf16) (v28 : Vec Ideal S64x128 .bf16) (v30 : Vec Ideal S1024x16 .bf16)
    (v34 : Vec Ideal S2048x8 .f32) (e : Fin 2048) (b : Fin 8) :
    k1_pay37 (F := Ideal) v1 v3 v6 v9 v12 v15 v18 v21 v24 v27 v28 v30 v34 (ix2 e b)
      = ((∑ n : Fin 512, v3 (ix2 e n) * k1_pay34 (F := Ideal) v6 v9 v12 v15 v18 v21 v24 v27 v28 v30 (ix2 n (⟨b.val, by omega⟩ : Fin 16)))
          + k1_pay35 (F := Ideal) v1 v6 v9 v12 v15 v18 v21 v24 v27 v28 v30 (ix2 e (lane8 b))) + (v34 : S2048x8.Idx → EReal) (ix2 e b) := by
  unfold k1_pay37
  refine (addf_apply _ _ _).trans ?_
  refine congrArg₂ (· + ·) ((addf_apply _ _ _).trans (congrArg₂ (· + ·) ?_ ?_)) ?_
  · exact gath_key_apply _ _ _ v3 (k1_pay34 (F := Ideal) v6 v9 v12 v15 v18 v21 v24 v27 v28 v30) e b
  · exact slab_apply 1024 (k1_pay35 (F := Ideal) v1 v6 v9 v12 v15 v18 v21 v24 v27 v28 v30) _ e b (lane8 b) rfl
  · exact congrFun (shapeCast_self v34 _) (ix2 e b)

/-- The aggregated messages, lane-packed: for node `n`, batch element `b`, channel `c`, the sum over the edges into
    `n` of (attention weight · gate) · gathered feature. -/
theorem k1_pay38_apply (v3 : FVec Ideal S2048x512 .bf16) (v33 : FVec Ideal S2048x128 .f32) (v61 : FVec Ideal S2048x1024 .f32)
    (v67 : FVec Ideal S2048x8 .f32) (n : Fin 512) (b : Fin 8) (c : Fin 128) :
    k1_pay38 (F := Ideal) v3 v33 v61 v67 (ix2 n (lane b c))
      = ∑ e : Fin 2048, v3 (ix2 e n) * ((Ideal.logistic (v67 (ix2 e b)) * v33 (ix2 e c)) * v61 (ix2 e (lane b c))) := by
  unfold k1_pay38
  exact msg_apply _ _ _ _ _ _ _ _ _ _ _ _ _ _ _ _ _ _ _ _ v3 (logistic v67) v33 v61 n b c

end Cert.KernelIdeal.KPay

end
-- ==== Proof.KChainB.lean ====
/-
  The middle of layer 1's chain at one grid point: the row of eight side-by-side projections, the key and query
  scalars from the joined block-diagonal weight, the gathered features and query scalars, the attention logits and
  the aggregated messages, each read as the packed arrangement's formula (Proof/LibEgnnPacked.lean).
-/
import proofs.«130875_g2000201574592089_pallasbulk_874_11_alg».proof.Proof.KChainA
import proofs.«130875_g2000201574592089_pallasbulk_874_11_alg».proof.Proof.KPayAtt

set_option maxRecDepth 16384

noncomputable section

namespace Cert.KernelIdeal.KBody

open Cert.KernelIdeal Cert.KernelIdeal.Gen Cert.KernelIdeal.KValue Cert.KernelIdeal.KPay
open Idealize.ShloMosaic Idealize.ShloMosaic.ValueIdx

variable (X : Blocks) (kv qv : Fin 128 → EReal)

/-- Block `b` of the packed row is element `b`'s projected features. -/
theorem cat1_apply (b : Fin 8) (n : Fin 512) (c : Fin 128) :
    (![k1_pay25 (N6 X) (L7_9 X), k1_pay26 (N7 X) (L7_9 X), k1_pay27 (N8 X) (L7_9 X), k1_pay28 (N9 X) (L7_9 X), k1_pay29 (N10 X) (L7_9 X), k1_pay30 (N11 X) (L7_9 X), k1_pay31 (N12 X) (L7_9 X), k1_pay32 (N13 X) (L7_9 X)] b) (ix2 n c) = xv1 X b n c := by
  fin_cases b
  · exact N25_apply X n c
  · exact N26_apply X n c
  · exact N27_apply X n c
  · exact N28_apply X n c
  · exact N29_apply X n c
  · exact N30_apply X n c
  · exact N31_apply X n c
  · exact N32_apply X n c

theorem row1_apply (b : Fin 8) (n : Fin 512) (c : Fin 128) :
    k1_pay33 (N6 X) (N7 X) (N8 X) (N9 X) (N10 X) (N11 X) (N12 X) (N13 X) (L7_9 X) (ix2 n (lane b c)) = xv1 X b n c :=
  (k1_pay33_apply _ _ _ _ _ _ _ _ _ n b c).trans (cat1_apply X b n c)

/-- The joined weight's block is what the hypothesis says: the product is the packed key / query sum. -/
theorem akq1_apply (hkq : ∀ (b' : Fin 8) (c : Fin 128) (col : Fin 16), X.x8 (ix2 (lane b' c) col) = Egnn.kqEntry kv qv b' c col)
    (n : Fin 512) (col : Fin 16) :
    k1_pay34 (N6 X) (N7 X) (N8 X) (N9 X) (N10 X) (N11 X) (N12 X) (N13 X) (L7_9 X) (L8_10 X) (ix2 n col)
      = ∑ b' : Fin 8, ∑ c : Fin 128, xv1 X b' n c * Egnn.kqEntry kv qv b' c col := by
  refine (k1_pay34_apply _ _ _ _ _ _ _ _ _ _ n col).trans ?_
  refine Finset.sum_congr rfl fun b' _ => Finset.sum_congr rfl fun c _ => ?_
  rw [row1_apply, L8_10_eq, hkq]

/-- The gathered features of element `b`. -/
theorem xj1_apply (e : Fin 2048) (b : Fin 8) (c : Fin 128) :
    N36 X (ix2 e (lane b c)) = ∑ n : Fin 512, opS X e n * xv1 X b n c := by
  refine (k1_pay36_apply _ _ _ _ _ _ _ _ _ _ _ e b c).trans ?_
  refine (k1_pay35_apply_w _ _ _ _ _ _ _ _ _ _ _ e b c).trans ?_
  refine Finset.sum_congr rfl fun n _ => ?_
  rw [row1_apply, N4_eq]
  rfl

/-- The attention logit of edge `e` for element `b`. -/
theorem logit1_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (e : Fin 2048) (b : Fin 8) :
    N37 X (ix2 e b) = Egnn.packedLogit (opS X) (opT X) (ea1 X) kv qv (xv1 X) e b := by
  refine (k1_pay37_apply _ _ _ _ _ _ _ _ _ _ _ _ _ e b).trans ?_
  unfold Egnn.packedLogit Egnn.packedKey Egnn.packedQry ea1
  rw [L4_12_eq, hea e b]
  refine congrArg (· + X.x4 (ix2 e (0 : Fin 8))) ?_
  refine congrArg₂ (· + ·) ?_ ?_
  · refine Finset.sum_congr rfl fun n _ => ?_
    rw [akq1_apply X kv qv hkq, N5_eq]
    rfl
  · refine (k1_pay35_apply_8 _ _ _ _ _ _ _ _ _ _ _ e b).trans ?_
    refine Finset.sum_congr rfl fun n _ => ?_
    rw [akq1_apply X kv qv hkq, N4_eq]
    rfl

/-- The aggregated messages of element `b`. -/
theorem aggr1_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (n : Fin 512) (b : Fin 8) (c : Fin 128) :
    N38 X (ix2 n (lane b c)) = Egnn.packedAggr (opS X) (opT X) (g1 X) (ea1 X) kv qv (xv1 X) b n c := by
  refine (k1_pay38_apply _ _ _ _ n b c).trans ?_
  unfold Egnn.packedAggr
  refine Finset.sum_congr rfl fun e _ => ?_
  rw [N5_eq, N15_eq, logit1_apply X kv qv hkq hea, xj1_apply]
  rfl

end Cert.KernelIdeal.KBody

end
-- ==== Proof.KPayUpd.lean ====
/-
  The update payloads of the lane-packed program read at an index: for each of the eight batch elements of a grid
  point, the product of the joined operand [features | aggregated messages] with the stacked weight, the bias row,
  the rectifier and the residual sum — and, where the program fuses it, the leaky rectifier between the layers.
-/
import proofs.«130875_g2000201574592089_pallasbulk_874_11_alg».proof.Proof.Gen.KernelIdeal.Skeleton
import proofs.«130875_g2000201574592089_pallasbulk_874_11_alg».proof.Proof.KDefs
import proofs.«130875_g2000201574592089_pallasbulk_874_11_alg».proof.Proof.LibEgnn
import proofs.«130875_g2000201574592089_pallasbulk_874_11_alg».proof.Proof.KPayLib

noncomputable section

namespace Cert.KernelIdeal.KPay

open Idealize.ShloMosaic Idealize.ShloMosaic.ValueIdx Cert.KernelIdeal Cert.KernelIdeal.Gen Cert.KernelIdeal.KValue

/-! ## The update of one batch element, over variables

`u` is the element's projected features, `g` its aggregated messages (a slab of the lane-packed aggregate), `W` the
stacked weight `[Wcx ; Wca]` and `bias` the one-row bias. -/

/-- The product with the aggregate given as a slab of lanes starting at `off = b · 128`. -/
theorem upd_mm_slab (w : DotDims.WF S512x256 S256x128 S512x128 [1] [0] [0] [1] [] [])
    (hc : Shape.Concatenates [S512x128, S512x128] S512x256 1) (off : ℕ) (hs : S512x1024.Slices ![0, off] S512x128)
    (hb : FTy.bits .bf16 < FTy.bits .f32) (b : Fin 8) (hoff : off = b.val * 128)
    (W : FVec Ideal S256x128 .bf16) (u : FVec Ideal S512x128 .bf16) (a : FVec Ideal S512x1024 .f32) (n : Fin 512) (j : Fin 128) :
    matmul (⟨[1], [0], [0], [1], [], [], w⟩ : DotDims S512x256 S256x128 S512x128) none
        (concatenate S512x256 1 [⟨S512x128, u⟩, ⟨S512x128, truncf .bf16 (extractStridedSlice S512x128 ![0, off] a hs) hb⟩] hc) W
        (constant (F := Ideal) S512x128 .f32 0x00000000#32) (ix2 n j)
      = (∑ c : Fin 128, u (ix2 n c) * Egnn.rowsFrom W 0 (by omega) c j)
          + (∑ c : Fin 128, a (ix2 n (lane b c)) * Egnn.rowsFrom W 128 (by omega) c j) := by
  refine (upd_core_apply w hc u _ W n j).trans ?_
  refine congrArg₂ (· + ·) rfl (Finset.sum_congr rfl fun c _ => congrArg₂ (· * ·) ?_ rfl)
  exact slab_apply off a hs n c (lane b c) (by subst hoff; rfl)

/-- The same followed by the bias row. -/
theorem upd_bias_slab (w : DotDims.WF S512x256 S256x128 S512x128 [1] [0] [0] [1] [] [])
    (hc : Shape.Concatenates [S512x128, S512x128] S512x256 1) (off : ℕ) (hs : S512x1024.Slices ![0, off] S512x128)
    (hb : FTy.bits .bf16 < FTy.bits .f32) (hbr : S1x128.Broadcasts S512x128) (b : Fin 8) (hoff : off = b.val * 128)
    (W : FVec Ideal S256x128 .bf16) (bias : Vec Ideal S1x128 .f32) (u : FVec Ideal S512x128 .bf16) (a : FVec Ideal S512x1024 .f32)
    (n : Fin 512) (j : Fin 128) :
    addf (matmul (⟨[1], [0], [0], [1], [], [], w⟩ : DotDims S512x256 S256x128 S512x128) none
        (concatenate S512x256 1 [⟨S512x128, u⟩, ⟨S512x128, truncf .bf16 (extractStridedSlice S512x128 ![0, off] a hs) hb⟩] hc) W
        (constant (F := Ideal) S512x128 .f32 0x00000000#32)) (broadcastTo S512x128 bias hbr) (ix2 n j)
      = ((∑ c : Fin 128, u (ix2 n c) * Egnn.rowsFrom W 0 (by omega) c j)
          + (∑ c : Fin 128, a (ix2 n (lane b c)) * Egnn.rowsFrom W 128 (by omega) c j))
        + (bias : S1x128.Idx → EReal) (ix2 (0 : Fin 1) j) := by
  refine (addf_apply _ _ _).trans ?_
  exact congrArg₂ (· + ·) (upd_mm_slab w hc off hs hb b hoff W u a n j) (broadcastTo_1b_ab_apply bias hbr n j)

/-- The product and the bias row with the aggregate given as a block of its own. -/
theorem upd_bias_vec (w : DotDims.WF S512x256 S256x128 S512x128 [1] [0] [0] [1] [] [])
    (hc : Shape.Concatenates [S512x128, S512x128] S512x256 1) (hbr : S1x128.Broadcasts S512x128)
    (W : FVec Ideal S256x128 .bf16) (bias : Vec Ideal S1x128 .f32) (u g : FVec Ideal S512x128 .bf16) (n : Fin 512) (j : Fin 128) :
    addf (matmul (⟨[1], [0], [0], [1], [], [], w⟩ : DotDims S512x256 S256x128 S512x128) none (concatenate S512x256 1 [⟨S512x128, u⟩, ⟨S512x128, g⟩] hc) W
        (constant (F := Ideal) S512x128 .f32 0x00000000#32)) (broadcastTo S512x128 bias hbr) (ix2 n j)
      = ((∑ c : Fin 128, u (ix2 n c) * Egnn.rowsFrom W 0 (by omega) c j)
          + (∑ c : Fin 128, g (ix2 n c) * Egnn.rowsFrom W 128 (by omega) c j))
        + (bias : S1x128.Idx → EReal) (ix2 (0 : Fin 1) j) := by
  refine (addf_apply _ _ _).trans ?_
  exact congrArg₂ (· + ·) (upd_core_apply w hc u g W n j) (broadcastTo_1b_ab_apply bias hbr n j)

/-! ## Layer 1 -/

/-- Batch element 0, up to the bias row; the aggregate is the first slab of the aggregation product. -/
theorem k1_pay39_apply (v3 : FVec Ideal S2048x512 .bf16) (v33 : FVec Ideal S2048x128 .f32) (v37 : FVec Ideal S256x128 .bf16)
    (v38 : Vec Ideal S1x128 .f32) (v47 : FVec Ideal S512x128 .bf16) (v61 : FVec Ideal S2048x1024 .f32) (v67 : FVec Ideal S2048x8 .f32)
    (n : Fin 512) (j : Fin 128) :
    k1_pay39 (F := Ideal) v3 v33 v37 v38 v47 v61 v67 (ix2 n j)
      = ((∑ c : Fin 128, v47 (ix2 n c) * Egnn.rowsFrom v37 0 (by omega) c j)
          + (∑ c : Fin 128, k1_pay38 (F := Ideal) v3 v33 v61 v67 (ix2 n (lane 0 c)) * Egnn.rowsFrom v37 128 (by omega) c j))
        + (v38 : S1x128.Idx → EReal) (ix2 (0 : Fin 1) j) := by
  unfold k1_pay39
  exact upd_bias_slab _ _ 0 _ _ _ 0 rfl v37 v38 v47 (k1_pay38 (F := Ideal) v3 v33 v61 v67) n j

/-- Batch element 1: its features plus the rectified update. -/
theorem k1_pay41_apply (v37 : FVec Ideal S256x128 .bf16) (v38 : Vec Ideal S1x128 .f32) (v40 : FVec Ideal S512x128 .f32)
    (v48 : FVec Ideal S512x128 .bf16) (v118 : FVec Ideal S512x1024 .f32) (n : Fin 512) (j : Fin 128) :
    k1_pay41 (F := Ideal) v37 v38 v40 v48 v118 (ix2 n j)
      = v40 (ix2 n j) + max (((∑ c : Fin 128, v48 (ix2 n c) * Egnn.rowsFrom v37 0 (by omega) c j)
          + (∑ c : Fin 128, v118 (ix2 n (lane 1 c)) * Egnn.rowsFrom v37 128 (by omega) c j))
          + (v38 : S1x128.Idx → EReal) (ix2 (0 : Fin 1) j)) 0 := by
  unfold k1_pay41
  refine (addf_apply _ _ _).trans ?_
  refine congrArg₂ (· + ·) rfl ?_
  refine (maximumf_apply _ _ _).trans ?_
  exact congrArg₂ max (upd_bias_slab _ _ 128 _ _ _ 1 rfl v37 v38 v48 v118 n j) Ideal.ofBits_zero_f32

/-- Batch element 2: its features plus the rectified update. -/
theorem k1_pay42_apply (v37 : FVec Ideal S256x128 .bf16) (v38 : Vec Ideal S1x128 .f32) (v41 : FVec Ideal S512x128 .f32)
    (v49 : FVec Ideal S512x128 .bf16) (v118 : FVec Ideal S512x1024 .f32) (n : Fin 512) (j : Fin 128) :
    k1_pay42 (F := Ideal) v37 v38 v41 v49 v118 (ix2 n j)
      = v41 (ix2 n j) + max (((∑ c : Fin 128, v49 (ix2 n c) * Egnn.rowsFrom v37 0 (by omega) c j)
          + (∑ c : Fin 128, v118 (ix2 n (lane 2 c)) * Egnn.rowsFrom v37 128 (by omega) c j))
          + (v38 : S1x128.Idx → EReal) (ix2 (0 : Fin 1) j)) 0 := by
  unfold k1_pay42
  refine (addf_apply _ _ _).trans ?_
  refine congrArg₂ (· + ·) rfl ?_
  refine (maximumf_apply _ _ _).trans ?_
  exact congrArg₂ max (upd_bias_slab _ _ 256 _ _ _ 2 rfl v37 v38 v49 v118 n j) Ideal.ofBits_zero_f32

/-- Batch element 3: its features plus the rectified update. -/
theorem k1_pay43_apply (v37 : FVec Ideal S256x128 .bf16) (v38 : Vec Ideal S1x128 .f32) (v42 : FVec Ideal S512x128 .f32)
    (v50 : FVec Ideal S512x128 .bf16) (v118 : FVec Ideal S512x1024 .f32) (n : Fin 512) (j : Fin 128) :
    k1_pay43 (F := Ideal) v37 v38 v42 v50 v118 (ix2 n j)
      = v42 (ix2 n j) + max (((∑ c : Fin 128, v50 (ix2 n c) * Egnn.rowsFrom v37 0 (by omega) c j)
          + (∑ c : Fin 128, v118 (ix2 n (lane 3 c)) * Egnn.rowsFrom v37 128 (by omega) c j))
          + (v38 : S1x128.Idx → EReal) (ix2 (0 : Fin 1) j)) 0 := by
  unfold k1_pay43
  refine (addf_apply _ _ _).trans ?_
  refine congrArg₂ (· + ·) rfl ?_
  refine (maximumf_apply _ _ _).trans ?_
  exact congrArg₂ max (upd_bias_slab _ _ 384 _ _ _ 3 rfl v37 v38 v50 v118 n j) Ideal.ofBits_zero_f32

/-- Batch element 4: its features plus the rectified update. -/
theorem k1_pay44_apply (v37 : FVec Ideal S256x128 .bf16) (v38 : Vec Ideal S1x128 .f32) (v43 : FVec Ideal S512x128 .f32)
    (v51 : FVec Ideal S512x128 .bf16) (v118 : FVec Ideal S512x1024 .f32) (n : Fin 512) (j : Fin 128) :
    k1_pay44 (F := Ideal) v37 v38 v43 v51 v118 (ix2 n j)
      = v43 (ix2 n j) + max (((∑ c : Fin 128, v51 (ix2 n c) * Egnn.rowsFrom v37 0 (by omega) c j)
          + (∑ c : Fin 128, v118 (ix2 n (lane 4 c)) * Egnn.rowsFrom v37 128 (by omega) c j))
          + (v38 : S1x128.Idx → EReal) (ix2 (0 : Fin 1) j)) 0 := by
  unfold k1_pay44
  refine (addf_apply _ _ _).trans ?_
  refine congrArg₂ (· + ·) rfl ?_
  refine (maximumf_apply _ _ _).trans ?_
  exact congrArg₂ max (upd_bias_slab _ _ 512 _ _ _ 4 rfl v37 v38 v51 v118 n j) Ideal.ofBits_zero_f32

/-- Batch element 5: its features plus the rectified update. -/
theorem k1_pay45_apply (v37 : FVec Ideal S256x128 .bf16) (v38 : Vec Ideal S1x128 .f32) (v44 : FVec Ideal S512x128 .f32)
    (v52 : FVec Ideal S512x128 .bf16) (v118 : FVec Ideal S512x1024 .f32) (n : Fin 512) (j : Fin 128) :
    k1_pay45 (F := Ideal) v37 v38 v44 v52 v118 (ix2 n j)
      = v44 (ix2 n j) + max (((∑ c : Fin 128, v52 (ix2 n c) * Egnn.rowsFrom v37 0 (by omega) c j)
          + (∑ c : Fin 128, v118 (ix2 n (lane 5 c)) * Egnn.rowsFrom v37 128 (by omega) c j))
          + (v38 : S1x128.Idx → EReal) (ix2 (0 : Fin 1) j)) 0 := by
  unfold k1_pay45
  refine (addf_apply _ _ _).trans ?_
  refine congrArg₂ (· + ·) rfl ?_
  refine (maximumf_apply _ _ _).trans ?_
  exact congrArg₂ max (upd_bias_slab _ _ 640 _ _ _ 5 rfl v37 v38 v52 v118 n j) Ideal.ofBits_zero_f32

/-- Batch element 6, its aggregate already cut out as a block, through the leaky rectifier `max(h, s · h)`. -/
theorem k1_pay53_apply (v37 : FVec Ideal S256x128 .bf16) (v38 : Vec Ideal S1x128 .f32) (v45 : FVec Ideal S512x128 .f32)
    (v53 : FVec Ideal S512x128 .bf16) (v174 : FVec Ideal S512x128 .bf16) (n : Fin 512) (j : Fin 128) :
    k1_pay53 (F := Ideal) v37 v38 v45 v53 v174 (ix2 n j)
      = max (v45 (ix2 n j) + max (((∑ c : Fin 128, v53 (ix2 n c) * Egnn.rowsFrom v37 0 (by omega) c j)
          + (∑ c : Fin 128, v174 (ix2 n c) * Egnn.rowsFrom v37 128 (by omega) c j))
          + (v38 : S1x128.Idx → EReal) (ix2 (0 : Fin 1) j)) 0)
          (Ideal.ofBits .f32 0x3C23D70A#32 * (v45 (ix2 n j) + max (((∑ c : Fin 128, v53 (ix2 n c) * Egnn.rowsFrom v37 0 (by omega) c j)
          + (∑ c : Fin 128, v174 (ix2 n c) * Egnn.rowsFrom v37 128 (by omega) c j))
          + (v38 : S1x128.Idx → EReal) (ix2 (0 : Fin 1) j)) 0)) := by
  have hH : addf v45 (maximumf (addf (matmul dot_S512x256_S256x128_S512x128_1_0_0_1_n_n none
        (concatenate S512x256 1 [⟨S512x128, v53⟩, ⟨S512x128, v174⟩] concatenates_S512x128_S512x128_S512x256_d1) v37
        (constant (F := Ideal) S512x128 .f32 0x00000000#32)) (broadcastTo S512x128 v38 broadcasts_S1x128_S512x128))
        (broadcast S512x128 (Scalar.ofBits (F := Ideal) .f32 0x00000000#32))) (ix2 n j)
      = v45 (ix2 n j) + max (((∑ c : Fin 128, v53 (ix2 n c) * Egnn.rowsFrom v37 0 (by omega) c j)
          + (∑ c : Fin 128, v174 (ix2 n c) * Egnn.rowsFrom v37 128 (by omega) c j))
          + (v38 : S1x128.Idx → EReal) (ix2 (0 : Fin 1) j)) 0 := by
    refine (addf_apply _ _ _).trans ?_
    refine congrArg₂ (· + ·) rfl ?_
    refine (maximumf_apply _ _ _).trans ?_
    exact congrArg₂ max (upd_bias_vec _ _ _ v37 v38 v53 v174 n j) Ideal.ofBits_zero_f32
  unfold k1_pay53
  refine (maximumf_apply _ _ _).trans ?_
  exact congrArg₂ max hH (congrArg (Ideal.ofBits .f32 0x3C23D70A#32 * ·) hH)

/-- Batch element 7 through the leaky rectifier `max(h, s · h)`. -/
theorem k1_pay54_apply (v37 : FVec Ideal S256x128 .bf16) (v38 : Vec Ideal S1x128 .f32) (v46 : FVec Ideal S512x128 .f32)
    (v54 : FVec Ideal S512x128 .bf16) (v118 : FVec Ideal S512x1024 .f32) (n : Fin 512) (j : Fin 128) :
    k1_pay54 (F := Ideal) v37 v38 v46 v54 v118 (ix2 n j)
      = max (v46 (ix2 n j) + max (((∑ c : Fin 128, v54 (ix2 n c) * Egnn.rowsFrom v37 0 (by omega) c j)
          + (∑ c : Fin 128, v118 (ix2 n (lane 7 c)) * Egnn.rowsFrom v37 128 (by omega) c j))
          + (v38 : S1x128.Idx → EReal) (ix2 (0 : Fin 1) j)) 0)
          (Ideal.ofBits .f32 0x3C23D70A#32 * (v46 (ix2 n j) + max (((∑ c : Fin 128, v54 (ix2 n c) * Egnn.rowsFrom v37 0 (by omega) c j)
          + (∑ c : Fin 128, v118 (ix2 n (lane 7 c)) * Egnn.rowsFrom v37 128 (by omega) c j))
          + (v38 : S1x128.Idx → EReal) (ix2 (0 : Fin 1) j)) 0)) := by
  have hH : addf v46 (maximumf (addf (matmul dot_S512x256_S256x128_S512x128_1_0_0_1_n_n none
        (concatenate S512x256 1 [⟨S512x128, v54⟩, ⟨S512x128, truncf .bf16 (extractStridedSlice S512x128 ![0, 896] v118
          slices_S512x1024_o0_896_S512x128) bitsLt_bf16_f32⟩] concatenates_S512x128_S512x128_S512x256_d1) v37
        (constant (F := Ideal) S512x128 .f32 0x00000000#32)) (broadcastTo S512x128 v38 broadcasts_S1x128_S512x128))
        (broadcast S512x128 (Scalar.ofBits (F := Ideal) .f32 0x00000000#32))) (ix2 n j)
      = v46 (ix2 n j) + max (((∑ c : Fin 128, v54 (ix2 n c) * Egnn.rowsFrom v37 0 (by omega) c j)
          + (∑ c : Fin 128, v118 (ix2 n (lane 7 c)) * Egnn.rowsFrom v37 128 (by omega) c j))
          + (v38 : S1x128.Idx → EReal) (ix2 (0 : Fin 1) j)) 0 := by
    refine (addf_apply _ _ _).trans ?_
    refine congrArg₂ (· + ·) rfl ?_
    refine (maximumf_apply _ _ _).trans ?_
    exact congrArg₂ max (upd_bias_slab _ _ 896 _ _ _ 7 rfl v37 v38 v54 v118 n j) Ideal.ofBits_zero_f32
  unfold k1_pay54
  refine (maximumf_apply _ _ _).trans ?_
  exact congrArg₂ max hH (congrArg (Ideal.ofBits .f32 0x3C23D70A#32 * ·) hH)

/-! ## Layer 2 -/

/-- Batch element 0, the product alone (the bias row, the rectifier and the residual sum come after it); the aggregate
    is the first slab of the second aggregation product. -/
theorem k1_pay81_apply (v3 : FVec Ideal S2048x512 .bf16) (v228 : FVec Ideal S2048x128 .f32) (v230 : FVec Ideal S2048x8 .f32)
    (v232 : FVec Ideal S256x128 .bf16) (v242 : FVec Ideal S512x128 .bf16) (v255 : FVec Ideal S2048x1032 .f32)
    (v256 : FVec Ideal S2048x1024 .f32) (v259 : FVec Ideal S2048x8 .f32) (n : Fin 512) (j : Fin 128) :
    k1_pay81 (F := Ideal) v3 v228 v230 v232 v242 v255 v256 v259 (ix2 n j)
      = (∑ c : Fin 128, v242 (ix2 n c) * Egnn.rowsFrom v232 0 (by omega) c j)
          + (∑ c : Fin 128, k1_pay80 (F := Ideal) v3 v228 v230 v255 v256 v259 (ix2 n (lane 0 c)) * Egnn.rowsFrom v232 128 (by omega) c j) := by
  unfold k1_pay81
  exact upd_mm_slab _ _ 0 _ _ 0 rfl v232 v242 (k1_pay80 (F := Ideal) v3 v228 v230 v255 v256 v259) n j

/-- Batch element 1 of layer 2: its features plus the rectified update. -/
theorem k1_pay83_apply (v232 : FVec Ideal S256x128 .bf16) (v233 : Vec Ideal S1x128 .f32) (v235 : FVec Ideal S512x128 .f32)
    (v243 : FVec Ideal S512x128 .bf16) (v313 : FVec Ideal S512x1024 .f32) (n : Fin 512) (j : Fin 128) :
    k1_pay83 (F := Ideal) v232 v233 v235 v243 v313 (ix2 n j)
      = v235 (ix2 n j) + max (((∑ c : Fin 128, v243 (ix2 n c) * Egnn.rowsFrom v232 0 (by omega) c j)
          + (∑ c : Fin 128, v313 (ix2 n (lane 1 c)) * Egnn.rowsFrom v232 128 (by omega) c j))
          + (v233 : S1x128.Idx → EReal) (ix2 (0 : Fin 1) j)) 0 := by
  unfold k1_pay83
  refine (addf_apply _ _ _).trans ?_
  refine congrArg₂ (· + ·) rfl ?_
  refine (maximumf_apply _ _ _).trans ?_
  exact congrArg₂ max (upd_bias_slab _ _ 128 _ _ _ 1 rfl v232 v233 v243 v313 n j) Ideal.ofBits_zero_f32

/-- Batch element 2 of layer 2: its features plus the rectified update. -/
theorem k1_pay84_apply (v232 : FVec Ideal S256x128 .bf16) (v233 : Vec Ideal S1x128 .f32) (v236 : FVec Ideal S512x128 .f32)
    (v244 : FVec Ideal S512x128 .bf16) (v313 : FVec Ideal S512x1024 .f32) (n : Fin 512) (j : Fin 128) :
    k1_pay84 (F := Ideal) v232 v233 v236 v244 v313 (ix2 n j)
      = v236 (ix2 n j) + max (((∑ c : Fin 128, v244 (ix2 n c) * Egnn.rowsFrom v232 0 (by omega) c j)
          + (∑ c : Fin 128, v313 (ix2 n (lane 2 c)) * Egnn.rowsFrom v232 128 (by omega) c j))
          + (v233 : S1x128.Idx → EReal) (ix2 (0 : Fin 1) j)) 0 := by
  unfold k1_pay84
  refine (addf_apply _ _ _).trans ?_
  refine congrArg₂ (· + ·) rfl ?_
  refine (maximumf_apply _ _ _).trans ?_
  exact congrArg₂ max (upd_bias_slab _ _ 256 _ _ _ 2 rfl v232 v233 v244 v313 n j) Ideal.ofBits_zero_f32

/-- Batch element 3 of layer 2: its features plus the rectified update. -/
theorem k1_pay85_apply (v232 : FVec Ideal S256x128 .bf16) (v233 : Vec Ideal S1x128 .f32) (v237 : FVec Ideal S512x128 .f32)
    (v245 : FVec Ideal S512x128 .bf16) (v313 : FVec Ideal S512x1024 .f32) (n : Fin 512) (j : Fin 128) :
    k1_pay85 (F := Ideal) v232 v233 v237 v245 v313 (ix2 n j)
      = v237 (ix2 n j) + max (((∑ c : Fin 128, v245 (ix2 n c) * Egnn.rowsFrom v232 0 (by omega) c j)
          + (∑ c : Fin 128, v313 (ix2 n (lane 3 c)) * Egnn.rowsFrom v232 128 (by omega) c j))
          + (v233 : S1x128.Idx → EReal) (ix2 (0 : Fin 1) j)) 0 := by
  unfold k1_pay85
  refine (addf_apply _ _ _).trans ?_
  refine congrArg₂ (· + ·) rfl ?_
  refine (maximumf_apply _ _ _).trans ?_
  exact congrArg₂ max (upd_bias_slab _ _ 384 _ _ _ 3 rfl v232 v233 v245 v313 n j) Ideal.ofBits_zero_f32

/-- Batch element 4 of layer 2: its features plus the rectified update. -/
theorem k1_pay86_apply (v232 : FVec Ideal S256x128 .bf16) (v233 : Vec Ideal S1x128 .f32) (v238 : FVec Ideal S512x128 .f32)
    (v246 : FVec Ideal S512x128 .bf16) (v313 : FVec Ideal S512x1024 .f32) (n : Fin 512) (j : Fin 128) :
    k1_pay86 (F := Ideal) v232 v233 v238 v246 v313 (ix2 n j)
      = v238 (ix2 n j) + max (((∑ c : Fin 128, v246 (ix2 n c) * Egnn.rowsFrom v232 0 (by omega) c j)
          + (∑ c : Fin 128, v313 (ix2 n (lane 4 c)) * Egnn.rowsFrom v232 128 (by omega) c j))
          + (v233 : S1x128.Idx → EReal) (ix2 (0 : Fin 1) j)) 0 := by
  unfold k1_pay86
  refine (addf_apply _ _ _).trans ?_
  refine congrArg₂ (· + ·) rfl ?_
  refine (maximumf_apply _ _ _).trans ?_
  exact congrArg₂ max (upd_bias_slab _ _ 512 _ _ _ 4 rfl v232 v233 v246 v313 n j) Ideal.ofBits_zero_f32

/-- Batch element 5 of layer 2: the rectified update alone (the residual sum comes after it). -/
theorem k1_pay87_apply (v232 : FVec Ideal S256x128 .bf16) (v233 : Vec Ideal S1x128 .f32)
    (v247 : FVec Ideal S512x128 .bf16) (v313 : FVec Ideal S512x1024 .f32) (n : Fin 512) (j : Fin 128) :
    k1_pay87 (F := Ideal) v232 v233 v247 v313 (ix2 n j)
      = max (((∑ c : Fin 128, v247 (ix2 n c) * Egnn.rowsFrom v232 0 (by omega) c j)
          + (∑ c : Fin 128, v313 (ix2 n (lane 5 c)) * Egnn.rowsFrom v232 128 (by omega) c j))
          + (v233 : S1x128.Idx → EReal) (ix2 (0 : Fin 1) j)) 0 := by
  unfold k1_pay87
  refine (maximumf_apply _ _ _).trans ?_
  exact congrArg₂ max (upd_bias_slab _ _ 640 _ _ _ 5 rfl v232 v233 v247 v313 n j) Ideal.ofBits_zero_f32

/-- Batch element 6 of layer 2: its features plus the rectified update. -/
theorem k1_pay89_apply (v232 : FVec Ideal S256x128 .bf16) (v233 : Vec Ideal S1x128 .f32) (v240 : FVec Ideal S512x128 .f32)
    (v248 : FVec Ideal S512x128 .bf16) (v313 : FVec Ideal S512x1024 .f32) (n : Fin 512) (j : Fin 128) :
    k1_pay89 (F := Ideal) v232 v233 v240 v248 v313 (ix2 n j)
      = v240 (ix2 n j) + max (((∑ c : Fin 128, v248 (ix2 n c) * Egnn.rowsFrom v232 0 (by omega) c j)
          + (∑ c : Fin 128, v313 (ix2 n (lane 6 c)) * Egnn.rowsFrom v232 128 (by omega) c j))
          + (v233 : S1x128.Idx → EReal) (ix2 (0 : Fin 1) j)) 0 := by
  unfold k1_pay89
  refine (addf_apply _ _ _).trans ?_
  refine congrArg₂ (· + ·) rfl ?_
  refine (maximumf_apply _ _ _).trans ?_
  exact congrArg₂ max (upd_bias_slab _ _ 768 _ _ _ 6 rfl v232 v233 v248 v313 n j) Ideal.ofBits_zero_f32

/-- Batch element 7 of layer 2: its features plus the rectified update. -/
theorem k1_pay90_apply (v232 : FVec Ideal S256x128 .bf16) (v233 : Vec Ideal S1x128 .f32) (v241 : FVec Ideal S512x128 .f32)
    (v249 : FVec Ideal S512x128 .bf16) (v313 : FVec Ideal S512x1024 .f32) (n : Fin 512) (j : Fin 128) :
    k1_pay90 (F := Ideal) v232 v233 v241 v249 v313 (ix2 n j)
      = v241 (ix2 n j) + max (((∑ c : Fin 128, v249 (ix2 n c) * Egnn.rowsFrom v232 0 (by omega) c j)
          + (∑ c : Fin 128, v313 (ix2 n (lane 7 c)) * Egnn.rowsFrom v232 128 (by omega) c j))
          + (v233 : S1x128.Idx → EReal) (ix2 (0 : Fin 1) j)) 0 := by
  unfold k1_pay90
  refine (addf_apply _ _ _).trans ?_
  refine congrArg₂ (· + ·) rfl ?_
  refine (maximumf_apply _ _ _).trans ?_
  exact congrArg₂ max (upd_bias_slab _ _ 896 _ _ _ 7 rfl v232 v233 v249 v313 n j) Ideal.ofBits_zero_f32

end Cert.KernelIdeal.KPay

end
-- ==== Proof.KSlope.lean ====
/-
  The rectifier's slope. The f32 word 0x3C23D70A has sign 0, exponent field 120 and fraction field 2348810, so it
  denotes (2^23 + 2348810) · 2^(120 − 127 − 23) = 10737418 / 2^30, a real between 0 and 1. For such a slope the
  maximum of y and slope · y is the leaky rectifier in its selecting form, on every extended real.
-/
import proofs.«130875_g2000201574592089_pallasbulk_874_11_alg».proof.Proof.LibEgnn
import Idealize.ShloMosaic.PureOps.Ideal

noncomputable section

namespace Cert.KernelIdeal.KPay

open Idealize.ShloMosaic

/-- The slope's word denotes the real 10737418 / 2^30. -/
theorem ofBits_slope : Ideal.ofBits .f32 0x3C23D70A#32 = (((10737418 : ℝ) / 2 ^ 30 : ℝ) : EReal) := by
  simp [Ideal.ofBits, Ideal.ieee, -EReal.coe_mul]; norm_num

/-- The slope is a real between 0 and 1. -/
theorem slope_real : ∃ r : ℝ, 0 ≤ r ∧ r ≤ 1 ∧ Ideal.ofBits .f32 0x3C23D70A#32 = ((r : ℝ) : EReal) :=
  ⟨(10737418 : ℝ) / 2 ^ 30, by norm_num, by norm_num, ofBits_slope⟩

/-- The maximum form of the rectifier is the selecting form. -/
theorem max_slope (y : EReal) :
    max y (Ideal.ofBits .f32 0x3C23D70A#32 * y) = Egnn.leaky (Ideal.ofBits .f32 0x3C23D70A#32) y := by
  obtain ⟨r, h0, h1, hr⟩ := slope_real
  rw [hr]
  exact Egnn.max_eq_leaky h0 h1 y

end Cert.KernelIdeal.KPay

end
-- ==== Proof.KChainC.lean ====
/-
  The end of layer 1's chain at one grid point: each batch element's update contracts its projected features and
  its aggregated messages with the two halves of the stacked weight, adds the bias, is clipped below at zero and
  added to the projection — the packed arrangement's result, hence the plain layer's — and the rectifier
  max(h, s·h) that follows is the selecting rectifier.
-/
import proofs.«130875_g2000201574592089_pallasbulk_874_11_alg».proof.Proof.KChainB
import proofs.«130875_g2000201574592089_pallasbulk_874_11_alg».proof.Proof.KPayUpd
import proofs.«130875_g2000201574592089_pallasbulk_874_11_alg».proof.Proof.KSlope

set_option maxRecDepth 16384

noncomputable section

namespace Cert.KernelIdeal.KBody

open Cert.KernelIdeal Cert.KernelIdeal.Gen Cert.KernelIdeal.KValue Cert.KernelIdeal.KPay
open Idealize.ShloMosaic Idealize.ShloMosaic.ValueIdx

variable (X : Blocks) (kv qv : Fin 128 → EReal)

/-- The update's inner bracket for element `b`, from any spelling `u` of its projected features. -/
theorem core1 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (b : Fin 8) (n : Fin 512) (j : Fin 128) (u : FVec Ideal S512x128 .bf16) (hu : ∀ c : Fin 128, u (ix2 n c) = xv1 X b n c) :
    ((∑ c : Fin 128, u (ix2 n c) * Egnn.rowsFrom (N16 X) 0 (by omega) c j)
        + (∑ c : Fin 128, N38 X (ix2 n (lane b c)) * Egnn.rowsFrom (N16 X) 128 (by omega) c j))
      + (L10_14 X : S1x128.Idx → EReal) (ix2 (0 : Fin 1) j)
    = ((∑ c : Fin 128, xv1 X b n c * Wcx1 X c j)
        + (∑ c : Fin 128, Egnn.packedAggr (opS X) (opT X) (g1 X) (ea1 X) kv qv (xv1 X) b n c * Wca1 X c j)) + bc1 X j := by
  have h16 : N16 X = X.x9 := (k1_pay16_eq _).trans (L9_13_eq X)
  rw [h16, L10_14_eq]
  refine congrArg₂ (· + ·) (congrArg₂ (· + ·) (Finset.sum_congr rfl fun c _ => ?_) (Finset.sum_congr rfl fun c _ => ?_)) rfl
  · rw [hu c]; rfl
  · rw [aggr1_apply X kv qv hkq hea]; rfl

/-- Element 0: the projection plus the clipped update. -/
theorem h1_0 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N40 X (ix2 n j) = Egnn.packedOut (opS X) (opT X) (g1 X) (ea1 X) kv qv (Wcx1 X) (Wca1 X) (bc1 X) (xv1 X) 0 n j := by
  refine (k1_pay40_apply (N17 X) (N39 X) _ n j).trans ?_
  show N17 X (ix2 n j) + max (N39 X (ix2 n j)) (Ideal.ofBits .f32 0x00000000#32) = _
  rw [Ideal.ofBits_zero_f32, N17_apply]
  unfold Egnn.packedOut
  refine congrArg (fun z => xv1 X 0 n j + max z 0) ?_
  refine (k1_pay39_apply (N5 X) (N15 X) (N16 X) (L10_14 X) (N25 X) (N36 X) (N37 X) n j).trans ?_
  exact core1 X kv qv hkq hea 0 n j (N25 X) (fun c => N25_apply X n c)

theorem h1_1 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N41 X (ix2 n j) = Egnn.packedOut (opS X) (opT X) (g1 X) (ea1 X) kv qv (Wcx1 X) (Wca1 X) (bc1 X) (xv1 X) 1 n j := by
  refine (k1_pay41_apply (N16 X) (L10_14 X) (N18 X) (N26 X) (N38 X) n j).trans ?_
  rw [N18_apply]
  unfold Egnn.packedOut
  refine congrArg (fun z => xv1 X 1 n j + max z 0) ?_
  exact core1 X kv qv hkq hea 1 n j (N26 X) (fun c => N26_apply X n c)

theorem h1_2 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N42 X (ix2 n j) = Egnn.packedOut (opS X) (opT X) (g1 X) (ea1 X) kv qv (Wcx1 X) (Wca1 X) (bc1 X) (xv1 X) 2 n j := by
  refine (k1_pay42_apply (N16 X) (L10_14 X) (N19 X) (N27 X) (N38 X) n j).trans ?_
  rw [N19_apply]
  unfold Egnn.packedOut
  refine congrArg (fun z => xv1 X 2 n j + max z 0) ?_
  exact core1 X kv qv hkq hea 2 n j (N27 X) (fun c => N27_apply X n c)

theorem h1_3 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N43 X (ix2 n j) = Egnn.packedOut (opS X) (opT X) (g1 X) (ea1 X) kv qv (Wcx1 X) (Wca1 X) (bc1 X) (xv1 X) 3 n j := by
  refine (k1_pay43_apply (N16 X) (L10_14 X) (N20 X) (N28 X) (N38 X) n j).trans ?_
  rw [N20_apply]
  unfold Egnn.packedOut
  refine congrArg (fun z => xv1 X 3 n j + max z 0) ?_
  exact core1 X kv qv hkq hea 3 n j (N28 X) (fun c => N28_apply X n c)

theorem h1_4 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N44 X (ix2 n j) = Egnn.packedOut (opS X) (opT X) (g1 X) (ea1 X) kv qv (Wcx1 X) (Wca1 X) (bc1 X) (xv1 X) 4 n j := by
  refine (k1_pay44_apply (N16 X) (L10_14 X) (N21 X) (N29 X) (N38 X) n j).trans ?_
  rw [N21_apply]
  unfold Egnn.packedOut
  refine congrArg (fun z => xv1 X 4 n j + max z 0) ?_
  exact core1 X kv qv hkq hea 4 n j (N29 X) (fun c => N29_apply X n c)

theorem h1_5 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N45 X (ix2 n j) = Egnn.packedOut (opS X) (opT X) (g1 X) (ea1 X) kv qv (Wcx1 X) (Wca1 X) (bc1 X) (xv1 X) 5 n j := by
  refine (k1_pay45_apply (N16 X) (L10_14 X) (N22 X) (N30 X) (N38 X) n j).trans ?_
  rw [N22_apply]
  unfold Egnn.packedOut
  refine congrArg (fun z => xv1 X 5 n j + max z 0) ?_
  exact core1 X kv qv hkq hea 5 n j (N30 X) (fun c => N30_apply X n c)

/-- The rectified layer-1 result of elements 0–5. -/
theorem a1_0 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N47 X (ix2 n j) = act1 X kv qv 0 n j := by
  refine (k1_pay47_apply (N40 X) n j).trans ?_
  rw [h1_0 X kv qv hkq hea n j, max_slope, Egnn.packedOut_eq]
  rfl

theorem a1_1 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N48 X (ix2 n j) = act1 X kv qv 1 n j := by
  refine (k1_pay48_apply (N41 X) n j).trans ?_
  rw [h1_1 X kv qv hkq hea n j, max_slope, Egnn.packedOut_eq]
  rfl

theorem a1_2 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N49 X (ix2 n j) = act1 X kv qv 2 n j := by
  refine (k1_pay49_apply (N42 X) n j).trans ?_
  rw [h1_2 X kv qv hkq hea n j, max_slope, Egnn.packedOut_eq]
  rfl

theorem a1_3 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N50 X (ix2 n j) = act1 X kv qv 3 n j := by
  refine (k1_pay50_apply (N43 X) n j).trans ?_
  rw [h1_3 X kv qv hkq hea n j, max_slope, Egnn.packedOut_eq]
  rfl

theorem a1_4 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N51 X (ix2 n j) = act1 X kv qv 4 n j := by
  refine (k1_pay51_apply (N44 X) n j).trans ?_
  rw [h1_4 X kv qv hkq hea n j, max_slope, Egnn.packedOut_eq]
  rfl

theorem a1_5 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N52 X (ix2 n j) = act1 X kv qv 5 n j := by
  refine (k1_pay52_apply (N45 X) n j).trans ?_
  rw [h1_5 X kv qv hkq hea n j, max_slope, Egnn.packedOut_eq]
  rfl

/-- Element 6: its aggregated lanes are cut out first, and the rectifier is part of the same step. -/
theorem a1_6 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N53 X (ix2 n j) = act1 X kv qv 6 n j := by
  refine (k1_pay53_apply (N16 X) (L10_14 X) (N23 X) (N31 X) (N46 X) n j).trans ?_
  have h46 : ∀ c : Fin 128, N46 X (ix2 n c) = N38 X (ix2 n (lane 6 c)) := fun c => k1_pay46_apply (N38 X) n c
  simp only [h46]
  rw [core1 X kv qv hkq hea 6 n j (N31 X) (fun c => N31_apply X n c), N23_apply, max_slope]
  show Egnn.leaky slope (Egnn.packedOut (opS X) (opT X) (g1 X) (ea1 X) kv qv (Wcx1 X) (Wca1 X) (bc1 X) (xv1 X) 6 n j) = _
  rw [Egnn.packedOut_eq]
  rfl

/-- Element 7 likewise. -/
theorem a1_7 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (j : Fin 128) :
    N54 X (ix2 n j) = act1 X kv qv 7 n j := by
  refine (k1_pay54_apply (N16 X) (L10_14 X) (N24 X) (N32 X) (N38 X) n j).trans ?_
  rw [core1 X kv qv hkq hea 7 n j (N32 X) (fun c => N32_apply X n c), N24_apply, max_slope]
  show Egnn.leaky slope (Egnn.packedOut (opS X) (opT X) (g1 X) (ea1 X) kv qv (Wcx1 X) (Wca1 X) (bc1 X) (xv1 X) 7 n j) = _
  rw [Egnn.packedOut_eq]
  rfl

end Cert.KernelIdeal.KBody

end
-- ==== Proof.KPayAtt2.lean ====
/-
  The attention payloads of the second layer of the lane-packed program read at an index, by the forms over variables
  of the first layer's module. In this layer the target gather of the key scalars is a payload of its own and the edge
  logit (key gather + gathered query scalar + edge part) is formed inside the aggregation payload.
-/
import proofs.«130875_g2000201574592089_pallasbulk_874_11_alg».proof.Proof.Gen.KernelIdeal.Skeleton
import proofs.«130875_g2000201574592089_pallasbulk_874_11_alg».proof.Proof.KDefs
import proofs.«130875_g2000201574592089_pallasbulk_874_11_alg».proof.Proof.LibEgnn
import proofs.«130875_g2000201574592089_pallasbulk_874_11_alg».proof.Proof.KPayLib
import proofs.«130875_g2000201574592089_pallasbulk_874_11_alg».proof.Proof.KPayAtt

noncomputable section

namespace Cert.KernelIdeal.KPay

open Idealize.ShloMosaic Idealize.ShloMosaic.ValueIdx Cert.KernelIdeal Cert.KernelIdeal.Gen Cert.KernelIdeal.KValue

/-! ## Layer 2 -/

/-- The eight batch elements' projected features side by side: lane `b · 128 + c` is element `b`'s channel `c`. -/
theorem k1_pay75_apply (v194 v198 v202 v206 v210 v214 v218 v222 : FVec Ideal S512x128 .bf16) (v223 : Vec Ideal S128x128 .bf16) (n : Fin 512) (b : Fin 8) (c : Fin 128) :
    k1_pay75 (F := Ideal) v194 v198 v202 v206 v210 v214 v218 v222 v223 (ix2 n (lane b c))
      = (![k1_pay67 (F := Ideal) v194 v223, k1_pay68 (F := Ideal) v198 v223, k1_pay69 (F := Ideal) v202 v223, k1_pay70 (F := Ideal) v206 v223, k1_pay71 (F := Ideal) v210 v223, k1_pay72 (F := Ideal) v214 v223, k1_pay73 (F := Ideal) v218 v223, k1_pay74 (F := Ideal) v222 v223] b) (ix2 n c) := by
  unfold k1_pay75
  exact concat8_apply _ _ _ _ _ _ _ _ _ n b c (lane b c) rfl

/-- The key/query scalars: the packed features against the joined block-diagonal weight. -/
theorem k1_pay76_apply (v194 v198 v202 v206 v210 v214 v218 v222 : FVec Ideal S512x128 .bf16) (v223 : Vec Ideal S128x128 .bf16) (v225 : Vec Ideal S1024x16 .bf16) (n : Fin 512) (col : Fin 16) :
    k1_pay76 (F := Ideal) v194 v198 v202 v206 v210 v214 v218 v222 v223 v225 (ix2 n col)
      = ∑ b' : Fin 8, ∑ c : Fin 128, k1_pay75 (F := Ideal) v194 v198 v202 v206 v210 v214 v218 v222 v223 (ix2 n (lane b' c)) * (v225 : S1024x16.Idx → EReal) (ix2 (lane b' c) col) := by
  unfold k1_pay76
  exact kq_apply _ _ (k1_pay75 (F := Ideal) v194 v198 v202 v206 v210 v214 v218 v222 v223) v225 n col

/-- The source gather, in the features' lanes. -/
theorem k1_pay77_apply_w (v1 : FVec Ideal S2048x512 .bf16) (v194 v198 v202 v206 v210 v214 v218 v222 : FVec Ideal S512x128 .bf16) (v223 : Vec Ideal S128x128 .bf16) (v225 : Vec Ideal S1024x16 .bf16)
    (e : Fin 2048) (b : Fin 8) (c : Fin 128) :
    k1_pay77 (F := Ideal) v1 v194 v198 v202 v206 v210 v214 v218 v222 v223 v225 (ix2 e (laneW b c))
      = ∑ n : Fin 512, v1 (ix2 e n) * k1_pay75 (F := Ideal) v194 v198 v202 v206 v210 v214 v218 v222 v223 (ix2 n (lane b c)) := by
  unfold k1_pay77
  exact gath_w_apply _ _ v1 (k1_pay75 (F := Ideal) v194 v198 v202 v206 v210 v214 v218 v222 v223) _ e b c

/-- The source gather, in the eight extra lanes: the gathered query scalars (columns 8–15 of the key/query product). -/
theorem k1_pay77_apply_8 (v1 : FVec Ideal S2048x512 .bf16) (v194 v198 v202 v206 v210 v214 v218 v222 : FVec Ideal S512x128 .bf16) (v223 : Vec Ideal S128x128 .bf16) (v225 : Vec Ideal S1024x16 .bf16)
    (e : Fin 2048) (b : Fin 8) :
    k1_pay77 (F := Ideal) v1 v194 v198 v202 v206 v210 v214 v218 v222 v223 v225 (ix2 e (lane8 b))
      = ∑ n : Fin 512, v1 (ix2 e n) * k1_pay76 (F := Ideal) v194 v198 v202 v206 v210 v214 v218 v222 v223 v225 (ix2 n (⟨8 + b.val, by omega⟩ : Fin 16)) := by
  unfold k1_pay77
  refine (gath_8_apply _ _ v1 (k1_pay75 (F := Ideal) v194 v198 v202 v206 v210 v214 v218 v222 v223) _ e b).trans ?_
  refine Finset.sum_congr rfl fun n _ => congrArg₂ (· * ·) rfl ?_
  refine (truncf_apply (φ := .f32) (ψ := .bf16) _ _ (ix2 n b)).trans ?_
  exact slab_apply 8 (k1_pay76 (F := Ideal) v194 v198 v202 v206 v210 v214 v218 v222 v223 v225) _ n b (⟨8 + b.val, by omega⟩ : Fin 16) rfl

/-- The gathered features: the first 1024 lanes of the source gather. -/
theorem k1_pay78_apply (v1 : FVec Ideal S2048x512 .bf16) (v194 v198 v202 v206 v210 v214 v218 v222 : FVec Ideal S512x128 .bf16) (v223 : Vec Ideal S128x128 .bf16) (v225 : Vec Ideal S1024x16 .bf16)
    (e : Fin 2048) (b : Fin 8) (c : Fin 128) :
    k1_pay78 (F := Ideal) v1 v194 v198 v202 v206 v210 v214 v218 v222 v223 v225 (ix2 e (lane b c))
      = k1_pay77 (F := Ideal) v1 v194 v198 v202 v206 v210 v214 v218 v222 v223 v225 (ix2 e (laneW b c)) := by
  unfold k1_pay78
  exact slab_apply 0 (k1_pay77 (F := Ideal) v1 v194 v198 v202 v206 v210 v214 v218 v222 v223 v225) _ e (lane b c) (laneW b c) (Nat.zero_add _).symm

/-- The target gather of the key scalars alone (the query scalars and the edge part are added inside the aggregation
    payload in this layer). -/
theorem k1_pay79_apply (v3 : FVec Ideal S2048x512 .bf16) (v194 v198 v202 v206 v210 v214 v218 v222 : FVec Ideal S512x128 .bf16) (v223 : Vec Ideal S128x128 .bf16) (v225 : Vec Ideal S1024x16 .bf16)
    (e : Fin 2048) (b : Fin 8) :
    k1_pay79 (F := Ideal) v3 v194 v198 v202 v206 v210 v214 v218 v222 v223 v225 (ix2 e b)
      = ∑ n : Fin 512, v3 (ix2 e n) * k1_pay76 (F := Ideal) v194 v198 v202 v206 v210 v214 v218 v222 v223 v225 (ix2 n (⟨b.val, by omega⟩ : Fin 16)) := by
  unfold k1_pay79
  exact gath_key_apply _ _ _ v3 (k1_pay76 (F := Ideal) v194 v198 v202 v206 v210 v214 v218 v222 v223 v225) e b

/-- The aggregated messages of layer 2, the edge logit formed inside: key gather + gathered query scalar (extra lane
    `b` of the source gather) + edge part. -/
theorem k1_pay80_apply (v3 : FVec Ideal S2048x512 .bf16) (v228 : FVec Ideal S2048x128 .f32) (v230 : FVec Ideal S2048x8 .f32)
    (v255 : FVec Ideal S2048x1032 .f32) (v256 : FVec Ideal S2048x1024 .f32) (v259 : FVec Ideal S2048x8 .f32)
    (n : Fin 512) (b : Fin 8) (c : Fin 128) :
    k1_pay80 (F := Ideal) v3 v228 v230 v255 v256 v259 (ix2 n (lane b c))
      = ∑ e : Fin 2048, v3 (ix2 e n) * ((Ideal.logistic ((v259 (ix2 e b) + v255 (ix2 e (lane8 b))) + v230 (ix2 e b))
          * v228 (ix2 e c)) * v256 (ix2 e (lane b c))) := by
  unfold k1_pay80
  refine (msg_apply _ _ _ _ _ _ _ _ _ _ _ _ _ _ _ _ _ _ _ _ v3 _ v228 v256 n b c).trans ?_
  refine Finset.sum_congr rfl fun e _ => congrArg₂ (· * ·) rfl (congrArg₂ (· * ·) (congrArg₂ (· * ·) ?_ rfl) rfl)
  exact congrArg Ideal.logistic (congrArg₂ (· + ·) (congrArg₂ (· + ·) rfl (slab_apply 1024 v255 _ e b (lane8 b) rfl)) rfl)

end Cert.KernelIdeal.KPay

end
-- ==== Proof.KCanon.lean ====
/-
  The output block of one grid point of the lane-packed program's main body: eight stores, one per batch element,
  each writing the slab [b, 0:512, 0:128] of the [8, 512, 128] block. Read back at (b, n, j) the block holds the
  b-th stored piece at (0, n, j), whatever the pieces are.
-/
import proofs.«130875_g2000201574592089_pallasbulk_874_11_alg».proof.Proof.Gen.KernelIdeal.Frame
import proofs.«130875_g2000201574592089_pallasbulk_874_11_alg».proof.Proof.KDefs
import Idealize.ShloMosaic.Lib.ValueIdx
import Idealize.ShloMosaic.Lib.Pipeline.Value

noncomputable section

namespace Cert.KernelIdeal.KPay

open Cert.KernelIdeal Cert.KernelIdeal.Gen Idealize.ShloMosaic Idealize.SL.Sem Idealize.ShloMosaic.ValueIdx

/-- The block assembled from eight slabs: at (b, n, j) the b-th slab at (0, n, j). -/
def slabFn (p : Fin 8 → Vec Ideal S1x512x128 .f32) : S8x512x128.Idx → EReal :=
  fun y => p (show Fin 8 from y 0) (ix3 (0 : Fin 1) (show Fin 512 from y 1) (show Fin 128 from y 2))

theorem slabFn_apply (p : Fin 8 → Vec Ideal S1x512x128 .f32) (b : Fin 8) (n : Fin 512) (j : Fin 128) :
    slabFn p (ix3 b n j) = p b (ix3 (0 : Fin 1) n j) := rfl

/-- The slab stored at offset (b, 0, 0) is the block function's restriction to that slab. -/
theorem slab_piece (p : Fin 8 → Vec Ideal S1x512x128 .f32) (b : Fin 8)
    (inb : ∀ a, (![b.val, 0, 0] : Fin 3 → Nat) a + S1x512x128.size a ≤ S8x512x128.size a) (x : S1x512x128.Idx) :
    p b x = slabFn p ((Rect.unit (s := S8x512x128) ![b.val, 0, 0] S1x512x128.size inb).emb x) := by
  obtain ⟨u, n, j, rfl⟩ : ∃ (u : Fin 1) (n : Fin 512) (j : Fin 128), x = ix3 u n j := ⟨x 0, x 1, x 2, eq_ix3 x⟩
  have hu : u = 0 := Subsingleton.elim _ _
  subst hu
  have he : (Rect.unit (s := S8x512x128) ![b.val, 0, 0] S1x512x128.size inb).emb (ix3 (0 : Fin 1) n j) = ix3 b n j := by
    funext a; apply Fin.ext
    match a with
    | ⟨0, _⟩ => show b.val + 1 * 0 = b.val; omega
    | ⟨1, _⟩ => show 0 + 1 * n.val = n.val; omega
    | ⟨2, _⟩ => show 0 + 1 * j.val = j.val; omega
  rw [he, slabFn_apply]

/-- The eight-store block read at (b, n, j). -/
theorem canon8_apply (p0 p1 p2 p3 p4 p5 p6 p7 : Vec Ideal S1x512x128 .f32) (b : Fin 8) (n : Fin 512) (j : Fin 128) :
    View.canon ([⟨r1_23, p7⟩, ⟨r1_22, p6⟩, ⟨r1_21, p5⟩, ⟨r1_20, p4⟩, ⟨r1_19, p3⟩, ⟨r1_18, p2⟩, ⟨r1_17, p1⟩, ⟨r1_16, p0⟩] :
        List (View.Piece (Elt Ideal) S8x512x128 .f32)) (ix3 b n j)
      = (![p0, p1, p2, p3, p4, p5, p6, p7] b) (ix3 (0 : Fin 1) n j) := by
  refine (View.canon_apply_of_pieces (slabFn ![p0, p1, p2, p3, p4, p5, p6, p7]) _ ?_ (ix3 b n j)
    (cover1_15 p7 p6 p5 p4 p3 p2 p1 p0 (ix3 b n j))).trans (slabFn_apply _ b n j)
  intro q hq
  simp only [List.mem_cons, List.not_mem_nil, or_false] at hq
  rcases hq with rfl | rfl | rfl | rfl | rfl | rfl | rfl | rfl
  · exact fun x => slab_piece ![p0, p1, p2, p3, p4, p5, p6, p7] 7 (by decide) x
  · exact fun x => slab_piece ![p0, p1, p2, p3, p4, p5, p6, p7] 6 (by decide) x
  · exact fun x => slab_piece ![p0, p1, p2, p3, p4, p5, p6, p7] 5 (by decide) x
  · exact fun x => slab_piece ![p0, p1, p2, p3, p4, p5, p6, p7] 4 (by decide) x
  · exact fun x => slab_piece ![p0, p1, p2, p3, p4, p5, p6, p7] 3 (by decide) x
  · exact fun x => slab_piece ![p0, p1, p2, p3, p4, p5, p6, p7] 2 (by decide) x
  · exact fun x => slab_piece ![p0, p1, p2, p3, p4, p5, p6, p7] 1 (by decide) x
  · exact fun x => slab_piece ![p0, p1, p2, p3, p4, p5, p6, p7] 0 (by decide) x

end Cert.KernelIdeal.KPay

end
-- ==== Proof.KChainD.lean ====
/-
  Layer 2's chain at one grid point, from the rectified layer-1 results: the projections, the packed row, the key and
  query scalars, the gathered features, the attention logits, the aggregated messages, each element's result, and
  the eight results laid as slabs of the output block.
-/
import proofs.«130875_g2000201574592089_pallasbulk_874_11_alg».proof.Proof.KChainC
import proofs.«130875_g2000201574592089_pallasbulk_874_11_alg».proof.Proof.KPayAtt2
import proofs.«130875_g2000201574592089_pallasbulk_874_11_alg».proof.Proof.KCanon

set_option maxRecDepth 16384

noncomputable section

namespace Cert.KernelIdeal.KBody

open Cert.KernelIdeal Cert.KernelIdeal.Gen Cert.KernelIdeal.KValue Cert.KernelIdeal.KPay
open Idealize.ShloMosaic Idealize.ShloMosaic.ValueIdx

variable (X : Blocks) (kv qv kv2 qv2 : Fin 128 → EReal)

theorem N59_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N59 X (ix2 n c) = xv2 X kv qv 0 n c := by
  refine (k1_pay59_apply (N47 X) (L11_15 X) n c).trans ?_
  unfold xv2 Egnn.mm V2
  refine Finset.sum_congr rfl fun k _ => ?_
  rw [a1_0 X kv qv hkq hea, L11_15_eq]

theorem N67_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N67 X (ix2 n c) = xv2 X kv qv 0 n c := by
  refine (k1_pay67_apply (N47 X) (L11_15 X) n c).trans ?_
  unfold xv2 Egnn.mm V2
  refine Finset.sum_congr rfl fun k _ => ?_
  rw [a1_0 X kv qv hkq hea, L11_15_eq]

theorem N60_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N60 X (ix2 n c) = xv2 X kv qv 1 n c := by
  refine (k1_pay60_apply (N48 X) (L11_15 X) n c).trans ?_
  unfold xv2 Egnn.mm V2
  refine Finset.sum_congr rfl fun k _ => ?_
  rw [a1_1 X kv qv hkq hea, L11_15_eq]

theorem N68_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N68 X (ix2 n c) = xv2 X kv qv 1 n c := by
  refine (k1_pay68_apply (N48 X) (L11_15 X) n c).trans ?_
  unfold xv2 Egnn.mm V2
  refine Finset.sum_congr rfl fun k _ => ?_
  rw [a1_1 X kv qv hkq hea, L11_15_eq]

theorem N61_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N61 X (ix2 n c) = xv2 X kv qv 2 n c := by
  refine (k1_pay61_apply (N49 X) (L11_15 X) n c).trans ?_
  unfold xv2 Egnn.mm V2
  refine Finset.sum_congr rfl fun k _ => ?_
  rw [a1_2 X kv qv hkq hea, L11_15_eq]

theorem N69_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N69 X (ix2 n c) = xv2 X kv qv 2 n c := by
  refine (k1_pay69_apply (N49 X) (L11_15 X) n c).trans ?_
  unfold xv2 Egnn.mm V2
  refine Finset.sum_congr rfl fun k _ => ?_
  rw [a1_2 X kv qv hkq hea, L11_15_eq]

theorem N62_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N62 X (ix2 n c) = xv2 X kv qv 3 n c := by
  refine (k1_pay62_apply (N50 X) (L11_15 X) n c).trans ?_
  unfold xv2 Egnn.mm V2
  refine Finset.sum_congr rfl fun k _ => ?_
  rw [a1_3 X kv qv hkq hea, L11_15_eq]

theorem N70_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N70 X (ix2 n c) = xv2 X kv qv 3 n c := by
  refine (k1_pay70_apply (N50 X) (L11_15 X) n c).trans ?_
  unfold xv2 Egnn.mm V2
  refine Finset.sum_congr rfl fun k _ => ?_
  rw [a1_3 X kv qv hkq hea, L11_15_eq]

theorem N63_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N63 X (ix2 n c) = xv2 X kv qv 4 n c := by
  refine (k1_pay63_apply (N51 X) (L11_15 X) n c).trans ?_
  unfold xv2 Egnn.mm V2
  refine Finset.sum_congr rfl fun k _ => ?_
  rw [a1_4 X kv qv hkq hea, L11_15_eq]

theorem N71_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N71 X (ix2 n c) = xv2 X kv qv 4 n c := by
  refine (k1_pay71_apply (N51 X) (L11_15 X) n c).trans ?_
  unfold xv2 Egnn.mm V2
  refine Finset.sum_congr rfl fun k _ => ?_
  rw [a1_4 X kv qv hkq hea, L11_15_eq]

theorem N64_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N64 X (ix2 n c) = xv2 X kv qv 5 n c := by
  refine (k1_pay64_apply (N52 X) (L11_15 X) n c).trans ?_
  unfold xv2 Egnn.mm V2
  refine Finset.sum_congr rfl fun k _ => ?_
  rw [a1_5 X kv qv hkq hea, L11_15_eq]

theorem N72_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N72 X (ix2 n c) = xv2 X kv qv 5 n c := by
  refine (k1_pay72_apply (N52 X) (L11_15 X) n c).trans ?_
  unfold xv2 Egnn.mm V2
  refine Finset.sum_congr rfl fun k _ => ?_
  rw [a1_5 X kv qv hkq hea, L11_15_eq]

theorem N65_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N65 X (ix2 n c) = xv2 X kv qv 6 n c := by
  refine (k1_pay65_apply (N53 X) (L11_15 X) n c).trans ?_
  unfold xv2 Egnn.mm V2
  refine Finset.sum_congr rfl fun k _ => ?_
  rw [a1_6 X kv qv hkq hea, L11_15_eq]

theorem N73_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N73 X (ix2 n c) = xv2 X kv qv 6 n c := by
  refine (k1_pay73_apply (N53 X) (L11_15 X) n c).trans ?_
  unfold xv2 Egnn.mm V2
  refine Finset.sum_congr rfl fun k _ => ?_
  rw [a1_6 X kv qv hkq hea, L11_15_eq]

theorem N66_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N66 X (ix2 n c) = xv2 X kv qv 7 n c := by
  refine (k1_pay66_apply (N54 X) (L11_15 X) n c).trans ?_
  unfold xv2 Egnn.mm V2
  refine Finset.sum_congr rfl fun k _ => ?_
  rw [a1_7 X kv qv hkq hea, L11_15_eq]

theorem N74_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (n : Fin 512) (c : Fin 128) :
    N74 X (ix2 n c) = xv2 X kv qv 7 n c := by
  refine (k1_pay74_apply (N54 X) (L11_15 X) n c).trans ?_
  unfold xv2 Egnn.mm V2
  refine Finset.sum_congr rfl fun k _ => ?_
  rw [a1_7 X kv qv hkq hea, L11_15_eq]

theorem cat2_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (b : Fin 8) (n : Fin 512) (c : Fin 128) :
    (![k1_pay67 (N47 X) (L11_15 X), k1_pay68 (N48 X) (L11_15 X), k1_pay69 (N49 X) (L11_15 X), k1_pay70 (N50 X) (L11_15 X), k1_pay71 (N51 X) (L11_15 X), k1_pay72 (N52 X) (L11_15 X), k1_pay73 (N53 X) (L11_15 X), k1_pay74 (N54 X) (L11_15 X)] b) (ix2 n c) = xv2 X kv qv b n c := by
  fin_cases b
  · exact N67_apply X kv qv hkq hea n c
  · exact N68_apply X kv qv hkq hea n c
  · exact N69_apply X kv qv hkq hea n c
  · exact N70_apply X kv qv hkq hea n c
  · exact N71_apply X kv qv hkq hea n c
  · exact N72_apply X kv qv hkq hea n c
  · exact N73_apply X kv qv hkq hea n c
  · exact N74_apply X kv qv hkq hea n c

theorem row2_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (b : Fin 8) (n : Fin 512) (c : Fin 128) :
    k1_pay75 (N47 X) (N48 X) (N49 X) (N50 X) (N51 X) (N52 X) (N53 X) (N54 X) (L11_15 X) (ix2 n (lane b c)) = xv2 X kv qv b n c :=
  (k1_pay75_apply _ _ _ _ _ _ _ _ _ n b c).trans (cat2_apply X kv qv hkq hea b n c)

theorem akq2_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (col : Fin 16) :
    k1_pay76 (N47 X) (N48 X) (N49 X) (N50 X) (N51 X) (N52 X) (N53 X) (N54 X) (L11_15 X) (L12_10 X) (ix2 n col)
      = ∑ b' : Fin 8, ∑ c : Fin 128, xv2 X kv qv b' n c * Egnn.kqEntry kv2 qv2 b' c col := by
  refine (k1_pay76_apply _ _ _ _ _ _ _ _ _ _ n col).trans ?_
  refine Finset.sum_congr rfl fun b' _ => Finset.sum_congr rfl fun c _ => ?_
  rw [row2_apply X kv qv hkq hea, L12_10_eq, hkq2]

theorem xj2_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8))) (e : Fin 2048) (b : Fin 8) (c : Fin 128) :
    N78 X (ix2 e (lane b c)) = ∑ n : Fin 512, opS X e n * xv2 X kv qv b n c := by
  refine (k1_pay78_apply _ _ _ _ _ _ _ _ _ _ _ e b c).trans ?_
  refine (k1_pay77_apply_w _ _ _ _ _ _ _ _ _ _ _ e b c).trans ?_
  refine Finset.sum_congr rfl fun n _ => ?_
  rw [row2_apply X kv qv hkq hea, N4_eq]
  rfl

theorem key2_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (e : Fin 2048) (b : Fin 8) :
    N79 X (ix2 e b) = ∑ n : Fin 512, opT X e n * Egnn.packedKey kv2 qv2 (xv2 X kv qv) b n := by
  refine (k1_pay79_apply _ _ _ _ _ _ _ _ _ _ _ e b).trans ?_
  refine Finset.sum_congr rfl fun n _ => ?_
  rw [akq2_apply X kv qv kv2 qv2 hkq hea hkq2 hea2, N5_eq]
  rfl

theorem qry2_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (e : Fin 2048) (b : Fin 8) :
    N77 X (ix2 e (lane8 b)) = ∑ n : Fin 512, opS X e n * Egnn.packedQry kv2 qv2 (xv2 X kv qv) b n := by
  refine (k1_pay77_apply_8 _ _ _ _ _ _ _ _ _ _ _ e b).trans ?_
  refine Finset.sum_congr rfl fun n _ => ?_
  rw [akq2_apply X kv qv kv2 qv2 hkq hea hkq2 hea2, N4_eq]
  rfl

theorem aggr2_apply (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (b : Fin 8) (c : Fin 128) :
    N80 X (ix2 n (lane b c)) = Egnn.packedAggr (opS X) (opT X) (g2 X) (ea2 X) kv2 qv2 (xv2 X kv qv) b n c := by
  refine (k1_pay80_apply _ _ _ _ _ _ n b c).trans ?_
  unfold Egnn.packedAggr Egnn.packedLogit
  refine Finset.sum_congr rfl fun e _ => ?_
  rw [N5_eq, N56_eq, N57_eq, hea2 e b,
    key2_apply X kv qv kv2 qv2 hkq hea hkq2 hea2, qry2_apply X kv qv kv2 qv2 hkq hea hkq2 hea2, xj2_apply X kv qv hkq hea]
  rfl

theorem core2 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8)))
    (b : Fin 8) (n : Fin 512) (j : Fin 128) (u : FVec Ideal S512x128 .bf16) (hu : ∀ c : Fin 128, u (ix2 n c) = xv2 X kv qv b n c) :
    ((∑ c : Fin 128, u (ix2 n c) * Egnn.rowsFrom (N58 X) 0 (by omega) c j)
        + (∑ c : Fin 128, N80 X (ix2 n (lane b c)) * Egnn.rowsFrom (N58 X) 128 (by omega) c j))
      + (L14_14 X : S1x128.Idx → EReal) (ix2 (0 : Fin 1) j)
    = ((∑ c : Fin 128, xv2 X kv qv b n c * Wcx2 X c j)
        + (∑ c : Fin 128, Egnn.packedAggr (opS X) (opT X) (g2 X) (ea2 X) kv2 qv2 (xv2 X kv qv) b n c * Wca2 X c j)) + bc2 X j := by
  rw [N58_eq, L14_14_eq]
  refine congrArg₂ (· + ·) (congrArg₂ (· + ·) (Finset.sum_congr rfl fun c _ => ?_) (Finset.sum_congr rfl fun c _ => ?_)) rfl
  · rw [hu c]; rfl
  · rw [aggr2_apply X kv qv kv2 qv2 hkq hea hkq2 hea2]; rfl

end Cert.KernelIdeal.KBody

end
-- ==== Proof.KChainE.lean ====
/-
  Each batch element's layer-2 result at one grid point is the plain layer's (through the packed arrangement), and the
  output block, whose slab `b` is element `b`'s result, is the two nested layers of the block's operands.
-/
import proofs.«130875_g2000201574592089_pallasbulk_874_11_alg».proof.Proof.KChainD

set_option maxRecDepth 16384

noncomputable section

namespace Cert.KernelIdeal.KBody

open Cert.KernelIdeal Cert.KernelIdeal.Gen Cert.KernelIdeal.KValue Cert.KernelIdeal.KPay
open Idealize.ShloMosaic Idealize.ShloMosaic.ValueIdx

variable (X : Blocks) (kv qv kv2 qv2 : Fin 128 → EReal)

/-- Element 0: the product, then bias, clip and projection in a second step. -/
theorem h2_0 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N82 X (ix2 n j) = Egnn.packedOut (opS X) (opT X) (g2 X) (ea2 X) kv2 qv2 (Wcx2 X) (Wca2 X) (bc2 X) (xv2 X kv qv) 0 n j := by
  refine (k1_pay82_apply (L14_14 X) (N59 X) (N81 X) n j).trans ?_
  rw [N59_apply X kv qv hkq hea]
  unfold Egnn.packedOut
  refine congrArg (fun z => xv2 X kv qv 0 n j + max z 0) ?_
  refine (congrArg (· + (L14_14 X : S1x128.Idx → EReal) (ix2 (0 : Fin 1) j))
    (k1_pay81_apply (N5 X) (N56 X) (N57 X) (N58 X) (N67 X) (N77 X) (N78 X) (N79 X) n j)).trans ?_
  exact core2 X kv qv kv2 qv2 hkq hea hkq2 hea2 0 n j (N67 X) (fun c => N67_apply X kv qv hkq hea n c)

theorem h2_1 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N83 X (ix2 n j) = Egnn.packedOut (opS X) (opT X) (g2 X) (ea2 X) kv2 qv2 (Wcx2 X) (Wca2 X) (bc2 X) (xv2 X kv qv) 1 n j := by
  refine (k1_pay83_apply (N58 X) (L14_14 X) (N60 X) (N68 X) (N80 X) n j).trans ?_
  rw [N60_apply X kv qv hkq hea]
  unfold Egnn.packedOut
  refine congrArg (fun z => xv2 X kv qv 1 n j + max z 0) ?_
  exact core2 X kv qv kv2 qv2 hkq hea hkq2 hea2 1 n j (N68 X) (fun c => N68_apply X kv qv hkq hea n c)

theorem h2_2 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N84 X (ix2 n j) = Egnn.packedOut (opS X) (opT X) (g2 X) (ea2 X) kv2 qv2 (Wcx2 X) (Wca2 X) (bc2 X) (xv2 X kv qv) 2 n j := by
  refine (k1_pay84_apply (N58 X) (L14_14 X) (N61 X) (N69 X) (N80 X) n j).trans ?_
  rw [N61_apply X kv qv hkq hea]
  unfold Egnn.packedOut
  refine congrArg (fun z => xv2 X kv qv 2 n j + max z 0) ?_
  exact core2 X kv qv kv2 qv2 hkq hea hkq2 hea2 2 n j (N69 X) (fun c => N69_apply X kv qv hkq hea n c)

theorem h2_3 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N85 X (ix2 n j) = Egnn.packedOut (opS X) (opT X) (g2 X) (ea2 X) kv2 qv2 (Wcx2 X) (Wca2 X) (bc2 X) (xv2 X kv qv) 3 n j := by
  refine (k1_pay85_apply (N58 X) (L14_14 X) (N62 X) (N70 X) (N80 X) n j).trans ?_
  rw [N62_apply X kv qv hkq hea]
  unfold Egnn.packedOut
  refine congrArg (fun z => xv2 X kv qv 3 n j + max z 0) ?_
  exact core2 X kv qv kv2 qv2 hkq hea hkq2 hea2 3 n j (N70 X) (fun c => N70_apply X kv qv hkq hea n c)

theorem h2_4 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N86 X (ix2 n j) = Egnn.packedOut (opS X) (opT X) (g2 X) (ea2 X) kv2 qv2 (Wcx2 X) (Wca2 X) (bc2 X) (xv2 X kv qv) 4 n j := by
  refine (k1_pay86_apply (N58 X) (L14_14 X) (N63 X) (N71 X) (N80 X) n j).trans ?_
  rw [N63_apply X kv qv hkq hea]
  unfold Egnn.packedOut
  refine congrArg (fun z => xv2 X kv qv 4 n j + max z 0) ?_
  exact core2 X kv qv kv2 qv2 hkq hea hkq2 hea2 4 n j (N71 X) (fun c => N71_apply X kv qv hkq hea n c)

/-- Element 5: the clipped update first, the projection added in a second step. -/
theorem h2_5 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N88 X (ix2 n j) = Egnn.packedOut (opS X) (opT X) (g2 X) (ea2 X) kv2 qv2 (Wcx2 X) (Wca2 X) (bc2 X) (xv2 X kv qv) 5 n j := by
  refine (k1_pay88_apply (N64 X) (N87 X) n j).trans ?_
  rw [N64_apply X kv qv hkq hea]
  unfold Egnn.packedOut
  refine congrArg (xv2 X kv qv 5 n j + ·) ?_
  refine (k1_pay87_apply (N58 X) (L14_14 X) (N72 X) (N80 X) n j).trans ?_
  refine congrArg (fun z => max z 0) ?_
  exact core2 X kv qv kv2 qv2 hkq hea hkq2 hea2 5 n j (N72 X) (fun c => N72_apply X kv qv hkq hea n c)

theorem h2_6 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N89 X (ix2 n j) = Egnn.packedOut (opS X) (opT X) (g2 X) (ea2 X) kv2 qv2 (Wcx2 X) (Wca2 X) (bc2 X) (xv2 X kv qv) 6 n j := by
  refine (k1_pay89_apply (N58 X) (L14_14 X) (N65 X) (N73 X) (N80 X) n j).trans ?_
  rw [N65_apply X kv qv hkq hea]
  unfold Egnn.packedOut
  refine congrArg (fun z => xv2 X kv qv 6 n j + max z 0) ?_
  exact core2 X kv qv kv2 qv2 hkq hea hkq2 hea2 6 n j (N73 X) (fun c => N73_apply X kv qv hkq hea n c)

theorem h2_7 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N90 X (ix2 n j) = Egnn.packedOut (opS X) (opT X) (g2 X) (ea2 X) kv2 qv2 (Wcx2 X) (Wca2 X) (bc2 X) (xv2 X kv qv) 7 n j := by
  refine (k1_pay90_apply (N58 X) (L14_14 X) (N66 X) (N74 X) (N80 X) n j).trans ?_
  rw [N66_apply X kv qv hkq hea]
  unfold Egnn.packedOut
  refine congrArg (fun z => xv2 X kv qv 7 n j + max z 0) ?_
  exact core2 X kv qv kv2 qv2 hkq hea hkq2 hea2 7 n j (N74 X) (fun c => N74_apply X kv qv hkq hea n c)

/-- The slabs of the output block. -/
theorem o2_0 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N91 X (ix3 (0 : Fin 1) n j) = out2 X kv qv kv2 qv2 0 n j := by
  refine (k1_pay91_apply (N82 X) n j).trans ?_
  rw [h2_0 X kv qv kv2 qv2 hkq hea hkq2 hea2 n j, Egnn.packedOut_eq]
  rfl

theorem o2_1 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N92 X (ix3 (0 : Fin 1) n j) = out2 X kv qv kv2 qv2 1 n j := by
  refine (k1_pay92_apply (N83 X) n j).trans ?_
  rw [h2_1 X kv qv kv2 qv2 hkq hea hkq2 hea2 n j, Egnn.packedOut_eq]
  rfl

theorem o2_2 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N93 X (ix3 (0 : Fin 1) n j) = out2 X kv qv kv2 qv2 2 n j := by
  refine (k1_pay93_apply (N84 X) n j).trans ?_
  rw [h2_2 X kv qv kv2 qv2 hkq hea hkq2 hea2 n j, Egnn.packedOut_eq]
  rfl

theorem o2_3 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N94 X (ix3 (0 : Fin 1) n j) = out2 X kv qv kv2 qv2 3 n j := by
  refine (k1_pay94_apply (N85 X) n j).trans ?_
  rw [h2_3 X kv qv kv2 qv2 hkq hea hkq2 hea2 n j, Egnn.packedOut_eq]
  rfl

theorem o2_4 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N95 X (ix3 (0 : Fin 1) n j) = out2 X kv qv kv2 qv2 4 n j := by
  refine (k1_pay95_apply (N86 X) n j).trans ?_
  rw [h2_4 X kv qv kv2 qv2 hkq hea hkq2 hea2 n j, Egnn.packedOut_eq]
  rfl

theorem o2_5 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N1 X (ix3 (0 : Fin 1) n j) = out2 X kv qv kv2 qv2 5 n j := by
  refine (k1_pay1_apply (N88 X) n j).trans ?_
  rw [h2_5 X kv qv kv2 qv2 hkq hea hkq2 hea2 n j, Egnn.packedOut_eq]
  rfl

theorem o2_6 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N2 X (ix3 (0 : Fin 1) n j) = out2 X kv qv kv2 qv2 6 n j := by
  refine (k1_pay2_apply (N89 X) n j).trans ?_
  rw [h2_6 X kv qv kv2 qv2 hkq hea hkq2 hea2 n j, Egnn.packedOut_eq]
  rfl

theorem o2_7 (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (n : Fin 512) (j : Fin 128) :
    N3 X (ix3 (0 : Fin 1) n j) = out2 X kv qv kv2 qv2 7 n j := by
  refine (k1_pay3_apply (N90 X) n j).trans ?_
  rw [h2_7 X kv qv kv2 qv2 hkq hea hkq2 hea2 n j, Egnn.packedOut_eq]
  rfl

/-- The output block of one grid point: slab `b`, row `n`, channel `j` holds the second layer of the rectified first
    layer of batch element `b`'s features. -/
theorem body_eq (hkq : ∀ (b' : Fin 8) (c : Fin 128) (col : Fin 16), X.x8 (ix2 (lane b' c) col) = Egnn.kqEntry kv qv b' c col)
    (hea : ∀ (e : Fin 2048) (b : Fin 8), X.x4 (ix2 e b) = X.x4 (ix2 e (0 : Fin 8)))
    (hkq2 : ∀ (b' : Fin 8) (c : Fin 128) (col : Fin 16), X.x12 (ix2 (lane b' c) col) = Egnn.kqEntry kv2 qv2 b' c col)
    (hea2 : ∀ (e : Fin 2048) (b : Fin 8), X.x6 (ix2 e b) = X.x6 (ix2 e (0 : Fin 8))) (b : Fin 8) (n : Fin 512) (j : Fin 128) :
    out1_15 (F := Ideal) X.x0 X.x1 X.x2 X.x3 X.x4 X.x5 X.x6 X.x7 X.x8 X.x9 X.x10 X.x11 X.x12 X.x13 X.x14 (ix3 b n j) = out2 X kv qv kv2 qv2 b n j := by
  rw [out_eq X]
  refine (canon8_apply (N91 X) (N92 X) (N93 X) (N94 X) (N95 X) (N1 X) (N2 X) (N3 X) b n j).trans ?_
  fin_cases b
  · exact o2_0 X kv qv kv2 qv2 hkq hea hkq2 hea2 n j
  · exact o2_1 X kv qv kv2 qv2 hkq hea hkq2 hea2 n j
  · exact o2_2 X kv qv kv2 qv2 hkq hea hkq2 hea2 n j
  · exact o2_3 X kv qv kv2 qv2 hkq hea hkq2 hea2 n j
  · exact o2_4 X kv qv kv2 qv2 hkq hea hkq2 hea2 n j
  · exact o2_5 X kv qv kv2 qv2 hkq hea hkq2 hea2 n j
  · exact o2_6 X kv qv kv2 qv2 hkq hea hkq2 hea2 n j
  · exact o2_7 X kv qv kv2 qv2 hkq hea hkq2 hea2 n j

end Cert.KernelIdeal.KBody

end
-- ==== Proof.KChain.lean ====
/-
  The chain of one grid point's body, whole: `Cert.KernelIdeal.KBody.body_eq`.
-/
import proofs.«130875_g2000201574592089_pallasbulk_874_11_alg».proof.Proof.KChainE
-- ==== Proof.KBlockCore.lean ====
/-
  One grid point's output block, over variables: if the point's fifteen operand blocks read, entry by entry, as the
  argument arrays' one-hot operators, edge gates and logits, weights, joined block-diagonal key/query weights and
  the eight batch elements `B b` of the features, then slab `b` of the output block holds the network's values of
  batch element `B b`.
-/
import proofs.«130875_g2000201574592089_pallasbulk_874_11_alg».proof.Proof.KChain

set_option maxRecDepth 16384

noncomputable section

namespace Cert.KernelIdeal.KBody

open Cert.KernelIdeal Cert.KernelIdeal.Gen Cert.KernelIdeal.KValue
open Idealize.ShloMosaic Idealize.ShloMosaic.ValueIdx

theorem block_core (x0 : Vec Ideal S8x512x64 .f32) (x1 : Vec Ideal S2048x512 .bf16) (x2 : Vec Ideal S2048x512 .bf16) (x3 : Vec Ideal S2048x128 .f32) (x4 : Vec Ideal S2048x8 .f32) (x5 : Vec Ideal S2048x128 .f32) (x6 : Vec Ideal S2048x8 .f32) (x7 : Vec Ideal S64x128 .bf16) (x8 : Vec Ideal S1024x16 .bf16) (x9 : Vec Ideal S256x128 .bf16) (x10 : Vec Ideal S1x128 .f32) (x11 : Vec Ideal S128x128 .bf16) (x12 : Vec Ideal S1024x16 .bf16) (x13 : Vec Ideal S256x128 .bf16) (x14 : Vec Ideal S1x128 .f32)
    (a0 : S256x512x64.Idx → EReal) (a1 : S2x2048.Idx → BitVec 32) (a2 : S2048x32.Idx → EReal) (a3 : S64x128.Idx → EReal) (a4 : S128x128.Idx → EReal) (a5 : S128x128.Idx → EReal) (a6 : S32x128.Idx → EReal) (a7 : S384x1.Idx → EReal) (a8 : S1x1.Idx → EReal) (a9 : S256x128.Idx → EReal) (a10 : S1x128.Idx → EReal) (a11 : S128x128.Idx → EReal) (a12 : S128x128.Idx → EReal) (a13 : S128x128.Idx → EReal) (a14 : S32x128.Idx → EReal) (a15 : S384x1.Idx → EReal) (a16 : S1x1.Idx → EReal) (a17 : S256x128.Idx → EReal) (a18 : S1x128.Idx → EReal)
    (B : Fin 8 → Fin 256)
    (h0 : ∀ (b : Fin 8) (n : Fin 512) (k : Fin 64), x0 (ix3 b n k) = a0 (ix3 (B b) n k))
    (h1 : ∀ (e : Fin 2048) (n : Fin 512), x1 (ix2 e n) = Egnn.oneHot a1 0 e n)
    (h2 : ∀ (e : Fin 2048) (n : Fin 512), x2 (ix2 e n) = Egnn.oneHot a1 1 e n)
    (h3 : ∀ (e : Fin 2048) (j : Fin 128), x3 (ix2 e j) = Egnn.gate (fun e k => a2 (ix2 e k)) (fun k j => a6 (ix2 k j)) e j)
    (h4 : ∀ (e : Fin 2048) (b : Fin 8), x4 (ix2 e b) = Egnn.eatt (fun e k => a2 (ix2 e k)) (fun k j => a6 (ix2 k j)) (fun j => Egnn.rowsFrom a7 (2 * 128) (by omega) j 0) (a8 (ix2 0 0)) e)
    (h5 : ∀ (e : Fin 2048) (j : Fin 128), x5 (ix2 e j) = Egnn.gate (fun e k => a2 (ix2 e k)) (fun k j => a14 (ix2 k j)) e j)
    (h6 : ∀ (e : Fin 2048) (b : Fin 8), x6 (ix2 e b) = Egnn.eatt (fun e k => a2 (ix2 e k)) (fun k j => a14 (ix2 k j)) (fun j => Egnn.rowsFrom a15 (2 * 128) (by omega) j 0) (a16 (ix2 0 0)) e)
    (h7 : ∀ (k : Fin 64) (j : Fin 128), x7 (ix2 k j) = a3 (ix2 k j))
    (h8 : ∀ (b' : Fin 8) (cc : Fin 128) (col : Fin 16), x8 (ix2 (⟨b'.val * 128 + cc.val, by omega⟩ : Fin 1024) col) = Egnn.kqEntry (Egnn.foldKQ a4 a7 0 (by omega)) (Egnn.foldKQ a5 a7 128 (by omega)) b' cc col)
    (h9 : ∀ (r : Fin 256) (j : Fin 128), x9 (ix2 r j) = a9 (ix2 r j))
    (h10 : ∀ (j : Fin 128), x10 (ix2 (0 : Fin 1) j) = a10 (ix2 (0 : Fin 1) j))
    (h11 : ∀ (k j : Fin 128), x11 (ix2 k j) = a11 (ix2 k j))
    (h12 : ∀ (b' : Fin 8) (cc : Fin 128) (col : Fin 16), x12 (ix2 (⟨b'.val * 128 + cc.val, by omega⟩ : Fin 1024) col) = Egnn.kqEntry (Egnn.foldKQ a12 a15 0 (by omega)) (Egnn.foldKQ a13 a15 128 (by omega)) b' cc col)
    (h13 : ∀ (r : Fin 256) (j : Fin 128), x13 (ix2 r j) = a17 (ix2 r j))
    (h14 : ∀ (j : Fin 128), x14 (ix2 (0 : Fin 1) j) = a18 (ix2 (0 : Fin 1) j))
    (b : Fin 8) (n : Fin 512) (j : Fin 128) :
    out1_15 (F := Ideal) x0 x1 x2 x3 x4 x5 x6 x7 x8 x9 x10 x11 x12 x13 x14 (ix3 b n j)
      = Egnn.net (Bt := 256) (N := 512) (E := 2048) (C := 64) (H := 128) (Ce := 32) slope
          a0 a1 a2 a3 a4 a5 a6 a7 a8 a9 a10 a11 a12 a13 a14 a15 a16 a17 a18 (B b) n j := by
  have hb := body_eq (⟨x0, x1, x2, x3, x4, x5, x6, x7, x8, x9, x10, x11, x12, x13, x14⟩ : Blocks)
    (Egnn.foldKQ a4 a7 0 (by omega)) (Egnn.foldKQ a5 a7 128 (by omega))
    (Egnn.foldKQ a12 a15 0 (by omega)) (Egnn.foldKQ a13 a15 128 (by omega))
    (fun b' cc col => h8 b' cc col)
    (fun e b => (h4 e b).trans (h4 e 0).symm)
    (fun b' cc col => h12 b' cc col)
    (fun e b => (h6 e b).trans (h6 e 0).symm)
    b n j
  refine hb.trans ?_
  have hS : opS (⟨x0, x1, x2, x3, x4, x5, x6, x7, x8, x9, x10, x11, x12, x13, x14⟩ : Blocks) = Egnn.oneHot a1 0 := funext fun e => funext fun n => h1 e n
  have hT : opT (⟨x0, x1, x2, x3, x4, x5, x6, x7, x8, x9, x10, x11, x12, x13, x14⟩ : Blocks) = Egnn.oneHot a1 1 := funext fun e => funext fun n => h2 e n
  have hg1 : g1 (⟨x0, x1, x2, x3, x4, x5, x6, x7, x8, x9, x10, x11, x12, x13, x14⟩ : Blocks) = Egnn.gate (fun e k => a2 (ix2 e k)) (fun k j => a6 (ix2 k j)) := funext fun e => funext fun j => h3 e j
  have he1 : ea1 (⟨x0, x1, x2, x3, x4, x5, x6, x7, x8, x9, x10, x11, x12, x13, x14⟩ : Blocks) = Egnn.eatt (fun e k => a2 (ix2 e k)) (fun k j => a6 (ix2 k j))
      (fun j => Egnn.rowsFrom a7 (2 * 128) (by omega) j 0) (a8 (ix2 0 0)) := funext fun e => h4 e 0
  have hg2 : g2 (⟨x0, x1, x2, x3, x4, x5, x6, x7, x8, x9, x10, x11, x12, x13, x14⟩ : Blocks) = Egnn.gate (fun e k => a2 (ix2 e k)) (fun k j => a14 (ix2 k j)) := funext fun e => funext fun j => h5 e j
  have he2 : ea2 (⟨x0, x1, x2, x3, x4, x5, x6, x7, x8, x9, x10, x11, x12, x13, x14⟩ : Blocks) = Egnn.eatt (fun e k => a2 (ix2 e k)) (fun k j => a14 (ix2 k j))
      (fun j => Egnn.rowsFrom a15 (2 * 128) (by omega) j 0) (a16 (ix2 0 0)) := funext fun e => h6 e 0
  have hV1 : V1 (⟨x0, x1, x2, x3, x4, x5, x6, x7, x8, x9, x10, x11, x12, x13, x14⟩ : Blocks) = fun k cc => a3 (ix2 k cc) := funext fun k => funext fun cc => h7 k cc
  have hV2 : V2 (⟨x0, x1, x2, x3, x4, x5, x6, x7, x8, x9, x10, x11, x12, x13, x14⟩ : Blocks) = fun k cc => a11 (ix2 k cc) := funext fun k => funext fun cc => h11 k cc
  have hx9 : x9 = a9 := funext fun i => by rw [eq_ix2 i]; exact h9 (i 0) (i 1)
  have hx13 : x13 = a17 := funext fun i => by rw [eq_ix2 i]; exact h13 (i 0) (i 1)
  have hb1 : bc1 (⟨x0, x1, x2, x3, x4, x5, x6, x7, x8, x9, x10, x11, x12, x13, x14⟩ : Blocks) = fun j => a10 (ix2 0 j) := funext fun j => h10 j
  have hb2 : bc2 (⟨x0, x1, x2, x3, x4, x5, x6, x7, x8, x9, x10, x11, x12, x13, x14⟩ : Blocks) = fun j => a18 (ix2 0 j) := funext fun j => h14 j
  have hf : feat (⟨x0, x1, x2, x3, x4, x5, x6, x7, x8, x9, x10, x11, x12, x13, x14⟩ : Blocks) b = fun n k => a0 (ix3 (B b) n k) := funext fun n => funext fun k => h0 b n k
  unfold out2 xv2 act1 out1 xv1 Wcx1 Wca1 Wcx2 Wca2
  rw [hS, hT, hg1, he1, hg2, he2, hV1, hV2, hb1, hb2, hf]
  subst hx9 hx13
  rfl

end Cert.KernelIdeal.KBody

end
-- ==== Proof.KBlkPure.lean ====
/-
  The arithmetic of the operand blocks, read at an index: the one-hot operators, the edge gate and the edge logit
  as the prologue computes them, and the host-side pieces of the block-diagonal key/query weight (the identity
  pattern, a matrix-vector fold, a Kronecker product laid out row-major, the joining of two halves along columns).
  Every statement is over variables of literal shapes; nothing here mentions the program's memory.
-/
import proofs.«130875_g2000201574592089_pallasbulk_874_11_alg».proof.Proof.Gen.KernelIdeal.Skeleton
import proofs.«130875_g2000201574592089_pallasbulk_874_11_alg».proof.Proof.LibEgnn
import Idealize.ShloMosaic.Lib.Pipeline.Value
import Idealize.ShloMosaic.Lib.IdealHost
import Idealize.ShloMosaic.Lib.ValueLayout
import Idealize.ShloMosaic.PureOps.Ideal.Laws

noncomputable section

namespace Cert.KernelIdeal.KBlk

open Cert.KernelIdeal Cert.KernelIdeal.Gen
open Idealize.ShloMosaic Idealize.ShloMosaic.ValueIdx

/-- A plain matrix product m×k by k×n into the zero accumulator, read at an index: the sum over the shared index. -/
theorem matmul2_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant (F := Ideal) _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same product computed on the host. -/
theorem dot2_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The word comparison a one-hot entry is made of, widened and converted: one where the words agree, zero elsewhere. -/
theorem sitofp_cmpi_eq (x y : BitVec 32) :
    (FloatOps.sitofp (F := Ideal) .f32 ((IntOp.cmpi .eq x y).setWidth 32) : EReal) = if y = x then 1 else 0 := by
  show (((BitVec.setWidth 32 (BitVec.ofBool (x == y))).toInt : ℝ) : EReal) = _
  by_cases h : y = x
  · subst h
    have e1 : (BitVec.setWidth 32 (BitVec.ofBool (y == y))).toInt = 1 := by rw [beq_self_eq_true]; decide
    rw [e1, if_pos rfl]; norm_num
  · have hb : (x == y) = false := by
      rw [beq_eq_false_iff_ne]; exact fun e => h e.symm
    have e0 : (BitVec.setWidth 32 (BitVec.ofBool (x == y))).toInt = 0 := by rw [hb]; decide
    rw [e0, if_neg h]; norm_num

/-- The source-node operator as the prologue stores it: an entry is one exactly when the loaded endpoint word of
    its edge is the word of its node. -/
theorem pay4_apply (v1 : Vec Ideal S2048x1 .i32) (e : Fin 2048) (n : Fin 512) :
    k0_pay4 (F := Ideal) v1 (ix2 e n) = if v1 (ix2 e (0 : Fin 1)) = BitVec.ofNat 32 n.val then 1 else 0 := by
  unfold k0_pay4
  refine (sitofp_cmpi_eq _ _).trans ?_
  rw [iota_single_apply, shapeCast_self,
    broadcastTo_apply v1 _ (ix2 e n) (ix2 e (0 : Fin 1)) (by intro a; match a with | ⟨0, _⟩ => rfl | ⟨1, _⟩ => rfl)]

/-- The target-node operator: the same, of the other endpoint. -/
theorem pay5_apply (v9 : Vec Ideal S2048x1 .i32) (e : Fin 2048) (n : Fin 512) :
    k0_pay5 (F := Ideal) v9 (ix2 e n) = if v9 (ix2 e (0 : Fin 1)) = BitVec.ofNat 32 n.val then 1 else 0 := by
  unfold k0_pay5
  refine (sitofp_cmpi_eq _ _).trans ?_
  rw [iota_single_apply, shapeCast_self,
    broadcastTo_apply v9 _ (ix2 e n) (ix2 e (0 : Fin 1)) (by intro a; match a with | ⟨0, _⟩ => rfl | ⟨1, _⟩ => rfl)]

/-- The product edge features × edge weight, at an index. -/
theorem pay6_apply (v17 : Vec Ideal S2048x32 .f32) (v18 : Vec Ideal S32x128 .f32) (e : Fin 2048) (j : Fin 128) :
    k0_pay6 (F := Ideal) v17 v18 (ix2 e j) = Egnn.mm (fun e k => v17 (ix2 e k)) (fun k j => v18 (ix2 k j)) e j := by
  unfold k0_pay6
  exact matmul2_apply _ none v17 v18 e j

theorem pay1_apply (v17 : Vec Ideal S2048x32 .f32) (v31 : Vec Ideal S32x128 .f32) (e : Fin 2048) (j : Fin 128) :
    k0_pay1 (F := Ideal) v17 v31 (ix2 e j) = Egnn.mm (fun e k => v17 (ix2 e k)) (fun k j => v31 (ix2 k j)) e j := by
  unfold k0_pay1
  exact matmul2_apply _ none v17 v31 e j

/-- The edge gate of layer 1 as stored. -/
theorem pay7_apply (v17 : Vec Ideal S2048x32 .f32) (v18 : Vec Ideal S32x128 .f32) (e : Fin 2048) (j : Fin 128) :
    k0_pay7 (F := Ideal) v17 v18 (ix2 e j) = Egnn.gate (fun e k => v17 (ix2 e k)) (fun k j => v18 (ix2 k j)) e j := by
  unfold k0_pay7 Egnn.gate
  show Ideal.logistic (k0_pay6 (F := Ideal) v17 v18 (ix2 e j)) = _
  rw [pay6_apply]

/-- The edge gate of layer 2 as stored. -/
theorem pay2_apply (v17 : Vec Ideal S2048x32 .f32) (v31 : Vec Ideal S32x128 .f32) (e : Fin 2048) (j : Fin 128) :
    k0_pay2 (F := Ideal) v17 v31 (ix2 e j) = Egnn.gate (fun e k => v17 (ix2 e k)) (fun k j => v31 (ix2 k j)) e j := by
  unfold k0_pay2 Egnn.gate
  show Ideal.logistic (k0_pay1 (F := Ideal) v17 v31 (ix2 e j)) = _
  rw [pay1_apply]

/-- The edge logit of layer 1 as stored: the same value in each of the eight columns. -/
theorem pay8_apply (v17 : Vec Ideal S2048x32 .f32) (v18 : Vec Ideal S32x128 .f32) (v22 : Vec Ideal S128x1 .f32)
    (v25 : Vec Ideal S1x1 .f32) (e : Fin 2048) (b : Fin 8) :
    k0_pay8 (F := Ideal) v17 v18 v22 v25 (ix2 e b)
      = Egnn.eatt (fun e k => v17 (ix2 e k)) (fun k j => v18 (ix2 k j)) (fun j => v22 (ix2 j (0 : Fin 1)))
          (v25 (ix2 (0 : Fin 1) (0 : Fin 1))) e := by
  unfold k0_pay8
  refine (broadcastTo_apply _ _ (ix2 e b) (ix2 e (0 : Fin 1))
    (by intro a; match a with | ⟨0, _⟩ => rfl | ⟨1, _⟩ => rfl)).trans ?_
  rw [shapeCast_self]
  refine (addf_apply _ _ _).trans ?_
  unfold Egnn.eatt Egnn.mv
  refine congrArg₂ (· + ·) ?_ ?_
  · refine (matmul2_apply _ none _ _ e (0 : Fin 1)).trans ?_
    refine Finset.sum_congr rfl fun c _ => ?_
    rw [pay6_apply, shapeCast_self]
  · exact broadcastTo_apply v25 _ (ix2 e (0 : Fin 1)) (ix2 (0 : Fin 1) (0 : Fin 1))
      (by intro a; match a with | ⟨0, _⟩ => rfl | ⟨1, _⟩ => rfl)

/-- The edge logit of layer 2 as stored. -/
theorem pay3_apply (v17 : Vec Ideal S2048x32 .f32) (v31 : Vec Ideal S32x128 .f32) (v35 : Vec Ideal S128x1 .f32)
    (v38 : Vec Ideal S1x1 .f32) (e : Fin 2048) (b : Fin 8) :
    k0_pay3 (F := Ideal) v17 v31 v35 v38 (ix2 e b)
      = Egnn.eatt (fun e k => v17 (ix2 e k)) (fun k j => v31 (ix2 k j)) (fun j => v35 (ix2 j (0 : Fin 1)))
          (v38 (ix2 (0 : Fin 1) (0 : Fin 1))) e := by
  unfold k0_pay3
  refine (broadcastTo_apply _ _ (ix2 e b) (ix2 e (0 : Fin 1))
    (by intro a; match a with | ⟨0, _⟩ => rfl | ⟨1, _⟩ => rfl)).trans ?_
  rw [shapeCast_self]
  refine (addf_apply _ _ _).trans ?_
  unfold Egnn.eatt Egnn.mv
  refine congrArg₂ (· + ·) ?_ ?_
  · refine (matmul2_apply _ none _ _ e (0 : Fin 1)).trans ?_
    refine Finset.sum_congr rfl fun c _ => ?_
    rw [pay1_apply, shapeCast_self]
  · exact broadcastTo_apply v38 _ (ix2 e (0 : Fin 1)) (ix2 (0 : Fin 1) (0 : Fin 1))
      (by intro a; match a with | ⟨0, _⟩ => rfl | ⟨1, _⟩ => rfl)

/-! ## The host-side pieces of the block-diagonal key/query weight -/

/-- The 8×8 identity pattern as the host builds it (row counter plus zero compared with the column counter,
    converted): one on the diagonal, zero off it. -/
theorem eye_apply (h : S_.BroadcastsInDim S8x8 ![]) (a b : Fin 8) :
    (uitofp .f32 (cmpi .eq (addi (iotaInDim S8x8 32 0) (broadcastInDim S8x8 ![] h (constantI S_ 32 0#32)))
      (iotaInDim S8x8 32 1)) : FVec Ideal S8x8 .f32) (ix2 a b) = if a.val = b.val then 1 else 0 := by
  show (((IntOp.cmpi .eq (IntOp.addi (BitVec.ofNat 32 a.val) (broadcastInDim S8x8 ![] h (constantI S_ 32 0#32) (ix2 a b)))
    (BitVec.ofNat 32 b.val)).toNat : ℝ) : EReal) = _
  rw [broadcastInDim_scalar_apply]
  show (((BitVec.ofBool ((BitVec.ofNat 32 a.val + 0#32) == BitVec.ofNat 32 b.val)).toNat : ℝ) : EReal) = _
  rw [BitVec.add_zero]
  by_cases hab : a.val = b.val
  · rw [hab, beq_self_eq_true, if_pos rfl]
    have e1 : (BitVec.ofBool true).toNat = 1 := by decide
    rw [e1]; norm_num
  · have hne : (BitVec.ofNat 32 a.val == BitVec.ofNat 32 b.val) = false := by
      rw [beq_eq_false_iff_ne]
      intro e
      have e' := congrArg BitVec.toNat e
      simp only [BitVec.toNat_ofNat] at e'
      have ha := a.isLt; have hb := b.isLt
      omega
    rw [hne, if_neg hab]
    have e0 : (BitVec.ofBool false).toNat = 0 := by decide
    rw [e0]; norm_num

/-- A matrix-vector fold on the host against a block of rows of the attention weight. -/
theorem fold_apply (w : DotDims.WF S128x128 S128x1 S128x1 [1] [0] [0] [1] [] []) (off : ℕ) (hoff : off + 128 ≤ 3 * 128)
    (hs : S384x1.Slices ![off, 0] S128x1)
    (k : FVec Ideal S128x128 .f32) (wa : FVec Ideal S384x1 .f32) (c : Fin 128) :
    Host.dotGeneral (⟨[1], [0], [0], [1], [], [], w⟩ : DotDims S128x128 S128x1 S128x1) none k
      (extractStridedSlice S128x1 ![off, 0] wa hs) (ix2 c (0 : Fin 1)) = Egnn.foldKQ k wa off hoff c := by
  refine (dot2_apply w none k _ c (0 : Fin 1)).trans ?_
  unfold Egnn.foldKQ Egnn.rowsFrom
  refine Finset.sum_congr rfl fun j _ => ?_
  refine congrArg (k (ix2 c j) * ·) ?_
  exact extractStridedSlice_apply _ wa hs (ix2 j (0 : Fin 1)) _
    (by intro a; match a with | ⟨0, _⟩ => rfl | ⟨1, _⟩ => rfl)

/-- The Kronecker product of the 8×8 pattern with a column vector, laid out as 1024 rows (block, channel) by 8 columns. -/
theorem kron_apply (h1 : S8x8.BroadcastsInDim S8x1x8x1 (![0, 2] : Fin 2 → Fin S8x1x8x1.rank))
    (h2 : S128x1.BroadcastsInDim S1x128x1x1 (![1, 3] : Fin 2 → Fin S1x128x1x1.rank))
    (h3 : S8x1x8x1.BroadcastsInDim S8x128x8x1 (![0, 1, 2, 3] : Fin 4 → Fin S8x128x8x1.rank))
    (h4 : S1x128x1x1.BroadcastsInDim S8x128x8x1 (![0, 1, 2, 3] : Fin 4 → Fin S8x128x8x1.rank))
    (h5 : S8x128x8x1.ShapeCasts S1024x8)
    (eye : FVec Ideal S8x8 .f32) (kv : FVec Ideal S128x1 .f32) (b' : Fin 8) (cc : Fin 128) (col : Fin 8) :
    shapeCast S1024x8 (mulf (broadcastInDim S8x128x8x1 ![0, 1, 2, 3] h3 (broadcastInDim S8x1x8x1 ![0, 2] h1 eye))
        (broadcastInDim S8x128x8x1 ![0, 1, 2, 3] h4 (broadcastInDim S1x128x1x1 ![1, 3] h2 kv))) h5
      (ix2 (⟨b'.val * 128 + cc.val, by have := b'.isLt; have := cc.isLt; omega⟩ : Fin 1024) col)
      = eye (ix2 b' col) * kv (ix2 cc (0 : Fin 1)) := by
  refine (shapeCast_apply _ h5 _ (ix4 b' cc col (0 : Fin 1)) ?_).trans ?_
  · rw [Shape.rowMajor_val_four, Shape.rowMajor_val_two]
    show ((b'.val * 128 + cc.val) * 8 + col.val) * 1 + 0 = (b'.val * 128 + cc.val) * 8 + col.val
    omega
  refine (mulf_apply _ _ _).trans ?_
  refine congrArg₂ (· * ·) ?_ ?_
  · refine (broadcastInDim_apply _ h3 _ (ix4 b' cc col (0 : Fin 1)) (ix4 b' (0 : Fin 1) col (0 : Fin 1)) ?_).trans ?_
    · intro a; match a with | ⟨0, _⟩ => rfl | ⟨1, _⟩ => rfl | ⟨2, _⟩ => rfl | ⟨3, _⟩ => rfl
    exact broadcastInDim_apply _ h1 eye _ (ix2 b' col) (by intro a; match a with | ⟨0, _⟩ => rfl | ⟨1, _⟩ => rfl)
  · refine (broadcastInDim_apply _ h4 _ (ix4 b' cc col (0 : Fin 1)) (ix4 (0 : Fin 1) cc (0 : Fin 1) (0 : Fin 1)) ?_).trans ?_
    · intro a; match a with | ⟨0, _⟩ => rfl | ⟨1, _⟩ => rfl | ⟨2, _⟩ => rfl | ⟨3, _⟩ => rfl
    exact broadcastInDim_apply _ h2 kv _ (ix2 cc (0 : Fin 1)) (by intro a; match a with | ⟨0, _⟩ => rfl | ⟨1, _⟩ => rfl)

/-- Two 1024×8 halves joined along columns, rounded: columns 0–7 read the first half. -/
theorem join_left (h : Shape.Concatenates [S1024x8, S1024x8] S1024x16 1) (hb : FTy.bf16.bits < FTy.f32.bits)
    (A B : FVec Ideal S1024x8 .f32) (r : Fin 1024) (col : Fin 16) (hc : col.val < 8) :
    (truncf .bf16 (concatenate S1024x16 1 [⟨S1024x8, A⟩, ⟨S1024x8, B⟩] h : FVec Ideal S1024x16 .f32) hb : FVec Ideal S1024x16 .bf16) (ix2 r col)
      = A (ix2 r (⟨col.val, hc⟩ : Fin 8)) := by
  show concatenate S1024x16 1 [⟨S1024x8, A⟩, ⟨S1024x8, B⟩] h (ix2 r col) = _
  exact concatenate_pair_apply_left 1 A B h (ix2 r col) rfl (ix2 r (⟨col.val, hc⟩ : Fin 8))
    (by intro a; match a with | ⟨0, _⟩ => rfl | ⟨1, _⟩ => rfl)

/-- Columns 8–15 read the second half. -/
theorem join_right (h : Shape.Concatenates [S1024x8, S1024x8] S1024x16 1) (hb : FTy.bf16.bits < FTy.f32.bits)
    (A B : FVec Ideal S1024x8 .f32) (r : Fin 1024) (col : Fin 16) (hc : ¬ col.val < 8) :
    (truncf .bf16 (concatenate S1024x16 1 [⟨S1024x8, A⟩, ⟨S1024x8, B⟩] h : FVec Ideal S1024x16 .f32) hb : FVec Ideal S1024x16 .bf16) (ix2 r col)
      = B (ix2 r (⟨col.val - 8, by have := col.isLt; omega⟩ : Fin 8)) := by
  show concatenate S1024x16 1 [⟨S1024x8, A⟩, ⟨S1024x8, B⟩] h (ix2 r col) = _
  refine concatenate_pair_apply_right 1 A B h (ix2 r col) rfl rfl (ix2 r (⟨col.val - 8, by have := col.isLt; omega⟩ : Fin 8)) ?_ ?_
  · intro a ha; match a with
    | ⟨0, _⟩ => rfl
    | ⟨1, _⟩ => exact absurd rfl ha
  · show col.val - 8 + 8 = col.val
    omega

end Cert.KernelIdeal.KBlk

end
-- ==== Proof.KBlkHost.lean ====
/-
  What each operand array of the main region holds when the region is entered, traced back through the host
  operations and the prologue to the arguments as launched. First each stretch of host operations over an arbitrary
  memory (which buffers it leaves alone, what it writes where), then the buffers at the boundaries.
-/
import proofs.«130875_g2000201574592089_pallasbulk_874_11_alg».proof.Proof.Gen.KernelIdeal.Frame
import proofs.«130875_g2000201574592089_pallasbulk_874_11_alg».proof.Proof.LibEgnn
import proofs.«130875_g2000201574592089_pallasbulk_874_11_alg».proof.Proof.KBlkPure

noncomputable section

namespace Cert.KernelIdeal.KBlk

open Cert.KernelIdeal Cert.KernelIdeal.Gen
open Idealize.ShloMosaic Idealize.ShloMosaic.TcCoe Idealize.ShloMosaic.ValueIdx Idealize.SL.Sem

section Stretches

variable (W : Valuation τ sig (Elt Ideal))

/-! ## Buffers a stretch leaves alone -/

theorem skip0_1 (b : Ref sig .tc) (hb : b ≠ main_call0_v0 ∧ b ≠ main_call0_v1 ∧ b ≠ main_call0_v2 ∧ b ≠ main_call0_v3 ∧ b ≠ main_call0_v4 ∧ b ≠ main_v16) :
    StableHlo.after (hostOps0_1 (F := Ideal)) W (Proc.devRef .tc b) = W (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes, StableHlo.reshape_writes, Finset.mem_singleton]
    obtain ⟨h1, h2, h3, h4, h5, h6⟩ := hb
    repeat' apply And.intro
    all_goals first | exact StableHlo.devRef_ne_of_ne h1 | exact StableHlo.devRef_ne_of_ne h2 | exact StableHlo.devRef_ne_of_ne h3 | exact StableHlo.devRef_ne_of_ne h4 | exact StableHlo.devRef_ne_of_ne h5 | exact StableHlo.devRef_ne_of_ne h6))

theorem skip0_2 (b : Ref sig .tc) (hb : b ≠ main_call1_v0 ∧ b ≠ main_call1_v1 ∧ b ≠ main_call1_v2 ∧ b ≠ main_call1_v3 ∧ b ≠ main_call1_v4 ∧ b ≠ main_v17) :
    StableHlo.after (hostOps0_2 (F := Ideal)) W (Proc.devRef .tc b) = W (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes, StableHlo.reshape_writes, Finset.mem_singleton]
    obtain ⟨h1, h2, h3, h4, h5, h6⟩ := hb
    repeat' apply And.intro
    all_goals first | exact StableHlo.devRef_ne_of_ne h1 | exact StableHlo.devRef_ne_of_ne h2 | exact StableHlo.devRef_ne_of_ne h3 | exact StableHlo.devRef_ne_of_ne h4 | exact StableHlo.devRef_ne_of_ne h5 | exact StableHlo.devRef_ne_of_ne h6))

theorem skip0_3 (b : Ref sig .tc) (hb : b ≠ main_v18 ∧ b ≠ main_v19) :
    StableHlo.after (hostOps0_3 (F := Ideal)) W (Proc.devRef .tc b) = W (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes, StableHlo.reshape_writes, Finset.mem_singleton]
    obtain ⟨h1, h2⟩ := hb
    repeat' apply And.intro
    all_goals first | exact StableHlo.devRef_ne_of_ne h1 | exact StableHlo.devRef_ne_of_ne h2))

theorem skip0_4 (b : Ref sig .tc) (hb : b ≠ main_call2_v0 ∧ b ≠ main_call2_v1 ∧ b ≠ main_call2_v2 ∧ b ≠ main_call2_v3 ∧ b ≠ main_call2_v4 ∧ b ≠ main_v20) :
    StableHlo.after (hostOps0_4 (F := Ideal)) W (Proc.devRef .tc b) = W (Proc.devRef .tc b) :=
  StableHlo.after_of_forall_not_mem (b := Proc.devRef .tc b) _ _ (List.forall_iff_forall_mem.mp (by
    simp only [hostOps0_4, List.Forall, StableHlo.nullary_writes, StableHlo.unary_writes, StableHlo.binary_writes, StableHlo.reshape_writes, Finset.mem_singleton]
    obtain ⟨h1, h2, h3, h4, h5, h6⟩ := hb
    repeat' apply And.intro
    all_goals first | exact StableHlo.devRef_ne_of_ne h1 | exact StableHlo.devRef_ne_of_ne h2 | exact StableHlo.devRef_ne_of_ne h3 | exact StableHlo.devRef_ne_of_ne h4 | exact StableHlo.devRef_ne_of_ne h5 | exact StableHlo.devRef_ne_of_ne h6))

theorem skip0_5 (b : Ref sig .tc) (hb : b ≠ main_call3_v0 ∧ b ≠ main_call3_v1 ∧ b ≠ main_call3_v2 ∧ b ≠ main_call3_v3 ∧ b ≠ main_call3_v4 ∧ b ≠ main_v21) :
    StableHlo.after (hostOps0_5 (F := Ideal)) W (Proc.devRef .tc b) = W (Proc.devRef .tc b) :=
  StableHlo.after_of_forall_not_mem (b := Proc.devRef .tc b) _ _ (List.forall_iff_forall_mem.mp (by
    simp only [hostOps0_5, List.Forall, StableHlo.nullary_writes, StableHlo.unary_writes, StableHlo.binary_writes, StableHlo.reshape_writes, Finset.mem_singleton]
    obtain ⟨h1, h2, h3, h4, h5, h6⟩ := hb
    repeat' apply And.intro
    all_goals first | exact StableHlo.devRef_ne_of_ne h1 | exact StableHlo.devRef_ne_of_ne h2 | exact StableHlo.devRef_ne_of_ne h3 | exact StableHlo.devRef_ne_of_ne h4 | exact StableHlo.devRef_ne_of_ne h5 | exact StableHlo.devRef_ne_of_ne h6))

theorem skip0_6 (b : Ref sig .tc) (hb : b ≠ main_v22 ∧ b ≠ main_v23 ∧ b ≠ main_v24) :
    StableHlo.after (hostOps0_6 (F := Ideal)) W (Proc.devRef .tc b) = W (Proc.devRef .tc b) :=
  StableHlo.after_of_forall_not_mem (b := Proc.devRef .tc b) _ _ (List.forall_iff_forall_mem.mp (by
    simp only [hostOps0_6, List.Forall, StableHlo.nullary_writes, StableHlo.unary_writes, StableHlo.binary_writes, StableHlo.reshape_writes, Finset.mem_singleton]
    obtain ⟨h1, h2, h3⟩ := hb
    repeat' apply And.intro
    all_goals first | exact StableHlo.devRef_ne_of_ne h1 | exact StableHlo.devRef_ne_of_ne h2 | exact StableHlo.devRef_ne_of_ne h3))

theorem skip1 (b : Ref sig .tc) (hb : b ≠ main_v26 ∧ b ≠ main_v27 ∧ b ≠ main_v28 ∧ b ≠ main_v29) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    obtain ⟨h1, h2, h3, h4⟩ := hb
    repeat' apply And.intro
    all_goals first | exact StableHlo.devRef_ne_of_ne h1 | exact StableHlo.devRef_ne_of_ne h2 | exact StableHlo.devRef_ne_of_ne h3 | exact StableHlo.devRef_ne_of_ne h4))

/-! ## What a stretch writes, at an index -/

/-- The identity pattern. -/
theorem h0_v15 (a b : Fin 8) :
    StableHlo.after (hostOps0 (F := Ideal)) W (Proc.devRef .tc main_v15) (ix2 a b) = (if a.val = b.val then 1 else 0 : EReal) := by
  simp only [hostOps0]
  after_results
  exact eye_apply _ a b

theorem h0_v1 (cc : Fin 128) :
    StableHlo.after (hostOps0 (F := Ideal)) W (Proc.devRef .tc main_v1) (ix2 cc (0 : Fin 1))
      = Egnn.foldKQ (W (Proc.devRef .tc main_arg4) : S128x128.Idx → EReal) (W (Proc.devRef .tc main_arg7) : S384x1.Idx → EReal) 0 (by omega) cc := by
  simp only [hostOps0]
  after_results
  exact fold_apply _ 0 (by omega) _ _ _ cc

theorem h0_v3 (cc : Fin 128) :
    StableHlo.after (hostOps0 (F := Ideal)) W (Proc.devRef .tc main_v3) (ix2 cc (0 : Fin 1))
      = Egnn.foldKQ (W (Proc.devRef .tc main_arg5) : S128x128.Idx → EReal) (W (Proc.devRef .tc main_arg7) : S384x1.Idx → EReal) 128 (by omega) cc := by
  simp only [hostOps0]
  after_results
  exact fold_apply _ 128 (by omega) _ _ _ cc

theorem h0_v6 (cc : Fin 128) :
    StableHlo.after (hostOps0 (F := Ideal)) W (Proc.devRef .tc main_v6) (ix2 cc (0 : Fin 1))
      = Egnn.foldKQ (W (Proc.devRef .tc main_arg12) : S128x128.Idx → EReal) (W (Proc.devRef .tc main_arg15) : S384x1.Idx → EReal) 0 (by omega) cc := by
  simp only [hostOps0]
  after_results
  exact fold_apply _ 0 (by omega) _ _ _ cc

theorem h0_v8 (cc : Fin 128) :
    StableHlo.after (hostOps0 (F := Ideal)) W (Proc.devRef .tc main_v8) (ix2 cc (0 : Fin 1))
      = Egnn.foldKQ (W (Proc.devRef .tc main_arg13) : S128x128.Idx → EReal) (W (Proc.devRef .tc main_arg15) : S384x1.Idx → EReal) 128 (by omega) cc := by
  simp only [hostOps0]
  after_results
  exact fold_apply _ 128 (by omega) _ _ _ cc

theorem h0_v4 (j : Fin 128) :
    StableHlo.after (hostOps0 (F := Ideal)) W (Proc.devRef .tc main_v4) (ix2 j (0 : Fin 1))
      = Egnn.rowsFrom (W (Proc.devRef .tc main_arg7) : S384x1.Idx → EReal) (2 * 128) (by omega) j (0 : Fin 1) := by
  simp only [hostOps0]
  after_results
  exact extractStridedSlice_apply _ _ _ (ix2 j (0 : Fin 1)) _ (by intro a; match a with | ⟨0, _⟩ => rfl | ⟨1, _⟩ => rfl)

theorem h0_v9 (j : Fin 128) :
    StableHlo.after (hostOps0 (F := Ideal)) W (Proc.devRef .tc main_v9) (ix2 j (0 : Fin 1))
      = Egnn.rowsFrom (W (Proc.devRef .tc main_arg15) : S384x1.Idx → EReal) (2 * 128) (by omega) j (0 : Fin 1) := by
  simp only [hostOps0]
  after_results
  exact extractStridedSlice_apply _ _ _ (ix2 j (0 : Fin 1)) _ (by intro a; match a with | ⟨0, _⟩ => rfl | ⟨1, _⟩ => rfl)

theorem h01_v16 (b' : Fin 8) (cc : Fin 128) (col : Fin 8) :
    StableHlo.after (hostOps0_1 (F := Ideal)) W (Proc.devRef .tc main_v16)
        (ix2 (⟨b'.val * 128 + cc.val, by have := b'.isLt; have := cc.isLt; omega⟩ : Fin 1024) col)
      = @HMul.hMul EReal EReal EReal instHMul (W (Proc.devRef .tc main_v15) (ix2 b' col)) (W (Proc.devRef .tc main_v1) (ix2 cc (0 : Fin 1))) := by
  simp only [hostOps0_1]
  after_results
  exact kron_apply bcast_S8x8_S8x1x8x1_0_2 bcast_S128x1_S1x128x1x1_1_3 bcast_S8x1x8x1_S8x128x8x1_0_1_2_3 bcast_S1x128x1x1_S8x128x8x1_0_1_2_3
    shapeCasts_S8x128x8x1_S1024x8 _ _ b' cc col

theorem h02_v17 (b' : Fin 8) (cc : Fin 128) (col : Fin 8) :
    StableHlo.after (hostOps0_2 (F := Ideal)) W (Proc.devRef .tc main_v17)
        (ix2 (⟨b'.val * 128 + cc.val, by have := b'.isLt; have := cc.isLt; omega⟩ : Fin 1024) col)
      = @HMul.hMul EReal EReal EReal instHMul (W (Proc.devRef .tc main_v15) (ix2 b' col)) (W (Proc.devRef .tc main_v3) (ix2 cc (0 : Fin 1))) := by
  simp only [hostOps0_2]
  after_results
  exact kron_apply bcast_S8x8_S8x1x8x1_0_2 bcast_S128x1_S1x128x1x1_1_3 bcast_S8x1x8x1_S8x128x8x1_0_1_2_3 bcast_S1x128x1x1_S8x128x8x1_0_1_2_3
    shapeCasts_S8x128x8x1_S1024x8 _ _ b' cc col

theorem h04_v20 (b' : Fin 8) (cc : Fin 128) (col : Fin 8) :
    StableHlo.after (hostOps0_4 (F := Ideal)) W (Proc.devRef .tc main_v20)
        (ix2 (⟨b'.val * 128 + cc.val, by have := b'.isLt; have := cc.isLt; omega⟩ : Fin 1024) col)
      = @HMul.hMul EReal EReal EReal instHMul (W (Proc.devRef .tc main_v15) (ix2 b' col)) (W (Proc.devRef .tc main_v6) (ix2 cc (0 : Fin 1))) := by
  simp only [hostOps0_4]
  after_results
  exact kron_apply bcast_S8x8_S8x1x8x1_0_2 bcast_S128x1_S1x128x1x1_1_3 bcast_S8x1x8x1_S8x128x8x1_0_1_2_3 bcast_S1x128x1x1_S8x128x8x1_0_1_2_3
    shapeCasts_S8x128x8x1_S1024x8 _ _ b' cc col

theorem h05_v21 (b' : Fin 8) (cc : Fin 128) (col : Fin 8) :
    StableHlo.after (hostOps0_5 (F := Ideal)) W (Proc.devRef .tc main_v21)
        (ix2 (⟨b'.val * 128 + cc.val, by have := b'.isLt; have := cc.isLt; omega⟩ : Fin 1024) col)
      = @HMul.hMul EReal EReal EReal instHMul (W (Proc.devRef .tc main_v15) (ix2 b' col)) (W (Proc.devRef .tc main_v8) (ix2 cc (0 : Fin 1))) := by
  simp only [hostOps0_5]
  after_results
  exact kron_apply bcast_S8x8_S8x1x8x1_0_2 bcast_S128x1_S1x128x1x1_1_3 bcast_S8x1x8x1_S8x128x8x1_0_1_2_3 bcast_S1x128x1x1_S8x128x8x1_0_1_2_3
    shapeCasts_S8x128x8x1_S1024x8 _ _ b' cc col

theorem h03_v19_left (r : Fin 1024) (col : Fin 16) (hc : col.val < 8) :
    StableHlo.after (hostOps0_3 (F := Ideal)) W (Proc.devRef .tc main_v19) (ix2 r col)
      = (W (Proc.devRef .tc main_v16) : S1024x8.Idx → EReal) (ix2 r (⟨col.val, hc⟩ : Fin 8)) := by
  simp only [hostOps0_3]
  after_results
  exact join_left _ _ _ _ r col hc

theorem h03_v19_right (r : Fin 1024) (col : Fin 16) (hc : ¬ col.val < 8) :
    StableHlo.after (hostOps0_3 (F := Ideal)) W (Proc.devRef .tc main_v19) (ix2 r col)
      = (W (Proc.devRef .tc main_v17) : S1024x8.Idx → EReal) (ix2 r (⟨col.val - 8, by have := col.isLt; omega⟩ : Fin 8)) := by
  simp only [hostOps0_3]
  after_results
  exact join_right _ _ _ _ r col hc

theorem h06_v23_left (r : Fin 1024) (col : Fin 16) (hc : col.val < 8) :
    StableHlo.after (hostOps0_6 (F := Ideal)) W (Proc.devRef .tc main_v23) (ix2 r col)
      = (W (Proc.devRef .tc main_v20) : S1024x8.Idx → EReal) (ix2 r (⟨col.val, hc⟩ : Fin 8)) := by
  simp only [hostOps0_6]
  after_results
  exact join_left _ _ _ _ r col hc

theorem h06_v23_right (r : Fin 1024) (col : Fin 16) (hc : ¬ col.val < 8) :
    StableHlo.after (hostOps0_6 (F := Ideal)) W (Proc.devRef .tc main_v23) (ix2 r col)
      = (W (Proc.devRef .tc main_v21) : S1024x8.Idx → EReal) (ix2 r (⟨col.val - 8, by have := col.isLt; omega⟩ : Fin 8)) := by
  simp only [hostOps0_6]
  after_results
  exact join_right _ _ _ _ r col hc

/-- The edge list transposed. -/
theorem h06_v24 (e : Fin 2048) (r : Fin 2) :
    StableHlo.after (hostOps0_6 (F := Ideal)) W (Proc.devRef .tc main_v24) (ix2 e r)
      = (W (Proc.devRef .tc main_arg1) : S2x2048.Idx → BitVec 32) (ix2 r e) := by
  simp only [hostOps0_6]
  after_results
  exact transpose_apply _ _ _ (ix2 e r) (ix2 r e) (by intro b; match b with | ⟨0, _⟩ => rfl | ⟨1, _⟩ => rfl)

theorem h1_v26 (i : S64x128.Idx) :
    StableHlo.after (hostOps1 (F := Ideal)) W (Proc.devRef .tc main_v26) i = W (Proc.devRef .tc main_arg3) i := by
  simp only [hostOps1]
  after_results
  rfl

theorem h1_v27 (i : S256x128.Idx) :
    StableHlo.after (hostOps1 (F := Ideal)) W (Proc.devRef .tc main_v27) i = W (Proc.devRef .tc main_arg9) i := by
  simp only [hostOps1]
  after_results
  rfl

theorem h1_v28 (i : S128x128.Idx) :
    StableHlo.after (hostOps1 (F := Ideal)) W (Proc.devRef .tc main_v28) i = W (Proc.devRef .tc main_arg11) i := by
  simp only [hostOps1]
  after_results
  rfl

theorem h1_v29 (i : S256x128.Idx) :
    StableHlo.after (hostOps1 (F := Ideal)) W (Proc.devRef .tc main_v29) i = W (Proc.devRef .tc main_arg17) i := by
  simp only [hostOps1]
  after_results
  rfl

end Stretches

end Cert.KernelIdeal.KBlk

end
-- ==== Proof.KBlkBound.lean ====
/-
  The buffers at the boundaries between the stretches of host operations and the two regions: every argument array
  still holds its launch contents wherever it is read, and each intermediate the host computes is read where it was
  written, the stretches in between leaving it alone.
-/
import proofs.«130875_g2000201574592089_pallasbulk_874_11_alg».proof.Proof.KBlkHost

noncomputable section

namespace Cert.KernelIdeal.KBlk

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The arguments, where they are read -/

theorem W8_arg1 : W8 (F := Ideal) m ρ c (Proc.devRef .tc main_arg1) = m ((c.tc : Thread nD τ).loc main_arg1) :=
  (skip1 (W8 (F := Ideal) m ρ c) main_arg1 (by decide)).symm.trans
    ((W10_of_ne (F := Ideal) m ρ c main_arg1 (by decide)).symm.trans (W10_main_arg1 m ρ c))

theorem W8_arg2 : W8 (F := Ideal) m ρ c (Proc.devRef .tc main_arg2) = m ((c.tc : Thread nD τ).loc main_arg2) :=
  (skip1 (W8 (F := Ideal) m ρ c) main_arg2 (by decide)).symm.trans
    ((W10_of_ne (F := Ideal) m ρ c main_arg2 (by decide)).symm.trans (W10_main_arg2 m ρ c))

theorem W8_arg3 : W8 (F := Ideal) m ρ c (Proc.devRef .tc main_arg3) = m ((c.tc : Thread nD τ).loc main_arg3) :=
  (skip1 (W8 (F := Ideal) m ρ c) main_arg3 (by decide)).symm.trans
    ((W10_of_ne (F := Ideal) m ρ c main_arg3 (by decide)).symm.trans (W10_main_arg3 m ρ c))

theorem W8_arg6 : W8 (F := Ideal) m ρ c (Proc.devRef .tc main_arg6) = m ((c.tc : Thread nD τ).loc main_arg6) :=
  (skip1 (W8 (F := Ideal) m ρ c) main_arg6 (by decide)).symm.trans
    ((W10_of_ne (F := Ideal) m ρ c main_arg6 (by decide)).symm.trans (W10_main_arg6 m ρ c))

theorem W8_arg8 : W8 (F := Ideal) m ρ c (Proc.devRef .tc main_arg8) = m ((c.tc : Thread nD τ).loc main_arg8) :=
  (skip1 (W8 (F := Ideal) m ρ c) main_arg8 (by decide)).symm.trans
    ((W10_of_ne (F := Ideal) m ρ c main_arg8 (by decide)).symm.trans (W10_main_arg8 m ρ c))

theorem W8_arg9 : W8 (F := Ideal) m ρ c (Proc.devRef .tc main_arg9) = m ((c.tc : Thread nD τ).loc main_arg9) :=
  (skip1 (W8 (F := Ideal) m ρ c) main_arg9 (by decide)).symm.trans
    ((W10_of_ne (F := Ideal) m ρ c main_arg9 (by decide)).symm.trans (W10_main_arg9 m ρ c))

theorem W8_arg11 : W8 (F := Ideal) m ρ c (Proc.devRef .tc main_arg11) = m ((c.tc : Thread nD τ).loc main_arg11) :=
  (skip1 (W8 (F := Ideal) m ρ c) main_arg11 (by decide)).symm.trans
    ((W10_of_ne (F := Ideal) m ρ c main_arg11 (by decide)).symm.trans (W10_main_arg11 m ρ c))

theorem W8_arg14 : W8 (F := Ideal) m ρ c (Proc.devRef .tc main_arg14) = m ((c.tc : Thread nD τ).loc main_arg14) :=
  (skip1 (W8 (F := Ideal) m ρ c) main_arg14 (by decide)).symm.trans
    ((W10_of_ne (F := Ideal) m ρ c main_arg14 (by decide)).symm.trans (W10_main_arg14 m ρ c))

theorem W8_arg16 : W8 (F := Ideal) m ρ c (Proc.devRef .tc main_arg16) = m ((c.tc : Thread nD τ).loc main_arg16) :=
  (skip1 (W8 (F := Ideal) m ρ c) main_arg16 (by decide)).symm.trans
    ((W10_of_ne (F := Ideal) m ρ c main_arg16 (by decide)).symm.trans (W10_main_arg16 m ρ c))

theorem W8_arg17 : W8 (F := Ideal) m ρ c (Proc.devRef .tc main_arg17) = m ((c.tc : Thread nD τ).loc main_arg17) :=
  (skip1 (W8 (F := Ideal) m ρ c) main_arg17 (by decide)).symm.trans
    ((W10_of_ne (F := Ideal) m ρ c main_arg17 (by decide)).symm.trans (W10_main_arg17 m ρ c))

theorem W7_arg2 : W7 (F := Ideal) m ρ c (Proc.devRef .tc main_arg2) = m ((c.tc : Thread nD τ).loc main_arg2) :=
  ((W8_arr (F := Ideal) m ρ c 1).trans (((dat0 (V7 (F := Ideal) m ρ) c).arrAt_in 1 rfl _).trans (A_eq0 (V7 (F := Ideal) m ρ) c 1))).symm.trans
    (W8_arg2 m ρ c)

theorem W7_arg6 : W7 (F := Ideal) m ρ c (Proc.devRef .tc main_arg6) = m ((c.tc : Thread nD τ).loc main_arg6) :=
  ((W8_arr (F := Ideal) m ρ c 2).trans (((dat0 (V7 (F := Ideal) m ρ) c).arrAt_in 2 rfl _).trans (A_eq0 (V7 (F := Ideal) m ρ) c 2))).symm.trans
    (W8_arg6 m ρ c)

theorem W7_arg8 : W7 (F := Ideal) m ρ c (Proc.devRef .tc main_arg8) = m ((c.tc : Thread nD τ).loc main_arg8) :=
  ((W8_arr (F := Ideal) m ρ c 4).trans (((dat0 (V7 (F := Ideal) m ρ) c).arrAt_in 4 rfl _).trans (A_eq0 (V7 (F := Ideal) m ρ) c 4))).symm.trans
    (W8_arg8 m ρ c)

theorem W7_arg14 : W7 (F := Ideal) m ρ c (Proc.devRef .tc main_arg14) = m ((c.tc : Thread nD τ).loc main_arg14) :=
  ((W8_arr (F := Ideal) m ρ c 5).trans (((dat0 (V7 (F := Ideal) m ρ) c).arrAt_in 5 rfl _).trans (A_eq0 (V7 (F := Ideal) m ρ) c 5))).symm.trans
    (W8_arg14 m ρ c)

theorem W7_arg16 : W7 (F := Ideal) m ρ c (Proc.devRef .tc main_arg16) = m ((c.tc : Thread nD τ).loc main_arg16) :=
  ((W8_arr (F := Ideal) m ρ c 7).trans (((dat0 (V7 (F := Ideal) m ρ) c).arrAt_in 7 rfl _).trans (A_eq0 (V7 (F := Ideal) m ρ) c 7))).symm.trans
    (W8_arg16 m ρ c)

theorem W7_arg1 : W7 (F := Ideal) m ρ c (Proc.devRef .tc main_arg1) = m ((c.tc : Thread nD τ).loc main_arg1) :=
  (W8_of_ne (F := Ideal) m ρ c main_arg1 (by decide)).symm.trans (W8_arg1 m ρ c)

theorem W6_arg1 : W6 (F := Ideal) m ρ c (Proc.devRef .tc main_arg1) = m ((c.tc : Thread nD τ).loc main_arg1) :=
  (skip0_6 (W6 (F := Ideal) m ρ c) main_arg1 (by decide)).symm.trans (W7_arg1 m ρ c)

theorem V9_arg0 : V9 (F := Ideal) m ρ c main_arg0 = m ((c.tc : Thread nD τ).loc main_arg0) :=
  ((W10_arr (F := Ideal) m ρ c 0).trans (((dat1 (V9 (F := Ideal) m ρ) c).arrAt_in 0 rfl _).trans (A_eq1 (V9 (F := Ideal) m ρ) c 0))).symm.trans
    (W10_main_arg0 m ρ c)

theorem V9_arg10 : V9 (F := Ideal) m ρ c main_arg10 = m ((c.tc : Thread nD τ).loc main_arg10) :=
  ((W10_arr (F := Ideal) m ρ c 10).trans (((dat1 (V9 (F := Ideal) m ρ) c).arrAt_in 10 rfl _).trans (A_eq1 (V9 (F := Ideal) m ρ) c 10))).symm.trans
    (W10_main_arg10 m ρ c)

theorem V9_arg18 : V9 (F := Ideal) m ρ c main_arg18 = m ((c.tc : Thread nD τ).loc main_arg18) :=
  ((W10_arr (F := Ideal) m ρ c 14).trans (((dat1 (V9 (F := Ideal) m ρ) c).arrAt_in 14 rfl _).trans (A_eq1 (V9 (F := Ideal) m ρ) c 14))).symm.trans
    (W10_main_arg18 m ρ c)

/-! ## The weights rounded for the main region: the rounding is the identity on extended reals -/

theorem V9_v26 (i : S64x128.Idx) : V9 (F := Ideal) m ρ c main_v26 i = (m ((c.tc : Thread nD τ).loc main_arg3) : S64x128.Idx → EReal) i := by
  refine (h1_v26 (W8 (F := Ideal) m ρ c) i).trans ?_
  rw [W8_arg3]

theorem V9_v27 (i : S256x128.Idx) : V9 (F := Ideal) m ρ c main_v27 i = (m ((c.tc : Thread nD τ).loc main_arg9) : S256x128.Idx → EReal) i := by
  refine (h1_v27 (W8 (F := Ideal) m ρ c) i).trans ?_
  rw [W8_arg9]

theorem V9_v28 (i : S128x128.Idx) : V9 (F := Ideal) m ρ c main_v28 i = (m ((c.tc : Thread nD τ).loc main_arg11) : S128x128.Idx → EReal) i := by
  refine (h1_v28 (W8 (F := Ideal) m ρ c) i).trans ?_
  rw [W8_arg11]

theorem V9_v29 (i : S256x128.Idx) : V9 (F := Ideal) m ρ c main_v29 i = (m ((c.tc : Thread nD τ).loc main_arg17) : S256x128.Idx → EReal) i := by
  refine (h1_v29 (W8 (F := Ideal) m ρ c) i).trans ?_
  rw [W8_arg17]

/-! ## The intermediates of the first stretch, carried to where they are read -/

theorem W7_v4_eq : W7 (F := Ideal) m ρ c (Proc.devRef .tc main_v4) = W1 (F := Ideal) m ρ c (Proc.devRef .tc main_v4) :=
  ((skip0_6 (W6 (F := Ideal) m ρ c) main_v4 (by decide)).trans ((skip0_5 (W5 (F := Ideal) m ρ c) main_v4 (by decide)).trans ((skip0_4 (W4 (F := Ideal) m ρ c) main_v4 (by decide)).trans ((skip0_3 (W3 (F := Ideal) m ρ c) main_v4 (by decide)).trans ((skip0_2 (W2 (F := Ideal) m ρ c) main_v4 (by decide)).trans (skip0_1 (W1 (F := Ideal) m ρ c) main_v4 (by decide)))))))

theorem W7_v9_eq : W7 (F := Ideal) m ρ c (Proc.devRef .tc main_v9) = W1 (F := Ideal) m ρ c (Proc.devRef .tc main_v9) :=
  ((skip0_6 (W6 (F := Ideal) m ρ c) main_v9 (by decide)).trans ((skip0_5 (W5 (F := Ideal) m ρ c) main_v9 (by decide)).trans ((skip0_4 (W4 (F := Ideal) m ρ c) main_v9 (by decide)).trans ((skip0_3 (W3 (F := Ideal) m ρ c) main_v9 (by decide)).trans ((skip0_2 (W2 (F := Ideal) m ρ c) main_v9 (by decide)).trans (skip0_1 (W1 (F := Ideal) m ρ c) main_v9 (by decide)))))))

/-- The edge part of layer 1's attention weight: rows 256–383 of the attention weight. -/
theorem W7_v4 (j : Fin 128) : W7 (F := Ideal) m ρ c (Proc.devRef .tc main_v4) (ix2 j (0 : Fin 1))
    = Egnn.rowsFrom ((m ((c.tc : Thread nD τ).loc main_arg7)) : S384x1.Idx → EReal) (2 * 128) (by omega) j (0 : Fin 1) := by
  rw [W7_v4_eq]
  exact h0_v4 (W0 (F := Ideal) m ρ c) j

theorem W7_v9 (j : Fin 128) : W7 (F := Ideal) m ρ c (Proc.devRef .tc main_v9) (ix2 j (0 : Fin 1))
    = Egnn.rowsFrom ((m ((c.tc : Thread nD τ).loc main_arg15)) : S384x1.Idx → EReal) (2 * 128) (by omega) j (0 : Fin 1) := by
  rw [W7_v9_eq]
  exact h0_v9 (W0 (F := Ideal) m ρ c) j

/-- The edge list transposed, at region 0's entry. -/
theorem W7_v24 (e : Fin 2048) (r : Fin 2) : W7 (F := Ideal) m ρ c (Proc.devRef .tc main_v24) (ix2 e r)
    = ((m ((c.tc : Thread nD τ).loc main_arg1)) : S2x2048.Idx → BitVec 32) (ix2 r e) := by
  refine (h06_v24 (W6 (F := Ideal) m ρ c) e r).trans ?_
  rw [W6_arg1]

theorem W2_v15_eq : W2 (F := Ideal) m ρ c (Proc.devRef .tc main_v15) = W1 (F := Ideal) m ρ c (Proc.devRef .tc main_v15) :=
  (skip0_1 (W1 (F := Ideal) m ρ c) main_v15 (by decide))
theorem W2_v3_eq : W2 (F := Ideal) m ρ c (Proc.devRef .tc main_v3) = W1 (F := Ideal) m ρ c (Proc.devRef .tc main_v3) :=
  (skip0_1 (W1 (F := Ideal) m ρ c) main_v3 (by decide))
theorem W3_v16_eq : W3 (F := Ideal) m ρ c (Proc.devRef .tc main_v16) = W2 (F := Ideal) m ρ c (Proc.devRef .tc main_v16) :=
  (skip0_2 (W2 (F := Ideal) m ρ c) main_v16 (by decide))
theorem W7_v19_eq : W7 (F := Ideal) m ρ c (Proc.devRef .tc main_v19) = W4 (F := Ideal) m ρ c (Proc.devRef .tc main_v19) :=
  ((skip0_6 (W6 (F := Ideal) m ρ c) main_v19 (by decide)).trans ((skip0_5 (W5 (F := Ideal) m ρ c) main_v19 (by decide)).trans (skip0_4 (W4 (F := Ideal) m ρ c) main_v19 (by decide))))
theorem W4_v15_eq : W4 (F := Ideal) m ρ c (Proc.devRef .tc main_v15) = W1 (F := Ideal) m ρ c (Proc.devRef .tc main_v15) :=
  ((skip0_3 (W3 (F := Ideal) m ρ c) main_v15 (by decide)).trans ((skip0_2 (W2 (F := Ideal) m ρ c) main_v15 (by decide)).trans (skip0_1 (W1 (F := Ideal) m ρ c) main_v15 (by decide))))
theorem W4_v6_eq : W4 (F := Ideal) m ρ c (Proc.devRef .tc main_v6) = W1 (F := Ideal) m ρ c (Proc.devRef .tc main_v6) :=
  ((skip0_3 (W3 (F := Ideal) m ρ c) main_v6 (by decide)).trans ((skip0_2 (W2 (F := Ideal) m ρ c) main_v6 (by decide)).trans (skip0_1 (W1 (F := Ideal) m ρ c) main_v6 (by decide))))
theorem W5_v15_eq : W5 (F := Ideal) m ρ c (Proc.devRef .tc main_v15) = W1 (F := Ideal) m ρ c (Proc.devRef .tc main_v15) :=
  ((skip0_4 (W4 (F := Ideal) m ρ c) main_v15 (by decide)).trans ((skip0_3 (W3 (F := Ideal) m ρ c) main_v15 (by decide)).trans ((skip0_2 (W2 (F := Ideal) m ρ c) main_v15 (by decide)).trans (skip0_1 (W1 (F := Ideal) m ρ c) main_v15 (by decide)))))
theorem W5_v8_eq : W5 (F := Ideal) m ρ c (Proc.devRef .tc main_v8) = W1 (F := Ideal) m ρ c (Proc.devRef .tc main_v8) :=
  ((skip0_4 (W4 (F := Ideal) m ρ c) main_v8 (by decide)).trans ((skip0_3 (W3 (F := Ideal) m ρ c) main_v8 (by decide)).trans ((skip0_2 (W2 (F := Ideal) m ρ c) main_v8 (by decide)).trans (skip0_1 (W1 (F := Ideal) m ρ c) main_v8 (by decide)))))
theorem W6_v20_eq : W6 (F := Ideal) m ρ c (Proc.devRef .tc main_v20) = W5 (F := Ideal) m ρ c (Proc.devRef .tc main_v20) :=
  (skip0_5 (W5 (F := Ideal) m ρ c) main_v20 (by decide))

/-- The block-diagonal key/query weight of layer 1 at region 0's entry: rows (block, channel), sixteen columns. -/
theorem W7_v19 (b' : Fin 8) (cc : Fin 128) (col : Fin 16) :
    W7 (F := Ideal) m ρ c (Proc.devRef .tc main_v19)
        (ix2 (⟨b'.val * 128 + cc.val, by have := b'.isLt; have := cc.isLt; omega⟩ : Fin 1024) col)
      = Egnn.kqEntry (Egnn.foldKQ ((m ((c.tc : Thread nD τ).loc main_arg4)) : S128x128.Idx → EReal) ((m ((c.tc : Thread nD τ).loc main_arg7)) : S384x1.Idx → EReal) 0 (by omega))
          (Egnn.foldKQ ((m ((c.tc : Thread nD τ).loc main_arg5)) : S128x128.Idx → EReal) ((m ((c.tc : Thread nD τ).loc main_arg7)) : S384x1.Idx → EReal) 128 (by omega)) b' cc col := by
  rw [W7_v19_eq]
  unfold Egnn.kqEntry
  by_cases hc : col.val < 8
  · rw [if_pos hc]
    refine (h03_v19_left (W3 (F := Ideal) m ρ c) _ col hc).trans ?_
    rw [W3_v16_eq]
    refine (h01_v16 (W1 (F := Ideal) m ρ c) b' cc ⟨col.val, hc⟩).trans ?_
    refine congrArg₂ (· * ·) ?_ ?_
    · exact h0_v15 (W0 (F := Ideal) m ρ c) b' ⟨col.val, hc⟩
    · exact h0_v1 (W0 (F := Ideal) m ρ c) cc
  · rw [if_neg hc]
    refine (h03_v19_right (W3 (F := Ideal) m ρ c) _ col hc).trans ?_
    refine (h02_v17 (W2 (F := Ideal) m ρ c) b' cc ⟨col.val - 8, by have := col.isLt; omega⟩).trans ?_
    rw [W2_v15_eq, W2_v3_eq]
    refine congrArg₂ (· * ·) ?_ ?_
    · refine (h0_v15 (W0 (F := Ideal) m ρ c) b' ⟨col.val - 8, by have := col.isLt; omega⟩).trans ?_
      exact if_congr (by show b'.val = col.val - 8 ↔ b'.val + 8 = col.val; omega) rfl rfl
    · exact h0_v3 (W0 (F := Ideal) m ρ c) cc

/-- The block-diagonal key/query weight of layer 2. -/
theorem W7_v23 (b' : Fin 8) (cc : Fin 128) (col : Fin 16) :
    W7 (F := Ideal) m ρ c (Proc.devRef .tc main_v23)
        (ix2 (⟨b'.val * 128 + cc.val, by have := b'.isLt; have := cc.isLt; omega⟩ : Fin 1024) col)
      = Egnn.kqEntry (Egnn.foldKQ ((m ((c.tc : Thread nD τ).loc main_arg12)) : S128x128.Idx → EReal) ((m ((c.tc : Thread nD τ).loc main_arg15)) : S384x1.Idx → EReal) 0 (by omega))
          (Egnn.foldKQ ((m ((c.tc : Thread nD τ).loc main_arg13)) : S128x128.Idx → EReal) ((m ((c.tc : Thread nD τ).loc main_arg15)) : S384x1.Idx → EReal) 128 (by omega)) b' cc col := by
  unfold Egnn.kqEntry
  by_cases hc : col.val < 8
  · rw [if_pos hc]
    refine (h06_v23_left (W6 (F := Ideal) m ρ c) _ col hc).trans ?_
    rw [W6_v20_eq]
    refine (h04_v20 (W4 (F := Ideal) m ρ c) b' cc ⟨col.val, hc⟩).trans ?_
    rw [W4_v15_eq, W4_v6_eq]
    refine congrArg₂ (· * ·) ?_ ?_
    · exact h0_v15 (W0 (F := Ideal) m ρ c) b' ⟨col.val, hc⟩
    · exact h0_v6 (W0 (F := Ideal) m ρ c) cc
  · rw [if_neg hc]
    refine (h06_v23_right (W6 (F := Ideal) m ρ c) _ col hc).trans ?_
    refine (h05_v21 (W5 (F := Ideal) m ρ c) b' cc ⟨col.val - 8, by have := col.isLt; omega⟩).trans ?_
    rw [W5_v15_eq, W5_v8_eq]
    refine congrArg₂ (· * ·) ?_ ?_
    · refine (h0_v15 (W0 (F := Ideal) m ρ c) b' ⟨col.val - 8, by have := col.isLt; omega⟩).trans ?_
      exact if_congr (by show b'.val = col.val - 8 ↔ b'.val + 8 = col.val; omega) rfl rfl
    · exact h0_v8 (W0 (F := Ideal) m ρ c) cc

end Cert.KernelIdeal.KBlk

end
-- ==== Proof.KBlkEdge.lean ====
/-
  The prologue's six result arrays. The prologue has one grid point, and each result window is the whole array, so
  after the one write-back each array holds what the body left in its staging buffer: the one store's payload of the
  whole input arrays.
-/
import proofs.«130875_g2000201574592089_pallasbulk_874_11_alg».proof.Proof.Gen.KernelIdeal.Frame
import proofs.«130875_g2000201574592089_pallasbulk_874_11_alg».proof.Proof.KBlkPure
import Idealize.ShloMosaic.Lib.ValueIdx
import Idealize.ShloMosaic.Lib.Pipeline.Value

noncomputable section

namespace Cert.KernelIdeal.KBlk

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- Result window 8's one block is the whole array: reading through it changes nothing. -/
theorem read0_8 (G : S2048x512.Idx → Elt Ideal (cfg0.win 8).elt) (t : Fin cfg0.N) : ((cfg0.win 8).blk t).view.read (Elt Ideal) G = G := by
  funext j
  refine congrArg G ?_
  funext a; apply Fin.ext
  match a with
  | ⟨0, _⟩ => show 0 * 2048 + 1 * (j 0).val = (j 0).val; omega
  | ⟨1, _⟩ => show 0 * 512 + 1 * (j 1).val = (j 1).val; omega

/-- After the prologue the array of result window 8 holds what the body left. -/
theorem arr0_8 : (dat0 (F := Ideal) V c).arrAt 8 cfg0.N = out0_8 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) :=
  (dat0 (F := Ideal) V c).arrAt_eq_of_cover 8 _ (fun t _ => by
      obtain rfl := fin_N0 t
      show (cfg0.win 8).cut (grid0.coords t0_0) ((dat0 (F := Ideal) V c).after 8 t0_0) = _
      rw [after0_8, read0_8]
      rfl) fun i =>
    ⟨t0_0, flush0_8 t0_0, by
      show i ∈ ((View.whole main_v25_0).slice (win0_8.rect t0_0)).set
      rw [View.set_slice_whole, Rect.mem_set_unit]
      intro a
      have h0 : (i 0 : Nat) < 2048 := (i 0).isLt
      have h1 : (i 1 : Nat) < 512 := (i 1).isLt
      match a with
      | ⟨0, _⟩ => show 0 * 2048 ≤ (i 0 : Nat) ∧ (i 0 : Nat) < 0 * 2048 + 2048; omega
      | ⟨1, _⟩ => show 0 * 512 ≤ (i 1 : Nat) ∧ (i 1 : Nat) < 0 * 512 + 512; omega⟩

/-- Result window 9's one block is the whole array: reading through it changes nothing. -/
theorem read0_9 (G : S2048x512.Idx → Elt Ideal (cfg0.win 9).elt) (t : Fin cfg0.N) : ((cfg0.win 9).blk t).view.read (Elt Ideal) G = G := by
  funext j
  refine congrArg G ?_
  funext a; apply Fin.ext
  match a with
  | ⟨0, _⟩ => show 0 * 2048 + 1 * (j 0).val = (j 0).val; omega
  | ⟨1, _⟩ => show 0 * 512 + 1 * (j 1).val = (j 1).val; omega

/-- After the prologue the array of result window 9 holds what the body left. -/
theorem arr0_9 : (dat0 (F := Ideal) V c).arrAt 9 cfg0.N = out0_9 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) :=
  (dat0 (F := Ideal) V c).arrAt_eq_of_cover 9 _ (fun t _ => by
      obtain rfl := fin_N0 t
      show (cfg0.win 9).cut (grid0.coords t0_0) ((dat0 (F := Ideal) V c).after 9 t0_0) = _
      rw [after0_9, read0_9]
      rfl) fun i =>
    ⟨t0_0, flush0_9 t0_0, by
      show i ∈ ((View.whole main_v25_1).slice (win0_9.rect t0_0)).set
      rw [View.set_slice_whole, Rect.mem_set_unit]
      intro a
      have h0 : (i 0 : Nat) < 2048 := (i 0).isLt
      have h1 : (i 1 : Nat) < 512 := (i 1).isLt
      match a with
      | ⟨0, _⟩ => show 0 * 2048 ≤ (i 0 : Nat) ∧ (i 0 : Nat) < 0 * 2048 + 2048; omega
      | ⟨1, _⟩ => show 0 * 512 ≤ (i 1 : Nat) ∧ (i 1 : Nat) < 0 * 512 + 512; omega⟩

/-- Result window 10's one block is the whole array: reading through it changes nothing. -/
theorem read0_10 (G : S2048x128.Idx → Elt Ideal (cfg0.win 10).elt) (t : Fin cfg0.N) : ((cfg0.win 10).blk t).view.read (Elt Ideal) G = G := by
  funext j
  refine congrArg G ?_
  funext a; apply Fin.ext
  match a with
  | ⟨0, _⟩ => show 0 * 2048 + 1 * (j 0).val = (j 0).val; omega
  | ⟨1, _⟩ => show 0 * 128 + 1 * (j 1).val = (j 1).val; omega

/-- After the prologue the array of result window 10 holds what the body left. -/
theorem arr0_10 : (dat0 (F := Ideal) V c).arrAt 10 cfg0.N = out0_10 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) :=
  (dat0 (F := Ideal) V c).arrAt_eq_of_cover 10 _ (fun t _ => by
      obtain rfl := fin_N0 t
      show (cfg0.win 10).cut (grid0.coords t0_0) ((dat0 (F := Ideal) V c).after 10 t0_0) = _
      rw [after0_10, read0_10]
      rfl) fun i =>
    ⟨t0_0, flush0_10 t0_0, by
      show i ∈ ((View.whole main_v25_2).slice (win0_10.rect t0_0)).set
      rw [View.set_slice_whole, Rect.mem_set_unit]
      intro a
      have h0 : (i 0 : Nat) < 2048 := (i 0).isLt
      have h1 : (i 1 : Nat) < 128 := (i 1).isLt
      match a with
      | ⟨0, _⟩ => show 0 * 2048 ≤ (i 0 : Nat) ∧ (i 0 : Nat) < 0 * 2048 + 2048; omega
      | ⟨1, _⟩ => show 0 * 128 ≤ (i 1 : Nat) ∧ (i 1 : Nat) < 0 * 128 + 128; omega⟩

/-- Result window 11's one block is the whole array: reading through it changes nothing. -/
theorem read0_11 (G : S2048x8.Idx → Elt Ideal (cfg0.win 11).elt) (t : Fin cfg0.N) : ((cfg0.win 11).blk t).view.read (Elt Ideal) G = G := by
  funext j
  refine congrArg G ?_
  funext a; apply Fin.ext
  match a with
  | ⟨0, _⟩ => show 0 * 2048 + 1 * (j 0).val = (j 0).val; omega
  | ⟨1, _⟩ => show 0 * 8 + 1 * (j 1).val = (j 1).val; omega

/-- After the prologue the array of result window 11 holds what the body left. -/
theorem arr0_11 : (dat0 (F := Ideal) V c).arrAt 11 cfg0.N = out0_11 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) :=
  (dat0 (F := Ideal) V c).arrAt_eq_of_cover 11 _ (fun t _ => by
      obtain rfl := fin_N0 t
      show (cfg0.win 11).cut (grid0.coords t0_0) ((dat0 (F := Ideal) V c).after 11 t0_0) = _
      rw [after0_11, read0_11]
      rfl) fun i =>
    ⟨t0_0, flush0_11 t0_0, by
      show i ∈ ((View.whole main_v25_3).slice (win0_11.rect t0_0)).set
      rw [View.set_slice_whole, Rect.mem_set_unit]
      intro a
      have h0 : (i 0 : Nat) < 2048 := (i 0).isLt
      have h1 : (i 1 : Nat) < 8 := (i 1).isLt
      match a with
      | ⟨0, _⟩ => show 0 * 2048 ≤ (i 0 : Nat) ∧ (i 0 : Nat) < 0 * 2048 + 2048; omega
      | ⟨1, _⟩ => show 0 * 8 ≤ (i 1 : Nat) ∧ (i 1 : Nat) < 0 * 8 + 8; omega⟩

/-- Result window 12's one block is the whole array: reading through it changes nothing. -/
theorem read0_12 (G : S2048x128.Idx → Elt Ideal (cfg0.win 12).elt) (t : Fin cfg0.N) : ((cfg0.win 12).blk t).view.read (Elt Ideal) G = G := by
  funext j
  refine congrArg G ?_
  funext a; apply Fin.ext
  match a with
  | ⟨0, _⟩ => show 0 * 2048 + 1 * (j 0).val = (j 0).val; omega
  | ⟨1, _⟩ => show 0 * 128 + 1 * (j 1).val = (j 1).val; omega

/-- After the prologue the array of result window 12 holds what the body left. -/
theorem arr0_12 : (dat0 (F := Ideal) V c).arrAt 12 cfg0.N = out0_12 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) :=
  (dat0 (F := Ideal) V c).arrAt_eq_of_cover 12 _ (fun t _ => by
      obtain rfl := fin_N0 t
      show (cfg0.win 12).cut (grid0.coords t0_0) ((dat0 (F := Ideal) V c).after 12 t0_0) = _
      rw [after0_12, read0_12]
      rfl) fun i =>
    ⟨t0_0, flush0_12 t0_0, by
      show i ∈ ((View.whole main_v25_4).slice (win0_12.rect t0_0)).set
      rw [View.set_slice_whole, Rect.mem_set_unit]
      intro a
      have h0 : (i 0 : Nat) < 2048 := (i 0).isLt
      have h1 : (i 1 : Nat) < 128 := (i 1).isLt
      match a with
      | ⟨0, _⟩ => show 0 * 2048 ≤ (i 0 : Nat) ∧ (i 0 : Nat) < 0 * 2048 + 2048; omega
      | ⟨1, _⟩ => show 0 * 128 ≤ (i 1 : Nat) ∧ (i 1 : Nat) < 0 * 128 + 128; omega⟩

/-- Result window 13's one block is the whole array: reading through it changes nothing. -/
theorem read0_13 (G : S2048x8.Idx → Elt Ideal (cfg0.win 13).elt) (t : Fin cfg0.N) : ((cfg0.win 13).blk t).view.read (Elt Ideal) G = G := by
  funext j
  refine congrArg G ?_
  funext a; apply Fin.ext
  match a with
  | ⟨0, _⟩ => show 0 * 2048 + 1 * (j 0).val = (j 0).val; omega
  | ⟨1, _⟩ => show 0 * 8 + 1 * (j 1).val = (j 1).val; omega

/-- After the prologue the array of result window 13 holds what the body left. -/
theorem arr0_13 : (dat0 (F := Ideal) V c).arrAt 13 cfg0.N = out0_13 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) :=
  (dat0 (F := Ideal) V c).arrAt_eq_of_cover 13 _ (fun t _ => by
      obtain rfl := fin_N0 t
      show (cfg0.win 13).cut (grid0.coords t0_0) ((dat0 (F := Ideal) V c).after 13 t0_0) = _
      rw [after0_13, read0_13]
      rfl) fun i =>
    ⟨t0_0, flush0_13 t0_0, by
      show i ∈ ((View.whole main_v25_5).slice (win0_13.rect t0_0)).set
      rw [View.set_slice_whole, Rect.mem_set_unit]
      intro a
      have h0 : (i 0 : Nat) < 2048 := (i 0).isLt
      have h1 : (i 1 : Nat) < 8 := (i 1).isLt
      match a with
      | ⟨0, _⟩ => show 0 * 2048 ≤ (i 0 : Nat) ∧ (i 0 : Nat) < 0 * 2048 + 2048; omega
      | ⟨1, _⟩ => show 0 * 8 ≤ (i 1 : Nat) ∧ (i 1 : Nat) < 0 * 8 + 8; omega⟩

/-! ## The prologue's input blocks are its whole input arrays -/

theorem iblk0_eq_0 (t : Fin cfg0.N) : iblk0 (F := Ideal) V c 0 t = V c main_v24 := by
  funext j
  show V c main_v24 (((cfg0.win 0).blk t).view.emb j) = V c main_v24 j
  refine congrArg _ ?_
  funext a; apply Fin.ext
  match a with
  | ⟨0, _⟩ => show 0 * 2048 + 1 * (j 0).val = (j 0).val; omega
  | ⟨1, _⟩ => show 0 * 2 + 1 * (j 1).val = (j 1).val; omega

theorem iblk0_eq_1 (t : Fin cfg0.N) : iblk0 (F := Ideal) V c 1 t = V c main_arg2 := by
  funext j
  show V c main_arg2 (((cfg0.win 1).blk t).view.emb j) = V c main_arg2 j
  refine congrArg _ ?_
  funext a; apply Fin.ext
  match a with
  | ⟨0, _⟩ => show 0 * 2048 + 1 * (j 0).val = (j 0).val; omega
  | ⟨1, _⟩ => show 0 * 32 + 1 * (j 1).val = (j 1).val; omega

theorem iblk0_eq_2 (t : Fin cfg0.N) : iblk0 (F := Ideal) V c 2 t = V c main_arg6 := by
  funext j
  show V c main_arg6 (((cfg0.win 2).blk t).view.emb j) = V c main_arg6 j
  refine congrArg _ ?_
  funext a; apply Fin.ext
  match a with
  | ⟨0, _⟩ => show 0 * 32 + 1 * (j 0).val = (j 0).val; omega
  | ⟨1, _⟩ => show 0 * 128 + 1 * (j 1).val = (j 1).val; omega

theorem iblk0_eq_3 (t : Fin cfg0.N) : iblk0 (F := Ideal) V c 3 t = V c main_v4 := by
  funext j
  show V c main_v4 (((cfg0.win 3).blk t).view.emb j) = V c main_v4 j
  refine congrArg _ ?_
  funext a; apply Fin.ext
  match a with
  | ⟨0, _⟩ => show 0 * 128 + 1 * (j 0).val = (j 0).val; omega
  | ⟨1, _⟩ => show 0 * 1 + 1 * (j 1).val = (j 1).val; omega

theorem iblk0_eq_4 (t : Fin cfg0.N) : iblk0 (F := Ideal) V c 4 t = V c main_arg8 := by
  funext j
  show V c main_arg8 (((cfg0.win 4).blk t).view.emb j) = V c main_arg8 j
  refine congrArg _ ?_
  funext a; apply Fin.ext
  match a with
  | ⟨0, _⟩ => show 0 * 1 + 1 * (j 0).val = (j 0).val; omega
  | ⟨1, _⟩ => show 0 * 1 + 1 * (j 1).val = (j 1).val; omega

theorem iblk0_eq_5 (t : Fin cfg0.N) : iblk0 (F := Ideal) V c 5 t = V c main_arg14 := by
  funext j
  show V c main_arg14 (((cfg0.win 5).blk t).view.emb j) = V c main_arg14 j
  refine congrArg _ ?_
  funext a; apply Fin.ext
  match a with
  | ⟨0, _⟩ => show 0 * 32 + 1 * (j 0).val = (j 0).val; omega
  | ⟨1, _⟩ => show 0 * 128 + 1 * (j 1).val = (j 1).val; omega

theorem iblk0_eq_6 (t : Fin cfg0.N) : iblk0 (F := Ideal) V c 6 t = V c main_v9 := by
  funext j
  show V c main_v9 (((cfg0.win 6).blk t).view.emb j) = V c main_v9 j
  refine congrArg _ ?_
  funext a; apply Fin.ext
  match a with
  | ⟨0, _⟩ => show 0 * 128 + 1 * (j 0).val = (j 0).val; omega
  | ⟨1, _⟩ => show 0 * 1 + 1 * (j 1).val = (j 1).val; omega

theorem iblk0_eq_7 (t : Fin cfg0.N) : iblk0 (F := Ideal) V c 7 t = V c main_arg16 := by
  funext j
  show V c main_arg16 (((cfg0.win 7).blk t).view.emb j) = V c main_arg16 j
  refine congrArg _ ?_
  funext a; apply Fin.ext
  match a with
  | ⟨0, _⟩ => show 0 * 1 + 1 * (j 0).val = (j 0).val; omega
  | ⟨1, _⟩ => show 0 * 1 + 1 * (j 1).val = (j 1).val; omega

/-- A load of column 0 of the transposed edge list. -/
theorem ld_col0 (X : Vec Ideal S2048x2 .i32) (e : Fin 2048) : View.ld X r0_0 (ix2 e (0 : Fin 1)) = X (ix2 e (0 : Fin 2)) := by
  show X (r0_0.emb (ix2 e (0 : Fin 1))) = _
  refine congrArg X ?_
  funext a; apply Fin.ext
  rw [Rect.emb_apply]
  match a with
  | ⟨0, _⟩ => show 0 + 1 * e.val = e.val; omega
  | ⟨1, _⟩ => rfl

/-- A load of column 1. -/
theorem ld_col1 (X : Vec Ideal S2048x2 .i32) (e : Fin 2048) : View.ld X r0_2 (ix2 e (0 : Fin 1)) = X (ix2 e (1 : Fin 2)) := by
  show X (r0_2.emb (ix2 e (0 : Fin 1))) = _
  refine congrArg X ?_
  funext a; apply Fin.ext
  rw [Rect.emb_apply]
  match a with
  | ⟨0, _⟩ => show 0 + 1 * e.val = e.val; omega
  | ⟨1, _⟩ => rfl

/-! ## The six result arrays at an index -/

/-- The source-node operator: one where the edge's first endpoint word is the node's word. -/
theorem edge_S (e : Fin 2048) (n : Fin 512) :
    (dat0 (F := Ideal) V c).arrAt 8 cfg0.N (ix2 e n)
      = (if (V c main_v24 : S2048x2.Idx → BitVec 32) (ix2 e (0 : Fin 2)) = BitVec.ofNat 32 n.val then 1 else 0 : EReal) := by
  rw [arr0_8]
  unfold out0_8
  rw [View.canon_unit_zero hz2]
  refine (pay4_apply _ e n).trans ?_
  rw [ld_col0, iblk0_eq_0]

/-- The target-node operator: the same of the second endpoint. -/
theorem edge_T (e : Fin 2048) (n : Fin 512) :
    (dat0 (F := Ideal) V c).arrAt 9 cfg0.N (ix2 e n)
      = (if (V c main_v24 : S2048x2.Idx → BitVec 32) (ix2 e (1 : Fin 2)) = BitVec.ofNat 32 n.val then 1 else 0 : EReal) := by
  rw [arr0_9]
  unfold out0_9
  rw [View.canon_unit_zero hz2]
  refine (pay5_apply _ e n).trans ?_
  rw [ld_col1, iblk0_eq_0]

/-- Layer 1's edge gate. -/
theorem edge_g1 (e : Fin 2048) (j : Fin 128) :
    (dat0 (F := Ideal) V c).arrAt 10 cfg0.N (ix2 e j)
      = Egnn.gate (fun e k => (V c main_arg2 : S2048x32.Idx → EReal) (ix2 e k)) (fun k j => (V c main_arg6 : S32x128.Idx → EReal) (ix2 k j)) e j := by
  rw [arr0_10]
  unfold out0_10
  rw [View.canon_unit_zero hz2]
  simp only [View.ld_unit_zero (S := S2048x32) hz2, View.ld_unit_zero (S := S32x128) hz2]
  refine (pay7_apply _ _ e j).trans ?_
  rw [iblk0_eq_1, iblk0_eq_2]

/-- Layer 2's edge gate. -/
theorem edge_g2 (e : Fin 2048) (j : Fin 128) :
    (dat0 (F := Ideal) V c).arrAt 12 cfg0.N (ix2 e j)
      = Egnn.gate (fun e k => (V c main_arg2 : S2048x32.Idx → EReal) (ix2 e k)) (fun k j => (V c main_arg14 : S32x128.Idx → EReal) (ix2 k j)) e j := by
  rw [arr0_12]
  unfold out0_12
  rw [View.canon_unit_zero hz2]
  simp only [View.ld_unit_zero (S := S2048x32) hz2, View.ld_unit_zero (S := S32x128) hz2]
  refine (pay2_apply _ _ e j).trans ?_
  rw [iblk0_eq_1, iblk0_eq_5]

/-- Layer 1's edge logit, in each of the eight columns. -/
theorem edge_a1 (e : Fin 2048) (b : Fin 8) :
    (dat0 (F := Ideal) V c).arrAt 11 cfg0.N (ix2 e b)
      = Egnn.eatt (fun e k => (V c main_arg2 : S2048x32.Idx → EReal) (ix2 e k)) (fun k j => (V c main_arg6 : S32x128.Idx → EReal) (ix2 k j))
          (fun j => (V c main_v4 : S128x1.Idx → EReal) (ix2 j (0 : Fin 1))) ((V c main_arg8 : S1x1.Idx → EReal) (ix2 (0 : Fin 1) (0 : Fin 1))) e := by
  rw [arr0_11]
  unfold out0_11
  rw [View.canon_unit_zero hz2]
  simp only [View.ld_unit_zero (S := S2048x32) hz2, View.ld_unit_zero (S := S32x128) hz2, View.ld_unit_zero (S := S128x1) hz2, View.ld_unit_zero (S := S1x1) hz2]
  refine (pay8_apply _ _ _ _ e b).trans ?_
  rw [iblk0_eq_1, iblk0_eq_2, iblk0_eq_3, iblk0_eq_4]

/-- Layer 2's edge logit. -/
theorem edge_a2 (e : Fin 2048) (b : Fin 8) :
    (dat0 (F := Ideal) V c).arrAt 13 cfg0.N (ix2 e b)
      = Egnn.eatt (fun e k => (V c main_arg2 : S2048x32.Idx → EReal) (ix2 e k)) (fun k j => (V c main_arg14 : S32x128.Idx → EReal) (ix2 k j))
          (fun j => (V c main_v9 : S128x1.Idx → EReal) (ix2 j (0 : Fin 1))) ((V c main_arg16 : S1x1.Idx → EReal) (ix2 (0 : Fin 1) (0 : Fin 1))) e := by
  rw [arr0_13]
  unfold out0_13
  rw [View.canon_unit_zero hz2]
  simp only [View.ld_unit_zero (S := S2048x32) hz2, View.ld_unit_zero (S := S32x128) hz2, View.ld_unit_zero (S := S128x1) hz2, View.ld_unit_zero (S := S1x1) hz2]
  refine (pay3_apply _ _ _ _ e b).trans ?_
  rw [iblk0_eq_1, iblk0_eq_5, iblk0_eq_6, iblk0_eq_7]

end Cert.KernelIdeal.KBlk

end
-- ==== Proof.KBlkArgs.lean ====
/-
  The blocks of the main region's windows that hold an argument array as it was launched (or its rounding, which is
  the identity on extended reals): the features' block of a grid point is eight consecutive batch elements; every
  weight and bias window is the whole array at every point.
-/
import proofs.«130875_g2000201574592089_pallasbulk_874_11_alg».proof.Proof.KBlkBound

noncomputable section

namespace Cert.KernelIdeal.KBlk

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The features' window steps along the batch axis only: point `t` reads block `t`. -/
theorem idx_win0 : ∀ t : Fin cfg1.N, win1_0.index t (0 : Fin 3) = t.val ∧ win1_0.index t (1 : Fin 3) = 0 ∧ win1_0.index t (2 : Fin 3) = 0 :=
  (by decide +kernel : ∀ t : Fin grid1.N, _)

/-- The features' block of point `t`: batch elements `8 t … 8 t + 7`. -/
theorem blk0 (t : Fin cfg1.N) (b : Fin 8) (n : Fin 512) (k : Fin 64) :
    iblk1 (F := Ideal) (V9 m ρ) c 0 t (ix3 b n k)
      = (m ((c.tc : Thread nD τ).loc main_arg0) : S256x512x64.Idx → EReal)
          (ix3 (⟨8 * t.val + b.val, by have := t.isLt; have h : cfg1.N = 32 := N_1; omega⟩ : Fin 256) n k) := by
  show V9 (F := Ideal) m ρ c main_arg0 (((cfg1.win 0).blk t).view.emb (ix3 b n k)) = _
  rw [V9_arg0]
  refine congrArg _ ?_
  obtain ⟨e0, e1, e2⟩ := idx_win0 t
  funext a; apply Fin.ext
  match a with
  | ⟨0, _⟩ => show win1_0.index t (0 : Fin 3) * 8 + 1 * b.val = 8 * t.val + b.val; omega
  | ⟨1, _⟩ => show win1_0.index t (1 : Fin 3) * 512 + 1 * n.val = n.val; omega
  | ⟨2, _⟩ => show win1_0.index t (2 : Fin 3) * 64 + 1 * k.val = k.val; omega

/-! ## The whole-array windows -/

theorem blk7 (t : Fin cfg1.N) (k : Fin 64) (j : Fin 128) :
    iblk1 (F := Ideal) (V9 m ρ) c 7 t (ix2 k j)
      = (m ((c.tc : Thread nD τ).loc main_arg3) : S64x128.Idx → EReal) (ix2 k j) := by
  have hemb : ((cfg1.win 7).blk t).view.emb (ix2 k j) = ix2 k j := by
    funext a; apply Fin.ext
    match a with
    | ⟨0, _⟩ => show 0 * 64 + 1 * k.val = k.val; omega
    | ⟨1, _⟩ => show 0 * 128 + 1 * j.val = j.val; omega
  show V9 (F := Ideal) m ρ c main_v26 (((cfg1.win 7).blk t).view.emb (ix2 k j)) = _
  rw [hemb]
  exact V9_v26 m ρ c (ix2 k j)

theorem blk9 (t : Fin cfg1.N) (r : Fin 256) (j : Fin 128) :
    iblk1 (F := Ideal) (V9 m ρ) c 9 t (ix2 r j)
      = (m ((c.tc : Thread nD τ).loc main_arg9) : S256x128.Idx → EReal) (ix2 r j) := by
  have hemb : ((cfg1.win 9).blk t).view.emb (ix2 r j) = ix2 r j := by
    funext a; apply Fin.ext
    match a with
    | ⟨0, _⟩ => show 0 * 256 + 1 * r.val = r.val; omega
    | ⟨1, _⟩ => show 0 * 128 + 1 * j.val = j.val; omega
  show V9 (F := Ideal) m ρ c main_v27 (((cfg1.win 9).blk t).view.emb (ix2 r j)) = _
  rw [hemb]
  exact V9_v27 m ρ c (ix2 r j)

theorem blk10 (t : Fin cfg1.N) (j : Fin 128) :
    iblk1 (F := Ideal) (V9 m ρ) c 10 t (ix2 (0 : Fin 1) j)
      = (m ((c.tc : Thread nD τ).loc main_arg10) : S1x128.Idx → EReal) (ix2 (0 : Fin 1) j) := by
  show V9 (F := Ideal) m ρ c main_arg10 (((cfg1.win 10).blk t).view.emb (ix2 (0 : Fin 1) j)) = _
  rw [V9_arg10]
  refine congrArg _ ?_
  funext a; apply Fin.ext
  match a with
  | ⟨0, _⟩ => rfl
  | ⟨1, _⟩ => show 0 * 128 + 1 * j.val = j.val; omega

theorem blk11 (t : Fin cfg1.N) (k : Fin 128) (j : Fin 128) :
    iblk1 (F := Ideal) (V9 m ρ) c 11 t (ix2 k j)
      = (m ((c.tc : Thread nD τ).loc main_arg11) : S128x128.Idx → EReal) (ix2 k j) := by
  have hemb : ((cfg1.win 11).blk t).view.emb (ix2 k j) = ix2 k j := by
    funext a; apply Fin.ext
    match a with
    | ⟨0, _⟩ => show 0 * 128 + 1 * k.val = k.val; omega
    | ⟨1, _⟩ => show 0 * 128 + 1 * j.val = j.val; omega
  show V9 (F := Ideal) m ρ c main_v28 (((cfg1.win 11).blk t).view.emb (ix2 k j)) = _
  rw [hemb]
  exact V9_v28 m ρ c (ix2 k j)

theorem blk13 (t : Fin cfg1.N) (r : Fin 256) (j : Fin 128) :
    iblk1 (F := Ideal) (V9 m ρ) c 13 t (ix2 r j)
      = (m ((c.tc : Thread nD τ).loc main_arg17) : S256x128.Idx → EReal) (ix2 r j) := by
  have hemb : ((cfg1.win 13).blk t).view.emb (ix2 r j) = ix2 r j := by
    funext a; apply Fin.ext
    match a with
    | ⟨0, _⟩ => show 0 * 256 + 1 * r.val = r.val; omega
    | ⟨1, _⟩ => show 0 * 128 + 1 * j.val = j.val; omega
  show V9 (F := Ideal) m ρ c main_v29 (((cfg1.win 13).blk t).view.emb (ix2 r j)) = _
  rw [hemb]
  exact V9_v29 m ρ c (ix2 r j)

theorem blk14 (t : Fin cfg1.N) (j : Fin 128) :
    iblk1 (F := Ideal) (V9 m ρ) c 14 t (ix2 (0 : Fin 1) j)
      = (m ((c.tc : Thread nD τ).loc main_arg18) : S1x128.Idx → EReal) (ix2 (0 : Fin 1) j) := by
  show V9 (F := Ideal) m ρ c main_arg18 (((cfg1.win 14).blk t).view.emb (ix2 (0 : Fin 1) j)) = _
  rw [V9_arg18]
  refine congrArg _ ?_
  funext a; apply Fin.ext
  match a with
  | ⟨0, _⟩ => rfl
  | ⟨1, _⟩ => show 0 * 128 + 1 * j.val = j.val; omega

end Cert.KernelIdeal.KBlk

end
-- ==== Proof.KBlk.lean ====
/-
  The operand blocks of the main region, read at an index in terms of the arguments as launched: the node features
  of the eight batch elements of a grid point; the one-hot operators, edge gates and edge logits the prologue left;
  the weights; and the two block-diagonal key/query weights the host folded.
-/
import proofs.«130875_g2000201574592089_pallasbulk_874_11_alg».proof.Proof.KBlkBound
import proofs.«130875_g2000201574592089_pallasbulk_874_11_alg».proof.Proof.KBlkEdge
import proofs.«130875_g2000201574592089_pallasbulk_874_11_alg».proof.Proof.KBlkArgs

noncomputable section

namespace Cert.KernelIdeal.KBlk

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The prologue's results, as the main region finds them -/

/-- The edge list at region 0's entry, transposed back. -/
theorem V7_v24 (e : Fin 2048) (r : Fin 2) :
    (V7 (F := Ideal) m ρ c main_v24 : S2048x2.Idx → BitVec 32) (ix2 e r) = (m ((c.tc : Thread nD τ).loc main_arg1) : S2x2048.Idx → BitVec 32) (ix2 r e) :=
  W7_v24 m ρ c e r

theorem blk1 (t : Fin cfg1.N) (e : Fin 2048) (n : Fin 512) :
    iblk1 (F := Ideal) (V9 m ρ) c 1 t (ix2 e n) = Egnn.oneHot (m ((c.tc : Thread nD τ).loc main_arg1) : S2x2048.Idx → BitVec 32) 0 e n := by
  have hemb : ((cfg1.win 1).blk t).view.emb (ix2 e n) = ix2 e n := by
    funext a; apply Fin.ext
    match a with
    | ⟨0, _⟩ => show 0 * 2048 + 1 * (e).val = (e).val; omega
    | ⟨1, _⟩ => show 0 * 512 + 1 * (n).val = (n).val; omega
  show V9 (F := Ideal) m ρ c main_v25_0 (((cfg1.win 1).blk t).view.emb _) = _
  rw [hemb]
  have e8 : W8 (F := Ideal) m ρ c (Proc.devRef .tc main_v25_0) = (dat0 (F := Ideal) (V7 m ρ) c).arrAt 8 cfg0.N := W8_arr m ρ c 8
  refine (congrFun (skip1 (W8 (F := Ideal) m ρ c) main_v25_0 (by decide)) _).trans ?_
  rw [e8]
  refine (edge_S (V7 (F := Ideal) m ρ) c e n).trans ?_
  unfold Egnn.oneHot
  rw [V7_v24]

theorem blk2 (t : Fin cfg1.N) (e : Fin 2048) (n : Fin 512) :
    iblk1 (F := Ideal) (V9 m ρ) c 2 t (ix2 e n) = Egnn.oneHot (m ((c.tc : Thread nD τ).loc main_arg1) : S2x2048.Idx → BitVec 32) 1 e n := by
  have hemb : ((cfg1.win 2).blk t).view.emb (ix2 e n) = ix2 e n := by
    funext a; apply Fin.ext
    match a with
    | ⟨0, _⟩ => show 0 * 2048 + 1 * (e).val = (e).val; omega
    | ⟨1, _⟩ => show 0 * 512 + 1 * (n).val = (n).val; omega
  show V9 (F := Ideal) m ρ c main_v25_1 (((cfg1.win 2).blk t).view.emb _) = _
  rw [hemb]
  have e8 : W8 (F := Ideal) m ρ c (Proc.devRef .tc main_v25_1) = (dat0 (F := Ideal) (V7 m ρ) c).arrAt 9 cfg0.N := W8_arr m ρ c 9
  refine (congrFun (skip1 (W8 (F := Ideal) m ρ c) main_v25_1 (by decide)) _).trans ?_
  rw [e8]
  refine (edge_T (V7 (F := Ideal) m ρ) c e n).trans ?_
  unfold Egnn.oneHot
  rw [V7_v24]

theorem V7_arg2 : V7 (F := Ideal) m ρ c main_arg2 = m ((c.tc : Thread nD τ).loc main_arg2) := W7_arg2 m ρ c
theorem V7_arg6 : V7 (F := Ideal) m ρ c main_arg6 = m ((c.tc : Thread nD τ).loc main_arg6) := W7_arg6 m ρ c
theorem V7_arg8 : V7 (F := Ideal) m ρ c main_arg8 = m ((c.tc : Thread nD τ).loc main_arg8) := W7_arg8 m ρ c
theorem V7_arg14 : V7 (F := Ideal) m ρ c main_arg14 = m ((c.tc : Thread nD τ).loc main_arg14) := W7_arg14 m ρ c
theorem V7_arg16 : V7 (F := Ideal) m ρ c main_arg16 = m ((c.tc : Thread nD τ).loc main_arg16) := W7_arg16 m ρ c

theorem V7_v4 : (fun j : Fin 128 => (V7 (F := Ideal) m ρ c main_v4 : S128x1.Idx → EReal) (ix2 j (0 : Fin 1)))
    = fun j => Egnn.rowsFrom (m ((c.tc : Thread nD τ).loc main_arg7) : S384x1.Idx → EReal) (2 * 128) (by omega) j (0 : Fin 1) :=
  funext fun j => W7_v4 m ρ c j

theorem V7_v9 : (fun j : Fin 128 => (V7 (F := Ideal) m ρ c main_v9 : S128x1.Idx → EReal) (ix2 j (0 : Fin 1)))
    = fun j => Egnn.rowsFrom (m ((c.tc : Thread nD τ).loc main_arg15) : S384x1.Idx → EReal) (2 * 128) (by omega) j (0 : Fin 1) :=
  funext fun j => W7_v9 m ρ c j

theorem blk3 (t : Fin cfg1.N) (e : Fin 2048) (j : Fin 128) :
    iblk1 (F := Ideal) (V9 m ρ) c 3 t (ix2 e j)
      = Egnn.gate (fun e k => (m ((c.tc : Thread nD τ).loc main_arg2) : S2048x32.Idx → EReal) (ix2 e k)) (fun k j => (m ((c.tc : Thread nD τ).loc main_arg6) : S32x128.Idx → EReal) (ix2 k j)) e j := by
  have hemb : ((cfg1.win 3).blk t).view.emb (ix2 e j) = ix2 e j := by
    funext a; apply Fin.ext
    match a with
    | ⟨0, _⟩ => show 0 * 2048 + 1 * (e).val = (e).val; omega
    | ⟨1, _⟩ => show 0 * 128 + 1 * (j).val = (j).val; omega
  show V9 (F := Ideal) m ρ c main_v25_2 (((cfg1.win 3).blk t).view.emb _) = _
  rw [hemb]
  have e8 : W8 (F := Ideal) m ρ c (Proc.devRef .tc main_v25_2) = (dat0 (F := Ideal) (V7 m ρ) c).arrAt 10 cfg0.N := W8_arr m ρ c 10
  refine (congrFun (skip1 (W8 (F := Ideal) m ρ c) main_v25_2 (by decide)) _).trans ?_
  rw [e8]
  refine (edge_g1 (V7 (F := Ideal) m ρ) c e j).trans ?_
  rw [V7_arg2, V7_arg6]

theorem blk4 (t : Fin cfg1.N) (e : Fin 2048) (b : Fin 8) :
    iblk1 (F := Ideal) (V9 m ρ) c 4 t (ix2 e b)
      = Egnn.eatt (fun e k => (m ((c.tc : Thread nD τ).loc main_arg2) : S2048x32.Idx → EReal) (ix2 e k)) (fun k j => (m ((c.tc : Thread nD τ).loc main_arg6) : S32x128.Idx → EReal) (ix2 k j))
          (fun j => Egnn.rowsFrom (m ((c.tc : Thread nD τ).loc main_arg7) : S384x1.Idx → EReal) (2 * 128) (by omega) j 0) ((m ((c.tc : Thread nD τ).loc main_arg8) : S1x1.Idx → EReal) (ix2 0 0)) e := by
  have hemb : ((cfg1.win 4).blk t).view.emb (ix2 e b) = ix2 e b := by
    funext a; apply Fin.ext
    match a with
    | ⟨0, _⟩ => show 0 * 2048 + 1 * (e).val = (e).val; omega
    | ⟨1, _⟩ => show 0 * 8 + 1 * (b).val = (b).val; omega
  show V9 (F := Ideal) m ρ c main_v25_3 (((cfg1.win 4).blk t).view.emb _) = _
  rw [hemb]
  have e8 : W8 (F := Ideal) m ρ c (Proc.devRef .tc main_v25_3) = (dat0 (F := Ideal) (V7 m ρ) c).arrAt 11 cfg0.N := W8_arr m ρ c 11
  refine (congrFun (skip1 (W8 (F := Ideal) m ρ c) main_v25_3 (by decide)) _).trans ?_
  rw [e8]
  refine (edge_a1 (V7 (F := Ideal) m ρ) c e b).trans ?_
  rw [V7_v4, V7_arg2, V7_arg6, V7_arg8]

theorem blk5 (t : Fin cfg1.N) (e : Fin 2048) (j : Fin 128) :
    iblk1 (F := Ideal) (V9 m ρ) c 5 t (ix2 e j)
      = Egnn.gate (fun e k => (m ((c.tc : Thread nD τ).loc main_arg2) : S2048x32.Idx → EReal) (ix2 e k)) (fun k j => (m ((c.tc : Thread nD τ).loc main_arg14) : S32x128.Idx → EReal) (ix2 k j)) e j := by
  have hemb : ((cfg1.win 5).blk t).view.emb (ix2 e j) = ix2 e j := by
    funext a; apply Fin.ext
    match a with
    | ⟨0, _⟩ => show 0 * 2048 + 1 * (e).val = (e).val; omega
    | ⟨1, _⟩ => show 0 * 128 + 1 * (j).val = (j).val; omega
  show V9 (F := Ideal) m ρ c main_v25_4 (((cfg1.win 5).blk t).view.emb _) = _
  rw [hemb]
  have e8 : W8 (F := Ideal) m ρ c (Proc.devRef .tc main_v25_4) = (dat0 (F := Ideal) (V7 m ρ) c).arrAt 12 cfg0.N := W8_arr m ρ c 12
  refine (congrFun (skip1 (W8 (F := Ideal) m ρ c) main_v25_4 (by decide)) _).trans ?_
  rw [e8]
  refine (edge_g2 (V7 (F := Ideal) m ρ) c e j).trans ?_
  rw [V7_arg2, V7_arg14]

theorem blk6 (t : Fin cfg1.N) (e : Fin 2048) (b : Fin 8) :
    iblk1 (F := Ideal) (V9 m ρ) c 6 t (ix2 e b)
      = Egnn.eatt (fun e k => (m ((c.tc : Thread nD τ).loc main_arg2) : S2048x32.Idx → EReal) (ix2 e k)) (fun k j => (m ((c.tc : Thread nD τ).loc main_arg14) : S32x128.Idx → EReal) (ix2 k j))
          (fun j => Egnn.rowsFrom (m ((c.tc : Thread nD τ).loc main_arg15) : S384x1.Idx → EReal) (2 * 128) (by omega) j 0) ((m ((c.tc : Thread nD τ).loc main_arg16) : S1x1.Idx → EReal) (ix2 0 0)) e := by
  have hemb : ((cfg1.win 6).blk t).view.emb (ix2 e b) = ix2 e b := by
    funext a; apply Fin.ext
    match a with
    | ⟨0, _⟩ => show 0 * 2048 + 1 * (e).val = (e).val; omega
    | ⟨1, _⟩ => show 0 * 8 + 1 * (b).val = (b).val; omega
  show V9 (F := Ideal) m ρ c main_v25_5 (((cfg1.win 6).blk t).view.emb _) = _
  rw [hemb]
  have e8 : W8 (F := Ideal) m ρ c (Proc.devRef .tc main_v25_5) = (dat0 (F := Ideal) (V7 m ρ) c).arrAt 13 cfg0.N := W8_arr m ρ c 13
  refine (congrFun (skip1 (W8 (F := Ideal) m ρ c) main_v25_5 (by decide)) _).trans ?_
  rw [e8]
  refine (edge_a2 (V7 (F := Ideal) m ρ) c e b).trans ?_
  rw [V7_v9, V7_arg2, V7_arg14, V7_arg16]

/-! ## The block-diagonal key/query weights -/

theorem blk8 (t : Fin cfg1.N) (b' : Fin 8) (cc : Fin 128) (col : Fin 16) :
    iblk1 (F := Ideal) (V9 m ρ) c 8 t (ix2 (⟨b'.val * 128 + cc.val, by omega⟩ : Fin 1024) col)
      = Egnn.kqEntry (Egnn.foldKQ (m ((c.tc : Thread nD τ).loc main_arg4) : S128x128.Idx → EReal) (m ((c.tc : Thread nD τ).loc main_arg7) : S384x1.Idx → EReal) 0 (by omega))
          (Egnn.foldKQ (m ((c.tc : Thread nD τ).loc main_arg5) : S128x128.Idx → EReal) (m ((c.tc : Thread nD τ).loc main_arg7) : S384x1.Idx → EReal) 128 (by omega)) b' cc col := by
  have hemb : ((cfg1.win 8).blk t).view.emb (ix2 (⟨b'.val * 128 + cc.val, by omega⟩ : Fin 1024) col) = ix2 (⟨b'.val * 128 + cc.val, by omega⟩ : Fin 1024) col := by
    funext a; apply Fin.ext
    match a with
    | ⟨0, _⟩ => show 0 * 1024 + 1 * ((⟨b'.val * 128 + cc.val, by omega⟩ : Fin 1024)).val = ((⟨b'.val * 128 + cc.val, by omega⟩ : Fin 1024)).val; omega
    | ⟨1, _⟩ => show 0 * 16 + 1 * (col).val = (col).val; omega
  show V9 (F := Ideal) m ρ c main_v19 (((cfg1.win 8).blk t).view.emb _) = _
  rw [hemb]
  refine (congrFun (skip1 (W8 (F := Ideal) m ρ c) main_v19 (by decide)) _).trans ?_
  rw [W8_of_ne (F := Ideal) m ρ c main_v19 (by decide)]
  exact W7_v19 m ρ c b' cc col

theorem blk12 (t : Fin cfg1.N) (b' : Fin 8) (cc : Fin 128) (col : Fin 16) :
    iblk1 (F := Ideal) (V9 m ρ) c 12 t (ix2 (⟨b'.val * 128 + cc.val, by omega⟩ : Fin 1024) col)
      = Egnn.kqEntry (Egnn.foldKQ (m ((c.tc : Thread nD τ).loc main_arg12) : S128x128.Idx → EReal) (m ((c.tc : Thread nD τ).loc main_arg15) : S384x1.Idx → EReal) 0 (by omega))
          (Egnn.foldKQ (m ((c.tc : Thread nD τ).loc main_arg13) : S128x128.Idx → EReal) (m ((c.tc : Thread nD τ).loc main_arg15) : S384x1.Idx → EReal) 128 (by omega)) b' cc col := by
  have hemb : ((cfg1.win 12).blk t).view.emb (ix2 (⟨b'.val * 128 + cc.val, by omega⟩ : Fin 1024) col) = ix2 (⟨b'.val * 128 + cc.val, by omega⟩ : Fin 1024) col := by
    funext a; apply Fin.ext
    match a with
    | ⟨0, _⟩ => show 0 * 1024 + 1 * ((⟨b'.val * 128 + cc.val, by omega⟩ : Fin 1024)).val = ((⟨b'.val * 128 + cc.val, by omega⟩ : Fin 1024)).val; omega
    | ⟨1, _⟩ => show 0 * 16 + 1 * (col).val = (col).val; omega
  show V9 (F := Ideal) m ρ c main_v23 (((cfg1.win 12).blk t).view.emb _) = _
  rw [hemb]
  refine (congrFun (skip1 (W8 (F := Ideal) m ρ c) main_v23 (by decide)) _).trans ?_
  rw [W8_of_ne (F := Ideal) m ρ c main_v23 (by decide)]
  exact W7_v23 m ρ c b' cc col

end Cert.KernelIdeal.KBlk

end
-- ==== Proof.KFinal.lean ====
/-
  The whole result array from its blocks: index (B, n, j) of the result lies in the block that grid point B / 8
  writes back, at slab B % 8; when every point's block holds the network's values there, the array after the run
  is the network applied to the arguments.
-/
import proofs.«130875_g2000201574592089_pallasbulk_874_11_alg».proof.Proof.Gen.KernelIdeal.Frame
import proofs.«130875_g2000201574592089_pallasbulk_874_11_alg».proof.Proof.KDefs
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- The grid has 32 points. -/
theorem lt32 (t : Fin cfg1.N) : t.val < 32 := lt_of_lt_of_eq t.isLt N_1

/-- The output's block index at point `t` is `(t, 0, 0)`. -/
theorem idx15 : ∀ t : Fin cfg1.N, win1_15.index t (0 : Fin 3) = t.val ∧ win1_15.index t (1 : Fin 3) = 0
    ∧ win1_15.index t (2 : Fin 3) = 0 :=
  (by decide +kernel : ∀ t : Fin grid1.N, _)

/-- An index of the result array is in point `t`'s block iff each coordinate is in the block's range. -/
theorem mem_blk15 (t : Fin cfg1.N) (i : S256x512x128.Idx) :
    i ∈ ((cfg1.win 15).blk t).view.set ↔ ∀ a : Fin 3, win1_15.index t a * S8x512x128.size a ≤ (i a).val
      ∧ (i a).val < win1_15.index t a * S8x512x128.size a + S8x512x128.size a := by
  show i ∈ ((View.whole main_v30).slice (win1_15.rect t)).set ↔ _
  rw [View.set_slice_whole, Rect.mem_set_unit]
  exact Iff.rfl

/-- If at every grid point the output block holds, at slab `b`, the network's values of batch element `8 t + b`,
    the result array after the run is the network applied to the argument arrays. -/
theorem final_of_blocks (c : Dev nD)
    (hblk : ∀ (t : Fin cfg1.N) (b : Fin 8) (n : Fin 512) (j : Fin 128),
      out1_15 (F := Ideal) (iblk1 (F := Ideal) (V9 m ρ) c 0 t) (iblk1 (F := Ideal) (V9 m ρ) c 1 t) (iblk1 (F := Ideal) (V9 m ρ) c 2 t) (iblk1 (F := Ideal) (V9 m ρ) c 3 t) (iblk1 (F := Ideal) (V9 m ρ) c 4 t) (iblk1 (F := Ideal) (V9 m ρ) c 5 t) (iblk1 (F := Ideal) (V9 m ρ) c 6 t) (iblk1 (F := Ideal) (V9 m ρ) c 7 t) (iblk1 (F := Ideal) (V9 m ρ) c 8 t) (iblk1 (F := Ideal) (V9 m ρ) c 9 t) (iblk1 (F := Ideal) (V9 m ρ) c 10 t) (iblk1 (F := Ideal) (V9 m ρ) c 11 t) (iblk1 (F := Ideal) (V9 m ρ) c 12 t) (iblk1 (F := Ideal) (V9 m ρ) c 13 t) (iblk1 (F := Ideal) (V9 m ρ) c 14 t) (ix3 b n j)
        = G m c (ix3 (⟨8 * t.val + b.val, by have := lt32 t; omega⟩ : Fin 256) n j)) :
    W10 m ρ c (Proc.devRef .tc main_v30) = G m c := by
  refine (W10_arr m ρ c 15).trans ?_
  refine (dat1 (V9 m ρ) c).arrAt_eq_of_cover 15 (G m c) (fun t _ => ?_) (fun i => ?_)
  · show (cfg1.win 15).cut (grid1.coords t) ((dat1 (V9 m ρ) c).after 15 t) = _
    rw [after1_15]
    obtain ⟨e0, e1, e2⟩ := idx15 t
    funext y
    revert y
    show ∀ y : S8x512x128.Idx, out1_15 (F := Ideal) (iblk1 (F := Ideal) (V9 m ρ) c 0 t) (iblk1 (F := Ideal) (V9 m ρ) c 1 t) (iblk1 (F := Ideal) (V9 m ρ) c 2 t) (iblk1 (F := Ideal) (V9 m ρ) c 3 t) (iblk1 (F := Ideal) (V9 m ρ) c 4 t) (iblk1 (F := Ideal) (V9 m ρ) c 5 t) (iblk1 (F := Ideal) (V9 m ρ) c 6 t) (iblk1 (F := Ideal) (V9 m ρ) c 7 t) (iblk1 (F := Ideal) (V9 m ρ) c 8 t) (iblk1 (F := Ideal) (V9 m ρ) c 9 t) (iblk1 (F := Ideal) (V9 m ρ) c 10 t) (iblk1 (F := Ideal) (V9 m ρ) c 11 t) (iblk1 (F := Ideal) (V9 m ρ) c 12 t) (iblk1 (F := Ideal) (V9 m ρ) c 13 t) (iblk1 (F := Ideal) (V9 m ρ) c 14 t) y = G m c (((cfg1.win 15).blk t).view.emb y)
    intro y
    obtain ⟨b, n, j, rfl⟩ : ∃ (b : Fin 8) (n : Fin 512) (j : Fin 128), y = ix3 b n j := ⟨y 0, y 1, y 2, eq_ix3 y⟩
    rw [hblk t b n j]
    refine congrArg (G m c) (funext fun a => Fin.ext ?_)
    match a with
    | ⟨0, _⟩ => show 8 * t.val + b.val = win1_15.index t (0 : Fin 3) * 8 + 1 * b.val; omega
    | ⟨1, _⟩ => show n.val = win1_15.index t (1 : Fin 3) * 512 + 1 * n.val; omega
    | ⟨2, _⟩ => show j.val = win1_15.index t (2 : Fin 3) * 128 + 1 * j.val; omega
  · have hi0 : (i 0).val < 256 := (i 0).isLt
    have hi1 : (i 1).val < 512 := (i 1).isLt
    have hi2 : (i 2).val < 128 := (i 2).isLt
    let t : Fin cfg1.N := ⟨(i 0).val / 8, by rw [show cfg1.N = 32 from N_1]; omega⟩
    obtain ⟨e0, e1, e2⟩ := idx15 t
    have ht : t.val = (i 0).val / 8 := rfl
    refine ⟨t, flush1_15 t, ?_⟩
    rw [mem_blk15]
    intro a
    match a with
    | ⟨0, _⟩ => show win1_15.index t (0 : Fin 3) * 8 ≤ (i 0).val ∧ (i 0).val < win1_15.index t (0 : Fin 3) * 8 + 8; omega
    | ⟨1, _⟩ => show win1_15.index t (1 : Fin 3) * 512 ≤ (i 1).val ∧ (i 1).val < win1_15.index t (1 : Fin 3) * 512 + 512; omega
    | ⟨2, _⟩ => show win1_15.index t (2 : Fin 3) * 128 ≤ (i 2).val ∧ (i 2).val < win1_15.index t (2 : Fin 3) * 128 + 128; omega

end Cert.KernelIdeal.KValue

end
-- ==== Proof.KBlock.lean ====
/-
  The result array of the lane-packed program is the network applied to its arguments: the block equality over
  variables, taken at each grid point's operand blocks as read off the argument arrays, and the cover of the result
  array by the points' blocks.
-/
import proofs.«130875_g2000201574592089_pallasbulk_874_11_alg».proof.Proof.KBlockCore
import proofs.«130875_g2000201574592089_pallasbulk_874_11_alg».proof.Proof.KBlk
import proofs.«130875_g2000201574592089_pallasbulk_874_11_alg».proof.Proof.KFinal

set_option maxRecDepth 16384

noncomputable section

namespace Cert.KernelIdeal.KValue

open Cert.KernelIdeal Cert.KernelIdeal.Gen Cert.KernelIdeal.KBody Cert.KernelIdeal.KBlk
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- At grid point `t`, slab `b` of the output block holds the network's values of batch element `8 t + b`. -/
theorem hblk (t : Fin cfg1.N) (b : Fin 8) (n : Fin 512) (j : Fin 128) :
    out1_15 (F := Ideal) (iblk1 (F := Ideal) (V9 m ρ) c 0 t) (iblk1 (F := Ideal) (V9 m ρ) c 1 t) (iblk1 (F := Ideal) (V9 m ρ) c 2 t) (iblk1 (F := Ideal) (V9 m ρ) c 3 t) (iblk1 (F := Ideal) (V9 m ρ) c 4 t) (iblk1 (F := Ideal) (V9 m ρ) c 5 t) (iblk1 (F := Ideal) (V9 m ρ) c 6 t) (iblk1 (F := Ideal) (V9 m ρ) c 7 t) (iblk1 (F := Ideal) (V9 m ρ) c 8 t) (iblk1 (F := Ideal) (V9 m ρ) c 9 t) (iblk1 (F := Ideal) (V9 m ρ) c 10 t) (iblk1 (F := Ideal) (V9 m ρ) c 11 t) (iblk1 (F := Ideal) (V9 m ρ) c 12 t) (iblk1 (F := Ideal) (V9 m ρ) c 13 t) (iblk1 (F := Ideal) (V9 m ρ) c 14 t) (ix3 b n j)
      = G m c (ix3 (⟨8 * t.val + b.val, by have := lt32 t; omega⟩ : Fin 256) n j) :=
  block_core (iblk1 (F := Ideal) (V9 m ρ) c 0 t) (iblk1 (F := Ideal) (V9 m ρ) c 1 t) (iblk1 (F := Ideal) (V9 m ρ) c 2 t) (iblk1 (F := Ideal) (V9 m ρ) c 3 t) (iblk1 (F := Ideal) (V9 m ρ) c 4 t) (iblk1 (F := Ideal) (V9 m ρ) c 5 t) (iblk1 (F := Ideal) (V9 m ρ) c 6 t) (iblk1 (F := Ideal) (V9 m ρ) c 7 t) (iblk1 (F := Ideal) (V9 m ρ) c 8 t) (iblk1 (F := Ideal) (V9 m ρ) c 9 t) (iblk1 (F := Ideal) (V9 m ρ) c 10 t) (iblk1 (F := Ideal) (V9 m ρ) c 11 t) (iblk1 (F := Ideal) (V9 m ρ) c 12 t) (iblk1 (F := Ideal) (V9 m ρ) c 13 t) (iblk1 (F := Ideal) (V9 m ρ) c 14 t)
    (m ((c.tc : Thread nD τ).loc main_arg0) : S256x512x64.Idx → EReal)
    (m ((c.tc : Thread nD τ).loc main_arg1) : S2x2048.Idx → BitVec 32)
    (m ((c.tc : Thread nD τ).loc main_arg2) : S2048x32.Idx → EReal)
    (m ((c.tc : Thread nD τ).loc main_arg3) : S64x128.Idx → EReal)
    (m ((c.tc : Thread nD τ).loc main_arg4) : S128x128.Idx → EReal)
    (m ((c.tc : Thread nD τ).loc main_arg5) : S128x128.Idx → EReal)
    (m ((c.tc : Thread nD τ).loc main_arg6) : S32x128.Idx → EReal)
    (m ((c.tc : Thread nD τ).loc main_arg7) : S384x1.Idx → EReal)
    (m ((c.tc : Thread nD τ).loc main_arg8) : S1x1.Idx → EReal)
    (m ((c.tc : Thread nD τ).loc main_arg9) : S256x128.Idx → EReal)
    (m ((c.tc : Thread nD τ).loc main_arg10) : S1x128.Idx → EReal)
    (m ((c.tc : Thread nD τ).loc main_arg11) : S128x128.Idx → EReal)
    (m ((c.tc : Thread nD τ).loc main_arg12) : S128x128.Idx → EReal)
    (m ((c.tc : Thread nD τ).loc main_arg13) : S128x128.Idx → EReal)
    (m ((c.tc : Thread nD τ).loc main_arg14) : S32x128.Idx → EReal)
    (m ((c.tc : Thread nD τ).loc main_arg15) : S384x1.Idx → EReal)
    (m ((c.tc : Thread nD τ).loc main_arg16) : S1x1.Idx → EReal)
    (m ((c.tc : Thread nD τ).loc main_arg17) : S256x128.Idx → EReal)
    (m ((c.tc : Thread nD τ).loc main_arg18) : S1x128.Idx → EReal)
    (fun b => (⟨8 * t.val + b.val, by have := lt32 t; omega⟩ : Fin 256))
    (blk0 m ρ c t) (blk1 m ρ c t) (blk2 m ρ c t) (blk3 m ρ c t) (blk4 m ρ c t) (blk5 m ρ c t) (blk6 m ρ c t) (blk7 m ρ c t) (blk8 m ρ c t) (blk9 m ρ c t) (blk10 m ρ c t) (blk11 m ρ c t) (blk12 m ρ c t) (blk13 m ρ c t) (blk14 m ρ c t) b n j

/-- The result buffer after the run. -/
theorem final_eq : W10 m ρ c (Proc.devRef .tc main_v30) = G m c :=
  final_of_blocks m ρ c (hblk m ρ c)

end Cert.KernelIdeal.KValue

end
-- ==== Proof.RefDots.lean ====
/-
  Each matrix product of the program read at an entry at the ideal values: the sum, over the one contracted index,
  of the products of the operands' entries.
-/
import proofs.«130875_g2000201574592089_pallasbulk_874_11_alg».proof.Proof.Gen.ReferenceIdeal
import Idealize.ShloMosaic.PureOps.Ideal.Laws
import Idealize.ShloMosaic.Lib.ValueIdx

set_option maxRecDepth 16384

noncomputable section

namespace Cert.ReferenceIdeal.RValue

open Cert.ReferenceIdeal Cert.ReferenceIdeal.Gen Idealize.ShloMosaic Idealize.ShloMosaic.ValueIdx Idealize.SL.Sem

/-- An operand axis that is one of the product's free axes carries the output's coordinate: the index map takes the
    second of its three branches there. -/
local macro "free_axis " fn:ident ax:term:max bt:term:max nc:term:max : tactic =>
  `(tactic| (unfold $fn; rw [dif_neg (show ¬$ax ∈ $bt by decide), dif_pos (show $ax ∈ $nc by decide)]; rfl))

/-- The product into the zero accumulator at an entry is the sum over the contraction index; re-indexed to the shared
    extent, each operand index is named by its two coordinates (the free one by `hl` / `hr`, the contracted one the
    summation variable). -/
local macro "dot_read " D:ident K:num l:ident r:ident o:term:max li:term:max ri:term:max hl:term:max hr:term:max first:term:max : tactic =>
  `(tactic| (
    refine ($first).trans ?_
    rw [← Equiv.sum_comp (contrEquiv1 $D $K rfl rfl).symm]
    refine Finset.sum_congr rfl fun k _ => ?_
    have hk := contrEquiv1_symm_val $D $K rfl rfl k
    have el : ($D).lhsIdx $o ((contrEquiv1 $D $K rfl rfl).symm k) = $li k := funext fun d => Fin.ext (by
      match d with
      | ⟨0, _⟩ => first | exact $hl _ _ | exact (($D).lhsIdx_val_of_single rfl _ _).trans hk
      | ⟨1, _⟩ => first | exact $hl _ _ | exact (($D).lhsIdx_val_of_single rfl _ _).trans hk)
    have er : ($D).rhsIdx $o ((contrEquiv1 $D $K rfl rfl).symm k) = $ri k := funext fun d => Fin.ext (by
      match d with
      | ⟨0, _⟩ => first | exact $hr _ _ | exact (($D).rhsIdx_val_of_single rfl _ _).trans hk
      | ⟨1, _⟩ => first | exact $hr _ _ | exact (($D).rhsIdx_val_of_single rfl _ _).trans hk)
    rw [el, er]))

/-! ## x · V : [512,64] × [64,128] -/

theorem l_512_64_128 (i : S512x128.Idx) (q : dot_S512x64_S64x128_S512x128_1_0_0_1_n_n.contr.Idx) :
    (dot_S512x64_S64x128_S512x128_1_0_0_1_n_n.lhsIdx i q 0).val = (i 0).val := by
  free_axis DotDims.lhsIdx (0 : Fin S512x64.rank) dot_S512x64_S64x128_S512x128_1_0_0_1_n_n.lhsBatch dot_S512x64_S64x128_S512x128_1_0_0_1_n_n.lhsNonContracting
theorem r_512_64_128 (i : S512x128.Idx) (q : dot_S512x64_S64x128_S512x128_1_0_0_1_n_n.contr.Idx) :
    (dot_S512x64_S64x128_S512x128_1_0_0_1_n_n.rhsIdx i q 1).val = (i 1).val := by
  free_axis DotDims.rhsIdx (1 : Fin S64x128.rank) dot_S512x64_S64x128_S512x128_1_0_0_1_n_n.rhsBatch dot_S512x64_S64x128_S512x128_1_0_0_1_n_n.rhsNonContracting
theorem dot_512_64_128 (l : FVec Ideal S512x64 .f32) (r : FVec Ideal S64x128 .f32) (a : Fin 512) (b : Fin 128) :
    matmul dot_S512x64_S64x128_S512x128_1_0_0_1_n_n none l r (constant (F := Ideal) S512x128 .f32 0x00000000#32) (ix2 a b)
      = ∑ k : Fin 64, l (ix2 a k) * r (ix2 k b) := by
  dot_read dot_S512x64_S64x128_S512x128_1_0_0_1_n_n 64 l r (ix2 a b) (fun k => ix2 a k) (fun k => ix2 k b) l_512_64_128 r_512_64_128
    (Ideal.matmul_constant_zero_apply dot_S512x64_S64x128_S512x128_1_0_0_1_n_n none l r (ix2 a b))

/-! ## ef · We : [2048,32] × [32,128] -/

theorem l_2048_32_128 (i : S2048x128.Idx) (q : dot_S2048x32_S32x128_S2048x128_1_0_0_1_n_n.contr.Idx) :
    (dot_S2048x32_S32x128_S2048x128_1_0_0_1_n_n.lhsIdx i q 0).val = (i 0).val := by
  free_axis DotDims.lhsIdx (0 : Fin S2048x32.rank) dot_S2048x32_S32x128_S2048x128_1_0_0_1_n_n.lhsBatch dot_S2048x32_S32x128_S2048x128_1_0_0_1_n_n.lhsNonContracting
theorem r_2048_32_128 (i : S2048x128.Idx) (q : dot_S2048x32_S32x128_S2048x128_1_0_0_1_n_n.contr.Idx) :
    (dot_S2048x32_S32x128_S2048x128_1_0_0_1_n_n.rhsIdx i q 1).val = (i 1).val := by
  free_axis DotDims.rhsIdx (1 : Fin S32x128.rank) dot_S2048x32_S32x128_S2048x128_1_0_0_1_n_n.rhsBatch dot_S2048x32_S32x128_S2048x128_1_0_0_1_n_n.rhsNonContracting
theorem dot_2048_32_128 (l : FVec Ideal S2048x32 .f32) (r : FVec Ideal S32x128 .f32) (a : Fin 2048) (b : Fin 128) :
    matmul dot_S2048x32_S32x128_S2048x128_1_0_0_1_n_n none l r (constant (F := Ideal) S2048x128 .f32 0x00000000#32) (ix2 a b)
      = ∑ k : Fin 32, l (ix2 a k) * r (ix2 k b) := by
  dot_read dot_S2048x32_S32x128_S2048x128_1_0_0_1_n_n 32 l r (ix2 a b) (fun k => ix2 a k) (fun k => ix2 k b) l_2048_32_128 r_2048_32_128
    (Ideal.matmul_constant_zero_apply dot_S2048x32_S32x128_S2048x128_1_0_0_1_n_n none l r (ix2 a b))

/-! ## ee · wae : [2048,128] × [128,1] -/

theorem l_2048_128_1 (i : S2048x1.Idx) (q : dot_S2048x128_S128x1_S2048x1_1_0_0_1_n_n.contr.Idx) :
    (dot_S2048x128_S128x1_S2048x1_1_0_0_1_n_n.lhsIdx i q 0).val = (i 0).val := by
  free_axis DotDims.lhsIdx (0 : Fin S2048x128.rank) dot_S2048x128_S128x1_S2048x1_1_0_0_1_n_n.lhsBatch dot_S2048x128_S128x1_S2048x1_1_0_0_1_n_n.lhsNonContracting
theorem r_2048_128_1 (i : S2048x1.Idx) (q : dot_S2048x128_S128x1_S2048x1_1_0_0_1_n_n.contr.Idx) :
    (dot_S2048x128_S128x1_S2048x1_1_0_0_1_n_n.rhsIdx i q 1).val = (i 1).val := by
  free_axis DotDims.rhsIdx (1 : Fin S128x1.rank) dot_S2048x128_S128x1_S2048x1_1_0_0_1_n_n.rhsBatch dot_S2048x128_S128x1_S2048x1_1_0_0_1_n_n.rhsNonContracting
theorem dot_2048_128_1 (l : FVec Ideal S2048x128 .f32) (r : FVec Ideal S128x1 .f32) (a : Fin 2048) (b : Fin 1) :
    matmul dot_S2048x128_S128x1_S2048x1_1_0_0_1_n_n none l r (constant (F := Ideal) S2048x1 .f32 0x00000000#32) (ix2 a b)
      = ∑ k : Fin 128, l (ix2 a k) * r (ix2 k b) := by
  dot_read dot_S2048x128_S128x1_S2048x1_1_0_0_1_n_n 128 l r (ix2 a b) (fun k => ix2 a k) (fun k => ix2 k b) l_2048_128_1 r_2048_128_1
    (Ideal.matmul_constant_zero_apply dot_S2048x128_S128x1_S2048x1_1_0_0_1_n_n none l r (ix2 a b))

/-! ## xv · kv, xv · qv : [512,128] × [128,1] -/

theorem l_512_128_1 (i : S512x1.Idx) (q : dot_S512x128_S128x1_S512x1_1_0_0_1_n_n.contr.Idx) :
    (dot_S512x128_S128x1_S512x1_1_0_0_1_n_n.lhsIdx i q 0).val = (i 0).val := by
  free_axis DotDims.lhsIdx (0 : Fin S512x128.rank) dot_S512x128_S128x1_S512x1_1_0_0_1_n_n.lhsBatch dot_S512x128_S128x1_S512x1_1_0_0_1_n_n.lhsNonContracting
theorem r_512_128_1 (i : S512x1.Idx) (q : dot_S512x128_S128x1_S512x1_1_0_0_1_n_n.contr.Idx) :
    (dot_S512x128_S128x1_S512x1_1_0_0_1_n_n.rhsIdx i q 1).val = (i 1).val := by
  free_axis DotDims.rhsIdx (1 : Fin S128x1.rank) dot_S512x128_S128x1_S512x1_1_0_0_1_n_n.rhsBatch dot_S512x128_S128x1_S512x1_1_0_0_1_n_n.rhsNonContracting
theorem dot_512_128_1 (l : FVec Ideal S512x128 .f32) (r : FVec Ideal S128x1 .f32) (a : Fin 512) (b : Fin 1) :
    matmul dot_S512x128_S128x1_S512x1_1_0_0_1_n_n none l r (constant (F := Ideal) S512x1 .f32 0x00000000#32) (ix2 a b)
      = ∑ k : Fin 128, l (ix2 a k) * r (ix2 k b) := by
  dot_read dot_S512x128_S128x1_S512x1_1_0_0_1_n_n 128 l r (ix2 a b) (fun k => ix2 a k) (fun k => ix2 k b) l_512_128_1 r_512_128_1
    (Ideal.matmul_constant_zero_apply dot_S512x128_S128x1_S512x1_1_0_0_1_n_n none l r (ix2 a b))

/-! ## T · akey, S · aqry : [2048,512] × [512,1] -/

theorem l_2048_512_1 (i : S2048x1.Idx) (q : dot_S2048x512_S512x1_S2048x1_1_0_0_1_n_n.contr.Idx) :
    (dot_S2048x512_S512x1_S2048x1_1_0_0_1_n_n.lhsIdx i q 0).val = (i 0).val := by
  free_axis DotDims.lhsIdx (0 : Fin S2048x512.rank) dot_S2048x512_S512x1_S2048x1_1_0_0_1_n_n.lhsBatch dot_S2048x512_S512x1_S2048x1_1_0_0_1_n_n.lhsNonContracting
theorem r_2048_512_1 (i : S2048x1.Idx) (q : dot_S2048x512_S512x1_S2048x1_1_0_0_1_n_n.contr.Idx) :
    (dot_S2048x512_S512x1_S2048x1_1_0_0_1_n_n.rhsIdx i q 1).val = (i 1).val := by
  free_axis DotDims.rhsIdx (1 : Fin S512x1.rank) dot_S2048x512_S512x1_S2048x1_1_0_0_1_n_n.rhsBatch dot_S2048x512_S512x1_S2048x1_1_0_0_1_n_n.rhsNonContracting
theorem dot_2048_512_1 (l : FVec Ideal S2048x512 .f32) (r : FVec Ideal S512x1 .f32) (a : Fin 2048) (b : Fin 1) :
    matmul dot_S2048x512_S512x1_S2048x1_1_0_0_1_n_n none l r (constant (F := Ideal) S2048x1 .f32 0x00000000#32) (ix2 a b)
      = ∑ k : Fin 512, l (ix2 a k) * r (ix2 k b) := by
  dot_read dot_S2048x512_S512x1_S2048x1_1_0_0_1_n_n 512 l r (ix2 a b) (fun k => ix2 a k) (fun k => ix2 k b) l_2048_512_1 r_2048_512_1
    (Ideal.matmul_constant_zero_apply dot_S2048x512_S512x1_S2048x1_1_0_0_1_n_n none l r (ix2 a b))

/-! ## S · xv : [2048,512] × [512,128] -/

theorem l_2048_512_128 (i : S2048x128.Idx) (q : dot_S2048x512_S512x128_S2048x128_1_0_0_1_n_n.contr.Idx) :
    (dot_S2048x512_S512x128_S2048x128_1_0_0_1_n_n.lhsIdx i q 0).val = (i 0).val := by
  free_axis DotDims.lhsIdx (0 : Fin S2048x512.rank) dot_S2048x512_S512x128_S2048x128_1_0_0_1_n_n.lhsBatch dot_S2048x512_S512x128_S2048x128_1_0_0_1_n_n.lhsNonContracting
theorem r_2048_512_128 (i : S2048x128.Idx) (q : dot_S2048x512_S512x128_S2048x128_1_0_0_1_n_n.contr.Idx) :
    (dot_S2048x512_S512x128_S2048x128_1_0_0_1_n_n.rhsIdx i q 1).val = (i 1).val := by
  free_axis DotDims.rhsIdx (1 : Fin S512x128.rank) dot_S2048x512_S512x128_S2048x128_1_0_0_1_n_n.rhsBatch dot_S2048x512_S512x128_S2048x128_1_0_0_1_n_n.rhsNonContracting
theorem dot_2048_512_128 (l : FVec Ideal S2048x512 .f32) (r : FVec Ideal S512x128 .f32) (a : Fin 2048) (b : Fin 128) :
    matmul dot_S2048x512_S512x128_S2048x128_1_0_0_1_n_n none l r (constant (F := Ideal) S2048x128 .f32 0x00000000#32) (ix2 a b)
      = ∑ k : Fin 512, l (ix2 a k) * r (ix2 k b) := by
  dot_read dot_S2048x512_S512x128_S2048x128_1_0_0_1_n_n 512 l r (ix2 a b) (fun k => ix2 a k) (fun k => ix2 k b) l_2048_512_128 r_2048_512_128
    (Ideal.matmul_constant_zero_apply dot_S2048x512_S512x128_S2048x128_1_0_0_1_n_n none l r (ix2 a b))

/-! ## xv · Wcx, aggr · Wca, h · V₂ : [512,128] × [128,128] -/

theorem l_512_128_128 (i : S512x128.Idx) (q : dot_S512x128_S128x128_S512x128_1_0_0_1_n_n.contr.Idx) :
    (dot_S512x128_S128x128_S512x128_1_0_0_1_n_n.lhsIdx i q 0).val = (i 0).val := by
  free_axis DotDims.lhsIdx (0 : Fin S512x128.rank) dot_S512x128_S128x128_S512x128_1_0_0_1_n_n.lhsBatch dot_S512x128_S128x128_S512x128_1_0_0_1_n_n.lhsNonContracting
theorem r_512_128_128 (i : S512x128.Idx) (q : dot_S512x128_S128x128_S512x128_1_0_0_1_n_n.contr.Idx) :
    (dot_S512x128_S128x128_S512x128_1_0_0_1_n_n.rhsIdx i q 1).val = (i 1).val := by
  free_axis DotDims.rhsIdx (1 : Fin S128x128.rank) dot_S512x128_S128x128_S512x128_1_0_0_1_n_n.rhsBatch dot_S512x128_S128x128_S512x128_1_0_0_1_n_n.rhsNonContracting
theorem dot_512_128_128 (l : FVec Ideal S512x128 .f32) (r : FVec Ideal S128x128 .f32) (a : Fin 512) (b : Fin 128) :
    matmul dot_S512x128_S128x128_S512x128_1_0_0_1_n_n none l r (constant (F := Ideal) S512x128 .f32 0x00000000#32) (ix2 a b)
      = ∑ k : Fin 128, l (ix2 a k) * r (ix2 k b) := by
  dot_read dot_S512x128_S128x128_S512x128_1_0_0_1_n_n 128 l r (ix2 a b) (fun k => ix2 a k) (fun k => ix2 k b) l_512_128_128 r_512_128_128
    (Ideal.matmul_constant_zero_apply dot_S512x128_S128x128_S512x128_1_0_0_1_n_n none l r (ix2 a b))

/-! ## Tᵀ · msg : [2048,512] contracted with [2048,128] over the leading axis -/

theorem l_T (i : S512x128.Idx) (q : dot_S2048x512_S2048x128_S512x128_0_0_1_1_n_n.contr.Idx) :
    (dot_S2048x512_S2048x128_S512x128_0_0_1_1_n_n.lhsIdx i q 1).val = (i 0).val := by
  free_axis DotDims.lhsIdx (1 : Fin S2048x512.rank) dot_S2048x512_S2048x128_S512x128_0_0_1_1_n_n.lhsBatch dot_S2048x512_S2048x128_S512x128_0_0_1_1_n_n.lhsNonContracting
theorem r_T (i : S512x128.Idx) (q : dot_S2048x512_S2048x128_S512x128_0_0_1_1_n_n.contr.Idx) :
    (dot_S2048x512_S2048x128_S512x128_0_0_1_1_n_n.rhsIdx i q 1).val = (i 1).val := by
  free_axis DotDims.rhsIdx (1 : Fin S2048x128.rank) dot_S2048x512_S2048x128_S512x128_0_0_1_1_n_n.rhsBatch dot_S2048x512_S2048x128_S512x128_0_0_1_1_n_n.rhsNonContracting
theorem dot_T (l : FVec Ideal S2048x512 .f32) (r : FVec Ideal S2048x128 .f32) (a : Fin 512) (b : Fin 128) :
    matmul dot_S2048x512_S2048x128_S512x128_0_0_1_1_n_n none l r (constant (F := Ideal) S512x128 .f32 0x00000000#32) (ix2 a b)
      = ∑ k : Fin 2048, l (ix2 k a) * r (ix2 k b) := by
  dot_read dot_S2048x512_S2048x128_S512x128_0_0_1_1_n_n 2048 l r (ix2 a b) (fun k => ix2 k a) (fun k => ix2 k b) l_T r_T
    (Ideal.matmul_constant_zero_apply dot_S2048x512_S2048x128_S512x128_0_0_1_1_n_n none l r (ix2 a b))

/-! ## The host's folding product k · wa[…] : [128,128] × [128,1] -/

theorem l_128_128_1 (i : S128x1.Idx) (q : dot_S128x128_S128x1_S128x1_1_0_0_1_n_n.contr.Idx) :
    (dot_S128x128_S128x1_S128x1_1_0_0_1_n_n.lhsIdx i q 0).val = (i 0).val := by
  free_axis DotDims.lhsIdx (0 : Fin S128x128.rank) dot_S128x128_S128x1_S128x1_1_0_0_1_n_n.lhsBatch dot_S128x128_S128x1_S128x1_1_0_0_1_n_n.lhsNonContracting
theorem r_128_128_1 (i : S128x1.Idx) (q : dot_S128x128_S128x1_S128x1_1_0_0_1_n_n.contr.Idx) :
    (dot_S128x128_S128x1_S128x1_1_0_0_1_n_n.rhsIdx i q 1).val = (i 1).val := by
  free_axis DotDims.rhsIdx (1 : Fin S128x1.rank) dot_S128x128_S128x1_S128x1_1_0_0_1_n_n.rhsBatch dot_S128x128_S128x1_S128x1_1_0_0_1_n_n.rhsNonContracting
theorem hdot_128_128_1 (l : FVec Ideal S128x128 .f32) (r : FVec Ideal S128x1 .f32) (a : Fin 128) (b : Fin 1) :
    Host.dotGeneral (F := Ideal) dot_S128x128_S128x1_S128x1_1_0_0_1_n_n none l r (ix2 a b)
      = ∑ k : Fin 128, l (ix2 a k) * r (ix2 k b) := by
  dot_read dot_S128x128_S128x1_S128x1_1_0_0_1_n_n 128 l r (ix2 a b) (fun k => ix2 a k) (fun k => ix2 k b) l_128_128_1 r_128_128_1
    (Ideal.dotGeneral_apply dot_S128x128_S128x1_S128x1_1_0_0_1_n_n none _ l r (ix2 a b))

end Cert.ReferenceIdeal.RValue

end
-- ==== Proof.RefPay.lean ====
/-
  The body's arithmetic read at an entry, at the ideal values: each named value of the body is the corresponding
  piece of the specification (the projected features, the edge gate, the edge logit, the node scalars, one whole
  layer), as a function of the blocks it is computed from.
-/
import proofs.«130875_g2000201574592089_pallasbulk_874_11_alg».proof.Proof.Gen.ReferenceIdeal.Skeleton
import proofs.«130875_g2000201574592089_pallasbulk_874_11_alg».proof.Proof.RefDots
import proofs.«130875_g2000201574592089_pallasbulk_874_11_alg».proof.Proof.LibEgnn
import Idealize.ShloMosaic.Lib.ValueLayout
import Idealize.ShloMosaic.Lib.Pipeline.Value

set_option maxRecDepth 16384

noncomputable section

namespace Cert.ReferenceIdeal.RValue

open Cert.ReferenceIdeal Cert.ReferenceIdeal.Gen Idealize.ShloMosaic Idealize.ShloMosaic.ValueIdx Idealize.SL.Sem
open Egnn

/-- A two-axis array as a function of its two coordinates. -/
abbrev m2 {a b : ℕ} (v : (⟨2, ![a, b]⟩ : Shape).Idx → EReal) (i : Fin a) (j : Fin b) : EReal := v (ix2 i j)
/-- A one-column array as a vector. -/
abbrev col {a : ℕ} (v : (⟨2, ![a, 1]⟩ : Shape).Idx → EReal) (i : Fin a) : EReal := v (ix2 i 0)
/-- A one-row array as a vector. -/
abbrev row {b : ℕ} (v : (⟨2, ![1, b]⟩ : Shape).Idx → EReal) (j : Fin b) : EReal := v (ix2 0 j)

/-- A [2048,1] column broadcast along 128 lanes reads its row's entry. -/
theorem bcast_col (v : (⟨2, ![2048, 1]⟩ : Shape).Idx → EReal) (h : (⟨2, ![2048, 1]⟩ : Shape).Broadcasts ⟨2, ![2048, 128]⟩)
    (e : Fin 2048) (j : Fin 128) : broadcastTo ⟨2, ![2048, 128]⟩ v h (ix2 e j) = v (ix2 e 0) := by
  refine broadcastTo_apply v h (ix2 e j) (ix2 e 0) fun ax => ?_
  match ax with
  | ⟨0, _⟩ => rfl
  | ⟨1, _⟩ => rfl

/-- The selecting form of the leaky rectifier, word by word: compare with zero, keep or scale. -/
theorem select_leaky (s y : EReal) :
    Scalar.select (FloatOps.cmpf (F := Ideal) (φ := .f32) .ogt y (Ideal.ofBits .f32 0x00000000#32)) y (s * y) = leaky s y := by
  rw [Ideal.ofBits_zero_f32, Ideal.cmpf_def]
  unfold leaky Scalar.select Ideal.cmp
  by_cases h : (0 : EReal) < y
  · simp [h]
  · simp [h]

/-- The projected features x · V. -/
theorem pay7_apply (v5 : FVec Ideal S1x512x64 .f32) (v7 : FVec Ideal S64x128 .f32) (n : Fin 512) (j : Fin 128) :
    k0_pay7 (F := Ideal) v5 v7 (ix2 n j) = mm (fun n c => v5 (ix3 0 n c)) (m2 v7) n j := by
  unfold k0_pay7 mm
  refine (dot_512_64_128 _ _ n j).trans ?_
  exact Finset.sum_congr rfl fun k _ => congrArg (· * v7 (ix2 k j)) (shapeCast_1ab_ab_apply v5 _ n k)

/-- The edge features' projection ef · We. -/
theorem pay8_apply (v4 : FVec Ideal S2048x32 .f32) (v14 : FVec Ideal S32x128 .f32) (e : Fin 2048) (j : Fin 128) :
    k0_pay8 (F := Ideal) v4 v14 (ix2 e j) = mm (m2 v4) (m2 v14) e j := by
  unfold k0_pay8 mm
  exact dot_2048_32_128 _ _ e j

/-- The edge gate. -/
theorem pay9_apply (v4 : FVec Ideal S2048x32 .f32) (v14 : FVec Ideal S32x128 .f32) (e : Fin 2048) (j : Fin 128) :
    k0_pay9 (F := Ideal) v4 v14 (ix2 e j) = gate (m2 v4) (m2 v14) e j := by
  unfold k0_pay9 gate
  exact congrArg Ideal.logistic (pay8_apply v4 v14 e j)

/-- The edge part of the attention logit. -/
theorem pay10_apply (v4 : FVec Ideal S2048x32 .f32) (v12 : FVec Ideal S128x1 .f32) (v14 : FVec Ideal S32x128 .f32) (v15 : FVec Ideal S1x1 .f32)
    (e : Fin 2048) : k0_pay10 (F := Ideal) v4 v12 v14 v15 (ix2 e 0) = eatt (m2 v4) (m2 v14) (col v12) (v15 (ix2 0 0)) e := by
  unfold k0_pay10 eatt mv
  rw [shapeCast_self]
  refine congrArg₂ (· + ·) ?_ (broadcastTo_1b_ab_apply v15 _ e 0)
  refine (dot_2048_128_1 _ _ e 0).trans ?_
  exact Finset.sum_congr rfl fun k _ => congrArg (· * v12 (ix2 k 0)) (pay8_apply v4 v14 e k)

/-- The key scalar of each node, xv · kv. -/
theorem pay11_apply (v5 : FVec Ideal S1x512x64 .f32) (v7 : FVec Ideal S64x128 .f32) (v8 : FVec Ideal S128x1 .f32) (n : Fin 512) :
    k0_pay11 (F := Ideal) v5 v7 v8 (ix2 n 0) = mv (mm (fun n c => v5 (ix3 0 n c)) (m2 v7)) (col v8) n := by
  unfold k0_pay11 mv
  rw [shapeCast_self]
  refine (dot_512_128_1 _ _ n 0).trans ?_
  exact Finset.sum_congr rfl fun k _ => congrArg (· * v8 (ix2 k 0)) (pay7_apply v5 v7 n k)

/-! ## One layer from its projected features on -/

/-- The attention weight of an edge, from the blocks of node scalars and the edge logit. -/
theorem att_apply (S T : FVec Ideal S2048x512 .f32) (akey aqry : FVec Ideal S512x1 .f32) (ea : FVec Ideal S2048x1 .f32) (e : Fin 2048) :
    logistic (addf (addf
        (matmul dot_S2048x512_S512x1_S2048x1_1_0_0_1_n_n none T akey (constant (F := Ideal) S2048x1 .f32 0x00000000#32))
        (matmul dot_S2048x512_S512x1_S2048x1_1_0_0_1_n_n none S aqry (constant (F := Ideal) S2048x1 .f32 0x00000000#32))) ea) (ix2 e 0)
      = att (m2 S) (m2 T) (col akey) (col aqry) (col ea) e := by
  unfold att mv
  show Ideal.logistic ((_ + _) + ea (ix2 e 0)) = _
  rw [dot_2048_512_1, dot_2048_512_1]

/-- The aggregated messages, from the column of attention weights, the gathered features and the gate. -/
theorem aggr_apply (S T : FVec Ideal S2048x512 .f32) (a : FVec Ideal S2048x1 .f32) (xv : FVec Ideal S512x128 .f32)
    (g : FVec Ideal S2048x128 .f32) (n : Fin 512) (j : Fin 128) :
    matmul dot_S2048x512_S2048x128_S512x128_0_0_1_1_n_n none T
        (mulf (mulf (broadcastTo S2048x128 a broadcasts_S2048x1_S2048x128)
          (matmul dot_S2048x512_S512x128_S2048x128_1_0_0_1_n_n none S xv (constant (F := Ideal) S2048x128 .f32 0x00000000#32))) g)
        (constant (F := Ideal) S512x128 .f32 0x00000000#32) (ix2 n j)
      = aggr (m2 S) (m2 T) (col a) (m2 g) (m2 xv) n j := by
  unfold aggr mm
  refine (dot_T _ _ n j).trans ?_
  refine Finset.sum_congr rfl fun e _ => ?_
  show T (ix2 e n) * ((broadcastTo S2048x128 a broadcasts_S2048x1_S2048x128 (ix2 e j) * _) * g (ix2 e j)) = _
  rw [bcast_col, dot_2048_512_128]

/-- One layer from its projected features on, as the body computes it over whole blocks. -/
def layerVec (S T : FVec Ideal S2048x512 .f32) (qv : FVec Ideal S128x1 .f32) (Wcx Wca : FVec Ideal S128x128 .f32)
    (bc : FVec Ideal S1x128 .f32) (xv : FVec Ideal S512x128 .f32) (g : FVec Ideal S2048x128 .f32) (ea : FVec Ideal S2048x1 .f32)
    (akey : FVec Ideal S512x1 .f32) : FVec Ideal S512x128 .f32 :=
  addf xv (maximumf (addf (addf
      (matmul dot_S512x128_S128x128_S512x128_1_0_0_1_n_n none xv Wcx (constant (F := Ideal) S512x128 .f32 0x00000000#32))
      (matmul dot_S512x128_S128x128_S512x128_1_0_0_1_n_n none
        (matmul dot_S2048x512_S2048x128_S512x128_0_0_1_1_n_n none T
          (mulf (mulf (broadcastTo S2048x128
              (logistic (addf (addf
                (matmul dot_S2048x512_S512x1_S2048x1_1_0_0_1_n_n none T akey (constant (F := Ideal) S2048x1 .f32 0x00000000#32))
                (matmul dot_S2048x512_S512x1_S2048x1_1_0_0_1_n_n none S
                  (matmul dot_S512x128_S128x1_S512x1_1_0_0_1_n_n none xv qv (constant (F := Ideal) S512x1 .f32 0x00000000#32))
                  (constant (F := Ideal) S2048x1 .f32 0x00000000#32))) ea))
              broadcasts_S2048x1_S2048x128)
            (matmul dot_S2048x512_S512x128_S2048x128_1_0_0_1_n_n none S xv (constant (F := Ideal) S2048x128 .f32 0x00000000#32))) g)
          (constant (F := Ideal) S512x128 .f32 0x00000000#32))
        Wca (constant (F := Ideal) S512x128 .f32 0x00000000#32)))
      (broadcastTo S512x128 bc broadcasts_S1x128_S512x128))
    (broadcast S512x128 (Scalar.ofBits (F := Ideal) .f32 0x00000000#32)))

/-- The layer over blocks is the specification's layer of the blocks' entries, when the key scalars handed in are
    those of the projected features. -/
theorem layerVec_apply (S T : FVec Ideal S2048x512 .f32) (qv : FVec Ideal S128x1 .f32) (Wcx Wca : FVec Ideal S128x128 .f32)
    (bc : FVec Ideal S1x128 .f32) (xv : FVec Ideal S512x128 .f32) (g : FVec Ideal S2048x128 .f32) (ea : FVec Ideal S2048x1 .f32)
    (akey : FVec Ideal S512x1 .f32) (kv : Fin 128 → EReal) (hkey : ∀ n : Fin 512, akey (ix2 n 0) = mv (m2 xv) kv n)
    (n : Fin 512) (j : Fin 128) :
    layerVec S T qv Wcx Wca bc xv g ea akey (ix2 n j)
      = layerOf (m2 S) (m2 T) (m2 g) (col ea) kv (col qv) (m2 Wcx) (m2 Wca) (row bc) (m2 xv) n j := by
  have hk : col akey = mv (m2 xv) kv := funext hkey
  have hq : col (matmul dot_S512x128_S128x1_S512x1_1_0_0_1_n_n none xv qv (constant (F := Ideal) S512x1 .f32 0x00000000#32))
      = mv (m2 xv) (col qv) := funext fun n => dot_512_128_1 xv qv n 0
  unfold layerVec layerOf
  show xv (ix2 n j) + max ((_ + _) + broadcastTo S512x128 bc broadcasts_S1x128_S512x128 (ix2 n j)) (Ideal.ofBits .f32 0x00000000#32) = _
  rw [Ideal.ofBits_zero_f32, broadcastTo_1b_ab_apply, dot_512_128_128, dot_512_128_128]
  unfold mm
  refine congrArg (fun z => xv (ix2 n j) + max ((_ + z) + bc (ix2 0 j)) 0) ?_
  refine Finset.sum_congr rfl fun k _ => congrArg (· * Wca (ix2 k j)) ?_
  refine (aggr_apply S T _ xv g n k).trans ?_
  refine congrArg (fun a => aggr (m2 S) (m2 T) a (m2 g) (m2 xv) n k) (funext fun e => ?_)
  refine (att_apply S T akey _ ea e).trans ?_
  rw [hk, hq]

/-! ## The two layers as the body names them -/

/-- Layer 1 followed by the selecting leaky rectifier. -/
theorem pay12_apply (v1 v3 : FVec Ideal S2048x512 .f32) (v11 : FVec Ideal S128x1 .f32) (v17 v19 : FVec Ideal S128x128 .f32)
    (v20 : FVec Ideal S1x128 .f32) (v21 : FVec Ideal S512x128 .f32) (v23 : FVec Ideal S2048x128 .f32) (v26 : FVec Ideal S2048x1 .f32)
    (v27 : FVec Ideal S512x1 .f32) (kv : Fin 128 → EReal) (hkey : ∀ n : Fin 512, v27 (ix2 n 0) = mv (m2 v21) kv n)
    (n : Fin 512) (j : Fin 128) :
    k0_pay12 (F := Ideal) v1 v3 v11 v17 v19 v20 v21 v23 v26 v27 (ix2 n j)
      = leaky (Ideal.ofBits .f32 0x3C23D70A#32)
          (layerOf (m2 v1) (m2 v3) (m2 v23) (col v26) kv (col v11) (m2 v17) (m2 v19) (row v20) (m2 v21) n j) := by
  have e : k0_pay12 (F := Ideal) v1 v3 v11 v17 v19 v20 v21 v23 v26 v27
      = select (cmpf .ogt (layerVec v1 v3 v11 v17 v19 v20 v21 v23 v26 v27) (broadcast S512x128 (Scalar.ofBits (F := Ideal) .f32 0x00000000#32))) (layerVec v1 v3 v11 v17 v19 v20 v21 v23 v26 v27)
          (mulf (broadcast S512x128 (Scalar.ofBits (F := Ideal) .f32 0x3C23D70A#32)) (layerVec v1 v3 v11 v17 v19 v20 v21 v23 v26 v27)) := rfl
  rw [e]
  show Scalar.select (FloatOps.cmpf (F := Ideal) (φ := .f32) .ogt ((layerVec v1 v3 v11 v17 v19 v20 v21 v23 v26 v27) (ix2 n j)) (Ideal.ofBits .f32 0x00000000#32)) ((layerVec v1 v3 v11 v17 v19 v20 v21 v23 v26 v27) (ix2 n j))
      (Ideal.ofBits .f32 0x3C23D70A#32 * (layerVec v1 v3 v11 v17 v19 v20 v21 v23 v26 v27) (ix2 n j)) = _
  rw [select_leaky, layerVec_apply v1 v3 v11 v17 v19 v20 v21 v23 v26 v27 kv hkey]

/-- Layer 2 on the rectified features, with its leading unit axis put back. -/
theorem pay1_apply (v1 v3 : FVec Ideal S2048x512 .f32) (v4 : FVec Ideal S2048x32 .f32) (v51 : FVec Ideal S512x128 .f32)
    (v53 : FVec Ideal S128x128 .f32) (v55 v57 v59 : FVec Ideal S128x1 .f32) (v61 : FVec Ideal S32x128 .f32) (v62 : FVec Ideal S1x1 .f32)
    (v63 v65 : FVec Ideal S128x128 .f32) (v67 : FVec Ideal S1x128 .f32) (n : Fin 512) (j : Fin 128) :
    k0_pay1 (F := Ideal) v1 v3 v4 v51 v53 v55 v57 v59 v61 v62 v63 v65 v67 (ix3 0 n j)
      = layerOf (m2 v1) (m2 v3) (gate (m2 v4) (m2 v61)) (eatt (m2 v4) (m2 v61) (col v59) (v62 (ix2 0 0))) (col v55) (col v57)
          (m2 v63) (m2 v65) (row v67) (mm (m2 v51) (m2 v53)) n j := by
  have e : k0_pay1 (F := Ideal) v1 v3 v4 v51 v53 v55 v57 v59 v61 v62 v63 v65 v67
      = shapeCast S1x512x128 (layerVec v1 v3 v57 (shapeCast S128x128 v63 shapeCasts_S128x128_S128x128)
          (shapeCast S128x128 v65 shapeCasts_S128x128_S128x128) (shapeCast S1x128 v67 shapeCasts_S1x128_S1x128)
          (matmul dot_S512x128_S128x128_S512x128_1_0_0_1_n_n none v51 v53 (constant (F := Ideal) S512x128 .f32 0x00000000#32)) (logistic (matmul dot_S2048x32_S32x128_S2048x128_1_0_0_1_n_n none v4 v61 (constant (F := Ideal) S2048x128 .f32 0x00000000#32))) (addf (matmul dot_S2048x128_S128x1_S2048x1_1_0_0_1_n_n none (matmul dot_S2048x32_S32x128_S2048x128_1_0_0_1_n_n none v4 v61 (constant (F := Ideal) S2048x128 .f32 0x00000000#32)) v59 (constant (F := Ideal) S2048x1 .f32 0x00000000#32)) (broadcastTo S2048x1 v62 broadcasts_S1x1_S2048x1))
          (matmul dot_S512x128_S128x1_S512x1_1_0_0_1_n_n none (matmul dot_S512x128_S128x128_S512x128_1_0_0_1_n_n none v51 v53 (constant (F := Ideal) S512x128 .f32 0x00000000#32)) v55 (constant (F := Ideal) S512x1 .f32 0x00000000#32)))
        shapeCasts_S512x128_S1x512x128 := rfl
  have hx : m2 (matmul dot_S512x128_S128x128_S512x128_1_0_0_1_n_n none v51 v53 (constant (F := Ideal) S512x128 .f32 0x00000000#32)) = mm (m2 v51) (m2 v53) := funext fun n => funext fun j => dot_512_128_128 v51 v53 n j
  have hg : m2 (logistic (matmul dot_S2048x32_S32x128_S2048x128_1_0_0_1_n_n none v4 v61 (constant (F := Ideal) S2048x128 .f32 0x00000000#32))) = gate (m2 v4) (m2 v61) :=
    funext fun e => funext fun j => congrArg Ideal.logistic (dot_2048_32_128 v4 v61 e j)
  have he : col (addf (matmul dot_S2048x128_S128x1_S2048x1_1_0_0_1_n_n none (matmul dot_S2048x32_S32x128_S2048x128_1_0_0_1_n_n none v4 v61 (constant (F := Ideal) S2048x128 .f32 0x00000000#32)) v59 (constant (F := Ideal) S2048x1 .f32 0x00000000#32)) (broadcastTo S2048x1 v62 broadcasts_S1x1_S2048x1)) = eatt (m2 v4) (m2 v61) (col v59) (v62 (ix2 0 0)) := funext fun e => by
    unfold eatt mv
    exact congrArg₂ (· + ·) ((dot_2048_128_1 _ _ e 0).trans
      (Finset.sum_congr rfl fun k _ => congrArg (· * v59 (ix2 k 0)) (dot_2048_32_128 v4 v61 e k))) (broadcastTo_1b_ab_apply v62 _ e 0)
  rw [e, shapeCast_ab_1ab_apply, shapeCast_self, shapeCast_self, shapeCast_self,
    layerVec_apply _ _ _ _ _ _ _ _ _ _ (col v55) (fun n => dot_512_128_1 _ v55 n 0), hx, hg, he]

end Cert.ReferenceIdeal.RValue

end
-- ==== Proof.RefBody.lean ====
/-
  The whole body at an entry: what the one store writes, as the specification's two layers of the loaded blocks'
  entries.
-/
import proofs.«130875_g2000201574592089_pallasbulk_874_11_alg».proof.Proof.RefPay

set_option maxRecDepth 16384

noncomputable section

namespace Cert.ReferenceIdeal.RValue

open Cert.ReferenceIdeal Cert.ReferenceIdeal.Gen Idealize.ShloMosaic Idealize.ShloMosaic.ValueIdx Idealize.SL.Sem
open Egnn

/-- The stored block at (0, n, j) is layer 2, on layer 1 rectified, of the blocks the body loaded. -/
theorem body_apply (x0 : FVec Ideal S1x512x64 .f32) (x1 x2 : FVec Ideal S2048x512 .f32) (x3 : FVec Ideal S2048x32 .f32)
    (x4 : FVec Ideal S64x128 .f32) (x5 x6 x7 : FVec Ideal S128x1 .f32) (x8 : FVec Ideal S32x128 .f32) (x9 : FVec Ideal S1x1 .f32)
    (x10 x11 : FVec Ideal S128x128 .f32) (x12 : FVec Ideal S1x128 .f32) (x13 : FVec Ideal S128x128 .f32)
    (x14 x15 x16 : FVec Ideal S128x1 .f32) (x17 : FVec Ideal S32x128 .f32) (x18 : FVec Ideal S1x1 .f32)
    (x19 x20 : FVec Ideal S128x128 .f32) (x21 : FVec Ideal S1x128 .f32) (n : Fin 512) (j : Fin 128) :
    k0_pay1 (F := Ideal) (k0_pay2 x1) (k0_pay3 x2) x3
        (k0_pay12 (k0_pay2 x1) (k0_pay3 x2) (k0_pay4 x6) (k0_pay5 x10) (k0_pay6 x11) x12 (k0_pay7 x0 x4) (k0_pay9 x3 x8)
          (k0_pay10 x3 x7 x8 x9) (k0_pay11 x0 x4 x5))
        (k0_pay13 x13) (k0_pay14 x14) (k0_pay15 x15) (k0_pay16 x16) (k0_pay17 x17) x18 x19 x20 x21 (ix3 0 n j)
      = layer (m2 x1) (m2 x2) (m2 x3) (m2 x13) (col x14) (col x15) (col x16) (m2 x17) (x18 (ix2 0 0)) (m2 x19) (m2 x20) (row x21)
          (fun n c => leaky (Ideal.ofBits .f32 0x3C23D70A#32)
            (layer (m2 x1) (m2 x2) (m2 x3) (m2 x4) (col x5) (col x6) (col x7) (m2 x8) (x9 (ix2 0 0)) (m2 x10) (m2 x11) (row x12)
              (fun n c => x0 (ix3 0 n c)) n c)) n j := by
  have p2 : k0_pay2 (F := Ideal) x1 = x1 := shapeCast_self x1 _
  have p3 : k0_pay3 (F := Ideal) x2 = x2 := shapeCast_self x2 _
  have p4 : k0_pay4 (F := Ideal) x6 = x6 := shapeCast_self x6 _
  have p5 : k0_pay5 (F := Ideal) x10 = x10 := shapeCast_self x10 _
  have p6 : k0_pay6 (F := Ideal) x11 = x11 := shapeCast_self x11 _
  have p13 : k0_pay13 (F := Ideal) x13 = x13 := shapeCast_self x13 _
  have p14 : k0_pay14 (F := Ideal) x14 = x14 := shapeCast_self x14 _
  have p15 : k0_pay15 (F := Ideal) x15 = x15 := shapeCast_self x15 _
  have p16 : k0_pay16 (F := Ideal) x16 = x16 := shapeCast_self x16 _
  have p17 : k0_pay17 (F := Ideal) x17 = x17 := shapeCast_self x17 _
  have h7 : m2 (k0_pay7 (F := Ideal) x0 x4) = mm (fun n c => x0 (ix3 0 n c)) (m2 x4) :=
    funext fun n => funext fun j => pay7_apply x0 x4 n j
  have h9 : m2 (k0_pay9 (F := Ideal) x3 x8) = gate (m2 x3) (m2 x8) := funext fun e => funext fun j => pay9_apply x3 x8 e j
  have h10 : col (k0_pay10 (F := Ideal) x3 x7 x8 x9) = eatt (m2 x3) (m2 x8) (col x7) (x9 (ix2 0 0)) :=
    funext fun e => pay10_apply x3 x7 x8 x9 e
  have hkey : ∀ n : Fin 512, k0_pay11 (F := Ideal) x0 x4 x5 (ix2 n 0) = mv (m2 (k0_pay7 (F := Ideal) x0 x4)) (col x5) n :=
    fun n => (pay11_apply x0 x4 x5 n).trans (by rw [h7])
  have h12 : m2 (k0_pay12 (F := Ideal) x1 x2 x6 x10 x11 x12 (k0_pay7 x0 x4) (k0_pay9 x3 x8) (k0_pay10 x3 x7 x8 x9) (k0_pay11 x0 x4 x5)) = fun n c => leaky (Ideal.ofBits .f32 0x3C23D70A#32) ((layerOf (m2 x1) (m2 x2) (gate (m2 x3) (m2 x8)) (eatt (m2 x3) (m2 x8) (col x7) (x9 (ix2 0 0))) (col x5) (col x6) (m2 x10) (m2 x11) (row x12) (mm (fun n c => x0 (ix3 0 n c)) (m2 x4))) n c) :=
    funext fun n => funext fun c => by
      refine (pay12_apply x1 x2 x6 x10 x11 x12 (k0_pay7 x0 x4) (k0_pay9 x3 x8) (k0_pay10 x3 x7 x8 x9) (k0_pay11 x0 x4 x5) (col x5) hkey n c).trans ?_
      rw [h7, h9, h10]
  rw [p2, p3, p4, p5, p6, p13, p14, p15, p16, p17, pay1_apply, h12]
  rfl

end Cert.ReferenceIdeal.RValue

end
-- ==== Proof.RefOpsA.lean ====
/-
  The blocks the body loads at a grid point, as functions of the argument arrays: the batch element's features, the
  two one-hot operators the host builds from the edge list, and layer 1's weights as the host folds and slices them.
-/
import proofs.«130875_g2000201574592089_pallasbulk_874_11_alg».proof.Proof.Gen.ReferenceIdeal.Frame
import proofs.«130875_g2000201574592089_pallasbulk_874_11_alg».proof.Proof.RefDots
import proofs.«130875_g2000201574592089_pallasbulk_874_11_alg».proof.Proof.LibEgnn
import Idealize.ShloMosaic.Lib.ValueLayout
import Idealize.ShloMosaic.Lib.Pipeline.Value
import Idealize.ShloMosaic.Lib.StableHlo.Run
import Idealize.ShloMosaic.Lib.IdealHost
import Idealize.ShloMosaic.Lib.KernelVsHost

set_option maxRecDepth 16384

noncomputable section

namespace Cert.ReferenceIdeal.RValue

open Cert.ReferenceIdeal Cert.ReferenceIdeal.Gen Idealize.ShloMosaic Idealize.ShloMosaic.ValueIdx Idealize.SL.Sem
open Idealize.ShloMosaic.TcCoe Idealize.ShloMosaic.StableHlo Egnn

variable (m : (ℓ : Loc nD τ sig) → Buf (Elt Ideal) ℓ)

/-- A window whose one block is its whole array: the block's entry (i, j) is the array's entry (i, j) as the region
    finds it (block index zero on both axes, decided over the grid). -/
macro "whole_read " h:term:max f:term:max w0:term:max A:num w1:term:max B:num i:ident j:ident : tactic => `(tactic| (
  obtain ⟨h0, h1⟩ := $h
  unfold iblk
  rw [View.read_apply]
  refine congrArg $f (funext fun a => Fin.ext ?_)
  match a with
  | ⟨0, _⟩ => show $w0 * $A + 1 * ($i).val = ($i).val; rw [h0]; omega
  | ⟨1, _⟩ => show $w1 * $B + 1 * ($j).val = ($j).val; rw [h1]; omega))

/-- The grid point as a batch index. -/
abbrev bOf (t : Fin cfg0.N) : Fin 256 := t.cast N_0

/-! ## The features: point t loads batch element t -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem blk0 (c : Dev nD) (t : Fin cfg0.N) :
    (fun (n : Fin 512) (k : Fin 64) => (iblk m c 0 t : S1x512x64.Idx → EReal) (ix3 0 n k))
      = fun n k => ((m ((c.tc : Thread nD τ).loc main_arg0)) : S256x512x64.Idx → EReal) (ix3 (bOf t) n k) := by
  funext n k
  obtain ⟨h0, h1, h2⟩ := idx0 t
  unfold iblk
  rw [View.read_apply]
  show V m c main_arg0 _ = _
  rw [V_main_arg0]
  refine congrArg (m ((c.tc : Thread nD τ).loc main_arg0)) (funext fun a => Fin.ext ?_)
  match a with
  | ⟨0, _⟩ => show win0_0.index t (0 : Fin 3) * 1 + 1 * 0 = t.val; rw [h0]; omega
  | ⟨1, _⟩ => show win0_0.index t (1 : Fin 3) * 512 + 1 * n.val = n.val; rw [h1]; omega
  | ⟨2, _⟩ => show win0_0.index t (2 : Fin 3) * 64 + 1 * k.val = k.val; rw [h2]; omega

/-! ## The one-hot operators -/

/-- The one-hot operator as the host builds it from the row of the edge list sliced at `off`: the endpoint words
    broadcast along nodes, compared with the node numbers, the truth word converted. -/
def oneHotV (off : Fin 2 → Nat) (hs : S2x2048.Slices off S1x2048) (ei : S2x2048.Idx → BitVec 32) : FVec Ideal S2048x512 .f32 :=
  uitofp .f32 (cmpi .eq
    (broadcastInDim S2048x512 ![0, 1] bcast_S2048x1_S2048x512_0_1 (broadcastInDim S2048x1 ![0] bcast_S2048_S2048x1_0
      (shapeCast S2048 (extractStridedSlice S1x2048 off ei hs) shapeCasts_S1x2048_S2048)))
    (broadcastInDim S2048x512 ![0, 1] bcast_S1x512_S2048x512_0_1 (iotaInDim S1x512 32 1)))

/-- The converted truth word of an equality is 1 or 0. -/
theorem onehot_word (x y : BitVec 32) : (FloatOps.uitofp (F := Ideal) .f32 (IntOp.cmpi .eq x y) : EReal) = if x = y then 1 else 0 := by
  show (((IntOp.cmpi .eq x y).toNat : ℝ) : EReal) = _
  by_cases h : x = y
  · simp [IntOp.cmpi, h]
  · simp [IntOp.cmpi, h]

/-- Entry (e, n) of the host's one-hot operator compares edge e's endpoint word, in row r of the list, with n. -/
theorem oneHotV_apply (off : Fin 2 → Nat) (hs : S2x2048.Slices off S1x2048) (r : Fin 2) (hr : off 0 = r.val) (h0 : off 1 = 0)
    (ei : S2x2048.Idx → BitVec 32) (e : Fin 2048) (n : Fin 512) : oneHotV off hs ei (ix2 e n) = oneHot ei r e n := by
  unfold oneHotV oneHot
  show FloatOps.uitofp (F := Ideal) .f32 (IntOp.cmpi .eq _ _) = _
  rw [onehot_word,
    broadcastInDim_apply _ _ _ (ix2 e n) (ix2 e (0 : Fin 1)) (fun a => by match a with | ⟨0, _⟩ => rfl | ⟨1, _⟩ => rfl),
    broadcastInDim_apply _ _ _ (ix2 e (0 : Fin 1)) (ix1 e) (fun a => by match a with | ⟨0, _⟩ => rfl),
    broadcastInDim_apply _ _ (iotaInDim S1x512 32 1) (ix2 e n) (ix2 (0 : Fin 1) n) (fun a => by match a with | ⟨0, _⟩ => rfl | ⟨1, _⟩ => rfl),
    shapeCast_1a_a_apply,
    extractStridedSlice_apply off ei hs (ix2 (0 : Fin 1) e) (ix2 r e) (fun a => by
      match a with
      | ⟨0, _⟩ => show r.val = off 0 + 0; omega
      | ⟨1, _⟩ => show e.val = off 1 + e.val; omega)]
  rfl

theorem idx1 : ∀ t : Fin cfg0.N, win0_1.index t (0 : Fin 2) = 0 ∧ win0_1.index t (1 : Fin 2) = 0 :=
  (by decide +kernel : ∀ t : Fin grid0.N, _)
theorem iblk1 (c : Dev nD) (t : Fin cfg0.N) (i : Fin 2048) (j : Fin 512) :
    (iblk m c 1 t : S2048x512.Idx → EReal) (ix2 i j) = (V m c main_v2 : S2048x512.Idx → EReal) (ix2 i j) := by
  whole_read (idx1 t) (V m c main_v2) (win0_1.index t (0 : Fin 2)) 2048 (win0_1.index t (1 : Fin 2)) 512 i j

theorem V_v2 (c : Dev nD) : (V m c main_v2 : S2048x512.Idx → EReal)
    = oneHotV ![0, 0] slices_S2x2048_S1x2048_0_0 (m ((c.tc : Thread nD τ).loc main_arg1)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl
theorem blk1 (c : Dev nD) (t : Fin cfg0.N) :
    (fun (e : Fin 2048) (n : Fin 512) => (iblk m c 1 t : S2048x512.Idx → EReal) (ix2 e n)) = oneHot (m ((c.tc : Thread nD τ).loc main_arg1)) 0 := by
  funext e n
  rw [iblk1, V_v2]
  exact oneHotV_apply ![0, 0] slices_S2x2048_S1x2048_0_0 0 rfl rfl _ e n

theorem idx2 : ∀ t : Fin cfg0.N, win0_2.index t (0 : Fin 2) = 0 ∧ win0_2.index t (1 : Fin 2) = 0 :=
  (by decide +kernel : ∀ t : Fin grid0.N, _)
theorem iblk2 (c : Dev nD) (t : Fin cfg0.N) (i : Fin 2048) (j : Fin 512) :
    (iblk m c 2 t : S2048x512.Idx → EReal) (ix2 i j) = (V m c main_v5 : S2048x512.Idx → EReal) (ix2 i j) := by
  whole_read (idx2 t) (V m c main_v5) (win0_2.index t (0 : Fin 2)) 2048 (win0_2.index t (1 : Fin 2)) 512 i j

theorem V_v5 (c : Dev nD) : (V m c main_v5 : S2048x512.Idx → EReal)
    = oneHotV ![1, 0] slices_S2x2048_S1x2048_1_0 (m ((c.tc : Thread nD τ).loc main_arg1)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl
theorem blk2 (c : Dev nD) (t : Fin cfg0.N) :
    (fun (e : Fin 2048) (n : Fin 512) => (iblk m c 2 t : S2048x512.Idx → EReal) (ix2 e n)) = oneHot (m ((c.tc : Thread nD τ).loc main_arg1)) 1 := by
  funext e n
  rw [iblk2, V_v5]
  exact oneHotV_apply ![1, 0] slices_S2x2048_S1x2048_1_0 1 rfl rfl _ e n

end Cert.ReferenceIdeal.RValue

end
-- ==== Proof.RefOpsB.lean ====
/-
  Layer 1's weights as the body loads them: the arrays passed as they are, the host's slices of the stacked
  attention and combination weights, and the two folded vectors k · wa[0:128], q · wa[128:256].
-/
import proofs.«130875_g2000201574592089_pallasbulk_874_11_alg».proof.Proof.Gen.ReferenceIdeal.Frame
import proofs.«130875_g2000201574592089_pallasbulk_874_11_alg».proof.Proof.RefDots
import proofs.«130875_g2000201574592089_pallasbulk_874_11_alg».proof.Proof.RefOpsA
import proofs.«130875_g2000201574592089_pallasbulk_874_11_alg».proof.Proof.LibEgnn
import Idealize.ShloMosaic.Lib.ValueLayout
import Idealize.ShloMosaic.Lib.Pipeline.Value
import Idealize.ShloMosaic.Lib.StableHlo.Run
import Idealize.ShloMosaic.Lib.IdealHost
import Idealize.ShloMosaic.Lib.KernelVsHost

set_option maxRecDepth 16384

noncomputable section

namespace Cert.ReferenceIdeal.RValue

open Cert.ReferenceIdeal Cert.ReferenceIdeal.Gen Idealize.ShloMosaic Idealize.ShloMosaic.ValueIdx Idealize.SL.Sem
open Idealize.ShloMosaic.TcCoe Idealize.ShloMosaic.StableHlo Egnn

variable (m : (ℓ : Loc nD τ sig) → Buf (Elt Ideal) ℓ)

/-! ## Slices of the stacked weights -/

/-- Rows `o … o + 127` of the stacked attention vector, as the host slices them. -/
theorem slice_wa (off : Fin 2 → Nat) (hs : S384x1.Slices off S128x1) (o : ℕ) (ho : o + 128 ≤ 384) (h0 : off 0 = o) (h1 : off 1 = 0)
    (wa : S384x1.Idx → EReal) (j : Fin 128) :
    extractStridedSlice S128x1 off wa hs (ix2 j (0 : Fin 1)) = rowsFrom (H := 128) wa o ho j 0 := by
  unfold rowsFrom
  exact extractStridedSlice_apply off wa hs (ix2 j (0 : Fin 1)) (ix2 ⟨o + j.val, by omega⟩ (0 : Fin 1)) (fun a => by
    match a with
    | ⟨0, _⟩ => show o + j.val = off 0 + j.val; omega
    | ⟨1, _⟩ => show 0 = off 1 + 0; omega)

/-- Rows `o … o + 127` of the stacked combination matrix, as the host slices them. -/
theorem slice_wc (off : Fin 2 → Nat) (hs : S256x128.Slices off S128x128) (o : ℕ) (ho : o + 128 ≤ 256) (h0 : off 0 = o) (h1 : off 1 = 0)
    (wc : S256x128.Idx → EReal) (i j : Fin 128) :
    extractStridedSlice S128x128 off wc hs (ix2 i j) = rowsFrom (H := 128) wc o ho i j := by
  unfold rowsFrom
  exact extractStridedSlice_apply off wc hs (ix2 i j) (ix2 ⟨o + i.val, by omega⟩ j) (fun a => by
    match a with
    | ⟨0, _⟩ => show o + i.val = off 0 + i.val; omega
    | ⟨1, _⟩ => show j.val = off 1 + j.val; omega)

/-- The host's folding product against a slice of the attention vector is the specification's folded vector. -/
theorem fold_apply (k : FVec Ideal S128x128 .f32) (off : Fin 2 → Nat) (hs : S384x1.Slices off S128x1) (o : ℕ) (ho : o + 128 ≤ 384)
    (h0 : off 0 = o) (h1 : off 1 = 0) (wa : FVec Ideal S384x1 .f32) (i : Fin 128) :
    Host.dotGeneral (F := Ideal) (φ₁ := .f32) (φ₂ := .f32) dot_S128x128_S128x1_S128x1_1_0_0_1_n_n none k (extractStridedSlice S128x1 off wa hs) (ix2 i (0 : Fin 1))
      = foldKQ (H := 128) k wa o ho i := by
  unfold foldKQ
  refine (hdot_128_128_1 k _ i 0).trans ?_
  exact Finset.sum_congr rfl fun j _ => congrArg (k (ix2 i j) * ·) (slice_wa off hs o ho h0 h1 wa j)

/-! ## The arrays passed as they are -/

theorem idx3 : ∀ t : Fin cfg0.N, win0_3.index t (0 : Fin 2) = 0 ∧ win0_3.index t (1 : Fin 2) = 0 :=
  (by decide +kernel : ∀ t : Fin grid0.N, _)
theorem iblk3 (c : Dev nD) (t : Fin cfg0.N) (i : Fin 2048) (j : Fin 32) :
    (iblk m c 3 t : S2048x32.Idx → EReal) (ix2 i j) = (V m c main_arg2 : S2048x32.Idx → EReal) (ix2 i j) := by
  whole_read (idx3 t) (V m c main_arg2) (win0_3.index t (0 : Fin 2)) 2048 (win0_3.index t (1 : Fin 2)) 32 i j

theorem blk3 (c : Dev nD) (t : Fin cfg0.N) :
    (fun (i : Fin 2048) (j : Fin 32) => (iblk m c 3 t : S2048x32.Idx → EReal) (ix2 i j))
      = fun i j => ((m ((c.tc : Thread nD τ).loc main_arg2)) : S2048x32.Idx → EReal) (ix2 i j) := by
  funext i j
  rw [iblk3]
  exact congrFun (V_main_arg2 m c) (ix2 i j)

theorem idx4 : ∀ t : Fin cfg0.N, win0_4.index t (0 : Fin 2) = 0 ∧ win0_4.index t (1 : Fin 2) = 0 :=
  (by decide +kernel : ∀ t : Fin grid0.N, _)
theorem iblk4 (c : Dev nD) (t : Fin cfg0.N) (i : Fin 64) (j : Fin 128) :
    (iblk m c 4 t : S64x128.Idx → EReal) (ix2 i j) = (V m c main_arg3 : S64x128.Idx → EReal) (ix2 i j) := by
  whole_read (idx4 t) (V m c main_arg3) (win0_4.index t (0 : Fin 2)) 64 (win0_4.index t (1 : Fin 2)) 128 i j

theorem blk4 (c : Dev nD) (t : Fin cfg0.N) :
    (fun (i : Fin 64) (j : Fin 128) => (iblk m c 4 t : S64x128.Idx → EReal) (ix2 i j))
      = fun i j => ((m ((c.tc : Thread nD τ).loc main_arg3)) : S64x128.Idx → EReal) (ix2 i j) := by
  funext i j
  rw [iblk4]
  exact congrFun (V_main_arg3 m c) (ix2 i j)

theorem idx8 : ∀ t : Fin cfg0.N, win0_8.index t (0 : Fin 2) = 0 ∧ win0_8.index t (1 : Fin 2) = 0 :=
  (by decide +kernel : ∀ t : Fin grid0.N, _)
theorem iblk8 (c : Dev nD) (t : Fin cfg0.N) (i : Fin 32) (j : Fin 128) :
    (iblk m c 8 t : S32x128.Idx → EReal) (ix2 i j) = (V m c main_arg6 : S32x128.Idx → EReal) (ix2 i j) := by
  whole_read (idx8 t) (V m c main_arg6) (win0_8.index t (0 : Fin 2)) 32 (win0_8.index t (1 : Fin 2)) 128 i j

theorem blk8 (c : Dev nD) (t : Fin cfg0.N) :
    (fun (i : Fin 32) (j : Fin 128) => (iblk m c 8 t : S32x128.Idx → EReal) (ix2 i j))
      = fun i j => ((m ((c.tc : Thread nD τ).loc main_arg6)) : S32x128.Idx → EReal) (ix2 i j) := by
  funext i j
  rw [iblk8]
  exact congrFun (V_main_arg6 m c) (ix2 i j)

theorem idx9 : ∀ t : Fin cfg0.N, win0_9.index t (0 : Fin 2) = 0 ∧ win0_9.index t (1 : Fin 2) = 0 :=
  (by decide +kernel : ∀ t : Fin grid0.N, _)
theorem iblk9 (c : Dev nD) (t : Fin cfg0.N) (i : Fin 1) (j : Fin 1) :
    (iblk m c 9 t : S1x1.Idx → EReal) (ix2 i j) = (V m c main_arg8 : S1x1.Idx → EReal) (ix2 i j) := by
  whole_read (idx9 t) (V m c main_arg8) (win0_9.index t (0 : Fin 2)) 1 (win0_9.index t (1 : Fin 2)) 1 i j

theorem blk9 (c : Dev nD) (t : Fin cfg0.N) :
    (iblk m c 9 t : S1x1.Idx → EReal) (ix2 0 0) = ((m ((c.tc : Thread nD τ).loc main_arg8)) : S1x1.Idx → EReal) (ix2 0 0) := by
  rw [iblk9]
  exact congrFun (V_main_arg8 m c) (ix2 0 0)

theorem idx12 : ∀ t : Fin cfg0.N, win0_12.index t (0 : Fin 2) = 0 ∧ win0_12.index t (1 : Fin 2) = 0 :=
  (by decide +kernel : ∀ t : Fin grid0.N, _)
theorem iblk12 (c : Dev nD) (t : Fin cfg0.N) (i : Fin 1) (j : Fin 128) :
    (iblk m c 12 t : S1x128.Idx → EReal) (ix2 i j) = (V m c main_arg10 : S1x128.Idx → EReal) (ix2 i j) := by
  whole_read (idx12 t) (V m c main_arg10) (win0_12.index t (0 : Fin 2)) 1 (win0_12.index t (1 : Fin 2)) 128 i j

theorem blk12 (c : Dev nD) (t : Fin cfg0.N) :
    (fun (j : Fin 128) => (iblk m c 12 t : S1x128.Idx → EReal) (ix2 0 j)) = fun j => ((m ((c.tc : Thread nD τ).loc main_arg10)) : S1x128.Idx → EReal) (ix2 0 j) := by
  funext j
  rw [iblk12]
  exact congrFun (V_main_arg10 m c) (ix2 0 j)

/-! ## The folded and sliced weights -/

theorem idx5 : ∀ t : Fin cfg0.N, win0_5.index t (0 : Fin 2) = 0 ∧ win0_5.index t (1 : Fin 2) = 0 :=
  (by decide +kernel : ∀ t : Fin grid0.N, _)
theorem iblk5 (c : Dev nD) (t : Fin cfg0.N) (i : Fin 128) (j : Fin 1) :
    (iblk m c 5 t : S128x1.Idx → EReal) (ix2 i j) = (V m c main_v7 : S128x1.Idx → EReal) (ix2 i j) := by
  whole_read (idx5 t) (V m c main_v7) (win0_5.index t (0 : Fin 2)) 128 (win0_5.index t (1 : Fin 2)) 1 i j

theorem V_v7 (c : Dev nD) : (V m c main_v7 : S128x1.Idx → EReal)
    = Host.dotGeneral (F := Ideal) (φ₁ := .f32) (φ₂ := .f32) dot_S128x128_S128x1_S128x1_1_0_0_1_n_n none (m ((c.tc : Thread nD τ).loc main_arg4))
        (extractStridedSlice S128x1 ![0, 0] (m ((c.tc : Thread nD τ).loc main_arg7)) slices_S384x1_S128x1_0_0) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
theorem blk5 (c : Dev nD) (t : Fin cfg0.N) :
    (fun (i : Fin 128) => (iblk m c 5 t : S128x1.Idx → EReal) (ix2 i 0))
      = foldKQ (H := 128) (m ((c.tc : Thread nD τ).loc main_arg4)) (m ((c.tc : Thread nD τ).loc main_arg7)) 0 (by omega) := by
  funext i
  rw [iblk5, V_v7]
  exact fold_apply _ ![0, 0] slices_S384x1_S128x1_0_0 0 (by omega) rfl rfl _ i

theorem idx6 : ∀ t : Fin cfg0.N, win0_6.index t (0 : Fin 2) = 0 ∧ win0_6.index t (1 : Fin 2) = 0 :=
  (by decide +kernel : ∀ t : Fin grid0.N, _)
theorem iblk6 (c : Dev nD) (t : Fin cfg0.N) (i : Fin 128) (j : Fin 1) :
    (iblk m c 6 t : S128x1.Idx → EReal) (ix2 i j) = (V m c main_v9 : S128x1.Idx → EReal) (ix2 i j) := by
  whole_read (idx6 t) (V m c main_v9) (win0_6.index t (0 : Fin 2)) 128 (win0_6.index t (1 : Fin 2)) 1 i j

theorem V_v9 (c : Dev nD) : (V m c main_v9 : S128x1.Idx → EReal)
    = Host.dotGeneral (F := Ideal) (φ₁ := .f32) (φ₂ := .f32) dot_S128x128_S128x1_S128x1_1_0_0_1_n_n none (m ((c.tc : Thread nD τ).loc main_arg5))
        (extractStridedSlice S128x1 ![128, 0] (m ((c.tc : Thread nD τ).loc main_arg7)) slices_S384x1_S128x1_128_0) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
theorem blk6 (c : Dev nD) (t : Fin cfg0.N) :
    (fun (i : Fin 128) => (iblk m c 6 t : S128x1.Idx → EReal) (ix2 i 0))
      = foldKQ (H := 128) (m ((c.tc : Thread nD τ).loc main_arg5)) (m ((c.tc : Thread nD τ).loc main_arg7)) 128 (by omega) := by
  funext i
  rw [iblk6, V_v9]
  exact fold_apply _ ![128, 0] slices_S384x1_S128x1_128_0 128 (by omega) rfl rfl _ i

theorem idx7 : ∀ t : Fin cfg0.N, win0_7.index t (0 : Fin 2) = 0 ∧ win0_7.index t (1 : Fin 2) = 0 :=
  (by decide +kernel : ∀ t : Fin grid0.N, _)
theorem iblk7 (c : Dev nD) (t : Fin cfg0.N) (i : Fin 128) (j : Fin 1) :
    (iblk m c 7 t : S128x1.Idx → EReal) (ix2 i j) = (V m c main_v10 : S128x1.Idx → EReal) (ix2 i j) := by
  whole_read (idx7 t) (V m c main_v10) (win0_7.index t (0 : Fin 2)) 128 (win0_7.index t (1 : Fin 2)) 1 i j

theorem V_v10 (c : Dev nD) : (V m c main_v10 : S128x1.Idx → EReal)
    = extractStridedSlice S128x1 ![256, 0] (m ((c.tc : Thread nD τ).loc main_arg7)) slices_S384x1_S128x1_256_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
theorem blk7 (c : Dev nD) (t : Fin cfg0.N) :
    (fun (i : Fin 128) => (iblk m c 7 t : S128x1.Idx → EReal) (ix2 i 0))
      = fun i => rowsFrom (H := 128) ((m ((c.tc : Thread nD τ).loc main_arg7)) : S384x1.Idx → EReal) 256 (by omega) i 0 := by
  funext i
  rw [iblk7, V_v10]
  exact slice_wa ![256, 0] slices_S384x1_S128x1_256_0 256 (by omega) rfl rfl _ i

theorem idx10 : ∀ t : Fin cfg0.N, win0_10.index t (0 : Fin 2) = 0 ∧ win0_10.index t (1 : Fin 2) = 0 :=
  (by decide +kernel : ∀ t : Fin grid0.N, _)
theorem iblk10 (c : Dev nD) (t : Fin cfg0.N) (i : Fin 128) (j : Fin 128) :
    (iblk m c 10 t : S128x128.Idx → EReal) (ix2 i j) = (V m c main_v11 : S128x128.Idx → EReal) (ix2 i j) := by
  whole_read (idx10 t) (V m c main_v11) (win0_10.index t (0 : Fin 2)) 128 (win0_10.index t (1 : Fin 2)) 128 i j

theorem V_v11 (c : Dev nD) : (V m c main_v11 : S128x128.Idx → EReal)
    = extractStridedSlice S128x128 ![0, 0] (m ((c.tc : Thread nD τ).loc main_arg9)) slices_S256x128_S128x128_0_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
theorem blk10 (c : Dev nD) (t : Fin cfg0.N) :
    (fun (i j : Fin 128) => (iblk m c 10 t : S128x128.Idx → EReal) (ix2 i j))
      = rowsFrom (H := 128) ((m ((c.tc : Thread nD τ).loc main_arg9)) : S256x128.Idx → EReal) 0 (by omega) := by
  funext i j
  rw [iblk10, V_v11]
  exact slice_wc ![0, 0] slices_S256x128_S128x128_0_0 0 (by omega) rfl rfl _ i j

theorem idx11 : ∀ t : Fin cfg0.N, win0_11.index t (0 : Fin 2) = 0 ∧ win0_11.index t (1 : Fin 2) = 0 :=
  (by decide +kernel : ∀ t : Fin grid0.N, _)
theorem iblk11 (c : Dev nD) (t : Fin cfg0.N) (i : Fin 128) (j : Fin 128) :
    (iblk m c 11 t : S128x128.Idx → EReal) (ix2 i j) = (V m c main_v12 : S128x128.Idx → EReal) (ix2 i j) := by
  whole_read (idx11 t) (V m c main_v12) (win0_11.index t (0 : Fin 2)) 128 (win0_11.index t (1 : Fin 2)) 128 i j

theorem V_v12 (c : Dev nD) : (V m c main_v12 : S128x128.Idx → EReal)
    = extractStridedSlice S128x128 ![128, 0] (m ((c.tc : Thread nD τ).loc main_arg9)) slices_S256x128_S128x128_128_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
theorem blk11 (c : Dev nD) (t : Fin cfg0.N) :
    (fun (i j : Fin 128) => (iblk m c 11 t : S128x128.Idx → EReal) (ix2 i j))
      = rowsFrom (H := 128) ((m ((c.tc : Thread nD τ).loc main_arg9)) : S256x128.Idx → EReal) 128 (by omega) := by
  funext i j
  rw [iblk11, V_v12]
  exact slice_wc ![128, 0] slices_S256x128_S128x128_128_0 128 (by omega) rfl rfl _ i j

end Cert.ReferenceIdeal.RValue

end
-- ==== Proof.RefOpsC.lean ====
/-
  Layer 2's weights as the body loads them. The host pads each to the lane-dense width, which here is the width it
  already has: every pad has zero width on both sides, so each padded array is the array it pads.
-/
import proofs.«130875_g2000201574592089_pallasbulk_874_11_alg».proof.Proof.Gen.ReferenceIdeal.Frame
import proofs.«130875_g2000201574592089_pallasbulk_874_11_alg».proof.Proof.RefDots
import proofs.«130875_g2000201574592089_pallasbulk_874_11_alg».proof.Proof.RefOpsB
import proofs.«130875_g2000201574592089_pallasbulk_874_11_alg».proof.Proof.LibEgnn
import Idealize.ShloMosaic.Lib.ValueLayout
import Idealize.ShloMosaic.Lib.Pipeline.Value
import Idealize.ShloMosaic.Lib.StableHlo.Run
import Idealize.ShloMosaic.Lib.IdealHost
import Idealize.ShloMosaic.Lib.KernelVsHost

set_option maxRecDepth 16384

noncomputable section

namespace Cert.ReferenceIdeal.RValue

open Cert.ReferenceIdeal Cert.ReferenceIdeal.Gen Idealize.ShloMosaic Idealize.ShloMosaic.ValueIdx Idealize.SL.Sem
open Idealize.ShloMosaic.TcCoe Idealize.ShloMosaic.StableHlo Egnn

variable (m : (ℓ : Loc nD τ sig) → Buf (Elt Ideal) ℓ)

/-- A pad of zero width on every side reads the operand. -/
theorem pad0_apply {A B : ℕ} (x : (⟨2, ![A, B]⟩ : Shape).Idx → EReal) (z : S_.Idx → EReal)
    (h : (⟨2, ![A, B]⟩ : Shape).Pads (![0, 0] : Fin 2 → Nat) ![0, 0] ![0, 0] ⟨2, ![A, B]⟩) (i : Fin A) (j : Fin B) :
    pad ⟨2, ![A, B]⟩ ![0, 0] ![0, 0] ![0, 0] x z h h_S_ (ix2 i j) = x (ix2 i j) :=
  pad_apply_of_inside _ _ _ x z h h_S_ (ix2 i j) (ix2 i j) (fun a => by
    match a with
    | ⟨0, _⟩ => show i.val = 0 + i.val * (0 + 1); omega
    | ⟨1, _⟩ => show j.val = 0 + j.val * (0 + 1); omega)

theorem idx13 : ∀ t : Fin cfg0.N, win0_13.index t (0 : Fin 2) = 0 ∧ win0_13.index t (1 : Fin 2) = 0 :=
  (by decide +kernel : ∀ t : Fin grid0.N, _)
theorem iblk13 (c : Dev nD) (t : Fin cfg0.N) (i : Fin 128) (j : Fin 128) :
    (iblk m c 13 t : S128x128.Idx → EReal) (ix2 i j) = (V m c main_v13 : S128x128.Idx → EReal) (ix2 i j) := by
  whole_read (idx13 t) (V m c main_v13) (win0_13.index t (0 : Fin 2)) 128 (win0_13.index t (1 : Fin 2)) 128 i j

theorem V_v13 (c : Dev nD) : ∃ z : S_.Idx → EReal, (V m c main_v13 : S128x128.Idx → EReal)
    = pad S128x128 ![0, 0] ![0, 0] ![0, 0] (m ((c.tc : Thread nD τ).loc main_arg11)) z pads_S128x128_S128x128_000_000 h_S_ :=
  ⟨_, by
    (dsimp only [V]
     simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
     after_results_simp) <;> rfl⟩

theorem blk13 (c : Dev nD) (t : Fin cfg0.N) :
    (fun (i j : Fin 128) => (iblk m c 13 t : S128x128.Idx → EReal) (ix2 i j))
      = fun i j => ((m ((c.tc : Thread nD τ).loc main_arg11)) : S128x128.Idx → EReal) (ix2 i j) := by
  funext i j
  obtain ⟨z, hz⟩ := V_v13 m c
  rw [iblk13, hz, pad0_apply]

theorem idx14 : ∀ t : Fin cfg0.N, win0_14.index t (0 : Fin 2) = 0 ∧ win0_14.index t (1 : Fin 2) = 0 :=
  (by decide +kernel : ∀ t : Fin grid0.N, _)
theorem iblk14 (c : Dev nD) (t : Fin cfg0.N) (i : Fin 128) (j : Fin 1) :
    (iblk m c 14 t : S128x1.Idx → EReal) (ix2 i j) = (V m c main_v16 : S128x1.Idx → EReal) (ix2 i j) := by
  whole_read (idx14 t) (V m c main_v16) (win0_14.index t (0 : Fin 2)) 128 (win0_14.index t (1 : Fin 2)) 1 i j

theorem V_v16 (c : Dev nD) : ∃ z : S_.Idx → EReal, (V m c main_v16 : S128x1.Idx → EReal)
    = pad S128x1 ![0, 0] ![0, 0] ![0, 0] (Host.dotGeneral (F := Ideal) (φ₁ := .f32) (φ₂ := .f32) dot_S128x128_S128x1_S128x1_1_0_0_1_n_n none (m ((c.tc : Thread nD τ).loc main_arg12))
        (extractStridedSlice S128x1 ![0, 0] (m ((c.tc : Thread nD τ).loc main_arg15)) slices_S384x1_S128x1_0_0)) z pads_S128x1_S128x1_000_000 h_S_ :=
  ⟨_, by
    (dsimp only [V]
     simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
     after_results_simp) <;> rfl⟩

theorem blk14 (c : Dev nD) (t : Fin cfg0.N) :
    (fun (i : Fin 128) => (iblk m c 14 t : S128x1.Idx → EReal) (ix2 i 0))
      = foldKQ (H := 128) (m ((c.tc : Thread nD τ).loc main_arg12)) (m ((c.tc : Thread nD τ).loc main_arg15)) 0 (by omega) := by
  funext i
  obtain ⟨z, hz⟩ := V_v16 m c
  rw [iblk14, hz, pad0_apply]
  exact fold_apply _ ![0, 0] slices_S384x1_S128x1_0_0 0 (by omega) rfl rfl _ i

theorem idx15 : ∀ t : Fin cfg0.N, win0_15.index t (0 : Fin 2) = 0 ∧ win0_15.index t (1 : Fin 2) = 0 :=
  (by decide +kernel : ∀ t : Fin grid0.N, _)
theorem iblk15 (c : Dev nD) (t : Fin cfg0.N) (i : Fin 128) (j : Fin 1) :
    (iblk m c 15 t : S128x1.Idx → EReal) (ix2 i j) = (V m c main_v19 : S128x1.Idx → EReal) (ix2 i j) := by
  whole_read (idx15 t) (V m c main_v19) (win0_15.index t (0 : Fin 2)) 128 (win0_15.index t (1 : Fin 2)) 1 i j

theorem V_v19 (c : Dev nD) : ∃ z : S_.Idx → EReal, (V m c main_v19 : S128x1.Idx → EReal)
    = pad S128x1 ![0, 0] ![0, 0] ![0, 0] (Host.dotGeneral (F := Ideal) (φ₁ := .f32) (φ₂ := .f32) dot_S128x128_S128x1_S128x1_1_0_0_1_n_n none (m ((c.tc : Thread nD τ).loc main_arg13))
        (extractStridedSlice S128x1 ![128, 0] (m ((c.tc : Thread nD τ).loc main_arg15)) slices_S384x1_S128x1_128_0)) z pads_S128x1_S128x1_000_000 h_S_ :=
  ⟨_, by
    (dsimp only [V]
     simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
     after_results_simp) <;> rfl⟩

theorem blk15 (c : Dev nD) (t : Fin cfg0.N) :
    (fun (i : Fin 128) => (iblk m c 15 t : S128x1.Idx → EReal) (ix2 i 0))
      = foldKQ (H := 128) (m ((c.tc : Thread nD τ).loc main_arg13)) (m ((c.tc : Thread nD τ).loc main_arg15)) 128 (by omega) := by
  funext i
  obtain ⟨z, hz⟩ := V_v19 m c
  rw [iblk15, hz, pad0_apply]
  exact fold_apply _ ![128, 0] slices_S384x1_S128x1_128_0 128 (by omega) rfl rfl _ i

theorem idx16 : ∀ t : Fin cfg0.N, win0_16.index t (0 : Fin 2) = 0 ∧ win0_16.index t (1 : Fin 2) = 0 :=
  (by decide +kernel : ∀ t : Fin grid0.N, _)
theorem iblk16 (c : Dev nD) (t : Fin cfg0.N) (i : Fin 128) (j : Fin 1) :
    (iblk m c 16 t : S128x1.Idx → EReal) (ix2 i j) = (V m c main_v21 : S128x1.Idx → EReal) (ix2 i j) := by
  whole_read (idx16 t) (V m c main_v21) (win0_16.index t (0 : Fin 2)) 128 (win0_16.index t (1 : Fin 2)) 1 i j

theorem V_v21 (c : Dev nD) : ∃ z : S_.Idx → EReal, (V m c main_v21 : S128x1.Idx → EReal)
    = pad S128x1 ![0, 0] ![0, 0] ![0, 0] (extractStridedSlice S128x1 ![256, 0] (m ((c.tc : Thread nD τ).loc main_arg15)) slices_S384x1_S128x1_256_0) z pads_S128x1_S128x1_000_000 h_S_ :=
  ⟨_, by
    (dsimp only [V]
     simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
     after_results_simp) <;> rfl⟩

theorem blk16 (c : Dev nD) (t : Fin cfg0.N) :
    (fun (i : Fin 128) => (iblk m c 16 t : S128x1.Idx → EReal) (ix2 i 0))
      = fun i => rowsFrom (H := 128) ((m ((c.tc : Thread nD τ).loc main_arg15)) : S384x1.Idx → EReal) 256 (by omega) i 0 := by
  funext i
  obtain ⟨z, hz⟩ := V_v21 m c
  rw [iblk16, hz, pad0_apply]
  exact slice_wa ![256, 0] slices_S384x1_S128x1_256_0 256 (by omega) rfl rfl _ i

theorem idx17 : ∀ t : Fin cfg0.N, win0_17.index t (0 : Fin 2) = 0 ∧ win0_17.index t (1 : Fin 2) = 0 :=
  (by decide +kernel : ∀ t : Fin grid0.N, _)
theorem iblk17 (c : Dev nD) (t : Fin cfg0.N) (i : Fin 32) (j : Fin 128) :
    (iblk m c 17 t : S32x128.Idx → EReal) (ix2 i j) = (V m c main_v22 : S32x128.Idx → EReal) (ix2 i j) := by
  whole_read (idx17 t) (V m c main_v22) (win0_17.index t (0 : Fin 2)) 32 (win0_17.index t (1 : Fin 2)) 128 i j

theorem V_v22 (c : Dev nD) : ∃ z : S_.Idx → EReal, (V m c main_v22 : S32x128.Idx → EReal)
    = pad S32x128 ![0, 0] ![0, 0] ![0, 0] (m ((c.tc : Thread nD τ).loc main_arg14)) z pads_S32x128_S32x128_000_000 h_S_ :=
  ⟨_, by
    (dsimp only [V]
     simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
     after_results_simp) <;> rfl⟩

theorem blk17 (c : Dev nD) (t : Fin cfg0.N) :
    (fun (i : Fin 32) (j : Fin 128) => (iblk m c 17 t : S32x128.Idx → EReal) (ix2 i j))
      = fun i j => ((m ((c.tc : Thread nD τ).loc main_arg14)) : S32x128.Idx → EReal) (ix2 i j) := by
  funext i j
  obtain ⟨z, hz⟩ := V_v22 m c
  rw [iblk17, hz, pad0_apply]

theorem idx18 : ∀ t : Fin cfg0.N, win0_18.index t (0 : Fin 2) = 0 ∧ win0_18.index t (1 : Fin 2) = 0 :=
  (by decide +kernel : ∀ t : Fin grid0.N, _)
theorem iblk18 (c : Dev nD) (t : Fin cfg0.N) (i : Fin 1) (j : Fin 1) :
    (iblk m c 18 t : S1x1.Idx → EReal) (ix2 i j) = (V m c main_arg16 : S1x1.Idx → EReal) (ix2 i j) := by
  whole_read (idx18 t) (V m c main_arg16) (win0_18.index t (0 : Fin 2)) 1 (win0_18.index t (1 : Fin 2)) 1 i j

theorem blk18 (c : Dev nD) (t : Fin cfg0.N) :
    (iblk m c 18 t : S1x1.Idx → EReal) (ix2 0 0) = ((m ((c.tc : Thread nD τ).loc main_arg16)) : S1x1.Idx → EReal) (ix2 0 0) := by
  rw [iblk18]
  exact congrFun (V_main_arg16 m c) (ix2 0 0)

theorem idx19 : ∀ t : Fin cfg0.N, win0_19.index t (0 : Fin 2) = 0 ∧ win0_19.index t (1 : Fin 2) = 0 :=
  (by decide +kernel : ∀ t : Fin grid0.N, _)
theorem iblk19 (c : Dev nD) (t : Fin cfg0.N) (i : Fin 128) (j : Fin 128) :
    (iblk m c 19 t : S128x128.Idx → EReal) (ix2 i j) = (V m c main_v24 : S128x128.Idx → EReal) (ix2 i j) := by
  whole_read (idx19 t) (V m c main_v24) (win0_19.index t (0 : Fin 2)) 128 (win0_19.index t (1 : Fin 2)) 128 i j

theorem V_v24 (c : Dev nD) : ∃ z : S_.Idx → EReal, (V m c main_v24 : S128x128.Idx → EReal)
    = pad S128x128 ![0, 0] ![0, 0] ![0, 0] (extractStridedSlice S128x128 ![0, 0] (m ((c.tc : Thread nD τ).loc main_arg17)) slices_S256x128_S128x128_0_0) z pads_S128x128_S128x128_000_000 h_S_ :=
  ⟨_, by
    (dsimp only [V]
     simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
     after_results_simp) <;> rfl⟩

theorem blk19 (c : Dev nD) (t : Fin cfg0.N) :
    (fun (i j : Fin 128) => (iblk m c 19 t : S128x128.Idx → EReal) (ix2 i j))
      = rowsFrom (H := 128) ((m ((c.tc : Thread nD τ).loc main_arg17)) : S256x128.Idx → EReal) 0 (by omega) := by
  funext i j
  obtain ⟨z, hz⟩ := V_v24 m c
  rw [iblk19, hz, pad0_apply]
  exact slice_wc ![0, 0] slices_S256x128_S128x128_0_0 0 (by omega) rfl rfl _ i j

theorem idx20 : ∀ t : Fin cfg0.N, win0_20.index t (0 : Fin 2) = 0 ∧ win0_20.index t (1 : Fin 2) = 0 :=
  (by decide +kernel : ∀ t : Fin grid0.N, _)
theorem iblk20 (c : Dev nD) (t : Fin cfg0.N) (i : Fin 128) (j : Fin 128) :
    (iblk m c 20 t : S128x128.Idx → EReal) (ix2 i j) = (V m c main_v26 : S128x128.Idx → EReal) (ix2 i j) := by
  whole_read (idx20 t) (V m c main_v26) (win0_20.index t (0 : Fin 2)) 128 (win0_20.index t (1 : Fin 2)) 128 i j

theorem V_v26 (c : Dev nD) : ∃ z : S_.Idx → EReal, (V m c main_v26 : S128x128.Idx → EReal)
    = pad S128x128 ![0, 0] ![0, 0] ![0, 0] (extractStridedSlice S128x128 ![128, 0] (m ((c.tc : Thread nD τ).loc main_arg17)) slices_S256x128_S128x128_128_0) z pads_S128x128_S128x128_000_000 h_S_ :=
  ⟨_, by
    (dsimp only [V]
     simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
     after_results_simp) <;> rfl⟩

theorem blk20 (c : Dev nD) (t : Fin cfg0.N) :
    (fun (i j : Fin 128) => (iblk m c 20 t : S128x128.Idx → EReal) (ix2 i j))
      = rowsFrom (H := 128) ((m ((c.tc : Thread nD τ).loc main_arg17)) : S256x128.Idx → EReal) 128 (by omega) := by
  funext i j
  obtain ⟨z, hz⟩ := V_v26 m c
  rw [iblk20, hz, pad0_apply]
  exact slice_wc ![128, 0] slices_S256x128_S128x128_128_0 128 (by omega) rfl rfl _ i j

theorem idx21 : ∀ t : Fin cfg0.N, win0_21.index t (0 : Fin 2) = 0 ∧ win0_21.index t (1 : Fin 2) = 0 :=
  (by decide +kernel : ∀ t : Fin grid0.N, _)
theorem iblk21 (c : Dev nD) (t : Fin cfg0.N) (i : Fin 1) (j : Fin 128) :
    (iblk m c 21 t : S1x128.Idx → EReal) (ix2 i j) = (V m c main_v27 : S1x128.Idx → EReal) (ix2 i j) := by
  whole_read (idx21 t) (V m c main_v27) (win0_21.index t (0 : Fin 2)) 1 (win0_21.index t (1 : Fin 2)) 128 i j

theorem V_v27 (c : Dev nD) : ∃ z : S_.Idx → EReal, (V m c main_v27 : S1x128.Idx → EReal)
    = pad S1x128 ![0, 0] ![0, 0] ![0, 0] (m ((c.tc : Thread nD τ).loc main_arg18)) z pads_S1x128_S1x128_000_000 h_S_ :=
  ⟨_, by
    (dsimp only [V]
     simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
     after_results_simp) <;> rfl⟩

theorem blk21 (c : Dev nD) (t : Fin cfg0.N) :
    (fun (j : Fin 128) => (iblk m c 21 t : S1x128.Idx → EReal) (ix2 0 j)) = fun j => ((m ((c.tc : Thread nD τ).loc main_arg18)) : S1x128.Idx → EReal) (ix2 0 j) := by
  funext j
  obtain ⟨z, hz⟩ := V_v27 m c
  rw [iblk21, hz, pad0_apply]

end Cert.ReferenceIdeal.RValue

end
-- ==== Proof.RefRun.lean ====
/-
  The run of the one-batch-element-per-point program with its result named: grid point t writes back batch
  element t of the network applied to the argument arrays, the 256 blocks tile the result array, and the arguments
  end as launched.
-/
import proofs.«130875_g2000201574592089_pallasbulk_874_11_alg».proof.Proof.Gen.ReferenceIdeal.Frame
import proofs.«130875_g2000201574592089_pallasbulk_874_11_alg».proof.Proof.RefDefs
import proofs.«130875_g2000201574592089_pallasbulk_874_11_alg».proof.Proof.RefBody
import proofs.«130875_g2000201574592089_pallasbulk_874_11_alg».proof.Proof.RefOpsC
import Idealize.ShloMosaic.Lib.Pipeline.Value

set_option maxRecDepth 16384

noncomputable section

namespace Cert.ReferenceIdeal.RValue

open Cert.ReferenceIdeal Cert.ReferenceIdeal.Gen Idealize.ShloMosaic Idealize.ShloMosaic.ValueIdx Idealize.SL.Sem
open Idealize.ShloMosaic.TcCoe Egnn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result window's block index at point t is (t, 0, 0), decided over the grid. -/
theorem idx22 : ∀ t : Fin cfg0.N, win0_22.index t (0 : Fin 3) = t.val ∧ win0_22.index t (1 : Fin 3) = 0 ∧ win0_22.index t (2 : Fin 3) = 0 :=
  (by decide +kernel : ∀ t : Fin grid0.N, _)

/-- What grid point t writes back is batch element t of the network: the stored block is the two layers of the loaded
    blocks' entries, and each loaded block is the corresponding folded, sliced or one-hot function of the arguments. -/
theorem flushed_eq (c : Dev nD) (t : Fin cfg0.N) :
    (dats m 0 c).flushed 22 t = ((cfg0.win 22).blk t).view.read (Elt Ideal) (G m c) := by
  show (cfg0.win 22).cut (grid0.coords t) ((dats m 0 c).after 22 t) = _
  rw [after0_22]
  unfold out0_22
  rw [View.canon_unit_zero hz3]
  simp only [View.ld_unit_zero (S := S2048x512) hz2, View.ld_unit_zero (S := S2048x32) hz2, View.ld_unit_zero (S := S1x512x64) hz3,
    View.ld_unit_zero (S := S64x128) hz2, View.ld_unit_zero (S := S128x1) hz2, View.ld_unit_zero (S := S32x128) hz2,
    View.ld_unit_zero (S := S1x1) hz2, View.ld_unit_zero (S := S128x128) hz2, View.ld_unit_zero (S := S1x128) hz2]
  funext y
  obtain ⟨u, n, j, rfl⟩ : ∃ (u : Fin 1) (n : Fin 512) (j : Fin 128), y = ix3 u n j := ⟨y 0, y 1, y 2, eq_ix3 y⟩
  obtain rfl : u = 0 := Subsingleton.elim _ _
  obtain ⟨h0, h1, h2⟩ := idx22 t
  have he : ((cfg0.win 22).blk t).view.emb (ix3 (0 : Fin 1) n j) = ix3 (bOf t) n j := funext fun a => Fin.ext (by
    match a with
    | ⟨0, _⟩ => show win0_22.index t (0 : Fin 3) * 1 + 1 * 0 = t.val; rw [h0]; omega
    | ⟨1, _⟩ => show win0_22.index t (1 : Fin 3) * 512 + 1 * n.val = n.val; rw [h1]; omega
    | ⟨2, _⟩ => show win0_22.index t (2 : Fin 3) * 128 + 1 * j.val = j.val; rw [h2]; omega)
  show _ = G m c (((cfg0.win 22).blk t).view.emb (ix3 (0 : Fin 1) n j))
  rw [he]
  refine (body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) n j).trans ?_
  have e0 := blk0 m c t
  have e1 : m2 (iblk m c 1 t : S2048x512.Idx → EReal) = _ := blk1 m c t
  have e2 : m2 (iblk m c 2 t : S2048x512.Idx → EReal) = _ := blk2 m c t
  have e3 : m2 (iblk m c 3 t : S2048x32.Idx → EReal) = _ := blk3 m c t
  have e4 : m2 (iblk m c 4 t : S64x128.Idx → EReal) = _ := blk4 m c t
  have e8 : m2 (iblk m c 8 t : S32x128.Idx → EReal) = _ := blk8 m c t
  have e10 : m2 (iblk m c 10 t : S128x128.Idx → EReal) = _ := blk10 m c t
  have e11 : m2 (iblk m c 11 t : S128x128.Idx → EReal) = _ := blk11 m c t
  have e13 : m2 (iblk m c 13 t : S128x128.Idx → EReal) = _ := blk13 m c t
  have e17 : m2 (iblk m c 17 t : S32x128.Idx → EReal) = _ := blk17 m c t
  have e19 : m2 (iblk m c 19 t : S128x128.Idx → EReal) = _ := blk19 m c t
  have e20 : m2 (iblk m c 20 t : S128x128.Idx → EReal) = _ := blk20 m c t
  have e5 : col (iblk m c 5 t : S128x1.Idx → EReal) = _ := blk5 m c t
  have e6 : col (iblk m c 6 t : S128x1.Idx → EReal) = _ := blk6 m c t
  have e7 : col (iblk m c 7 t : S128x1.Idx → EReal) = _ := blk7 m c t
  have e14 : col (iblk m c 14 t : S128x1.Idx → EReal) = _ := blk14 m c t
  have e15 : col (iblk m c 15 t : S128x1.Idx → EReal) = _ := blk15 m c t
  have e16 : col (iblk m c 16 t : S128x1.Idx → EReal) = _ := blk16 m c t
  have e12 : row (iblk m c 12 t : S1x128.Idx → EReal) = _ := blk12 m c t
  have e21 : row (iblk m c 21 t : S1x128.Idx → EReal) = _ := blk21 m c t
  have e9 := blk9 m c t
  have e18 := blk18 m c t
  rw [e0, e1, e2, e3, e4, e5, e6, e7, e8, e9, e10, e11, e12, e13, e14, e15, e16, e17, e18, e19, e20, e21]
  rfl

/-- An index of the result array is in point t's block iff each coordinate is in the block's range on its axis. -/
theorem mem_blk (t : Fin cfg0.N) (i : S256x512x128.Idx) :
    i ∈ ((cfg0.win 22).blk t).view.set ↔ ∀ a : Fin 3, win0_22.index t a * S1x512x128.size a ≤ (i a).val
      ∧ (i a).val < win0_22.index t a * S1x512x128.size a + S1x512x128.size a := by
  show i ∈ ((View.whole main_v28).slice (win0_22.rect t)).set ↔ _
  rw [View.set_slice_whole, Rect.mem_set_unit]
  exact Iff.rfl

/-- Batch element b of the result is point b's block. -/
theorem cover (i : S256x512x128.Idx) : ∃ t : Fin cfg0.N, (cfg0.win 22).flush t = true ∧ i ∈ ((cfg0.win 22).blk t).view.set := by
  have hi0 : (i 0).val < 256 := (i 0).isLt
  have hi1 : (i 1).val < 512 := (i 1).isLt
  have hi2 : (i 2).val < 128 := (i 2).isLt
  refine ⟨⟨(i 0).val, by rw [show cfg0.N = 256 from N_0]; exact hi0⟩, flush0_22 _, ?_⟩
  obtain ⟨h0, h1, h2⟩ := idx22 ⟨(i 0).val, by rw [show cfg0.N = 256 from N_0]; exact hi0⟩
  rw [mem_blk]
  intro a
  match a with
  | ⟨0, _⟩ =>
    show win0_22.index _ (0 : Fin 3) * 1 ≤ (i 0).val ∧ (i 0).val < win0_22.index _ (0 : Fin 3) * 1 + 1
    rw [h0]
    show (i 0).val * 1 ≤ (i 0).val ∧ (i 0).val < (i 0).val * 1 + 1
    omega
  | ⟨1, _⟩ =>
    show win0_22.index _ (1 : Fin 3) * 512 ≤ (i 1).val ∧ (i 1).val < win0_22.index _ (1 : Fin 3) * 512 + 512
    rw [h1]; constructor <;> omega
  | ⟨2, _⟩ =>
    show win0_22.index _ (2 : Fin 3) * 128 ≤ (i 2).val ∧ (i 2).val < win0_22.index _ (2 : Fin 3) * 128 + 128
    rw [h2]; constructor <;> omega

/-- So the result array ends holding the network of the argument arrays. -/
theorem final (c : Dev nD) : (dats m 0 c).arrAt 22 cfg0.N = G m c :=
  (dats m 0 c).arrAt_eq_of_cover 22 (G m c) (fun t _ => flushed_eq m c t) cover

/-- The run, read: every weakly fair execution terminates, the result array ends at the network of the argument
    arrays, and the arguments end as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨((h c).1 22).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 8).trans (((dats m 0 c).arrAt_in 8 rfl _).trans ((A_eq m c 8).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c))),
      ((h c).2 main_arg9 (Pipeline.mem_restRefs_of main_arg9 (by decide) (by decide))).trans (V_main_arg9 m c),
      ((h c).1 12).trans (((dats m 0 c).arrAt_in 12 rfl _).trans ((A_eq m c 12).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 18).trans (((dats m 0 c).arrAt_in 18 rfl _).trans ((A_eq m c 18).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.ReferenceIdeal.RValue

end
-- ==== Proof.lean ====
/-
  The certificate of a two-layer edge-gated graph convolution on f32[256, 512, 64] node features over a fixed
  graph of 2048 edges, against its reference.

  Both programs compute, for every batch element, `Egnn.net` (Proof/LibEgnn.lean): per layer the projected
  features xv = x · V, the edge gate σ(ef · We), the attention weight σ((T · (xv · kv) + S · (xv · qv)) + eatt) of
  every edge, the messages gathered by the one-hot source operator S, weighted, gated and summed into their target
  nodes by Tᵀ, and xv + max((xv · Wcx + aggr · Wca) + bc, 0); between the layers the leaky rectifier of slope
  f32(0.01).  The reference does this for one batch element per grid point.  The kernel does it for eight batch
  elements per grid point with their features laid side by side along the lanes: the key and query scalars of all
  eight come from one product with a block-diagonal weight (whose off-diagonal zeros annihilate every extended
  real), the source features and the query scalars ride one gather product, the messages are (att · gate) · xj
  instead of (att · xj) · gate, the update contracts the joined [xv | aggr] with the whole wc, and the rectifier is
  max(h, s · h) instead of a selection on h > 0.  On the extended reals these differ only by commutativity and
  associativity of + and ·, by 0 · x = 0, by splitting a finite sum, and by max(y, s·y) = (if 0 < y then y else s·y)
  for 0 ≤ s ≤ 1 — none of which needs the inputs to be finite.  A change of float format is the identity at the
  ideal instance, and the one-hot operators are the same 0/1 matrices on both sides (an endpoint outside
  [0, 512) gives a zero row in both).

  The three frames are the generated frame certificates; the idealization rewrote nothing, so `preserves` is
  `True`.  For the equality of the results, the lane-packed program's run is read with its result array named
  (Proof/KRun.lean), the array is covered by the grid points' output blocks (Proof/KFinal.lean), a block is the two
  nested layers of the point's operand blocks (Proof/KChain.lean, through the packed arrangement of
  Proof/LibEgnnPacked.lean), and the operand blocks are read off the argument arrays (Proof/KBlk.lean); the
  reference's run ends with the same function of the arguments (Proof/RefRun.lean).
-/
import proofs.«130875_g2000201574592089_pallasbulk_874_11_alg».proof.Defs
import proofs.«130875_g2000201574592089_pallasbulk_874_11_alg».proof.Proof.Gen.Kernel
import proofs.«130875_g2000201574592089_pallasbulk_874_11_alg».proof.Proof.Gen.Kernel.Skeleton
import proofs.«130875_g2000201574592089_pallasbulk_874_11_alg».proof.Proof.Gen.Kernel.Launch
import proofs.«130875_g2000201574592089_pallasbulk_874_11_alg».proof.Proof.Gen.Kernel.Points
import proofs.«130875_g2000201574592089_pallasbulk_874_11_alg».proof.Proof.Gen.Kernel.Frame
import proofs.«130875_g2000201574592089_pallasbulk_874_11_alg».proof.Proof.Gen.KernelIdeal
import proofs.«130875_g2000201574592089_pallasbulk_874_11_alg».proof.Proof.Gen.KernelIdeal.Skeleton
import proofs.«130875_g2000201574592089_pallasbulk_874_11_alg».proof.Proof.Gen.KernelIdeal.Launch
import proofs.«130875_g2000201574592089_pallasbulk_874_11_alg».proof.Proof.Gen.KernelIdeal.Points
import proofs.«130875_g2000201574592089_pallasbulk_874_11_alg».proof.Proof.Gen.KernelIdeal.Frame
import proofs.«130875_g2000201574592089_pallasbulk_874_11_alg».proof.Proof.Gen.ReferenceIdeal
import proofs.«130875_g2000201574592089_pallasbulk_874_11_alg».proof.Proof.Gen.ReferenceIdeal.Skeleton
import proofs.«130875_g2000201574592089_pallasbulk_874_11_alg».proof.Proof.Gen.ReferenceIdeal.Launch
import proofs.«130875_g2000201574592089_pallasbulk_874_11_alg».proof.Proof.Gen.ReferenceIdeal.Points
import proofs.«130875_g2000201574592089_pallasbulk_874_11_alg».proof.Proof.Gen.ReferenceIdeal.Frame
import proofs.«130875_g2000201574592089_pallasbulk_874_11_alg».proof.Proof.Gen.Pre_finite_inputs
import proofs.«130875_g2000201574592089_pallasbulk_874_11_alg».proof.Proof.LibEgnn
import proofs.«130875_g2000201574592089_pallasbulk_874_11_alg».proof.Proof.Algebraic
import proofs.«130875_g2000201574592089_pallasbulk_874_11_alg».proof.Proof.KBlock
import proofs.«130875_g2000201574592089_pallasbulk_874_11_alg».proof.Proof.RefRun
import Idealize.ShloMosaic.Adequacy
import Idealize.ShloMosaic.Init

noncomputable section

namespace Cert.Proof

open Idealize.ShloMosaic Idealize.SL.Sem Cert.Kernel

/-- Every weakly fair execution of the word-level kernel terminates without a fault and leaves its arguments as
    launched. -/
theorem frame_k : Cert.frame_Kernel (hKernel := Cert.Kernel.Gen.facts) (hPre_finite_inputs := Cert.Pre_finite_inputs.Gen.facts) :=
  fun m ρ _ => Cert.Kernel.Gen.frame m ρ

/-- The same for the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The same for the reference read on the extended reals. -/
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- The idealization rewrote no operation. -/
theorem preserves : Cert.preserves_Kernel_KernelIdeal := trivial

/-- Run from memories agreeing on the arguments, both programs end with the network applied to the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  algebraic_of (fun m ρ c => Cert.KernelIdeal.KValue.final_eq m ρ c) (fun m' ρ' => Cert.ReferenceIdeal.RValue.run m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
